-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 99999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S100000x128 : Shape := ⟨2, ![100000, 128]⟩
abbrev S819200 : Shape := ⟨1, ![819200]⟩
abbrev S32x200x128 : Shape := ⟨3, ![32, 200, 128]⟩
abbrev S819200x128 : Shape := ⟨2, ![819200, 128]⟩
abbrev S200x128 : Shape := ⟨2, ![200, 128]⟩
abbrev S4x128x128 : Shape := ⟨3, ![4, 128, 128]⟩
abbrev S_ : Shape := ⟨0, ![]⟩
abbrev S1x200x128 : Shape := ⟨3, ![1, 200, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x16 : Shape := ⟨3, ![1, 1, 16]⟩
abbrev S16 : Shape := ⟨1, ![16]⟩
abbrev S4096x200x128 : Shape := ⟨3, ![4096, 200, 128]⟩

abbrev nBuf : Table → Nat
  | .hbm => 6
  | .local .scVector .vmem => 2
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S819200, .i32⟩
  | .hbm, ⟨3, _⟩ => ⟨S32x200x128, .i32⟩
  | .hbm, ⟨4, _⟩ => ⟨S819200x128, .f32⟩
  | .hbm, ⟨5, _⟩ => ⟨S4096x200x128, .f32⟩
  | .local .scVector .vmem, ⟨0, _⟩ => ⟨S200x128, .i32⟩
  | .local .scVector .vmem, ⟨1, _⟩ => ⟨S4x128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg1_scv : Ref sig .scVector := ⟨.hbm, 1, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57_r0 : BitVec 32 := 0#32
  let c0_i32_58_r0 : BitVec 32 := 0#32
  ![v1.toNat, 0, 0]
@[reducible] def k0_t1_loop : Scf.Loop 32 :=
  let c0_i32_26 : BitVec 32 := 0#32
  let c50_i32 : BitVec 32 := 50#32
  let v23 : BitVec 32 := Scalar.addi c0_i32_26 c50_i32
  let c1_i32_27 : BitVec 32 := 1#32
  ⟨c0_i32_26, v23, c1_i32_27⟩
@[reducible] def k0_t2_loop : Scf.Loop 32 :=
  let c0_i32_65 : BitVec 32 := 0#32
  let c32_i32 : BitVec 32 := 32#32
  let v53 : BitVec 32 := Scalar.addi c0_i32_65 c32_i32
  let c1_i32_66 : BitVec 32 := 1#32
  ⟨c0_i32_65, v53, c1_i32_66⟩
def k0_off2 (k0_t2 : Fin k0_t2_loop.trips) (c0_i32_144 : BitVec 32) : Fin 3 → Nat :=
  let c0_i32_145 : BitVec 32 := 0#32
  let v117 : Index := Scalar.indexCast c0_i32_145
  let c0_i32_65 : BitVec 32 := 0#32
  let c1_i32_66 : BitVec 32 := 1#32
  let arg16 : BitVec 32 := Scf.iv c0_i32_65 c1_i32_66 k0_t2
  let c4_i32_143 : BitVec 32 := 4#32
  let v115 : BitVec 32 := Scalar.muli arg16 c4_i32_143
  let v116 : BitVec 32 := Scalar.addi v115 c0_i32_144
  let v118 : Index := Scalar.indexCast v116
  let c0 : Index := 0#32
  ![0, v118.toNat, 0]
def k0_off3 (k0_t2 : Fin k0_t2_loop.trips) (c0_i32_149 : BitVec 32) : Fin 3 → Nat :=
  let c0_i32_150 : BitVec 32 := 0#32
  let v130 : Index := Scalar.indexCast c0_i32_150
  let c0_i32_65 : BitVec 32 := 0#32
  let c1_i32_66 : BitVec 32 := 1#32
  let arg16 : BitVec 32 := Scf.iv c0_i32_65 c1_i32_66 k0_t2
  let c4_i32_148 : BitVec 32 := 4#32
  let v128 : BitVec 32 := Scalar.muli arg16 c4_i32_148
  let v129 : BitVec 32 := Scalar.addi v128 c0_i32_149
  let v131 : Index := Scalar.indexCast v129
  let c16 : Index := 16#32
  ![0, v131.toNat, 16]
def k0_off4 (k0_t2 : Fin k0_t2_loop.trips) (c0_i32_155 : BitVec 32) : Fin 3 → Nat :=
  let c0_i32_156 : BitVec 32 := 0#32
  let v143 : Index := Scalar.indexCast c0_i32_156
  let c0_i32_65 : BitVec 32 := 0#32
  let c1_i32_66 : BitVec 32 := 1#32
  let arg16 : BitVec 32 := Scf.iv c0_i32_65 c1_i32_66 k0_t2
  let c4_i32_154 : BitVec 32 := 4#32
  let v141 : BitVec 32 := Scalar.muli arg16 c4_i32_154
  let v142 : BitVec 32 := Scalar.addi v141 c0_i32_155
  let v144 : Index := Scalar.indexCast v142
  let c32 : Index := 32#32
  ![0, v144.toNat, 32]
def k0_off5 (k0_t2 : Fin k0_t2_loop.trips) (c0_i32_161 : BitVec 32) : Fin 3 → Nat :=
  let c0_i32_162 : BitVec 32 := 0#32
  let v156 : Index := Scalar.indexCast c0_i32_162
  let c0_i32_65 : BitVec 32 := 0#32
  let c1_i32_66 : BitVec 32 := 1#32
  let arg16 : BitVec 32 := Scf.iv c0_i32_65 c1_i32_66 k0_t2
  let c4_i32_160 : BitVec 32 := 4#32
  let v154 : BitVec 32 := Scalar.muli arg16 c4_i32_160
  let v155 : BitVec 32 := Scalar.addi v154 c0_i32_161
  let v157 : Index := Scalar.indexCast v155
  let c48 : Index := 48#32
  ![0, v157.toNat, 48]
def k0_off6 (k0_t2 : Fin k0_t2_loop.trips) (c0_i32_167 : BitVec 32) : Fin 3 → Nat :=
  let c0_i32_168 : BitVec 32 := 0#32
  let v169 : Index := Scalar.indexCast c0_i32_168
  let c0_i32_65 : BitVec 32 := 0#32
  let c1_i32_66 : BitVec 32 := 1#32
  let arg16 : BitVec 32 := Scf.iv c0_i32_65 c1_i32_66 k0_t2
  let c4_i32_166 : BitVec 32 := 4#32
  let v167 : BitVec 32 := Scalar.muli arg16 c4_i32_166
  let v168 : BitVec 32 := Scalar.addi v167 c0_i32_167
  let v170 : Index := Scalar.indexCast v168
  let c64 : Index := 64#32
  ![0, v170.toNat, 64]
def k0_off7 (k0_t2 : Fin k0_t2_loop.trips) (c0_i32_173 : BitVec 32) : Fin 3 → Nat :=
  let c0_i32_174 : BitVec 32 := 0#32
  let v182 : Index := Scalar.indexCast c0_i32_174
  let c0_i32_65 : BitVec 32 := 0#32
  let c1_i32_66 : BitVec 32 := 1#32
  let arg16 : BitVec 32 := Scf.iv c0_i32_65 c1_i32_66 k0_t2
  let c4_i32_172 : BitVec 32 := 4#32
  let v180 : BitVec 32 := Scalar.muli arg16 c4_i32_172
  let v181 : BitVec 32 := Scalar.addi v180 c0_i32_173
  let v183 : Index := Scalar.indexCast v181
  let c80 : Index := 80#32
  ![0, v183.toNat, 80]
def k0_off8 (k0_t2 : Fin k0_t2_loop.trips) (c0_i32_179 : BitVec 32) : Fin 3 → Nat :=
  let c0_i32_180 : BitVec 32 := 0#32
  let v195 : Index := Scalar.indexCast c0_i32_180
  let c0_i32_65 : BitVec 32 := 0#32
  let c1_i32_66 : BitVec 32 := 1#32
  let arg16 : BitVec 32 := Scf.iv c0_i32_65 c1_i32_66 k0_t2
  let c4_i32_178 : BitVec 32 := 4#32
  let v193 : BitVec 32 := Scalar.muli arg16 c4_i32_178
  let v194 : BitVec 32 := Scalar.addi v193 c0_i32_179
  let v196 : Index := Scalar.indexCast v194
  let c96 : Index := 96#32
  ![0, v196.toNat, 96]
def k0_off9 (k0_t2 : Fin k0_t2_loop.trips) (c0_i32_185 : BitVec 32) : Fin 3 → Nat :=
  let c0_i32_186 : BitVec 32 := 0#32
  let v208 : Index := Scalar.indexCast c0_i32_186
  let c0_i32_65 : BitVec 32 := 0#32
  let c1_i32_66 : BitVec 32 := 1#32
  let arg16 : BitVec 32 := Scf.iv c0_i32_65 c1_i32_66 k0_t2
  let c4_i32_184 : BitVec 32 := 4#32
  let v206 : BitVec 32 := Scalar.muli arg16 c4_i32_184
  let v207 : BitVec 32 := Scalar.addi v206 c0_i32_185
  let v209 : Index := Scalar.indexCast v207
  let c112 : Index := 112#32
  ![0, v209.toNat, 112]
def k0_off10 (i : grid0.Coords) (k0_t1 : Fin k0_t1_loop.trips) (c0_i32_68 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_26 : BitVec 32 := 0#32
  let c1_i32_27 : BitVec 32 := 1#32
  let arg15 : BitVec 32 := Scf.iv c0_i32_26 c1_i32_27 k0_t1
  let c4_i32 : BitVec 32 := 4#32
  let v54 : BitVec 32 := Scalar.muli arg15 c4_i32
  let v55 : BitVec 32 := Scalar.addi v54 c0_i32_68
  let c128_i32 : BitVec 32 := 128#32
  let v56 : BitVec 32 := Scalar.muli v55 c128_i32
  let v57 : BitVec 32 := Scalar.addi v2 v56
  let c0_i32_72 : BitVec 32 := 0#32
  ![v57.toNat, 0]
@[reducible] def k0_t3_loop : Scf.Loop 32 :=
  let c0_i32_84 : BitVec 32 := 0#32
  let c32_i32_85 : BitVec 32 := 32#32
  let v69 : BitVec 32 := Scalar.addi c0_i32_84 c32_i32_85
  let c1_i32_86 : BitVec 32 := 1#32
  ⟨c0_i32_84, v69, c1_i32_86⟩
def k0_off11 (k0_t3 : Fin k0_t3_loop.trips) (c0_i32_144 : BitVec 32) : Fin 3 → Nat :=
  let c1_i32_145 : BitVec 32 := 1#32
  let v117 : Index := Scalar.indexCast c1_i32_145
  let c0_i32_84 : BitVec 32 := 0#32
  let c1_i32_86 : BitVec 32 := 1#32
  let arg16 : BitVec 32 := Scf.iv c0_i32_84 c1_i32_86 k0_t3
  let c4_i32_143 : BitVec 32 := 4#32
  let v115 : BitVec 32 := Scalar.muli arg16 c4_i32_143
  let v116 : BitVec 32 := Scalar.addi v115 c0_i32_144
  let v118 : Index := Scalar.indexCast v116
  let c0 : Index := 0#32
  ![1, v118.toNat, 0]
def k0_off12 (k0_t3 : Fin k0_t3_loop.trips) (c0_i32_149 : BitVec 32) : Fin 3 → Nat :=
  let c1_i32_150 : BitVec 32 := 1#32
  let v130 : Index := Scalar.indexCast c1_i32_150
  let c0_i32_84 : BitVec 32 := 0#32
  let c1_i32_86 : BitVec 32 := 1#32
  let arg16 : BitVec 32 := Scf.iv c0_i32_84 c1_i32_86 k0_t3
  let c4_i32_148 : BitVec 32 := 4#32
  let v128 : BitVec 32 := Scalar.muli arg16 c4_i32_148
  let v129 : BitVec 32 := Scalar.addi v128 c0_i32_149
  let v131 : Index := Scalar.indexCast v129
  let c16 : Index := 16#32
  ![1, v131.toNat, 16]
def k0_off13 (k0_t3 : Fin k0_t3_loop.trips) (c0_i32_155 : BitVec 32) : Fin 3 → Nat :=
  let c1_i32_156 : BitVec 32 := 1#32
  let v143 : Index := Scalar.indexCast c1_i32_156
  let c0_i32_84 : BitVec 32 := 0#32
  let c1_i32_86 : BitVec 32 := 1#32
  let arg16 : BitVec 32 := Scf.iv c0_i32_84 c1_i32_86 k0_t3
  let c4_i32_154 : BitVec 32 := 4#32
  let v141 : BitVec 32 := Scalar.muli arg16 c4_i32_154
  let v142 : BitVec 32 := Scalar.addi v141 c0_i32_155
  let v144 : Index := Scalar.indexCast v142
  let c32 : Index := 32#32
  ![1, v144.toNat, 32]
def k0_off14 (k0_t3 : Fin k0_t3_loop.trips) (c0_i32_161 : BitVec 32) : Fin 3 → Nat :=
  let c1_i32_162 : BitVec 32 := 1#32
  let v156 : Index := Scalar.indexCast c1_i32_162
  let c0_i32_84 : BitVec 32 := 0#32
  let c1_i32_86 : BitVec 32 := 1#32
  let arg16 : BitVec 32 := Scf.iv c0_i32_84 c1_i32_86 k0_t3
  let c4_i32_160 : BitVec 32 := 4#32
  let v154 : BitVec 32 := Scalar.muli arg16 c4_i32_160
  let v155 : BitVec 32 := Scalar.addi v154 c0_i32_161
  let v157 : Index := Scalar.indexCast v155
  let c48 : Index := 48#32
  ![1, v157.toNat, 48]
def k0_off15 (k0_t3 : Fin k0_t3_loop.trips) (c0_i32_167 : BitVec 32) : Fin 3 → Nat :=
  let c1_i32_168 : BitVec 32 := 1#32
  let v169 : Index := Scalar.indexCast c1_i32_168
  let c0_i32_84 : BitVec 32 := 0#32
  let c1_i32_86 : BitVec 32 := 1#32
  let arg16 : BitVec 32 := Scf.iv c0_i32_84 c1_i32_86 k0_t3
  let c4_i32_166 : BitVec 32 := 4#32
  let v167 : BitVec 32 := Scalar.muli arg16 c4_i32_166
  let v168 : BitVec 32 := Scalar.addi v167 c0_i32_167
  let v170 : Index := Scalar.indexCast v168
  let c64 : Index := 64#32
  ![1, v170.toNat, 64]
def k0_off16 (k0_t3 : Fin k0_t3_loop.trips) (c0_i32_173 : BitVec 32) : Fin 3 → Nat :=
  let c1_i32_174 : BitVec 32 := 1#32
  let v182 : Index := Scalar.indexCast c1_i32_174
  let c0_i32_84 : BitVec 32 := 0#32
  let c1_i32_86 : BitVec 32 := 1#32
  let arg16 : BitVec 32 := Scf.iv c0_i32_84 c1_i32_86 k0_t3
  let c4_i32_172 : BitVec 32 := 4#32
  let v180 : BitVec 32 := Scalar.muli arg16 c4_i32_172
  let v181 : BitVec 32 := Scalar.addi v180 c0_i32_173
  let v183 : Index := Scalar.indexCast v181
  let c80 : Index := 80#32
  ![1, v183.toNat, 80]
def k0_off17 (k0_t3 : Fin k0_t3_loop.trips) (c0_i32_179 : BitVec 32) : Fin 3 → Nat :=
  let c1_i32_180 : BitVec 32 := 1#32
  let v195 : Index := Scalar.indexCast c1_i32_180
  let c0_i32_84 : BitVec 32 := 0#32
  let c1_i32_86 : BitVec 32 := 1#32
  let arg16 : BitVec 32 := Scf.iv c0_i32_84 c1_i32_86 k0_t3
  let c4_i32_178 : BitVec 32 := 4#32
  let v193 : BitVec 32 := Scalar.muli arg16 c4_i32_178
  let v194 : BitVec 32 := Scalar.addi v193 c0_i32_179
  let v196 : Index := Scalar.indexCast v194
  let c96 : Index := 96#32
  ![1, v196.toNat, 96]
def k0_off18 (k0_t3 : Fin k0_t3_loop.trips) (c0_i32_185 : BitVec 32) : Fin 3 → Nat :=
  let c1_i32_186 : BitVec 32 := 1#32
  let v208 : Index := Scalar.indexCast c1_i32_186
  let c0_i32_84 : BitVec 32 := 0#32
  let c1_i32_86 : BitVec 32 := 1#32
  let arg16 : BitVec 32 := Scf.iv c0_i32_84 c1_i32_86 k0_t3
  let c4_i32_184 : BitVec 32 := 4#32
  let v206 : BitVec 32 := Scalar.muli arg16 c4_i32_184
  let v207 : BitVec 32 := Scalar.addi v206 c0_i32_185
  let v209 : Index := Scalar.indexCast v207
  let c112 : Index := 112#32
  ![1, v209.toNat, 112]
@[reducible] def k0_t4_loop : Scf.Loop 32 :=
  let c0_i32_106 : BitVec 32 := 0#32
  let c32_i32_107 : BitVec 32 := 32#32
  let v85 : BitVec 32 := Scalar.addi c0_i32_106 c32_i32_107
  let c1_i32_108 : BitVec 32 := 1#32
  ⟨c0_i32_106, v85, c1_i32_108⟩
def k0_off19 (k0_t4 : Fin k0_t4_loop.trips) (c0_i32_144 : BitVec 32) : Fin 3 → Nat :=
  let c2_i32_145 : BitVec 32 := 2#32
  let v117 : Index := Scalar.indexCast c2_i32_145
  let c0_i32_106 : BitVec 32 := 0#32
  let c1_i32_108 : BitVec 32 := 1#32
  let arg16 : BitVec 32 := Scf.iv c0_i32_106 c1_i32_108 k0_t4
  let c4_i32_143 : BitVec 32 := 4#32
  let v115 : BitVec 32 := Scalar.muli arg16 c4_i32_143
  let v116 : BitVec 32 := Scalar.addi v115 c0_i32_144
  let v118 : Index := Scalar.indexCast v116
  let c0 : Index := 0#32
  ![2, v118.toNat, 0]
def k0_off20 (k0_t4 : Fin k0_t4_loop.trips) (c0_i32_149 : BitVec 32) : Fin 3 → Nat :=
  let c2_i32_150 : BitVec 32 := 2#32
  let v130 : Index := Scalar.indexCast c2_i32_150
  let c0_i32_106 : BitVec 32 := 0#32
  let c1_i32_108 : BitVec 32 := 1#32
  let arg16 : BitVec 32 := Scf.iv c0_i32_106 c1_i32_108 k0_t4
  let c4_i32_148 : BitVec 32 := 4#32
  let v128 : BitVec 32 := Scalar.muli arg16 c4_i32_148
  let v129 : BitVec 32 := Scalar.addi v128 c0_i32_149
  let v131 : Index := Scalar.indexCast v129
  let c16 : Index := 16#32
  ![2, v131.toNat, 16]
def k0_off21 (k0_t4 : Fin k0_t4_loop.trips) (c0_i32_155 : BitVec 32) : Fin 3 → Nat :=
  let c2_i32_156 : BitVec 32 := 2#32
  let v143 : Index := Scalar.indexCast c2_i32_156
  let c0_i32_106 : BitVec 32 := 0#32
  let c1_i32_108 : BitVec 32 := 1#32
  let arg16 : BitVec 32 := Scf.iv c0_i32_106 c1_i32_108 k0_t4
  let c4_i32_154 : BitVec 32 := 4#32
  let v141 : BitVec 32 := Scalar.muli arg16 c4_i32_154
  let v142 : BitVec 32 := Scalar.addi v141 c0_i32_155
  let v144 : Index := Scalar.indexCast v142
  let c32 : Index := 32#32
  ![2, v144.toNat, 32]
def k0_off22 (k0_t4 : Fin k0_t4_loop.trips) (c0_i32_161 : BitVec 32) : Fin 3 → Nat :=
  let c2_i32_162 : BitVec 32 := 2#32
  let v156 : Index := Scalar.indexCast c2_i32_162
  let c0_i32_106 : BitVec 32 := 0#32
  let c1_i32_108 : BitVec 32 := 1#32
  let arg16 : BitVec 32 := Scf.iv c0_i32_106 c1_i32_108 k0_t4
  let c4_i32_160 : BitVec 32 := 4#32
  let v154 : BitVec 32 := Scalar.muli arg16 c4_i32_160
  let v155 : BitVec 32 := Scalar.addi v154 c0_i32_161
  let v157 : Index := Scalar.indexCast v155
  let c48 : Index := 48#32
  ![2, v157.toNat, 48]
def k0_off23 (k0_t4 : Fin k0_t4_loop.trips) (c0_i32_167 : BitVec 32) : Fin 3 → Nat :=
  let c2_i32_168 : BitVec 32 := 2#32
  let v169 : Index := Scalar.indexCast c2_i32_168
  let c0_i32_106 : BitVec 32 := 0#32
  let c1_i32_108 : BitVec 32 := 1#32
  let arg16 : BitVec 32 := Scf.iv c0_i32_106 c1_i32_108 k0_t4
  let c4_i32_166 : BitVec 32 := 4#32
  let v167 : BitVec 32 := Scalar.muli arg16 c4_i32_166
  let v168 : BitVec 32 := Scalar.addi v167 c0_i32_167
  let v170 : Index := Scalar.indexCast v168
  let c64 : Index := 64#32
  ![2, v170.toNat, 64]
def k0_off24 (k0_t4 : Fin k0_t4_loop.trips) (c0_i32_173 : BitVec 32) : Fin 3 → Nat :=
  let c2_i32_174 : BitVec 32 := 2#32
  let v182 : Index := Scalar.indexCast c2_i32_174
  let c0_i32_106 : BitVec 32 := 0#32
  let c1_i32_108 : BitVec 32 := 1#32
  let arg16 : BitVec 32 := Scf.iv c0_i32_106 c1_i32_108 k0_t4
  let c4_i32_172 : BitVec 32 := 4#32
  let v180 : BitVec 32 := Scalar.muli arg16 c4_i32_172
  let v181 : BitVec 32 := Scalar.addi v180 c0_i32_173
  let v183 : Index := Scalar.indexCast v181
  let c80 : Index := 80#32
  ![2, v183.toNat, 80]
def k0_off25 (k0_t4 : Fin k0_t4_loop.trips) (c0_i32_179 : BitVec 32) : Fin 3 → Nat :=
  let c2_i32_180 : BitVec 32 := 2#32
  let v195 : Index := Scalar.indexCast c2_i32_180
  let c0_i32_106 : BitVec 32 := 0#32
  let c1_i32_108 : BitVec 32 := 1#32
  let arg16 : BitVec 32 := Scf.iv c0_i32_106 c1_i32_108 k0_t4
  let c4_i32_178 : BitVec 32 := 4#32
  let v193 : BitVec 32 := Scalar.muli arg16 c4_i32_178
  let v194 : BitVec 32 := Scalar.addi v193 c0_i32_179
  let v196 : Index := Scalar.indexCast v194
  let c96 : Index := 96#32
  ![2, v196.toNat, 96]
def k0_off26 (k0_t4 : Fin k0_t4_loop.trips) (c0_i32_185 : BitVec 32) : Fin 3 → Nat :=
  let c2_i32_186 : BitVec 32 := 2#32
  let v208 : Index := Scalar.indexCast c2_i32_186
  let c0_i32_106 : BitVec 32 := 0#32
  let c1_i32_108 : BitVec 32 := 1#32
  let arg16 : BitVec 32 := Scf.iv c0_i32_106 c1_i32_108 k0_t4
  let c4_i32_184 : BitVec 32 := 4#32
  let v206 : BitVec 32 := Scalar.muli arg16 c4_i32_184
  let v207 : BitVec 32 := Scalar.addi v206 c0_i32_185
  let v209 : Index := Scalar.indexCast v207
  let c112 : Index := 112#32
  ![2, v209.toNat, 112]
@[reducible] def k0_t5_loop : Scf.Loop 32 :=
  let c0_i32_128 : BitVec 32 := 0#32
  let c32_i32_129 : BitVec 32 := 32#32
  let v101 : BitVec 32 := Scalar.addi c0_i32_128 c32_i32_129
  let c1_i32_130 : BitVec 32 := 1#32
  ⟨c0_i32_128, v101, c1_i32_130⟩
def k0_off27 (k0_t5 : Fin k0_t5_loop.trips) (c0_i32_144 : BitVec 32) : Fin 3 → Nat :=
  let c3_i32_145 : BitVec 32 := 3#32
  let v117 : Index := Scalar.indexCast c3_i32_145
  let c0_i32_128 : BitVec 32 := 0#32
  let c1_i32_130 : BitVec 32 := 1#32
  let arg16 : BitVec 32 := Scf.iv c0_i32_128 c1_i32_130 k0_t5
  let c4_i32_143 : BitVec 32 := 4#32
  let v115 : BitVec 32 := Scalar.muli arg16 c4_i32_143
  let v116 : BitVec 32 := Scalar.addi v115 c0_i32_144
  let v118 : Index := Scalar.indexCast v116
  let c0 : Index := 0#32
  ![3, v118.toNat, 0]
def k0_off28 (k0_t5 : Fin k0_t5_loop.trips) (c0_i32_149 : BitVec 32) : Fin 3 → Nat :=
  let c3_i32_150 : BitVec 32 := 3#32
  let v130 : Index := Scalar.indexCast c3_i32_150
  let c0_i32_128 : BitVec 32 := 0#32
  let c1_i32_130 : BitVec 32 := 1#32
  let arg16 : BitVec 32 := Scf.iv c0_i32_128 c1_i32_130 k0_t5
  let c4_i32_148 : BitVec 32 := 4#32
  let v128 : BitVec 32 := Scalar.muli arg16 c4_i32_148
  let v129 : BitVec 32 := Scalar.addi v128 c0_i32_149
  let v131 : Index := Scalar.indexCast v129
  let c16 : Index := 16#32
  ![3, v131.toNat, 16]
def k0_off29 (k0_t5 : Fin k0_t5_loop.trips) (c0_i32_155 : BitVec 32) : Fin 3 → Nat :=
  let c3_i32_156 : BitVec 32 := 3#32
  let v143 : Index := Scalar.indexCast c3_i32_156
  let c0_i32_128 : BitVec 32 := 0#32
  let c1_i32_130 : BitVec 32 := 1#32
  let arg16 : BitVec 32 := Scf.iv c0_i32_128 c1_i32_130 k0_t5
  let c4_i32_154 : BitVec 32 := 4#32
  let v141 : BitVec 32 := Scalar.muli arg16 c4_i32_154
  let v142 : BitVec 32 := Scalar.addi v141 c0_i32_155
  let v144 : Index := Scalar.indexCast v142
  let c32 : Index := 32#32
  ![3, v144.toNat, 32]
def k0_off30 (k0_t5 : Fin k0_t5_loop.trips) (c0_i32_161 : BitVec 32) : Fin 3 → Nat :=
  let c3_i32_162 : BitVec 32 := 3#32
  let v156 : Index := Scalar.indexCast c3_i32_162
  let c0_i32_128 : BitVec 32 := 0#32
  let c1_i32_130 : BitVec 32 := 1#32
  let arg16 : BitVec 32 := Scf.iv c0_i32_128 c1_i32_130 k0_t5
  let c4_i32_160 : BitVec 32 := 4#32
  let v154 : BitVec 32 := Scalar.muli arg16 c4_i32_160
  let v155 : BitVec 32 := Scalar.addi v154 c0_i32_161
  let v157 : Index := Scalar.indexCast v155
  let c48 : Index := 48#32
  ![3, v157.toNat, 48]
def k0_off31 (k0_t5 : Fin k0_t5_loop.trips) (c0_i32_167 : BitVec 32) : Fin 3 → Nat :=
  let c3_i32_168 : BitVec 32 := 3#32
  let v169 : Index := Scalar.indexCast c3_i32_168
  let c0_i32_128 : BitVec 32 := 0#32
  let c1_i32_130 : BitVec 32 := 1#32
  let arg16 : BitVec 32 := Scf.iv c0_i32_128 c1_i32_130 k0_t5
  let c4_i32_166 : BitVec 32 := 4#32
  let v167 : BitVec 32 := Scalar.muli arg16 c4_i32_166
  let v168 : BitVec 32 := Scalar.addi v167 c0_i32_167
  let v170 : Index := Scalar.indexCast v168
  let c64 : Index := 64#32
  ![3, v170.toNat, 64]
def k0_off32 (k0_t5 : Fin k0_t5_loop.trips) (c0_i32_173 : BitVec 32) : Fin 3 → Nat :=
  let c3_i32_174 : BitVec 32 := 3#32
  let v182 : Index := Scalar.indexCast c3_i32_174
  let c0_i32_128 : BitVec 32 := 0#32
  let c1_i32_130 : BitVec 32 := 1#32
  let arg16 : BitVec 32 := Scf.iv c0_i32_128 c1_i32_130 k0_t5
  let c4_i32_172 : BitVec 32 := 4#32
  let v180 : BitVec 32 := Scalar.muli arg16 c4_i32_172
  let v181 : BitVec 32 := Scalar.addi v180 c0_i32_173
  let v183 : Index := Scalar.indexCast v181
  let c80 : Index := 80#32
  ![3, v183.toNat, 80]
def k0_off33 (k0_t5 : Fin k0_t5_loop.trips) (c0_i32_179 : BitVec 32) : Fin 3 → Nat :=
  let c3_i32_180 : BitVec 32 := 3#32
  let v195 : Index := Scalar.indexCast c3_i32_180
  let c0_i32_128 : BitVec 32 := 0#32
  let c1_i32_130 : BitVec 32 := 1#32
  let arg16 : BitVec 32 := Scf.iv c0_i32_128 c1_i32_130 k0_t5
  let c4_i32_178 : BitVec 32 := 4#32
  let v193 : BitVec 32 := Scalar.muli arg16 c4_i32_178
  let v194 : BitVec 32 := Scalar.addi v193 c0_i32_179
  let v196 : Index := Scalar.indexCast v194
  let c96 : Index := 96#32
  ![3, v196.toNat, 96]
def k0_off34 (k0_t5 : Fin k0_t5_loop.trips) (c0_i32_185 : BitVec 32) : Fin 3 → Nat :=
  let c3_i32_186 : BitVec 32 := 3#32
  let v208 : Index := Scalar.indexCast c3_i32_186
  let c0_i32_128 : BitVec 32 := 0#32
  let c1_i32_130 : BitVec 32 := 1#32
  let arg16 : BitVec 32 := Scf.iv c0_i32_128 c1_i32_130 k0_t5
  let c4_i32_184 : BitVec 32 := 4#32
  let v206 : BitVec 32 := Scalar.muli arg16 c4_i32_184
  let v207 : BitVec 32 := Scalar.addi v206 c0_i32_185
  let v209 : Index := Scalar.indexCast v207
  let c112 : Index := 112#32
  ![3, v209.toNat, 112]
def k0_cond1 (k0_t1 : Fin k0_t1_loop.trips) : BitVec 1 :=
  let c0_i32_26 : BitVec 32 := 0#32
  let c1_i32_27 : BitVec 32 := 1#32
  let arg15 : BitVec 32 := Scf.iv c0_i32_26 c1_i32_27 k0_t1
  let c49_i32 : BitVec 32 := 49#32
  let v112 : BitVec 1 := Scalar.cmpi .slt arg15 c49_i32
  let v113 : BitVec 32 := Scalar.extui v112
  let c0_i32_142 : BitVec 32 := 0#32
  let v114 : BitVec 1 := Scalar.cmpi .ne v113 c0_i32_142
  v114

def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_146 : BitVec 32 := 0#32
  ![v2.toNat, 0]
def k0_off36 (k0_t1 : Fin k0_t1_loop.trips) (c0_i32_152 : BitVec 32) : Fin 2 → Nat :=
  let c0_i32_26 : BitVec 32 := 0#32
  let c1_i32_27 : BitVec 32 := 1#32
  let arg15 : BitVec 32 := Scf.iv c0_i32_26 c1_i32_27 k0_t1
  let c1_i32_150 : BitVec 32 := 1#32
  let v121 : BitVec 32 := Scalar.addi arg15 c1_i32_150
  let c4_i32_151 : BitVec 32 := 4#32
  let v122 : BitVec 32 := Scalar.muli v121 c4_i32_151
  let v123 : BitVec 32 := Scalar.addi v122 c0_i32_152
  let c0_i32_156 : BitVec 32 := 0#32
  ![v123.toNat, 0]
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_32 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S819200 : S4096x200.ShapeCasts S819200
  shapeCasts_S819200_S32x200x128 : S819200.ShapeCasts S32x200x128
  squeezes_S1x200x128_S200x128 : S1x200x128.Squeezes S200x128
  inb_S4x128x128_S1x128x128_0_0_0 : ∀ a, (![0, 0, 0] : Fin 3 → Nat) a + S1x128x128.size a ≤ S4x128x128.size a
  squeezes_S1x128x128_S128x128 : S1x128x128.Squeezes S128x128
  inb_S200x128_S1x128_0_0 : ∀ a, (![0, 0] : Fin 2 → Nat) a + S1x128.size a ≤ S200x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S4x128x128_S1x128x128_1_0_0 : ∀ a, (![1, 0, 0] : Fin 3 → Nat) a + S1x128x128.size a ≤ S4x128x128.size a
  inb_S200x128_S1x128_1_0 : ∀ a, (![1, 0] : Fin 2 → Nat) a + S1x128.size a ≤ S200x128.size a
  inb_S4x128x128_S1x128x128_2_0_0 : ∀ a, (![2, 0, 0] : Fin 3 → Nat) a + S1x128x128.size a ≤ S4x128x128.size a
  inb_S200x128_S1x128_2_0 : ∀ a, (![2, 0] : Fin 2 → Nat) a + S1x128.size a ≤ S200x128.size a
  inb_S4x128x128_S1x128x128_3_0_0 : ∀ a, (![3, 0, 0] : Fin 3 → Nat) a + S1x128x128.size a ≤ S4x128x128.size a
  inb_S200x128_S1x128_3_0 : ∀ a, (![3, 0] : Fin 2 → Nat) a + S1x128.size a ≤ S200x128.size a
  h_S1x1x16 : 0 < S1x1x16.numel
  shapeCasts_S1x1x16_S16 : S1x1x16.ShapeCasts S16
  shapeCasts_S16_S1x1x16 : S16.ShapeCasts S1x1x16
  shapeCasts_S819200x128_S4096x200x128 : S819200x128.ShapeCasts S4096x200x128
  hcc0_scratch2 : 0 + S_.numel ≤ 9
  hcc0_scratch3 : 1 + S_.numel ≤ 9
  hcc0_scratch4 : 2 + S_.numel ≤ 9
  hcc0_scratch5 : 3 + S_.numel ≤ 9
  hcc0_scratch6 : 4 + S_.numel ≤ 9
  hcc0_scratch7 : 5 + S_.numel ≤ 9
  hcc0_scratch8 : 6 + S_.numel ≤ 9
  hcc0_scratch9 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x200x128.size a ≤ S32x200x128.size a
  k0_t1_ok : k0_t1_loop.OK
  k0_t2_ok : k0_t2_loop.OK
  k0_off2_inb : ∀ k0_t2 : Fin k0_t2_loop.trips, ∀ (r : Fin 4), ∀ a, (k0_off2 k0_t2 (BitVec.ofNat 32 r.val)) a + S1x1x16.size a ≤ S4x128x128.size a
  k0_off3_inb : ∀ k0_t2 : Fin k0_t2_loop.trips, ∀ (r : Fin 4), ∀ a, (k0_off3 k0_t2 (BitVec.ofNat 32 r.val)) a + S1x1x16.size a ≤ S4x128x128.size a
  k0_off4_inb : ∀ k0_t2 : Fin k0_t2_loop.trips, ∀ (r : Fin 4), ∀ a, (k0_off4 k0_t2 (BitVec.ofNat 32 r.val)) a + S1x1x16.size a ≤ S4x128x128.size a
  k0_off5_inb : ∀ k0_t2 : Fin k0_t2_loop.trips, ∀ (r : Fin 4), ∀ a, (k0_off5 k0_t2 (BitVec.ofNat 32 r.val)) a + S1x1x16.size a ≤ S4x128x128.size a
  k0_off6_inb : ∀ k0_t2 : Fin k0_t2_loop.trips, ∀ (r : Fin 4), ∀ a, (k0_off6 k0_t2 (BitVec.ofNat 32 r.val)) a + S1x1x16.size a ≤ S4x128x128.size a
  k0_off7_inb : ∀ k0_t2 : Fin k0_t2_loop.trips, ∀ (r : Fin 4), ∀ a, (k0_off7 k0_t2 (BitVec.ofNat 32 r.val)) a + S1x1x16.size a ≤ S4x128x128.size a
  k0_off8_inb : ∀ k0_t2 : Fin k0_t2_loop.trips, ∀ (r : Fin 4), ∀ a, (k0_off8 k0_t2 (BitVec.ofNat 32 r.val)) a + S1x1x16.size a ≤ S4x128x128.size a
  k0_off9_inb : ∀ k0_t2 : Fin k0_t2_loop.trips, ∀ (r : Fin 4), ∀ a, (k0_off9 k0_t2 (BitVec.ofNat 32 r.val)) a + S1x1x16.size a ≤ S4x128x128.size a
  k0_off10_inb : ∀ (i : grid0.Coords) (k0_t1 : Fin k0_t1_loop.trips), ∀ (r : Fin 4), ∀ a, (k0_off10 i k0_t1 (BitVec.ofNat 32 r.val)) a + S128x128.size a ≤ S819200x128.size a
  k0_t3_ok : k0_t3_loop.OK
  k0_off11_inb : ∀ k0_t3 : Fin k0_t3_loop.trips, ∀ (r : Fin 4), ∀ a, (k0_off11 k0_t3 (BitVec.ofNat 32 r.val)) a + S1x1x16.size a ≤ S4x128x128.size a
  k0_off12_inb : ∀ k0_t3 : Fin k0_t3_loop.trips, ∀ (r : Fin 4), ∀ a, (k0_off12 k0_t3 (BitVec.ofNat 32 r.val)) a + S1x1x16.size a ≤ S4x128x128.size a
  k0_off13_inb : ∀ k0_t3 : Fin k0_t3_loop.trips, ∀ (r : Fin 4), ∀ a, (k0_off13 k0_t3 (BitVec.ofNat 32 r.val)) a + S1x1x16.size a ≤ S4x128x128.size a
  k0_off14_inb : ∀ k0_t3 : Fin k0_t3_loop.trips, ∀ (r : Fin 4), ∀ a, (k0_off14 k0_t3 (BitVec.ofNat 32 r.val)) a + S1x1x16.size a ≤ S4x128x128.size a
  k0_off15_inb : ∀ k0_t3 : Fin k0_t3_loop.trips, ∀ (r : Fin 4), ∀ a, (k0_off15 k0_t3 (BitVec.ofNat 32 r.val)) a + S1x1x16.size a ≤ S4x128x128.size a
  k0_off16_inb : ∀ k0_t3 : Fin k0_t3_loop.trips, ∀ (r : Fin 4), ∀ a, (k0_off16 k0_t3 (BitVec.ofNat 32 r.val)) a + S1x1x16.size a ≤ S4x128x128.size a
  k0_off17_inb : ∀ k0_t3 : Fin k0_t3_loop.trips, ∀ (r : Fin 4), ∀ a, (k0_off17 k0_t3 (BitVec.ofNat 32 r.val)) a + S1x1x16.size a ≤ S4x128x128.size a
  k0_off18_inb : ∀ k0_t3 : Fin k0_t3_loop.trips, ∀ (r : Fin 4), ∀ a, (k0_off18 k0_t3 (BitVec.ofNat 32 r.val)) a + S1x1x16.size a ≤ S4x128x128.size a
  k0_t4_ok : k0_t4_loop.OK
  k0_off19_inb : ∀ k0_t4 : Fin k0_t4_loop.trips, ∀ (r : Fin 4), ∀ a, (k0_off19 k0_t4 (BitVec.ofNat 32 r.val)) a + S1x1x16.size a ≤ S4x128x128.size a
  k0_off20_inb : ∀ k0_t4 : Fin k0_t4_loop.trips, ∀ (r : Fin 4), ∀ a, (k0_off20 k0_t4 (BitVec.ofNat 32 r.val)) a + S1x1x16.size a ≤ S4x128x128.size a
  k0_off21_inb : ∀ k0_t4 : Fin k0_t4_loop.trips, ∀ (r : Fin 4), ∀ a, (k0_off21 k0_t4 (BitVec.ofNat 32 r.val)) a + S1x1x16.size a ≤ S4x128x128.size a
  k0_off22_inb : ∀ k0_t4 : Fin k0_t4_loop.trips, ∀ (r : Fin 4), ∀ a, (k0_off22 k0_t4 (BitVec.ofNat 32 r.val)) a + S1x1x16.size a ≤ S4x128x128.size a
  k0_off23_inb : ∀ k0_t4 : Fin k0_t4_loop.trips, ∀ (r : Fin 4), ∀ a, (k0_off23 k0_t4 (BitVec.ofNat 32 r.val)) a + S1x1x16.size a ≤ S4x128x128.size a
  k0_off24_inb : ∀ k0_t4 : Fin k0_t4_loop.trips, ∀ (r : Fin 4), ∀ a, (k0_off24 k0_t4 (BitVec.ofNat 32 r.val)) a + S1x1x16.size a ≤ S4x128x128.size a
  k0_off25_inb : ∀ k0_t4 : Fin k0_t4_loop.trips, ∀ (r : Fin 4), ∀ a, (k0_off25 k0_t4 (BitVec.ofNat 32 r.val)) a + S1x1x16.size a ≤ S4x128x128.size a
  k0_off26_inb : ∀ k0_t4 : Fin k0_t4_loop.trips, ∀ (r : Fin 4), ∀ a, (k0_off26 k0_t4 (BitVec.ofNat 32 r.val)) a + S1x1x16.size a ≤ S4x128x128.size a
  k0_t5_ok : k0_t5_loop.OK
  k0_off27_inb : ∀ k0_t5 : Fin k0_t5_loop.trips, ∀ (r : Fin 4), ∀ a, (k0_off27 k0_t5 (BitVec.ofNat 32 r.val)) a + S1x1x16.size a ≤ S4x128x128.size a
  k0_off28_inb : ∀ k0_t5 : Fin k0_t5_loop.trips, ∀ (r : Fin 4), ∀ a, (k0_off28 k0_t5 (BitVec.ofNat 32 r.val)) a + S1x1x16.size a ≤ S4x128x128.size a
  k0_off29_inb : ∀ k0_t5 : Fin k0_t5_loop.trips, ∀ (r : Fin 4), ∀ a, (k0_off29 k0_t5 (BitVec.ofNat 32 r.val)) a + S1x1x16.size a ≤ S4x128x128.size a
  k0_off30_inb : ∀ k0_t5 : Fin k0_t5_loop.trips, ∀ (r : Fin 4), ∀ a, (k0_off30 k0_t5 (BitVec.ofNat 32 r.val)) a + S1x1x16.size a ≤ S4x128x128.size a
  k0_off31_inb : ∀ k0_t5 : Fin k0_t5_loop.trips, ∀ (r : Fin 4), ∀ a, (k0_off31 k0_t5 (BitVec.ofNat 32 r.val)) a + S1x1x16.size a ≤ S4x128x128.size a
  k0_off32_inb : ∀ k0_t5 : Fin k0_t5_loop.trips, ∀ (r : Fin 4), ∀ a, (k0_off32 k0_t5 (BitVec.ofNat 32 r.val)) a + S1x1x16.size a ≤ S4x128x128.size a
  k0_off33_inb : ∀ k0_t5 : Fin k0_t5_loop.trips, ∀ (r : Fin 4), ∀ a, (k0_off33 k0_t5 (BitVec.ofNat 32 r.val)) a + S1x1x16.size a ≤ S4x128x128.size a
  k0_off34_inb : ∀ k0_t5 : Fin k0_t5_loop.trips, ∀ (r : Fin 4), ∀ a, (k0_off34 k0_t5 (BitVec.ofNat 32 r.val)) a + S1x1x16.size a ≤ S4x128x128.size a
  k0_off35_inb : ∀ (i : grid0.Coords) (k0_t1 : Fin k0_t1_loop.trips), ∀ (k0_h1 : k0_cond1 k0_t1 = 1#1), ∀ a, (k0_off35 i) a + S128x128.size a ≤ S819200x128.size a
  k0_off36_inb : ∀ k0_t1 : Fin k0_t1_loop.trips, ∀ (k0_h1 : k0_cond1 k0_t1 = 1#1), ∀ (r : Fin 4), ∀ a, (k0_off36 k0_t1 (BitVec.ofNat 32 r.val)) a + S1x128.size a ≤ S200x128.size a
  k0_off37_inb : ∀ i : grid0.Coords, ∀ a, (k0_off37 i) a + S128x128.size a ≤ S819200x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scoped0 : DmaSems sig S_ := SemArray.consecutive 8 S_ hcc0_scoped0

class Facts : Prop extends Facts₀ where

variable [Facts]
-- ==== ReferenceIdeal.lean ====
abbrev S4096x200 : Shape := ⟨2, ![4096, 200]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | .hbm, ⟨25, _⟩ => ⟨S_, .f32⟩
  | .hbm, ⟨26, _⟩ => ⟨S4096x200x128, .f32⟩
  | .hbm, ⟨27, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S100000x128_S4096x200x1_S4096x200x128_2_0_n_n_0_2_1128_wf : GatherDims.WF S100000x128 S4096x200x1 S4096x200x128 [2] [0] [] [0] [] 2 ![1, 128]

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf

class Facts : Prop extends Facts₀ where

variable [Facts]
-- ==== Proof.Spec.lean ====
/-
  The specification both programs meet, stated over plain arrays and importing no program.

  The input is a matrix `x` of 4096 × 200 words, each naming a row of a table of 100000 rows of 128 numbers; the
  result holds, at position (b, s), that row of the table with every entry multiplied by one constant, the
  single-precision number nearest √128.  The SparseCore call works on the same data laid out flat: the 819200
  words as 32 lists of 200 × 128 (one list per vector subcore), the 819200 result rows in the same order.
-/
import Idealize.ShloMosaic.PureOps
import Idealize.ShloMosaic.Lib.ValueIdx

noncomputable section

namespace Cert.Spec

open Idealize.ShloMosaic Idealize.ShloMosaic.ValueIdx

abbrev SX : Shape := ⟨2, ![4096, 200]⟩
abbrev ST : Shape := ⟨2, ![100000, 128]⟩
abbrev SFlat : Shape := ⟨1, ![819200]⟩
abbrev SI3 : Shape := ⟨3, ![32, 200, 128]⟩
abbrev SO2 : Shape := ⟨2, ![819200, 128]⟩
abbrev SO3 : Shape := ⟨3, ![4096, 200, 128]⟩

variable {F : FTy → Type} [FloatOps F]

/-- A word read as a row of the table: its unsigned value (folded below 100000; a word in range is its own value). -/
def rowOfWord (v : BitVec 32) : Fin 100000 := ⟨v.toNat % 100000, Nat.mod_lt _ (by decide)⟩

theorem rowOfWord_val {v : BitVec 32} (h : v.toNat < 100000) : (rowOfWord v).val = v.toNat := Nat.mod_eq_of_lt h

/-- The constant every gathered entry is multiplied by: the f32 nearest √128. -/
def scale : F .f32 := Scalar.ofBits .f32 0x413504F3#32

/-- Row `r` of the table, column `k`, scaled. -/
def scaledRow (tab : FVec F ST .f32) (r : Fin 100000) (k : Fin 128) : F .f32 := FloatOps.mulf (tab (ix2 r k)) scale

/-- The result, at (b, s, k): row `x[b, s]` of the table at column `k`, scaled. -/
def final (x : IVec SX 32) (tab : FVec F ST .f32) : FVec F SO3 .f32 :=
  fun i => scaledRow tab (rowOfWord (x (ix2 (i 0) (i 1)))) (i 2)

/-- The words' position in the flat layout: result row `r` takes list `r / 25600`, chunk `r % 25600 / 128`, entry `r % 128`. -/
def wordOf (idx3 : IVec SI3 32) (r : Fin 819200) : BitVec 32 :=
  idx3 (ix3 (⟨r.val / 25600, by omega⟩ : Fin 32) (⟨r.val % 25600 / 128, by omega⟩ : Fin 200) (⟨r.val % 128, by omega⟩ : Fin 128))

/-- What the SparseCore call leaves in its flat output: row `r` is the table's row named by word `r` of the lists, scaled. -/
def gathered (idx3 : IVec SI3 32) (tab : FVec F ST .f32) : FVec F SO2 .f32 :=
  fun i => scaledRow tab (rowOfWord (wordOf idx3 (i 0))) (i 1)

end Cert.Spec

end
-- ==== Proof.Common.lean ====
/-
  The vector-subcore kernel of the lookup, as the launch of the SparseCores sees it: the call's configuration, the
  ghost state (the launch handshakes beside the counters of the tile's own copies), the arrays as a tile names them,
  and the share of the work one tile owns.

  Tile (c, s) is worker w = 2 s + c of 32.  It owns list w of the index words (200 chunks of 128 words) and rows
  [25600 w, 25600 (w + 1)) of the flat output; every tile reads the whole table.
-/
import proofs.«209300_g39805756900082_cont_8to1_b_88_12_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«209300_g39805756900082_cont_8to1_b_88_12_alg».proof.Proof.Gen.KernelIdeal
import proofs.«209300_g39805756900082_cont_8to1_b_88_12_alg».proof.Proof.Gen.KernelIdeal.Skeleton
import proofs.«209300_g39805756900082_cont_8to1_b_88_12_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the counters of the tile's own copies -/

abbrev UH : Type := URounds (GSem nD τ sig) ℕ
abbrev UU : Type := UH × Counters

/-- The handshakes' rounds library, the left factor; the copies' counters are found by instance in the right. -/
abbrev EH : Emb UH (MT nD τ sig (HIx 1) (Elt F) ℕ UU ℕ) := embL

/-! ## The arrays as a tile names them -/

abbrev tW : Memref sig .scVector .hbm S100000x128 .f32 := Memref.whole main_arg1_scv
abbrev iW : Memref sig .scVector .hbm S32x200x128 .i32 := Memref.whole main_v1_scv
abbrev oW : Memref sig .scVector .hbm S819200x128 .f32 := Memref.whole main_v2_scv
abbrev sI : Memref sig .scVector .vmem S200x128 .i32 := Memref.whole cc0_scratch0
abbrev sR : Memref sig .scVector .vmem S4x128x128 .f32 := Memref.whole cc0_scratch1

/-- The SparseCore and the vector subcore of the grid point `L`. -/
abbrev cV (L : grid0.Coords) : Fin τ.nSC := (L 0).castLE hcore0
abbrev jV (L : grid0.Coords) : Fin τ.nSub := (L 1).castLE hsub0

/-- The tile's list of index words: slab `2 s + c` of the index array, as the kernel slices it. -/
abbrev iRow (L : grid0.Coords) : Memref sig .scVector .hbm S200x128 .i32 :=
  ((iW : Memref sig .scVector .hbm S32x200x128 .i32).slice (Rect.unit (s := S32x200x128) (k0_off1 L) S1x200x128.size (k0_off1_inb L)) (fun _ => rfl)).squeeze S200x128 squeezes_S1x200x128_S200x128

end Cert.Proof.KI

end
-- ==== Proof.Pieces.lean ====
/-
  The pieces of memory one tile works on, named once: its rows of the flat output, the four slots of its rows
  scratch (128 gathered rows each), a chunk of its index list (128 words), and the table as every gather names it.
-/
import proofs.«209300_g39805756900082_cont_8to1_b_88_12_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev S25600x128 : Shape := ⟨2, ![25600, 128]⟩

theorem oTR_inb : ∀ L : grid0.Coords, ∀ a, (![51200 * (L 1).val + 25600 * (L 0).val, 0] : Fin 2 → Nat) a + S25600x128.size a ≤ S819200x128.size a := by decide +kernel

/-- The tile's rows of the flat output: rows [25600 (2 s + c), 25600 (2 s + c + 1)). -/
abbrev oTR (L : grid0.Coords) : Rect S819200x128 := Rect.unit (s := S819200x128) ![51200 * (L 1).val + 25600 * (L 0).val, 0] S25600x128.size (oTR_inb L)

/-- The four slots of the rows scratch. -/
abbrev slot0 : Memref sig .scVector .vmem S128x128 .f32 :=
  ((sR : Memref sig .scVector .vmem S4x128x128 .f32).slice (Rect.unit (s := S4x128x128) ![0, 0, 0] S1x128x128.size inb_S4x128x128_S1x128x128_0_0_0) (fun _ => rfl)).squeeze S128x128 squeezes_S1x128x128_S128x128
abbrev slot1 : Memref sig .scVector .vmem S128x128 .f32 :=
  ((sR : Memref sig .scVector .vmem S4x128x128 .f32).slice (Rect.unit (s := S4x128x128) ![1, 0, 0] S1x128x128.size inb_S4x128x128_S1x128x128_1_0_0) (fun _ => rfl)).squeeze S128x128 squeezes_S1x128x128_S128x128
abbrev slot2 : Memref sig .scVector .vmem S128x128 .f32 :=
  ((sR : Memref sig .scVector .vmem S4x128x128 .f32).slice (Rect.unit (s := S4x128x128) ![2, 0, 0] S1x128x128.size inb_S4x128x128_S1x128x128_2_0_0) (fun _ => rfl)).squeeze S128x128 squeezes_S1x128x128_S128x128
abbrev slot3 : Memref sig .scVector .vmem S128x128 .f32 :=
  ((sR : Memref sig .scVector .vmem S4x128x128 .f32).slice (Rect.unit (s := S4x128x128) ![3, 0, 0] S1x128x128.size inb_S4x128x128_S1x128x128_3_0_0) (fun _ => rfl)).squeeze S128x128 squeezes_S1x128x128_S128x128

theorem lrow_inb (j : Nat) (hj : j < 200) : ∀ a, (![j, 0] : Fin 2 → Nat) a + S1x128.size a ≤ S200x128.size a := by
  intro a; match a with
  | ⟨0, _⟩ => show j + 1 ≤ 200; omega
  | ⟨1, _⟩ => show 0 + 128 ≤ 128; omega

/-- Chunk `j` of the tile's index list in its scratch: 128 words. -/
abbrev lrow (j : Nat) (hj : j < 200) : Memref sig .scVector .vmem S128 .i32 :=
  ((sI : Memref sig .scVector .vmem S200x128 .i32).slice (Rect.unit (s := S200x128) ![j, 0] S1x128.size (lrow_inb j hj)) (fun _ => rfl)).squeeze S128 squeezes_S1x128_S128

/-- The table, as every gather names it. -/
abbrev tWs : Memref sig .scVector .hbm S100000x128 .f32 :=
  (tW : Memref sig .scVector .hbm S100000x128 .f32).slice (Rect.unit (s := S100000x128) ![0, 0] S100000x128.size inb_S100000x128_S100000x128_0_0) (fun _ => rfl)

/-- A chunk of the tile's index list at a given offset: 128 words. -/
abbrev rowM (o : Fin 2 → Nat) (ho : ∀ a, o a + S1x128.size a ≤ S200x128.size a) : Memref sig .scVector .vmem S128 .i32 :=
  ((sI : Memref sig .scVector .vmem S200x128 .i32).slice (Rect.unit (s := S200x128) o S1x128.size ho) (fun _ => rfl)).squeeze S128 squeezes_S1x128_S128

/-- A chunk of the tile's rows of the output at a given offset: 128 rows. -/
abbrev chunkM (o : Fin 2 → Nat) (ho : ∀ a, o a + S128x128.size a ≤ S819200x128.size a) : Memref sig .scVector .hbm S128x128 .f32 :=
  (oW : Memref sig .scVector .hbm S819200x128 .f32).slice (Rect.unit (s := S819200x128) o S128x128.size ho) (fun _ => rfl)

/-- The offset of chunk `4 k + b` of the index list. -/
abbrev offK (k b : Nat) : Fin 2 → Nat := ![4 * k + b, 0]

theorem offK_inb {k b : Nat} (hk : k < 50) (hb : b < 4) : ∀ a, offK k b a + S1x128.size a ≤ S200x128.size a := by
  intro a; match a with
  | ⟨0, _⟩ => show 4 * k + b + 1 ≤ 200; omega
  | ⟨1, _⟩ => show 0 + 128 ≤ 128; omega

theorem h04 : 0 < 4 := by decide
theorem h14 : 1 < 4 := by decide
theorem h24 : 2 < 4 := by decide
theorem h34 : 3 < 4 := by decide

section Tile
variable (d : Dev nD) (L : grid0.Coords)

/-- The tile's thread. -/
abbrev thr : Thread nD τ := V d (cV L) (jV L)

end Tile

end Cert.Proof.KI

end
-- ==== Proof.ValSpec.lean ====
/-
  What the tile's buffers hold, as pure statements: the rows a gather leaves in a slot, the rows of a slot with the
  first few scaled, and the tile's rows of the output with the first few chunks written.
-/
import proofs.«209300_g39805756900082_cont_8to1_b_88_12_alg».proof.Proof.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

theorem wOf_lt : ∀ L : grid0.Coords, 2 * (L 1).val + (L 0).val < 32 := by decide +kernel

/-- The tile's worker number: 2 s + c. -/
abbrev wOf (L : grid0.Coords) : Fin 32 := ⟨2 * (L 1).val + (L 0).val, wOf_lt L⟩

/-- The rows the gather of chunk `j` of worker `w` fetches, unscaled: row p is the table's row named by word (w, j, p). -/
def gRows (w : Fin 32) (I3 : S32x200x128.Idx → BitVec 32) (tab : S100000x128.Idx → F .f32) (j : Fin 200) : S128x128.Idx → F .f32 :=
  fun y => tab (ix2 (Cert.Spec.rowOfWord (I3 (ix3 w j (y 0)))) (y 1))

/-- Through the view `v` the contents `X` read as `G` with the first `n` rows scaled. -/
def ScaledTo (v : View sig .scVector .vmem S128x128 .f32) (G : S128x128.Idx → F .f32) (n : Nat) (X : v.ty.Contents (Elt F)) : Prop :=
  ∀ y : S128x128.Idx, v.read (Elt F) X y = if (y 0).val < n then FloatOps.mulf (G y) Cert.Spec.scale else G y

theorem ScaledTo.zero {v : View sig .scVector .vmem S128x128 .f32} {G : S128x128.Idx → F .f32} {X : v.ty.Contents (Elt F)}
    (h : ∀ y, v.read (Elt F) X y = G y) : ScaledTo v G 0 X := fun y => by rw [h y, if_neg (Nat.not_lt_zero _)]

theorem ScaledTo.all {v : View sig .scVector .vmem S128x128 .f32} {G : S128x128.Idx → F .f32} {X : v.ty.Contents (Elt F)}
    (h : ScaledTo v G 128 X) (y : S128x128.Idx) : v.read (Elt F) X y = FloatOps.mulf (G y) Cert.Spec.scale := by
  rw [h y]; exact if_pos (show (y 0).val < 128 from (y 0).isLt)

/-- The tile's rows of the flat output hold the specified rows on its first `n` chunks. -/
def OutOK (L : grid0.Coords) (I3 : S32x200x128.Idx → BitVec 32) (tab : S100000x128.Idx → F .f32) (n : Nat) (f : S819200x128.Idx → F .f32) : Prop :=
  ∀ (r : Fin 819200) (c : Fin 128), 25600 * (wOf L).val ≤ r.val → r.val < 25600 * (wOf L).val + 128 * n →
    f (ix2 r c) = Cert.Spec.gathered I3 tab (ix2 r c)

theorem OutOK.zero {L : grid0.Coords} {I3 : S32x200x128.Idx → BitVec 32} {tab : S100000x128.Idx → F .f32} (f : S819200x128.Idx → F .f32) :
    OutOK L I3 tab 0 f := fun r c h1 h2 => absurd h2 (by omega)

end Cert.Proof.KI

end
-- ==== Proof.ScaleBox.lean ====
/-
  The scaling of a slot of gathered rows, as a statement about values.

  After a chunk's gather has landed in a slot (128 rows of 128 numbers), the tile multiplies the slot by the constant in
  place: 32 trips, each of 32 stores; store m of trip t reads a box of 16 consecutive numbers — row 4 t + m / 8 of the
  slot, columns 16 (m % 8) to 16 (m % 8) + 15 — multiplies them and writes them back.  In row-major order of the slot the
  boxes follow one another: box m of trip t covers positions 512 t + 16 m to 512 t + 16 m + 15.  So after any number of
  stores the slot reads as the gathered rows with exactly the positions below a bound multiplied, and a trip moves the
  bound by four rows.
-/
import proofs.«209300_g39805756900082_cont_8to1_b_88_12_alg».proof.Proof.ValSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

/-! ## A box's payload: the box read, every number multiplied by the constant -/

/-- What every store of the loops writes, of the box `v` it read. -/
def scaleBox (v : Vec F S1x1x16 .f32) : FVec F S1x1x16 .f32 :=
  shapeCast S1x1x16 (mulf (shapeCast S16 v shapeCasts_S1x1x16_S16) (broadcast S16 (Scalar.ofBits .f32 0x413504F3#32))) shapeCasts_S16_S1x1x16

theorem scaleBox_apply (v : Vec F S1x1x16 .f32) (j : S1x1x16.Idx) : scaleBox v j = FloatOps.mulf (v j) Cert.Spec.scale := by
  show FloatOps.mulf (v (Shape.reshapeEquiv _ (Shape.reshapeEquiv _ j))) _ = _
  rw [Shape.reshapeEquiv_reshapeEquiv, Shape.reshapeEquiv_self]
  rfl

/-! ## A slot of the rows scratch and a box of it, by coordinates -/

/-- The slot at the offsets `o` (slot `b` is at `![b, 0, 0]`). -/
abbrev slotAt (o : Fin 3 → Nat) (ho : ∀ a, o a + S1x128x128.size a ≤ S4x128x128.size a) : Memref sig .scVector .vmem S128x128 .f32 :=
  ((sR : Memref sig .scVector .vmem S4x128x128 .f32).slice (Rect.unit (s := S4x128x128) o S1x128x128.size ho) (fun _ => rfl)).squeeze S128x128 squeezes_S1x128x128_S128x128

omit [FloatOps F] in
/-- Element (r, k) of the slot is element (o₀, o₁ + r, o₂ + k) of the scratch. -/
theorem slotAt_emb (o : Fin 3 → Nat) (ho : ∀ a, o a + S1x128x128.size a ≤ S4x128x128.size a) (y : S128x128.Idx) :
    (((slotAt o ho).view.emb y) 0).val = o 0 ∧ (((slotAt o ho).view.emb y) 1).val = o 1 + (y 0).val ∧ (((slotAt o ho).view.emb y) 2).val = o 2 + (y 1).val := by
  have e : Shape.reshapeEquiv squeezes_S1x128x128_S128x128.numel_eq y = Fin.cons ⟨0, Nat.one_pos⟩ y :=
    Shape.reshapeEquiv_cons_one (n := 2) (d := ![128, 128]) squeezes_S1x128x128_S128x128.numel_eq y
  refine ⟨?_, ?_, ?_⟩
  · show o 0 + 1 * ((Shape.reshapeEquiv squeezes_S1x128x128_S128x128.numel_eq y) 0).val = _
    rw [e, Nat.one_mul]; rfl
  · show o 1 + 1 * ((Shape.reshapeEquiv squeezes_S1x128x128_S128x128.numel_eq y) 1).val = _
    rw [e, Nat.one_mul]; rfl
  · show o 2 + 1 * ((Shape.reshapeEquiv squeezes_S1x128x128_S128x128.numel_eq y) 2).val = _
    rw [e, Nat.one_mul]; rfl

/-! ## One store, read through the slot -/

abbrev sRm : Memref sig .scVector .vmem S4x128x128 .f32 := sR
abbrev SRC (F : FTy → Type) : Type := (sRm.view).ty.Contents (Elt F)

/-- A store of the multiplied box, read through the slot: the box's numbers are multiplied, the rest is as it was.
    The box is row `row`, columns `col` to `col + 15`, of slot `b`. -/
theorem read_write_box {o : Fin 3 → Nat} {ho : ∀ a, o a + S1x128x128.size a ≤ S4x128x128.size a} {b row col : Nat} (hob : o = ![b, 0, 0])
    {off : Fin 3 → Nat} {inb : ∀ a, off a + S1x1x16.size a ≤ S4x128x128.size a} (hoff : off = ![b, row, col])
    (W : SRC F) (p : S1x1x16.Idx → F .f32)
    (hp : p = scaleBox (View.readAt (Elt F) sRm.view (Rect.unit (s := S4x128x128) off S1x1x16.size inb).toLoadRect W)) (y : S128x128.Idx) :
    (slotAt o ho).view.read (Elt F) (View.write (Elt F) (sRm.access (Rect.unit (s := S4x128x128) off S1x1x16.size inb)) W p Finset.univ) y
      = if (y 0).val = row ∧ col ≤ (y 1).val ∧ (y 1).val < col + 16 then FloatOps.mulf ((slotAt o ho).view.read (Elt F) W y) Cert.Spec.scale
        else (slotAt o ho).view.read (Elt F) W y := by
  obtain ⟨e0, e1, e2⟩ := slotAt_emb o ho y
  subst hob hoff
  have e0' : (((slotAt ![b, 0, 0] ho).view.emb y) 0).val = b := e0
  have e1' : (((slotAt ![b, 0, 0] ho).view.emb y) 1).val = (y 0).val := e1.trans (Nat.zero_add _)
  have e2' : (((slotAt ![b, 0, 0] ho).view.emb y) 2).val = (y 1).val := e2.trans (Nat.zero_add _)
  have hset : (sRm.access (Rect.unit (s := S4x128x128) ![b, row, col] S1x1x16.size inb)).setOn Finset.univ
      = (Rect.unit (s := S4x128x128) ![b, row, col] S1x1x16.size inb).set := View.set_slice_whole _ _
  have hmem : (slotAt ![b, 0, 0] ho).view.emb y ∈ (Rect.unit (s := S4x128x128) ![b, row, col] S1x1x16.size inb).set
      ↔ (y 0).val = row ∧ col ≤ (y 1).val ∧ (y 1).val < col + 16 := by
    rw [Rect.mem_set_unit]
    constructor
    · intro h
      have h1 := h 1; have h2 := h 2
      rw [e1'] at h1; rw [e2'] at h2
      simp at h1 h2
      omega
    · intro h a
      match a with
      | 0 => rw [e0']; simp
      | 1 => rw [e1']; simp; omega
      | 2 => rw [e2']; simp; omega
  rw [View.read_apply, View.read_apply]
  split_ifs with hin
  · obtain ⟨x, -, hx⟩ := Finset.mem_map.mp ((Rect.map_emb_univ _).symm ▸ hmem.mpr hin)
    have hx' : (sRm.access (Rect.unit (s := S4x128x128) ![b, row, col] S1x1x16.size inb)).emb x = (slotAt ![b, 0, 0] ho).view.emb y := hx
    rw [← hx', View.write_emb_of_mem _ _ (Finset.mem_univ x), hp, scaleBox_apply, View.readAt_apply, View.read_apply]
    simp only [cast_eq]
    rfl
  · rw [View.write_of_not_mem]
    rw [hset]
    exact fun h => hin (hmem.mp h)

/-! ## The slot with the positions below a bound multiplied -/

/-- Through the view `v` the contents `X` read as `G` with the positions (in row-major order) below `N` multiplied. -/
def ScaledUpTo (v : View sig .scVector .vmem S128x128 .f32) (G : S128x128.Idx → F .f32) (N : Nat) (X : v.ty.Contents (Elt F)) : Prop :=
  ∀ y : S128x128.Idx, v.read (Elt F) X y = if 128 * (y 0).val + (y 1).val < N then FloatOps.mulf (G y) Cert.Spec.scale else G y

theorem ScaledTo.upTo {v : View sig .scVector .vmem S128x128 .f32} {G : S128x128.Idx → F .f32} {n N : Nat} {X : v.ty.Contents (Elt F)}
    (hN : N = 128 * n) (h : ScaledTo v G n X) : ScaledUpTo v G N X := fun y => by
  have h1 : (y 1).val < 128 := (y 1).isLt
  rw [h y]; exact if_congr (by omega) rfl rfl

theorem ScaledUpTo.scaledTo {v : View sig .scVector .vmem S128x128 .f32} {G : S128x128.Idx → F .f32} {n N : Nat} {X : v.ty.Contents (Elt F)}
    (hN : N = 128 * n) (h : ScaledUpTo v G N X) : ScaledTo v G n X := fun y => by
  have h1 : (y 1).val < 128 := (y 1).isLt
  rw [h y]; exact if_congr (by omega) rfl rfl

/-- One store moves the bound past its box: the box at row `row`, columns `col` to `col + 15`, is positions
    128 row + col to 128 row + col + 15. -/
theorem ScaledUpTo.step {o : Fin 3 → Nat} {ho : ∀ a, o a + S1x128x128.size a ≤ S4x128x128.size a} {G : S128x128.Idx → F .f32} {b row col N M : Nat}
    (hob : o = ![b, 0, 0]) {off : Fin 3 → Nat} {inb : ∀ a, off a + S1x1x16.size a ≤ S4x128x128.size a} (hoff : off = ![b, row, col])
    (hN : N = 128 * row + col) (hM : M = N + 16) (hcol : col + 16 ≤ 128) {W : SRC F} {p : S1x1x16.Idx → F .f32}
    (hp : p = scaleBox (View.readAt (Elt F) sRm.view (Rect.unit (s := S4x128x128) off S1x1x16.size inb).toLoadRect W))
    (h : ScaledUpTo (slotAt o ho).view G N W) :
    ScaledUpTo (slotAt o ho).view G M (View.write (Elt F) (sRm.access (Rect.unit (s := S4x128x128) off S1x1x16.size inb)) W p Finset.univ) := fun y => by
  have h1 : (y 1).val < 128 := (y 1).isLt
  rw [read_write_box hob hoff W p hp y, h y]
  by_cases hin : (y 0).val = row ∧ col ≤ (y 1).val ∧ (y 1).val < col + 16
  · rw [if_pos hin, if_neg (by omega), if_pos (by omega)]
  · rw [if_neg hin]; exact if_congr (by omega) rfl rfl

end Cert.Proof.KI

end
-- ==== Proof.ScaleLoops.lean ====
/-
  The four scaling loops of the tile, one per slot of its rows scratch: a trip of the loop of slot b multiplies four more
  rows of the slot by the constant.

  Trip t makes 32 stores; store m reads the box at row 4 t + m / 8, columns 16 (m % 8) to 16 (m % 8) + 15, of the slot and
  writes it back multiplied.  Followed in that order the boxes are consecutive in the slot's row-major order, from
  position 512 t on; after the last the bound stands at 512 (t + 1), four rows further.
-/
import proofs.«209300_g39805756900082_cont_8to1_b_88_12_alg».proof.Proof.ScaleBox

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

/-- What the scaling loop of slot 0 keeps: the slot held by the tile, reading as the gathered rows `G` with the first `4 t`
    rows multiplied. -/
def invSv0 (d : Dev nD) (L : grid0.Coords) (G : S128x128.Idx → F .f32) (t : Nat) (_ : Unit) : sProp 𝕄 :=
  iprop(∃ X, ((slot0).view.loc (thr d L) ↦[(slot0).view.set]{fullShare} X) ∗ ⌜ScaledTo (slot0).view G (4 * t) X⌝)

/-- Trip `t` of the scaling loop of slot 0: its 32 stores multiply rows 4 t to 4 t + 3 of the slot, box after box. -/
theorem scale_region0 (d : Dev nD) (L : grid0.Coords) (G : S128x128.Idx → F .f32) (v2 c0 c1 : BitVec 32) (k1 : Fin k0_t1_loop.trips) (t : Fin k0_t2_loop.trips) (acc : Unit) :
    invSv0 d L G t.val acc ⊢ wp frame (wpE (defs₀ (F := F)) 𝒱₀ (thr d L) none) Set.univ
      (k0_t2_body L tW (Memref.isWhole_whole _) iW (Memref.isWhole_whole _) oW (Memref.isWhole_whole _) sI (Memref.isWhole_whole _) sR (Memref.isWhole_whole _)
        cc0_scratch2 cc0_scratch3 cc0_scratch4 cc0_scratch5 cc0_scratch6 cc0_scratch7 cc0_scratch8 cc0_scratch9 cc0_scoped0 v2 c0 c1 k1 t acc)
      (fun acc' => invSv0 d L G (t.val + 1) acc') := by
  have ht : t.val < 32 := lt_of_lt_of_le t.isLt k0_t2_abs.2.1
  unfold invSv0
  iintro ⟨%X, HX, %hX⟩
  sl_exec
  sl_step
  iexists _
  isplitl [HX]; · iexact HX
  ipureintro
  refine ScaledUpTo.scaledTo (N := 512 * t.val + 512) (by omega) ?_
  refine ScaledUpTo.step (o := ![0, 0, 0]) (ho := inb_S4x128x128_S1x128x128_0_0_0) (b := 0) (row := 4 * t.val + 3) (col := 112) (N := 512 * t.val + 496) rfl (k0_off9_eq t ⟨3, by decide⟩) (by omega) (by omega) (by omega) rfl ?_
  refine ScaledUpTo.step (o := ![0, 0, 0]) (ho := inb_S4x128x128_S1x128x128_0_0_0) (b := 0) (row := 4 * t.val + 3) (col := 96) (N := 512 * t.val + 480) rfl (k0_off8_eq t ⟨3, by decide⟩) (by omega) (by omega) (by omega) rfl ?_
  refine ScaledUpTo.step (o := ![0, 0, 0]) (ho := inb_S4x128x128_S1x128x128_0_0_0) (b := 0) (row := 4 * t.val + 3) (col := 80) (N := 512 * t.val + 464) rfl (k0_off7_eq t ⟨3, by decide⟩) (by omega) (by omega) (by omega) rfl ?_
  refine ScaledUpTo.step (o := ![0, 0, 0]) (ho := inb_S4x128x128_S1x128x128_0_0_0) (b := 0) (row := 4 * t.val + 3) (col := 64) (N := 512 * t.val + 448) rfl (k0_off6_eq t ⟨3, by decide⟩) (by omega) (by omega) (by omega) rfl ?_
  refine ScaledUpTo.step (o := ![0, 0, 0]) (ho := inb_S4x128x128_S1x128x128_0_0_0) (b := 0) (row := 4 * t.val + 3) (col := 48) (N := 512 * t.val + 432) rfl (k0_off5_eq t ⟨3, by decide⟩) (by omega) (by omega) (by omega) rfl ?_
  refine ScaledUpTo.step (o := ![0, 0, 0]) (ho := inb_S4x128x128_S1x128x128_0_0_0) (b := 0) (row := 4 * t.val + 3) (col := 32) (N := 512 * t.val + 416) rfl (k0_off4_eq t ⟨3, by decide⟩) (by omega) (by omega) (by omega) rfl ?_
  refine ScaledUpTo.step (o := ![0, 0, 0]) (ho := inb_S4x128x128_S1x128x128_0_0_0) (b := 0) (row := 4 * t.val + 3) (col := 16) (N := 512 * t.val + 400) rfl (k0_off3_eq t ⟨3, by decide⟩) (by omega) (by omega) (by omega) rfl ?_
  refine ScaledUpTo.step (o := ![0, 0, 0]) (ho := inb_S4x128x128_S1x128x128_0_0_0) (b := 0) (row := 4 * t.val + 3) (col := 0) (N := 512 * t.val + 384) rfl (k0_off2_eq t ⟨3, by decide⟩) (by omega) (by omega) (by omega) rfl ?_
  refine ScaledUpTo.step (o := ![0, 0, 0]) (ho := inb_S4x128x128_S1x128x128_0_0_0) (b := 0) (row := 4 * t.val + 2) (col := 112) (N := 512 * t.val + 368) rfl (k0_off9_eq t ⟨2, by decide⟩) (by omega) (by omega) (by omega) rfl ?_
  refine ScaledUpTo.step (o := ![0, 0, 0]) (ho := inb_S4x128x128_S1x128x128_0_0_0) (b := 0) (row := 4 * t.val + 2) (col := 96) (N := 512 * t.val + 352) rfl (k0_off8_eq t ⟨2, by decide⟩) (by omega) (by omega) (by omega) rfl ?_
  refine ScaledUpTo.step (o := ![0, 0, 0]) (ho := inb_S4x128x128_S1x128x128_0_0_0) (b := 0) (row := 4 * t.val + 2) (col := 80) (N := 512 * t.val + 336) rfl (k0_off7_eq t ⟨2, by decide⟩) (by omega) (by omega) (by omega) rfl ?_
  refine ScaledUpTo.step (o := ![0, 0, 0]) (ho := inb_S4x128x128_S1x128x128_0_0_0) (b := 0) (row := 4 * t.val + 2) (col := 64) (N := 512 * t.val + 320) rfl (k0_off6_eq t ⟨2, by decide⟩) (by omega) (by omega) (by omega) rfl ?_
  refine ScaledUpTo.step (o := ![0, 0, 0]) (ho := inb_S4x128x128_S1x128x128_0_0_0) (b := 0) (row := 4 * t.val + 2) (col := 48) (N := 512 * t.val + 304) rfl (k0_off5_eq t ⟨2, by decide⟩) (by omega) (by omega) (by omega) rfl ?_
  refine ScaledUpTo.step (o := ![0, 0, 0]) (ho := inb_S4x128x128_S1x128x128_0_0_0) (b := 0) (row := 4 * t.val + 2) (col := 32) (N := 512 * t.val + 288) rfl (k0_off4_eq t ⟨2, by decide⟩) (by omega) (by omega) (by omega) rfl ?_
  refine ScaledUpTo.step (o := ![0, 0, 0]) (ho := inb_S4x128x128_S1x128x128_0_0_0) (b := 0) (row := 4 * t.val + 2) (col := 16) (N := 512 * t.val + 272) rfl (k0_off3_eq t ⟨2, by decide⟩) (by omega) (by omega) (by omega) rfl ?_
  refine ScaledUpTo.step (o := ![0, 0, 0]) (ho := inb_S4x128x128_S1x128x128_0_0_0) (b := 0) (row := 4 * t.val + 2) (col := 0) (N := 512 * t.val + 256) rfl (k0_off2_eq t ⟨2, by decide⟩) (by omega) (by omega) (by omega) rfl ?_
  refine ScaledUpTo.step (o := ![0, 0, 0]) (ho := inb_S4x128x128_S1x128x128_0_0_0) (b := 0) (row := 4 * t.val + 1) (col := 112) (N := 512 * t.val + 240) rfl (k0_off9_eq t ⟨1, by decide⟩) (by omega) (by omega) (by omega) rfl ?_
  refine ScaledUpTo.step (o := ![0, 0, 0]) (ho := inb_S4x128x128_S1x128x128_0_0_0) (b := 0) (row := 4 * t.val + 1) (col := 96) (N := 512 * t.val + 224) rfl (k0_off8_eq t ⟨1, by decide⟩) (by omega) (by omega) (by omega) rfl ?_
  refine ScaledUpTo.step (o := ![0, 0, 0]) (ho := inb_S4x128x128_S1x128x128_0_0_0) (b := 0) (row := 4 * t.val + 1) (col := 80) (N := 512 * t.val + 208) rfl (k0_off7_eq t ⟨1, by decide⟩) (by omega) (by omega) (by omega) rfl ?_
  refine ScaledUpTo.step (o := ![0, 0, 0]) (ho := inb_S4x128x128_S1x128x128_0_0_0) (b := 0) (row := 4 * t.val + 1) (col := 64) (N := 512 * t.val + 192) rfl (k0_off6_eq t ⟨1, by decide⟩) (by omega) (by omega) (by omega) rfl ?_
  refine ScaledUpTo.step (o := ![0, 0, 0]) (ho := inb_S4x128x128_S1x128x128_0_0_0) (b := 0) (row := 4 * t.val + 1) (col := 48) (N := 512 * t.val + 176) rfl (k0_off5_eq t ⟨1, by decide⟩) (by omega) (by omega) (by omega) rfl ?_
  refine ScaledUpTo.step (o := ![0, 0, 0]) (ho := inb_S4x128x128_S1x128x128_0_0_0) (b := 0) (row := 4 * t.val + 1) (col := 32) (N := 512 * t.val + 160) rfl (k0_off4_eq t ⟨1, by decide⟩) (by omega) (by omega) (by omega) rfl ?_
  refine ScaledUpTo.step (o := ![0, 0, 0]) (ho := inb_S4x128x128_S1x128x128_0_0_0) (b := 0) (row := 4 * t.val + 1) (col := 16) (N := 512 * t.val + 144) rfl (k0_off3_eq t ⟨1, by decide⟩) (by omega) (by omega) (by omega) rfl ?_
  refine ScaledUpTo.step (o := ![0, 0, 0]) (ho := inb_S4x128x128_S1x128x128_0_0_0) (b := 0) (row := 4 * t.val + 1) (col := 0) (N := 512 * t.val + 128) rfl (k0_off2_eq t ⟨1, by decide⟩) (by omega) (by omega) (by omega) rfl ?_
  refine ScaledUpTo.step (o := ![0, 0, 0]) (ho := inb_S4x128x128_S1x128x128_0_0_0) (b := 0) (row := 4 * t.val + 0) (col := 112) (N := 512 * t.val + 112) rfl (k0_off9_eq t ⟨0, by decide⟩) (by omega) (by omega) (by omega) rfl ?_
  refine ScaledUpTo.step (o := ![0, 0, 0]) (ho := inb_S4x128x128_S1x128x128_0_0_0) (b := 0) (row := 4 * t.val + 0) (col := 96) (N := 512 * t.val + 96) rfl (k0_off8_eq t ⟨0, by decide⟩) (by omega) (by omega) (by omega) rfl ?_
  refine ScaledUpTo.step (o := ![0, 0, 0]) (ho := inb_S4x128x128_S1x128x128_0_0_0) (b := 0) (row := 4 * t.val + 0) (col := 80) (N := 512 * t.val + 80) rfl (k0_off7_eq t ⟨0, by decide⟩) (by omega) (by omega) (by omega) rfl ?_
  refine ScaledUpTo.step (o := ![0, 0, 0]) (ho := inb_S4x128x128_S1x128x128_0_0_0) (b := 0) (row := 4 * t.val + 0) (col := 64) (N := 512 * t.val + 64) rfl (k0_off6_eq t ⟨0, by decide⟩) (by omega) (by omega) (by omega) rfl ?_
  refine ScaledUpTo.step (o := ![0, 0, 0]) (ho := inb_S4x128x128_S1x128x128_0_0_0) (b := 0) (row := 4 * t.val + 0) (col := 48) (N := 512 * t.val + 48) rfl (k0_off5_eq t ⟨0, by decide⟩) (by omega) (by omega) (by omega) rfl ?_
  refine ScaledUpTo.step (o := ![0, 0, 0]) (ho := inb_S4x128x128_S1x128x128_0_0_0) (b := 0) (row := 4 * t.val + 0) (col := 32) (N := 512 * t.val + 32) rfl (k0_off4_eq t ⟨0, by decide⟩) (by omega) (by omega) (by omega) rfl ?_
  refine ScaledUpTo.step (o := ![0, 0, 0]) (ho := inb_S4x128x128_S1x128x128_0_0_0) (b := 0) (row := 4 * t.val + 0) (col := 16) (N := 512 * t.val + 16) rfl (k0_off3_eq t ⟨0, by decide⟩) (by omega) (by omega) (by omega) rfl ?_
  refine ScaledUpTo.step (o := ![0, 0, 0]) (ho := inb_S4x128x128_S1x128x128_0_0_0) (b := 0) (row := 4 * t.val + 0) (col := 0) (N := 512 * t.val + 0) rfl (k0_off2_eq t ⟨0, by decide⟩) (by omega) (by omega) (by omega) rfl ?_
  exact ScaledTo.upTo (by omega) hX

/-- What the scaling loop of slot 1 keeps: the slot held by the tile, reading as the gathered rows `G` with the first `4 t`
    rows multiplied. -/
def invSv1 (d : Dev nD) (L : grid0.Coords) (G : S128x128.Idx → F .f32) (t : Nat) (_ : Unit) : sProp 𝕄 :=
  iprop(∃ X, ((slot1).view.loc (thr d L) ↦[(slot1).view.set]{fullShare} X) ∗ ⌜ScaledTo (slot1).view G (4 * t) X⌝)

/-- Trip `t` of the scaling loop of slot 1: its 32 stores multiply rows 4 t to 4 t + 3 of the slot, box after box. -/
theorem scale_region1 (d : Dev nD) (L : grid0.Coords) (G : S128x128.Idx → F .f32) (v2 : BitVec 32) (k1 : Fin k0_t1_loop.trips) (arg15 c0 c1 : BitVec 32) (t : Fin k0_t3_loop.trips) (acc : Unit) :
    invSv1 d L G t.val acc ⊢ wp frame (wpE (defs₀ (F := F)) 𝒱₀ (thr d L) none) Set.univ
      (k0_t3_body L tW (Memref.isWhole_whole _) iW (Memref.isWhole_whole _) oW (Memref.isWhole_whole _) sI (Memref.isWhole_whole _) sR (Memref.isWhole_whole _)
        cc0_scratch2 cc0_scratch3 cc0_scratch4 cc0_scratch5 cc0_scratch6 cc0_scratch7 cc0_scratch8 cc0_scratch9 cc0_scoped0 v2 k1 arg15 c0 c1 t acc)
      (fun acc' => invSv1 d L G (t.val + 1) acc') := by
  have ht : t.val < 32 := lt_of_lt_of_le t.isLt k0_t3_abs.2.1
  unfold invSv1
  iintro ⟨%X, HX, %hX⟩
  sl_exec
  sl_step
  iexists _
  isplitl [HX]; · iexact HX
  ipureintro
  refine ScaledUpTo.scaledTo (N := 512 * t.val + 512) (by omega) ?_
  refine ScaledUpTo.step (o := ![1, 0, 0]) (ho := inb_S4x128x128_S1x128x128_1_0_0) (b := 1) (row := 4 * t.val + 3) (col := 112) (N := 512 * t.val + 496) rfl (k0_off18_eq t ⟨3, by decide⟩) (by omega) (by omega) (by omega) rfl ?_
  refine ScaledUpTo.step (o := ![1, 0, 0]) (ho := inb_S4x128x128_S1x128x128_1_0_0) (b := 1) (row := 4 * t.val + 3) (col := 96) (N := 512 * t.val + 480) rfl (k0_off17_eq t ⟨3, by decide⟩) (by omega) (by omega) (by omega) rfl ?_
  refine ScaledUpTo.step (o := ![1, 0, 0]) (ho := inb_S4x128x128_S1x128x128_1_0_0) (b := 1) (row := 4 * t.val + 3) (col := 80) (N := 512 * t.val + 464) rfl (k0_off16_eq t ⟨3, by decide⟩) (by omega) (by omega) (by omega) rfl ?_
  refine ScaledUpTo.step (o := ![1, 0, 0]) (ho := inb_S4x128x128_S1x128x128_1_0_0) (b := 1) (row := 4 * t.val + 3) (col := 64) (N := 512 * t.val + 448) rfl (k0_off15_eq t ⟨3, by decide⟩) (by omega) (by omega) (by omega) rfl ?_
  refine ScaledUpTo.step (o := ![1, 0, 0]) (ho := inb_S4x128x128_S1x128x128_1_0_0) (b := 1) (row := 4 * t.val + 3) (col := 48) (N := 512 * t.val + 432) rfl (k0_off14_eq t ⟨3, by decide⟩) (by omega) (by omega) (by omega) rfl ?_
  refine ScaledUpTo.step (o := ![1, 0, 0]) (ho := inb_S4x128x128_S1x128x128_1_0_0) (b := 1) (row := 4 * t.val + 3) (col := 32) (N := 512 * t.val + 416) rfl (k0_off13_eq t ⟨3, by decide⟩) (by omega) (by omega) (by omega) rfl ?_
  refine ScaledUpTo.step (o := ![1, 0, 0]) (ho := inb_S4x128x128_S1x128x128_1_0_0) (b := 1) (row := 4 * t.val + 3) (col := 16) (N := 512 * t.val + 400) rfl (k0_off12_eq t ⟨3, by decide⟩) (by omega) (by omega) (by omega) rfl ?_
  refine ScaledUpTo.step (o := ![1, 0, 0]) (ho := inb_S4x128x128_S1x128x128_1_0_0) (b := 1) (row := 4 * t.val + 3) (col := 0) (N := 512 * t.val + 384) rfl (k0_off11_eq t ⟨3, by decide⟩) (by omega) (by omega) (by omega) rfl ?_
  refine ScaledUpTo.step (o := ![1, 0, 0]) (ho := inb_S4x128x128_S1x128x128_1_0_0) (b := 1) (row := 4 * t.val + 2) (col := 112) (N := 512 * t.val + 368) rfl (k0_off18_eq t ⟨2, by decide⟩) (by omega) (by omega) (by omega) rfl ?_
  refine ScaledUpTo.step (o := ![1, 0, 0]) (ho := inb_S4x128x128_S1x128x128_1_0_0) (b := 1) (row := 4 * t.val + 2) (col := 96) (N := 512 * t.val + 352) rfl (k0_off17_eq t ⟨2, by decide⟩) (by omega) (by omega) (by omega) rfl ?_
  refine ScaledUpTo.step (o := ![1, 0, 0]) (ho := inb_S4x128x128_S1x128x128_1_0_0) (b := 1) (row := 4 * t.val + 2) (col := 80) (N := 512 * t.val + 336) rfl (k0_off16_eq t ⟨2, by decide⟩) (by omega) (by omega) (by omega) rfl ?_
  refine ScaledUpTo.step (o := ![1, 0, 0]) (ho := inb_S4x128x128_S1x128x128_1_0_0) (b := 1) (row := 4 * t.val + 2) (col := 64) (N := 512 * t.val + 320) rfl (k0_off15_eq t ⟨2, by decide⟩) (by omega) (by omega) (by omega) rfl ?_
  refine ScaledUpTo.step (o := ![1, 0, 0]) (ho := inb_S4x128x128_S1x128x128_1_0_0) (b := 1) (row := 4 * t.val + 2) (col := 48) (N := 512 * t.val + 304) rfl (k0_off14_eq t ⟨2, by decide⟩) (by omega) (by omega) (by omega) rfl ?_
  refine ScaledUpTo.step (o := ![1, 0, 0]) (ho := inb_S4x128x128_S1x128x128_1_0_0) (b := 1) (row := 4 * t.val + 2) (col := 32) (N := 512 * t.val + 288) rfl (k0_off13_eq t ⟨2, by decide⟩) (by omega) (by omega) (by omega) rfl ?_
  refine ScaledUpTo.step (o := ![1, 0, 0]) (ho := inb_S4x128x128_S1x128x128_1_0_0) (b := 1) (row := 4 * t.val + 2) (col := 16) (N := 512 * t.val + 272) rfl (k0_off12_eq t ⟨2, by decide⟩) (by omega) (by omega) (by omega) rfl ?_
  refine ScaledUpTo.step (o := ![1, 0, 0]) (ho := inb_S4x128x128_S1x128x128_1_0_0) (b := 1) (row := 4 * t.val + 2) (col := 0) (N := 512 * t.val + 256) rfl (k0_off11_eq t ⟨2, by decide⟩) (by omega) (by omega) (by omega) rfl ?_
  refine ScaledUpTo.step (o := ![1, 0, 0]) (ho := inb_S4x128x128_S1x128x128_1_0_0) (b := 1) (row := 4 * t.val + 1) (col := 112) (N := 512 * t.val + 240) rfl (k0_off18_eq t ⟨1, by decide⟩) (by omega) (by omega) (by omega) rfl ?_
  refine ScaledUpTo.step (o := ![1, 0, 0]) (ho := inb_S4x128x128_S1x128x128_1_0_0) (b := 1) (row := 4 * t.val + 1) (col := 96) (N := 512 * t.val + 224) rfl (k0_off17_eq t ⟨1, by decide⟩) (by omega) (by omega) (by omega) rfl ?_
  refine ScaledUpTo.step (o := ![1, 0, 0]) (ho := inb_S4x128x128_S1x128x128_1_0_0) (b := 1) (row := 4 * t.val + 1) (col := 80) (N := 512 * t.val + 208) rfl (k0_off16_eq t ⟨1, by decide⟩) (by omega) (by omega) (by omega) rfl ?_
  refine ScaledUpTo.step (o := ![1, 0, 0]) (ho := inb_S4x128x128_S1x128x128_1_0_0) (b := 1) (row := 4 * t.val + 1) (col := 64) (N := 512 * t.val + 192) rfl (k0_off15_eq t ⟨1, by decide⟩) (by omega) (by omega) (by omega) rfl ?_
  refine ScaledUpTo.step (o := ![1, 0, 0]) (ho := inb_S4x128x128_S1x128x128_1_0_0) (b := 1) (row := 4 * t.val + 1) (col := 48) (N := 512 * t.val + 176) rfl (k0_off14_eq t ⟨1, by decide⟩) (by omega) (by omega) (by omega) rfl ?_
  refine ScaledUpTo.step (o := ![1, 0, 0]) (ho := inb_S4x128x128_S1x128x128_1_0_0) (b := 1) (row := 4 * t.val + 1) (col := 32) (N := 512 * t.val + 160) rfl (k0_off13_eq t ⟨1, by decide⟩) (by omega) (by omega) (by omega) rfl ?_
  refine ScaledUpTo.step (o := ![1, 0, 0]) (ho := inb_S4x128x128_S1x128x128_1_0_0) (b := 1) (row := 4 * t.val + 1) (col := 16) (N := 512 * t.val + 144) rfl (k0_off12_eq t ⟨1, by decide⟩) (by omega) (by omega) (by omega) rfl ?_
  refine ScaledUpTo.step (o := ![1, 0, 0]) (ho := inb_S4x128x128_S1x128x128_1_0_0) (b := 1) (row := 4 * t.val + 1) (col := 0) (N := 512 * t.val + 128) rfl (k0_off11_eq t ⟨1, by decide⟩) (by omega) (by omega) (by omega) rfl ?_
  refine ScaledUpTo.step (o := ![1, 0, 0]) (ho := inb_S4x128x128_S1x128x128_1_0_0) (b := 1) (row := 4 * t.val + 0) (col := 112) (N := 512 * t.val + 112) rfl (k0_off18_eq t ⟨0, by decide⟩) (by omega) (by omega) (by omega) rfl ?_
  refine ScaledUpTo.step (o := ![1, 0, 0]) (ho := inb_S4x128x128_S1x128x128_1_0_0) (b := 1) (row := 4 * t.val + 0) (col := 96) (N := 512 * t.val + 96) rfl (k0_off17_eq t ⟨0, by decide⟩) (by omega) (by omega) (by omega) rfl ?_
  refine ScaledUpTo.step (o := ![1, 0, 0]) (ho := inb_S4x128x128_S1x128x128_1_0_0) (b := 1) (row := 4 * t.val + 0) (col := 80) (N := 512 * t.val + 80) rfl (k0_off16_eq t ⟨0, by decide⟩) (by omega) (by omega) (by omega) rfl ?_
  refine ScaledUpTo.step (o := ![1, 0, 0]) (ho := inb_S4x128x128_S1x128x128_1_0_0) (b := 1) (row := 4 * t.val + 0) (col := 64) (N := 512 * t.val + 64) rfl (k0_off15_eq t ⟨0, by decide⟩) (by omega) (by omega) (by omega) rfl ?_
  refine ScaledUpTo.step (o := ![1, 0, 0]) (ho := inb_S4x128x128_S1x128x128_1_0_0) (b := 1) (row := 4 * t.val + 0) (col := 48) (N := 512 * t.val + 48) rfl (k0_off14_eq t ⟨0, by decide⟩) (by omega) (by omega) (by omega) rfl ?_
  refine ScaledUpTo.step (o := ![1, 0, 0]) (ho := inb_S4x128x128_S1x128x128_1_0_0) (b := 1) (row := 4 * t.val + 0) (col := 32) (N := 512 * t.val + 32) rfl (k0_off13_eq t ⟨0, by decide⟩) (by omega) (by omega) (by omega) rfl ?_
  refine ScaledUpTo.step (o := ![1, 0, 0]) (ho := inb_S4x128x128_S1x128x128_1_0_0) (b := 1) (row := 4 * t.val + 0) (col := 16) (N := 512 * t.val + 16) rfl (k0_off12_eq t ⟨0, by decide⟩) (by omega) (by omega) (by omega) rfl ?_
  refine ScaledUpTo.step (o := ![1, 0, 0]) (ho := inb_S4x128x128_S1x128x128_1_0_0) (b := 1) (row := 4 * t.val + 0) (col := 0) (N := 512 * t.val + 0) rfl (k0_off11_eq t ⟨0, by decide⟩) (by omega) (by omega) (by omega) rfl ?_
  exact ScaledTo.upTo (by omega) hX

/-- What the scaling loop of slot 2 keeps: the slot held by the tile, reading as the gathered rows `G` with the first `4 t`
    rows multiplied. -/
def invSv2 (d : Dev nD) (L : grid0.Coords) (G : S128x128.Idx → F .f32) (t : Nat) (_ : Unit) : sProp 𝕄 :=
  iprop(∃ X, ((slot2).view.loc (thr d L) ↦[(slot2).view.set]{fullShare} X) ∗ ⌜ScaledTo (slot2).view G (4 * t) X⌝)

/-- Trip `t` of the scaling loop of slot 2: its 32 stores multiply rows 4 t to 4 t + 3 of the slot, box after box. -/
theorem scale_region2 (d : Dev nD) (L : grid0.Coords) (G : S128x128.Idx → F .f32) (v2 : BitVec 32) (k1 : Fin k0_t1_loop.trips) (arg15 c0 c1 : BitVec 32) (t : Fin k0_t4_loop.trips) (acc : Unit) :
    invSv2 d L G t.val acc ⊢ wp frame (wpE (defs₀ (F := F)) 𝒱₀ (thr d L) none) Set.univ
      (k0_t4_body L tW (Memref.isWhole_whole _) iW (Memref.isWhole_whole _) oW (Memref.isWhole_whole _) sI (Memref.isWhole_whole _) sR (Memref.isWhole_whole _)
        cc0_scratch2 cc0_scratch3 cc0_scratch4 cc0_scratch5 cc0_scratch6 cc0_scratch7 cc0_scratch8 cc0_scratch9 cc0_scoped0 v2 k1 arg15 c0 c1 t acc)
      (fun acc' => invSv2 d L G (t.val + 1) acc') := by
  have ht : t.val < 32 := lt_of_lt_of_le t.isLt k0_t4_abs.2.1
  unfold invSv2
  iintro ⟨%X, HX, %hX⟩
  sl_exec
  sl_step
  iexists _
  isplitl [HX]; · iexact HX
  ipureintro
  refine ScaledUpTo.scaledTo (N := 512 * t.val + 512) (by omega) ?_
  refine ScaledUpTo.step (o := ![2, 0, 0]) (ho := inb_S4x128x128_S1x128x128_2_0_0) (b := 2) (row := 4 * t.val + 3) (col := 112) (N := 512 * t.val + 496) rfl (k0_off26_eq t ⟨3, by decide⟩) (by omega) (by omega) (by omega) rfl ?_
  refine ScaledUpTo.step (o := ![2, 0, 0]) (ho := inb_S4x128x128_S1x128x128_2_0_0) (b := 2) (row := 4 * t.val + 3) (col := 96) (N := 512 * t.val + 480) rfl (k0_off25_eq t ⟨3, by decide⟩) (by omega) (by omega) (by omega) rfl ?_
  refine ScaledUpTo.step (o := ![2, 0, 0]) (ho := inb_S4x128x128_S1x128x128_2_0_0) (b := 2) (row := 4 * t.val + 3) (col := 80) (N := 512 * t.val + 464) rfl (k0_off24_eq t ⟨3, by decide⟩) (by omega) (by omega) (by omega) rfl ?_
  refine ScaledUpTo.step (o := ![2, 0, 0]) (ho := inb_S4x128x128_S1x128x128_2_0_0) (b := 2) (row := 4 * t.val + 3) (col := 64) (N := 512 * t.val + 448) rfl (k0_off23_eq t ⟨3, by decide⟩) (by omega) (by omega) (by omega) rfl ?_
  refine ScaledUpTo.step (o := ![2, 0, 0]) (ho := inb_S4x128x128_S1x128x128_2_0_0) (b := 2) (row := 4 * t.val + 3) (col := 48) (N := 512 * t.val + 432) rfl (k0_off22_eq t ⟨3, by decide⟩) (by omega) (by omega) (by omega) rfl ?_
  refine ScaledUpTo.step (o := ![2, 0, 0]) (ho := inb_S4x128x128_S1x128x128_2_0_0) (b := 2) (row := 4 * t.val + 3) (col := 32) (N := 512 * t.val + 416) rfl (k0_off21_eq t ⟨3, by decide⟩) (by omega) (by omega) (by omega) rfl ?_
  refine ScaledUpTo.step (o := ![2, 0, 0]) (ho := inb_S4x128x128_S1x128x128_2_0_0) (b := 2) (row := 4 * t.val + 3) (col := 16) (N := 512 * t.val + 400) rfl (k0_off20_eq t ⟨3, by decide⟩) (by omega) (by omega) (by omega) rfl ?_
  refine ScaledUpTo.step (o := ![2, 0, 0]) (ho := inb_S4x128x128_S1x128x128_2_0_0) (b := 2) (row := 4 * t.val + 3) (col := 0) (N := 512 * t.val + 384) rfl (k0_off19_eq t ⟨3, by decide⟩) (by omega) (by omega) (by omega) rfl ?_
  refine ScaledUpTo.step (o := ![2, 0, 0]) (ho := inb_S4x128x128_S1x128x128_2_0_0) (b := 2) (row := 4 * t.val + 2) (col := 112) (N := 512 * t.val + 368) rfl (k0_off26_eq t ⟨2, by decide⟩) (by omega) (by omega) (by omega) rfl ?_
  refine ScaledUpTo.step (o := ![2, 0, 0]) (ho := inb_S4x128x128_S1x128x128_2_0_0) (b := 2) (row := 4 * t.val + 2) (col := 96) (N := 512 * t.val + 352) rfl (k0_off25_eq t ⟨2, by decide⟩) (by omega) (by omega) (by omega) rfl ?_
  refine ScaledUpTo.step (o := ![2, 0, 0]) (ho := inb_S4x128x128_S1x128x128_2_0_0) (b := 2) (row := 4 * t.val + 2) (col := 80) (N := 512 * t.val + 336) rfl (k0_off24_eq t ⟨2, by decide⟩) (by omega) (by omega) (by omega) rfl ?_
  refine ScaledUpTo.step (o := ![2, 0, 0]) (ho := inb_S4x128x128_S1x128x128_2_0_0) (b := 2) (row := 4 * t.val + 2) (col := 64) (N := 512 * t.val + 320) rfl (k0_off23_eq t ⟨2, by decide⟩) (by omega) (by omega) (by omega) rfl ?_
  refine ScaledUpTo.step (o := ![2, 0, 0]) (ho := inb_S4x128x128_S1x128x128_2_0_0) (b := 2) (row := 4 * t.val + 2) (col := 48) (N := 512 * t.val + 304) rfl (k0_off22_eq t ⟨2, by decide⟩) (by omega) (by omega) (by omega) rfl ?_
  refine ScaledUpTo.step (o := ![2, 0, 0]) (ho := inb_S4x128x128_S1x128x128_2_0_0) (b := 2) (row := 4 * t.val + 2) (col := 32) (N := 512 * t.val + 288) rfl (k0_off21_eq t ⟨2, by decide⟩) (by omega) (by omega) (by omega) rfl ?_
  refine ScaledUpTo.step (o := ![2, 0, 0]) (ho := inb_S4x128x128_S1x128x128_2_0_0) (b := 2) (row := 4 * t.val + 2) (col := 16) (N := 512 * t.val + 272) rfl (k0_off20_eq t ⟨2, by decide⟩) (by omega) (by omega) (by omega) rfl ?_
  refine ScaledUpTo.step (o := ![2, 0, 0]) (ho := inb_S4x128x128_S1x128x128_2_0_0) (b := 2) (row := 4 * t.val + 2) (col := 0) (N := 512 * t.val + 256) rfl (k0_off19_eq t ⟨2, by decide⟩) (by omega) (by omega) (by omega) rfl ?_
  refine ScaledUpTo.step (o := ![2, 0, 0]) (ho := inb_S4x128x128_S1x128x128_2_0_0) (b := 2) (row := 4 * t.val + 1) (col := 112) (N := 512 * t.val + 240) rfl (k0_off26_eq t ⟨1, by decide⟩) (by omega) (by omega) (by omega) rfl ?_
  refine ScaledUpTo.step (o := ![2, 0, 0]) (ho := inb_S4x128x128_S1x128x128_2_0_0) (b := 2) (row := 4 * t.val + 1) (col := 96) (N := 512 * t.val + 224) rfl (k0_off25_eq t ⟨1, by decide⟩) (by omega) (by omega) (by omega) rfl ?_
  refine ScaledUpTo.step (o := ![2, 0, 0]) (ho := inb_S4x128x128_S1x128x128_2_0_0) (b := 2) (row := 4 * t.val + 1) (col := 80) (N := 512 * t.val + 208) rfl (k0_off24_eq t ⟨1, by decide⟩) (by omega) (by omega) (by omega) rfl ?_
  refine ScaledUpTo.step (o := ![2, 0, 0]) (ho := inb_S4x128x128_S1x128x128_2_0_0) (b := 2) (row := 4 * t.val + 1) (col := 64) (N := 512 * t.val + 192) rfl (k0_off23_eq t ⟨1, by decide⟩) (by omega) (by omega) (by omega) rfl ?_
  refine ScaledUpTo.step (o := ![2, 0, 0]) (ho := inb_S4x128x128_S1x128x128_2_0_0) (b := 2) (row := 4 * t.val + 1) (col := 48) (N := 512 * t.val + 176) rfl (k0_off22_eq t ⟨1, by decide⟩) (by omega) (by omega) (by omega) rfl ?_
  refine ScaledUpTo.step (o := ![2, 0, 0]) (ho := inb_S4x128x128_S1x128x128_2_0_0) (b := 2) (row := 4 * t.val + 1) (col := 32) (N := 512 * t.val + 160) rfl (k0_off21_eq t ⟨1, by decide⟩) (by omega) (by omega) (by omega) rfl ?_
  refine ScaledUpTo.step (o := ![2, 0, 0]) (ho := inb_S4x128x128_S1x128x128_2_0_0) (b := 2) (row := 4 * t.val + 1) (col := 16) (N := 512 * t.val + 144) rfl (k0_off20_eq t ⟨1, by decide⟩) (by omega) (by omega) (by omega) rfl ?_
  refine ScaledUpTo.step (o := ![2, 0, 0]) (ho := inb_S4x128x128_S1x128x128_2_0_0) (b := 2) (row := 4 * t.val + 1) (col := 0) (N := 512 * t.val + 128) rfl (k0_off19_eq t ⟨1, by decide⟩) (by omega) (by omega) (by omega) rfl ?_
  refine ScaledUpTo.step (o := ![2, 0, 0]) (ho := inb_S4x128x128_S1x128x128_2_0_0) (b := 2) (row := 4 * t.val + 0) (col := 112) (N := 512 * t.val + 112) rfl (k0_off26_eq t ⟨0, by decide⟩) (by omega) (by omega) (by omega) rfl ?_
  refine ScaledUpTo.step (o := ![2, 0, 0]) (ho := inb_S4x128x128_S1x128x128_2_0_0) (b := 2) (row := 4 * t.val + 0) (col := 96) (N := 512 * t.val + 96) rfl (k0_off25_eq t ⟨0, by decide⟩) (by omega) (by omega) (by omega) rfl ?_
  refine ScaledUpTo.step (o := ![2, 0, 0]) (ho := inb_S4x128x128_S1x128x128_2_0_0) (b := 2) (row := 4 * t.val + 0) (col := 80) (N := 512 * t.val + 80) rfl (k0_off24_eq t ⟨0, by decide⟩) (by omega) (by omega) (by omega) rfl ?_
  refine ScaledUpTo.step (o := ![2, 0, 0]) (ho := inb_S4x128x128_S1x128x128_2_0_0) (b := 2) (row := 4 * t.val + 0) (col := 64) (N := 512 * t.val + 64) rfl (k0_off23_eq t ⟨0, by decide⟩) (by omega) (by omega) (by omega) rfl ?_
  refine ScaledUpTo.step (o := ![2, 0, 0]) (ho := inb_S4x128x128_S1x128x128_2_0_0) (b := 2) (row := 4 * t.val + 0) (col := 48) (N := 512 * t.val + 48) rfl (k0_off22_eq t ⟨0, by decide⟩) (by omega) (by omega) (by omega) rfl ?_
  refine ScaledUpTo.step (o := ![2, 0, 0]) (ho := inb_S4x128x128_S1x128x128_2_0_0) (b := 2) (row := 4 * t.val + 0) (col := 32) (N := 512 * t.val + 32) rfl (k0_off21_eq t ⟨0, by decide⟩) (by omega) (by omega) (by omega) rfl ?_
  refine ScaledUpTo.step (o := ![2, 0, 0]) (ho := inb_S4x128x128_S1x128x128_2_0_0) (b := 2) (row := 4 * t.val + 0) (col := 16) (N := 512 * t.val + 16) rfl (k0_off20_eq t ⟨0, by decide⟩) (by omega) (by omega) (by omega) rfl ?_
  refine ScaledUpTo.step (o := ![2, 0, 0]) (ho := inb_S4x128x128_S1x128x128_2_0_0) (b := 2) (row := 4 * t.val + 0) (col := 0) (N := 512 * t.val + 0) rfl (k0_off19_eq t ⟨0, by decide⟩) (by omega) (by omega) (by omega) rfl ?_
  exact ScaledTo.upTo (by omega) hX

/-- What the scaling loop of slot 3 keeps: the slot held by the tile, reading as the gathered rows `G` with the first `4 t`
    rows multiplied. -/
def invSv3 (d : Dev nD) (L : grid0.Coords) (G : S128x128.Idx → F .f32) (t : Nat) (_ : Unit) : sProp 𝕄 :=
  iprop(∃ X, ((slot3).view.loc (thr d L) ↦[(slot3).view.set]{fullShare} X) ∗ ⌜ScaledTo (slot3).view G (4 * t) X⌝)

/-- Trip `t` of the scaling loop of slot 3: its 32 stores multiply rows 4 t to 4 t + 3 of the slot, box after box. -/
theorem scale_region3 (d : Dev nD) (L : grid0.Coords) (G : S128x128.Idx → F .f32) (v2 : BitVec 32) (t : Fin k0_t5_loop.trips) (acc : Unit) :
    invSv3 d L G t.val acc ⊢ wp frame (wpE (defs₀ (F := F)) 𝒱₀ (thr d L) none) Set.univ
      (k0_t5_body L tW (Memref.isWhole_whole _) iW (Memref.isWhole_whole _) oW (Memref.isWhole_whole _) sI (Memref.isWhole_whole _) sR (Memref.isWhole_whole _)
        cc0_scratch2 cc0_scratch3 cc0_scratch4 cc0_scratch5 cc0_scratch6 cc0_scratch7 cc0_scratch8 cc0_scratch9 cc0_scoped0 v2 t acc)
      (fun acc' => invSv3 d L G (t.val + 1) acc') := by
  have ht : t.val < 32 := lt_of_lt_of_le t.isLt k0_t5_abs.2.1
  unfold invSv3
  iintro ⟨%X, HX, %hX⟩
  sl_exec
  sl_step
  iexists _
  isplitl [HX]; · iexact HX
  ipureintro
  refine ScaledUpTo.scaledTo (N := 512 * t.val + 512) (by omega) ?_
  refine ScaledUpTo.step (o := ![3, 0, 0]) (ho := inb_S4x128x128_S1x128x128_3_0_0) (b := 3) (row := 4 * t.val + 3) (col := 112) (N := 512 * t.val + 496) rfl (k0_off34_eq t ⟨3, by decide⟩) (by omega) (by omega) (by omega) rfl ?_
  refine ScaledUpTo.step (o := ![3, 0, 0]) (ho := inb_S4x128x128_S1x128x128_3_0_0) (b := 3) (row := 4 * t.val + 3) (col := 96) (N := 512 * t.val + 480) rfl (k0_off33_eq t ⟨3, by decide⟩) (by omega) (by omega) (by omega) rfl ?_
  refine ScaledUpTo.step (o := ![3, 0, 0]) (ho := inb_S4x128x128_S1x128x128_3_0_0) (b := 3) (row := 4 * t.val + 3) (col := 80) (N := 512 * t.val + 464) rfl (k0_off32_eq t ⟨3, by decide⟩) (by omega) (by omega) (by omega) rfl ?_
  refine ScaledUpTo.step (o := ![3, 0, 0]) (ho := inb_S4x128x128_S1x128x128_3_0_0) (b := 3) (row := 4 * t.val + 3) (col := 64) (N := 512 * t.val + 448) rfl (k0_off31_eq t ⟨3, by decide⟩) (by omega) (by omega) (by omega) rfl ?_
  refine ScaledUpTo.step (o := ![3, 0, 0]) (ho := inb_S4x128x128_S1x128x128_3_0_0) (b := 3) (row := 4 * t.val + 3) (col := 48) (N := 512 * t.val + 432) rfl (k0_off30_eq t ⟨3, by decide⟩) (by omega) (by omega) (by omega) rfl ?_
  refine ScaledUpTo.step (o := ![3, 0, 0]) (ho := inb_S4x128x128_S1x128x128_3_0_0) (b := 3) (row := 4 * t.val + 3) (col := 32) (N := 512 * t.val + 416) rfl (k0_off29_eq t ⟨3, by decide⟩) (by omega) (by omega) (by omega) rfl ?_
  refine ScaledUpTo.step (o := ![3, 0, 0]) (ho := inb_S4x128x128_S1x128x128_3_0_0) (b := 3) (row := 4 * t.val + 3) (col := 16) (N := 512 * t.val + 400) rfl (k0_off28_eq t ⟨3, by decide⟩) (by omega) (by omega) (by omega) rfl ?_
  refine ScaledUpTo.step (o := ![3, 0, 0]) (ho := inb_S4x128x128_S1x128x128_3_0_0) (b := 3) (row := 4 * t.val + 3) (col := 0) (N := 512 * t.val + 384) rfl (k0_off27_eq t ⟨3, by decide⟩) (by omega) (by omega) (by omega) rfl ?_
  refine ScaledUpTo.step (o := ![3, 0, 0]) (ho := inb_S4x128x128_S1x128x128_3_0_0) (b := 3) (row := 4 * t.val + 2) (col := 112) (N := 512 * t.val + 368) rfl (k0_off34_eq t ⟨2, by decide⟩) (by omega) (by omega) (by omega) rfl ?_
  refine ScaledUpTo.step (o := ![3, 0, 0]) (ho := inb_S4x128x128_S1x128x128_3_0_0) (b := 3) (row := 4 * t.val + 2) (col := 96) (N := 512 * t.val + 352) rfl (k0_off33_eq t ⟨2, by decide⟩) (by omega) (by omega) (by omega) rfl ?_
  refine ScaledUpTo.step (o := ![3, 0, 0]) (ho := inb_S4x128x128_S1x128x128_3_0_0) (b := 3) (row := 4 * t.val + 2) (col := 80) (N := 512 * t.val + 336) rfl (k0_off32_eq t ⟨2, by decide⟩) (by omega) (by omega) (by omega) rfl ?_
  refine ScaledUpTo.step (o := ![3, 0, 0]) (ho := inb_S4x128x128_S1x128x128_3_0_0) (b := 3) (row := 4 * t.val + 2) (col := 64) (N := 512 * t.val + 320) rfl (k0_off31_eq t ⟨2, by decide⟩) (by omega) (by omega) (by omega) rfl ?_
  refine ScaledUpTo.step (o := ![3, 0, 0]) (ho := inb_S4x128x128_S1x128x128_3_0_0) (b := 3) (row := 4 * t.val + 2) (col := 48) (N := 512 * t.val + 304) rfl (k0_off30_eq t ⟨2, by decide⟩) (by omega) (by omega) (by omega) rfl ?_
  refine ScaledUpTo.step (o := ![3, 0, 0]) (ho := inb_S4x128x128_S1x128x128_3_0_0) (b := 3) (row := 4 * t.val + 2) (col := 32) (N := 512 * t.val + 288) rfl (k0_off29_eq t ⟨2, by decide⟩) (by omega) (by omega) (by omega) rfl ?_
  refine ScaledUpTo.step (o := ![3, 0, 0]) (ho := inb_S4x128x128_S1x128x128_3_0_0) (b := 3) (row := 4 * t.val + 2) (col := 16) (N := 512 * t.val + 272) rfl (k0_off28_eq t ⟨2, by decide⟩) (by omega) (by omega) (by omega) rfl ?_
  refine ScaledUpTo.step (o := ![3, 0, 0]) (ho := inb_S4x128x128_S1x128x128_3_0_0) (b := 3) (row := 4 * t.val + 2) (col := 0) (N := 512 * t.val + 256) rfl (k0_off27_eq t ⟨2, by decide⟩) (by omega) (by omega) (by omega) rfl ?_
  refine ScaledUpTo.step (o := ![3, 0, 0]) (ho := inb_S4x128x128_S1x128x128_3_0_0) (b := 3) (row := 4 * t.val + 1) (col := 112) (N := 512 * t.val + 240) rfl (k0_off34_eq t ⟨1, by decide⟩) (by omega) (by omega) (by omega) rfl ?_
  refine ScaledUpTo.step (o := ![3, 0, 0]) (ho := inb_S4x128x128_S1x128x128_3_0_0) (b := 3) (row := 4 * t.val + 1) (col := 96) (N := 512 * t.val + 224) rfl (k0_off33_eq t ⟨1, by decide⟩) (by omega) (by omega) (by omega) rfl ?_
  refine ScaledUpTo.step (o := ![3, 0, 0]) (ho := inb_S4x128x128_S1x128x128_3_0_0) (b := 3) (row := 4 * t.val + 1) (col := 80) (N := 512 * t.val + 208) rfl (k0_off32_eq t ⟨1, by decide⟩) (by omega) (by omega) (by omega) rfl ?_
  refine ScaledUpTo.step (o := ![3, 0, 0]) (ho := inb_S4x128x128_S1x128x128_3_0_0) (b := 3) (row := 4 * t.val + 1) (col := 64) (N := 512 * t.val + 192) rfl (k0_off31_eq t ⟨1, by decide⟩) (by omega) (by omega) (by omega) rfl ?_
  refine ScaledUpTo.step (o := ![3, 0, 0]) (ho := inb_S4x128x128_S1x128x128_3_0_0) (b := 3) (row := 4 * t.val + 1) (col := 48) (N := 512 * t.val + 176) rfl (k0_off30_eq t ⟨1, by decide⟩) (by omega) (by omega) (by omega) rfl ?_
  refine ScaledUpTo.step (o := ![3, 0, 0]) (ho := inb_S4x128x128_S1x128x128_3_0_0) (b := 3) (row := 4 * t.val + 1) (col := 32) (N := 512 * t.val + 160) rfl (k0_off29_eq t ⟨1, by decide⟩) (by omega) (by omega) (by omega) rfl ?_
  refine ScaledUpTo.step (o := ![3, 0, 0]) (ho := inb_S4x128x128_S1x128x128_3_0_0) (b := 3) (row := 4 * t.val + 1) (col := 16) (N := 512 * t.val + 144) rfl (k0_off28_eq t ⟨1, by decide⟩) (by omega) (by omega) (by omega) rfl ?_
  refine ScaledUpTo.step (o := ![3, 0, 0]) (ho := inb_S4x128x128_S1x128x128_3_0_0) (b := 3) (row := 4 * t.val + 1) (col := 0) (N := 512 * t.val + 128) rfl (k0_off27_eq t ⟨1, by decide⟩) (by omega) (by omega) (by omega) rfl ?_
  refine ScaledUpTo.step (o := ![3, 0, 0]) (ho := inb_S4x128x128_S1x128x128_3_0_0) (b := 3) (row := 4 * t.val + 0) (col := 112) (N := 512 * t.val + 112) rfl (k0_off34_eq t ⟨0, by decide⟩) (by omega) (by omega) (by omega) rfl ?_
  refine ScaledUpTo.step (o := ![3, 0, 0]) (ho := inb_S4x128x128_S1x128x128_3_0_0) (b := 3) (row := 4 * t.val + 0) (col := 96) (N := 512 * t.val + 96) rfl (k0_off33_eq t ⟨0, by decide⟩) (by omega) (by omega) (by omega) rfl ?_
  refine ScaledUpTo.step (o := ![3, 0, 0]) (ho := inb_S4x128x128_S1x128x128_3_0_0) (b := 3) (row := 4 * t.val + 0) (col := 80) (N := 512 * t.val + 80) rfl (k0_off32_eq t ⟨0, by decide⟩) (by omega) (by omega) (by omega) rfl ?_
  refine ScaledUpTo.step (o := ![3, 0, 0]) (ho := inb_S4x128x128_S1x128x128_3_0_0) (b := 3) (row := 4 * t.val + 0) (col := 64) (N := 512 * t.val + 64) rfl (k0_off31_eq t ⟨0, by decide⟩) (by omega) (by omega) (by omega) rfl ?_
  refine ScaledUpTo.step (o := ![3, 0, 0]) (ho := inb_S4x128x128_S1x128x128_3_0_0) (b := 3) (row := 4 * t.val + 0) (col := 48) (N := 512 * t.val + 48) rfl (k0_off30_eq t ⟨0, by decide⟩) (by omega) (by omega) (by omega) rfl ?_
  refine ScaledUpTo.step (o := ![3, 0, 0]) (ho := inb_S4x128x128_S1x128x128_3_0_0) (b := 3) (row := 4 * t.val + 0) (col := 32) (N := 512 * t.val + 32) rfl (k0_off29_eq t ⟨0, by decide⟩) (by omega) (by omega) (by omega) rfl ?_
  refine ScaledUpTo.step (o := ![3, 0, 0]) (ho := inb_S4x128x128_S1x128x128_3_0_0) (b := 3) (row := 4 * t.val + 0) (col := 16) (N := 512 * t.val + 16) rfl (k0_off28_eq t ⟨0, by decide⟩) (by omega) (by omega) (by omega) rfl ?_
  refine ScaledUpTo.step (o := ![3, 0, 0]) (ho := inb_S4x128x128_S1x128x128_3_0_0) (b := 3) (row := 4 * t.val + 0) (col := 0) (N := 512 * t.val + 0) rfl (k0_off27_eq t ⟨0, by decide⟩) (by omega) (by omega) (by omega) rfl ?_
  exact ScaledTo.upTo (by omega) hX

end Cert.Proof.KI

end
-- ==== Proof.GatherValue.lean ====
/-
  What a gather of one chunk of the tile's index list leaves in a slot.

  The tile first copies its list of the index array (200 chunks of 128 words) into its scratch, whole.  A gather then
  takes chunk j of the scratch — 128 words — and fetches, for word p of the chunk, the table's row that word names into
  row p of the slot.  Word p of chunk j of the scratch is word (w, j, p) of the index array, w the tile's worker
  number; it is below 100000, so read as a row of the table it is its own value; hence row p, column c of the slot
  holds the table at (row named by word (w, j, p), column c).
-/
import proofs.«209300_g39805756900082_cont_8to1_b_88_12_alg».proof.Proof.ValSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-! ## Where the windows' indices land -/

/-- Word p of chunk j of the scratch sits at (j, p) of the scratch. -/
theorem rowM_emb (j : Fin 200) (ho : ∀ a, (![j.val, 0] : Fin 2 → Nat) a + S1x128.size a ≤ S200x128.size a) (p : Fin 128) :
    (rowM ![j.val, 0] ho).view.emb (ix1 p) = (ix2 j p : S200x128.Idx) := by
  show (Rect.unit (s := S200x128) ![j.val, 0] S1x128.size ho).emb (Shape.reshapeEquiv squeezes_S1x128_S128.numel_eq (ix1 p)) = _
  rw [Shape.reshapeEquiv_eq_of_rowMajor squeezes_S1x128_S128.numel_eq (y := (ix2 (0 : Fin 1) p))
    (by rw [Shape.rowMajor_val_two, Shape.rowMajor_val_one]; show 0 * 128 + p.val = p.val; omega)]
  funext a
  apply Fin.ext
  match a with
  | ⟨0, _⟩ => show j.val + 1 * 0 = j.val; omega
  | ⟨1, _⟩ => show 0 + 1 * p.val = p.val; omega

/-- Position (j, p) of the tile's list sits at (w, j, p) of the index array, w the tile's worker number. -/
theorem iRow_emb (L : grid0.Coords) (j : Fin 200) (p : Fin 128) :
    (iRow L).view.emb (ix2 j p) = (ix3 (wOf L) j p : S32x200x128.Idx) := by
  show (Rect.unit (s := S32x200x128) (k0_off1 L) S1x200x128.size (k0_off1_inb L)).emb
    (Shape.reshapeEquiv squeezes_S1x200x128_S200x128.numel_eq (ix2 j p)) = _
  rw [Shape.reshapeEquiv_eq_of_rowMajor squeezes_S1x200x128_S200x128.numel_eq (y := (ix3 (0 : Fin 1) j p))
    (by rw [Shape.rowMajor_val_three, Shape.rowMajor_val_two]; show (0 * 200 + j.val) * 128 + p.val = j.val * 128 + p.val; omega)]
  have hk := k0_off1_eq L
  funext a
  apply Fin.ext
  match a with
  | ⟨0, _⟩ =>
    show (k0_off1 L) 0 + 1 * 0 = 2 * (L 1).val + (L 0).val
    rw [hk]; show 2 * (L 1).val + (L 0).val + 1 * 0 = _; omega
  | ⟨1, _⟩ =>
    show (k0_off1 L) 1 + 1 * j.val = j.val
    rw [hk]; show 0 + 1 * j.val = _; omega
  | ⟨2, _⟩ =>
    show (k0_off1 L) 2 + 1 * p.val = p.val
    rw [hk]; show 0 + 1 * p.val = _; omega

/-- An index of the table read through the gather's name for the table is itself. -/
theorem tWs_emb (i : S100000x128.Idx) : (tWs).view.emb i = i := by
  funext a
  apply Fin.ext
  match a with
  | ⟨0, _⟩ => show 0 + 1 * (i 0).val = (i 0).val; omega
  | ⟨1, _⟩ => show 0 + 1 * (i 1).val = (i 1).val; omega

/-- Entry k of a list of 128 words in row-major order is the word at k. -/
theorem rowMajor_symm_S128 (k : Fin S128.numel) (p : Fin 128) (h : k.val = p.val) : S128.rowMajor.symm k = ix1 p :=
  (Equiv.symm_apply_eq _).mpr (Fin.ext (by rw [Shape.rowMajor_val_one]; exact h))

/-! ## The scratch's words -/

/-- Word p of chunk j of the scratch, once the scratch holds the tile's list, is word (w, j, p) of the index array. -/
theorem scratch_word (d : Dev nD) (L : grid0.Coords)
    (I3 : Buf (Elt F) ((iW : Memref sig .scVector .hbm S32x200x128 .i32).view.loc (thr d L)))
    (fi : Buf (Elt F) ((sI : Memref sig .scVector .vmem S200x128 .i32).view.loc (thr d L)))
    (j : Fin 200) (ho : ∀ a, (![j.val, 0] : Fin 2 → Nat) a + S1x128.size a ≤ S200x128.size a) (p : Fin 128) :
    View.read (Elt F) (rowM ![j.val, 0] ho).view (View.write (Elt F) (sI : Memref sig .scVector .vmem S200x128 .i32).view fi (ReadAs.same.apply (View.read (Elt F) (iRow L).view I3)) Finset.univ) (ix1 p) = I3 (ix3 (wOf L) j p) := by
  have hw : (View.write (Elt F) (sI : Memref sig .scVector .vmem S200x128 .i32).view fi (ReadAs.same.apply (View.read (Elt F) (iRow L).view I3)) Finset.univ)
      = ReadAs.same.apply (View.read (Elt F) (iRow L).view I3) := View.write_whole_univ _ _ _
  rw [hw]
  show I3 ((iRow L).view.emb ((rowM ![j.val, 0] ho).view.emb (ix1 p))) = I3 (ix3 (wOf L) j p)
  exact congrArg I3 ((congrArg (iRow L).view.emb (rowM_emb j ho p)).trans (iRow_emb L j p))

/-! ## The gather's payload -/

/-- The payload of the gather of chunk j at (p, c): the table at the row word (w, j, p) names, column c. -/
theorem gather_payload (d : Dev nD) (L : grid0.Coords)
    (tab : Buf (Elt F) ((tW : Memref sig .scVector .hbm S100000x128 .f32).view.loc (thr d L)))
    (I3 : Buf (Elt F) ((iW : Memref sig .scVector .hbm S32x200x128 .i32).view.loc (thr d L))) (hI : ∀ j, (I3 j).toNat < 100000)
    (fi : Buf (Elt F) ((sI : Memref sig .scVector .vmem S200x128 .i32).view.loc (thr d L)))
    (j : Fin 200) (ho : ∀ a, (![j.val, 0] : Fin 2 → Nat) a + S1x128.size a ≤ S200x128.size a) hn hin (y : S128x128.Idx) :
    SparseCore.gatherPayload gathers_S100000x128_S128x128 (View.read (Elt F) (tWs).view tab)
        (SparseCore.rows (View.read (Elt F) (rowM ![j.val, 0] ho).view (View.write (Elt F) (sI : Memref sig .scVector .vmem S200x128 .i32).view fi (ReadAs.same.apply (View.read (Elt F) (iRow L).view I3)) Finset.univ)) hn hin) y
      = gRows (wOf L) I3 tab j y := by
  obtain ⟨p, c, rfl⟩ : ∃ (p : Fin 128) (c : Fin 128), y = ix2 p c := ⟨y 0, y 1, eq_ix2 y⟩
  -- the row the list names for row p of the slot
  have hrow : (SparseCore.rows (View.read (Elt F) (rowM ![j.val, 0] ho).view (View.write (Elt F) (sI : Memref sig .scVector .vmem S200x128 .i32).view fi (ReadAs.same.apply (View.read (Elt F) (iRow L).view I3)) Finset.univ)) hn hin
      ((ix2 p c : S128x128.Idx) gathers_S100000x128_S128x128.axis')).val = (I3 (ix3 (wOf L) j p)).toNat := by
    unfold SparseCore.rows
    show (View.read (Elt F) (rowM ![j.val, 0] ho).view (View.write (Elt F) (sI : Memref sig .scVector .vmem S200x128 .i32).view fi (ReadAs.same.apply (View.read (Elt F) (iRow L).view I3)) Finset.univ) (S128.rowMajor.symm _)).toNat = _
    have hk : S128.rowMajor.symm (Fin.cast hn.symm ((ix2 p c : S128x128.Idx) gathers_S100000x128_S128x128.axis')) = ix1 p :=
      rowMajor_symm_S128 _ p rfl
    rw [hk, scratch_word d L I3 fi j ho p]
  unfold SparseCore.gatherPayload gRows
  show tab ((tWs).view.emb (gathers_S100000x128_S128x128.idx _ (ix2 p c))) = tab (ix2 (Cert.Spec.rowOfWord (I3 (ix3 (wOf L) j p))) c)
  refine congrArg tab ?_
  rw [tWs_emb]
  funext a
  apply Fin.ext
  match a with
  | ⟨0, _⟩ =>
    show (gathers_S100000x128_S128x128.idx _ (ix2 p c) gathers_S100000x128_S128x128.axis).val = (I3 (ix3 (wOf L) j p)).toNat % 100000
    rw [Shape.Gathers.idx_axis, hrow, Nat.mod_eq_of_lt (hI _)]
  | ⟨1, h1⟩ =>
    exact (Shape.Gathers.idx_of_ne gathers_S100000x128_S128x128 _ (ix2 p c) ⟨1, h1⟩ Nat.one_ne_zero).trans rfl

/-! ## The slot after the gather -/

/-- The slot read back after the gather, the executor's list form. -/
theorem gather_value_writes (d : Dev nD) (L : grid0.Coords)
    (tab : Buf (Elt F) ((tW : Memref sig .scVector .hbm S100000x128 .f32).view.loc (thr d L)))
    (I3 : Buf (Elt F) ((iW : Memref sig .scVector .hbm S32x200x128 .i32).view.loc (thr d L))) (hI : ∀ j, (I3 j).toNat < 100000)
    (fi : Buf (Elt F) ((sI : Memref sig .scVector .vmem S200x128 .i32).view.loc (thr d L)))
    (v : View sig .scVector .vmem S128x128 .f32) (Y : v.ty.Contents (Elt F)) (o : Fin 2 → Nat)
    (ho : ∀ a, o a + S1x128.size a ≤ S200x128.size a) (j : Fin 200) (e : o = ![j.val, 0]) hn hin (y : S128x128.Idx) :
    v.read (Elt F) (v.writes (Elt F) Y [⟨Rect.whole S128x128, SparseCore.gatherPayload gathers_S100000x128_S128x128 (View.read (Elt F) (tWs).view tab)
        (SparseCore.rows (View.read (Elt F) (rowM o ho).view (View.write (Elt F) (sI : Memref sig .scVector .vmem S200x128 .i32).view fi (ReadAs.same.apply (View.read (Elt F) (iRow L).view I3)) Finset.univ)) hn hin)⟩]) y
      = gRows (wOf L) I3 tab j y := by
  subst e
  have h := View.read_writes_cons_emb v Y (Rect.whole S128x128)
    (SparseCore.gatherPayload gathers_S100000x128_S128x128 (View.read (Elt F) (tWs).view tab)
      (SparseCore.rows (View.read (Elt F) (rowM ![j.val, 0] ho).view (View.write (Elt F) (sI : Memref sig .scVector .vmem S200x128 .i32).view fi (ReadAs.same.apply (View.read (Elt F) (iRow L).view I3)) Finset.univ)) hn hin)) [] y
  rw [Rect.emb_whole_apply] at h
  exact h.trans (gather_payload d L tab I3 hI fi j ho hn hin y)

/-- The slot read back after the gather, the single whole write. -/
theorem gather_value_write (d : Dev nD) (L : grid0.Coords)
    (tab : Buf (Elt F) ((tW : Memref sig .scVector .hbm S100000x128 .f32).view.loc (thr d L)))
    (I3 : Buf (Elt F) ((iW : Memref sig .scVector .hbm S32x200x128 .i32).view.loc (thr d L))) (hI : ∀ j, (I3 j).toNat < 100000)
    (fi : Buf (Elt F) ((sI : Memref sig .scVector .vmem S200x128 .i32).view.loc (thr d L)))
    (v : View sig .scVector .vmem S128x128 .f32) (Y : v.ty.Contents (Elt F)) (o : Fin 2 → Nat)
    (ho : ∀ a, o a + S1x128.size a ≤ S200x128.size a) (j : Fin 200) (e : o = ![j.val, 0]) hn hin (y : S128x128.Idx) :
    v.read (Elt F) (View.write (Elt F) v Y (SparseCore.gatherPayload gathers_S100000x128_S128x128 (View.read (Elt F) (tWs).view tab)
        (SparseCore.rows (View.read (Elt F) (rowM o ho).view (View.write (Elt F) (sI : Memref sig .scVector .vmem S200x128 .i32).view fi (ReadAs.same.apply (View.read (Elt F) (iRow L).view I3)) Finset.univ)) hn hin)) Finset.univ) y
      = gRows (wOf L) I3 tab j y := by
  subst e
  exact (View.read_write_of_mem Y _ (Finset.mem_univ y)).trans (gather_payload d L tab I3 hI fi j ho hn hin y)

end Cert.Proof.KI

end
-- ==== Proof.OutValue.lean ====
/-
  The tile's rows of the flat output, chunk by chunk.

  The tile with worker number w owns rows [25600 w, 25600 (w + 1)) of the flat output: 200 chunks of 128 rows.  Writing
  chunk k — rows 25600 w + 128 k and the 127 after it — with the scaled rows the gather of chunk k fetched makes those
  rows what the specification says (row r = 25600 w + 128 k + p is named by word (r / 25600, r % 25600 / 128, r % 128)
  = (w, k, p) of the index array), and leaves every other row as it was.  After all 200 chunks the tile's rows are the
  specification's.
-/
import proofs.«209300_g39805756900082_cont_8to1_b_88_12_alg».proof.Proof.ValSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-! ## A chunk's elements -/

/-- Position (p, c) of the chunk at offset o sits at (o 0 + p, c) of the output. -/
theorem chunkM_emb (o : Fin 2 → Nat) (ho : ∀ a, o a + S128x128.size a ≤ S819200x128.size a) (p c : Fin 128) (r : Fin 819200)
    (hr : r.val = o 0 + p.val) (ho1 : o 1 = 0) :
    (chunkM o ho).view.emb (ix2 p c) = (ix2 r c : S819200x128.Idx) := by
  funext a
  apply Fin.ext
  match a with
  | ⟨0, _⟩ => show o 0 + 1 * p.val = r.val; omega
  | ⟨1, _⟩ => show o 1 + 1 * c.val = c.val; omega

/-- A row before the chunk's first, or after its last, is not one of the chunk's. -/
theorem not_mem_chunk (o : Fin 2 → Nat) (ho : ∀ a, o a + S128x128.size a ≤ S819200x128.size a) (r : Fin 819200) (c : Fin 128)
    (h : r.val < o 0 ∨ o 0 + 128 ≤ r.val) :
    (ix2 r c : S819200x128.Idx) ∉ (chunkM o ho).view.setOn Finset.univ := by
  have hs : (chunkM o ho).view.set = (Rect.unit (s := S819200x128) o S128x128.size ho).set := View.set_slice_whole _ _
  rw [View.setOn_univ, hs, Rect.mem_set_unit]
  intro hall
  have h0 : o 0 ≤ r.val ∧ r.val < o 0 + 128 := hall 0
  omega

theorem ix3_congr {n0 n1 n2 : Nat} {a a' : Fin n0} {b b' : Fin n1} {c c' : Fin n2} (ha : a = a') (hb : b = b') (hc : c = c') :
    ix3 a b c = ix3 a' b' c' := by subst ha hb hc; rfl

/-! ## One chunk written -/

/-- Writing chunk k with the scaled rows of the gather of chunk k extends the tile's good rows from k chunks to k + 1. -/
theorem out_step1 (L : grid0.Coords) (I3 : S32x200x128.Idx → BitVec 32) (tab : S100000x128.Idx → F .f32) (k : Nat) (jk : Fin 200)
    (hjk : jk.val = k) (f : S819200x128.Idx → F .f32) (hf : OutOK L I3 tab k f) (o : Fin 2 → Nat)
    (ho : ∀ a, o a + S128x128.size a ≤ S819200x128.size a) (eo : o = ![25600 * (wOf L).val + 128 * k, 0])
    (v : View sig .scVector .vmem S128x128 .f32) (Y : v.ty.Contents (Elt F))
    (h : ∀ y, v.read (Elt F) Y y = FloatOps.mulf (gRows (wOf L) I3 tab jk y) Cert.Spec.scale) (m : Nat) (hm : m = k + 1) :
    OutOK L I3 tab m (View.write (Elt F) (chunkM o ho).view f (ReadAs.same.apply (v.read (Elt F) Y)) Finset.univ) := by
  subst hm
  intro r c hlo hhi
  have hw := (wOf L).isLt
  have hjlt := jk.isLt
  have ho0 : o 0 = 25600 * (wOf L).val + 128 * k := by rw [eo]; rfl
  have ho1 : o 1 = 0 := by rw [eo]; rfl
  by_cases hr : r.val < 25600 * (wOf L).val + 128 * k
  · -- a row of an earlier chunk: not touched
    have hnm := not_mem_chunk o ho r c (Or.inl (by omega))
    have hkeep := View.write_of_not_mem (v := (chunkM o ho).view) f (ReadAs.same.apply (v.read (Elt F) Y)) Finset.univ hnm
    exact hkeep.trans (hf r c hlo hr)
  · -- a row of this chunk: the payload's row p = r − (the chunk's first row)
    have hp : r.val - o 0 < 128 := by omega
    have hemb := chunkM_emb o ho ⟨r.val - o 0, hp⟩ c r (by show r.val = o 0 + (r.val - o 0); omega) ho1
    have hval : View.write (Elt F) (chunkM o ho).view f (ReadAs.same.apply (v.read (Elt F) Y)) Finset.univ (ix2 r c)
        = v.read (Elt F) Y (ix2 ⟨r.val - o 0, hp⟩ c) := by
      have hwr := View.write_emb_of_mem (v := (chunkM o ho).view) f (ReadAs.same.apply (v.read (Elt F) Y))
        (Finset.mem_univ (ix2 (⟨r.val - o 0, hp⟩ : Fin 128) c))
      rw [hemb] at hwr
      exact hwr
    have hword : Cert.Spec.wordOf I3 r = I3 (ix3 (wOf L) jk ⟨r.val - o 0, hp⟩) := by
      unfold Cert.Spec.wordOf
      exact congrArg I3 (ix3_congr (Fin.ext (by show r.val / 25600 = (wOf L).val; omega))
        (Fin.ext (by show r.val % 25600 / 128 = jk.val; omega)) (Fin.ext (by show r.val % 128 = r.val - o 0; omega)))
    refine hval.trans ((h _).trans ?_)
    show FloatOps.mulf (tab (ix2 (Cert.Spec.rowOfWord (I3 (ix3 (wOf L) jk ⟨r.val - o 0, hp⟩))) c)) Cert.Spec.scale
      = FloatOps.mulf (tab (ix2 (Cert.Spec.rowOfWord (Cert.Spec.wordOf I3 r)) c)) Cert.Spec.scale
    rw [hword]

/-! ## Four chunks written, and all of them -/

/-- Four chunks written one after the other extend the tile's good rows by four chunks. -/
theorem out_step (L : grid0.Coords) (I3 : S32x200x128.Idx → BitVec 32) (tab : S100000x128.Idx → F .f32) (n : Nat) (hn : n + 4 ≤ 200)
    (f : S819200x128.Idx → F .f32) (hf : OutOK L I3 tab n f) (c0 c1 c2 c3 : Fin 2 → Nat) hc0 hc1 hc2 hc3
    (e0 : c0 = ![25600 * (wOf L).val + 128 * (n + 0), 0]) (e1 : c1 = ![25600 * (wOf L).val + 128 * (n + 1), 0])
    (e2 : c2 = ![25600 * (wOf L).val + 128 * (n + 2), 0]) (e3 : c3 = ![25600 * (wOf L).val + 128 * (n + 3), 0])
    (v0 v1 v2 v3 : View sig .scVector .vmem S128x128 .f32) (Y0 : v0.ty.Contents (Elt F)) (Y1 : v1.ty.Contents (Elt F))
    (Y2 : v2.ty.Contents (Elt F)) (Y3 : v3.ty.Contents (Elt F))
    (h0 : ∀ y, v0.read (Elt F) Y0 y = FloatOps.mulf (gRows (wOf L) I3 tab ⟨n + 0, by omega⟩ y) Cert.Spec.scale)
    (h1 : ∀ y, v1.read (Elt F) Y1 y = FloatOps.mulf (gRows (wOf L) I3 tab ⟨n + 1, by omega⟩ y) Cert.Spec.scale)
    (h2 : ∀ y, v2.read (Elt F) Y2 y = FloatOps.mulf (gRows (wOf L) I3 tab ⟨n + 2, by omega⟩ y) Cert.Spec.scale)
    (h3 : ∀ y, v3.read (Elt F) Y3 y = FloatOps.mulf (gRows (wOf L) I3 tab ⟨n + 3, by omega⟩ y) Cert.Spec.scale) :
    OutOK L I3 tab (n + 4) (View.write (Elt F) (chunkM c3 hc3).view (View.write (Elt F) (chunkM c2 hc2).view (View.write (Elt F) (chunkM c1 hc1).view (View.write (Elt F) (chunkM c0 hc0).view f (ReadAs.same.apply (v0.read (Elt F) Y0)) Finset.univ)
      (ReadAs.same.apply (v1.read (Elt F) Y1)) Finset.univ) (ReadAs.same.apply (v2.read (Elt F) Y2)) Finset.univ)
      (ReadAs.same.apply (v3.read (Elt F) Y3)) Finset.univ) :=
  out_step1 L I3 tab (n + 3) ⟨n + 3, by omega⟩ rfl _
    (out_step1 L I3 tab (n + 2) ⟨n + 2, by omega⟩ rfl _
      (out_step1 L I3 tab (n + 1) ⟨n + 1, by omega⟩ rfl _
        (out_step1 L I3 tab (n + 0) ⟨n + 0, by omega⟩ rfl f hf c0 hc0 e0 v0 Y0 h0 (n + 1) (by omega))
        c1 hc1 e1 v1 Y1 h1 (n + 2) (by omega))
      c2 hc2 e2 v2 Y2 h2 (n + 3) (by omega))
    c3 hc3 e3 v3 Y3 h3 (n + 4) (by omega)

/-- With all 200 chunks good, the tile's rows hold the specification's rows: the two contents agree on them. -/
theorem out_final (d : Dev nD) (L : grid0.Coords) (I3 : S32x200x128.Idx → BitVec 32) (tab : S100000x128.Idx → F .f32)
    (f : Buf (Elt F) ((oW : Memref sig .scVector .hbm S819200x128 .f32).view.loc (thr d L))) (hf : OutOK L I3 tab 200 f) :
    (((oW : Memref sig .scVector .hbm S819200x128 .f32).view.loc (thr d L) ↦[(oW : Memref sig .scVector .hbm S819200x128 .f32).view.setOn (oTR L).set]{fullShare} f : sProp 𝕄))
      = ((oW : Memref sig .scVector .hbm S819200x128 .f32).view.loc (thr d L) ↦[(oW : Memref sig .scVector .hbm S819200x128 .f32).view.setOn (oTR L).set]{fullShare} (Cert.Spec.gathered I3 tab)) := by
  refine pointsTo_congr (fun i hi => ?_)
  obtain ⟨x, hx, rfl⟩ := Finset.mem_map.mp hi
  have hm := Rect.mem_set_unit.mp hx
  have h0 : 51200 * (L 1).val + 25600 * (L 0).val ≤ (x 0).val ∧ (x 0).val < 51200 * (L 1).val + 25600 * (L 0).val + 25600 := hm 0
  have key := hf (x 0) (x 1) (by show 25600 * (2 * (L 1).val + (L 0).val) ≤ (x 0).val; omega)
    (by show (x 0).val < 25600 * (2 * (L 1).val + (L 0).val) + 128 * 200; omega)
  have hxe : (oW : Memref sig .scVector .hbm S819200x128 .f32).view.emb x = ix2 (x 0) (x 1) := eq_ix2 x
  exact (congrArg f hxe).trans (key.trans (congrArg (Cert.Spec.gathered I3 tab) hxe.symm))

end Cert.Proof.KI

end
-- ==== Proof.IdxRange.lean ====
/-
  The index words a tile has copied into its scratch name rows of the table.

  The scratch (200 chunks of 128 words) is written whole with the tile's list of the index array, so each of its
  words is a word of that array; a 128-word chunk of the scratch read through any in-bounds window therefore reads
  words of the array, and every word of the array is below 100000.
-/
import proofs.«209300_g39805756900082_cont_8to1_b_88_12_alg».proof.Proof.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Every word read through a 128-word window of the scratch, once the scratch has been overwritten whole with the
    tile's list of index words, is below 100000 when every word of the index array is. -/
theorem idx_words_in_range (d : Dev nD) (L : grid0.Coords)
    (I3 : Buf (Elt F) ((iW : Memref sig .scVector .hbm S32x200x128 .i32).view.loc (thr d L)))
    (hI : ∀ j, (I3 j).toNat < 100000)
    (g : Buf (Elt F) ((sI : Memref sig .scVector .vmem S200x128 .i32).view.loc (thr d L)))
    (off : Fin 2 → Nat) (hoff : ∀ a, off a + S1x128.size a ≤ S200x128.size a)
    (hs : ∀ (a : Fin S200x128.rank), (Rect.unit (s := S200x128) off S1x128.size hoff).stride a = 1) (x : S128.Idx) :
    (View.read (Elt F) (((sI : Memref sig .scVector .vmem S200x128 .i32).slice (Rect.unit (s := S200x128) off S1x128.size hoff) hs).squeeze S128 squeezes_S1x128_S128).view
      (View.write (Elt F) (sI : Memref sig .scVector .vmem S200x128 .i32).view g (ReadAs.same.apply (View.read (Elt F) (iRow L).view I3)) Finset.univ) x).toNat < 100000 := by
  -- the scratch after the whole write holds exactly the list that was written
  have hw : View.write (Elt F) (sI : Memref sig .scVector .vmem S200x128 .i32).view g (ReadAs.same.apply (View.read (Elt F) (iRow L).view I3)) Finset.univ
      = ReadAs.same.apply (View.read (Elt F) (iRow L).view I3) := View.write_whole_univ _ _ _
  rw [hw]
  -- a read of a read: the word of the index array under the list's index under the window's index
  exact hI _

end Cert.Proof.KI

end
-- ==== Proof.Trips.lean ====
/-
  The chunk loop of one tile's task, trip by trip.  Before trip k the gathers of chunks 4k … 4k+3 are in flight, one per
  slot; the trip awaits each, scales its 128 rows in place, issues the rows' write-back into the tile's rows of the
  output, and — except in the last trip — awaits each write-back and issues the slot's next gather.  The invariant
  carries, beside the resources, what every buffer holds: the rows each gather will deliver, and the chunks of the
  output already written.
-/
import proofs.«209300_g39805756900082_cont_8to1_b_88_12_alg».proof.Proof.ScaleLoops
import proofs.«209300_g39805756900082_cont_8to1_b_88_12_alg».proof.Proof.GatherValue
import proofs.«209300_g39805756900082_cont_8to1_b_88_12_alg».proof.Proof.OutValue
import proofs.«209300_g39805756900082_cont_8to1_b_88_12_alg».proof.Proof.IdxRange

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx
variable [FloatOps F]

section Tile
variable (d : Dev nD) (L : grid0.Coords)

/-- The tile's index scratch once its slab of the index array has been copied in. -/
abbrev FIof (fi : Buf (Elt F) ((sI : Memref sig .scVector .vmem S200x128 .i32).view.loc (thr d L)))
    (I3 : Buf (Elt F) ((iW : Memref sig .scVector .hbm S32x200x128 .i32).view.loc (thr d L))) :
    Buf (Elt F) ((sI : Memref sig .scVector .vmem S200x128 .i32).view.loc (thr d L)) :=
  View.write (Elt F) (sI : Memref sig .scVector .vmem S200x128 .i32).view fi (ReadAs.same.apply (View.read (Elt F) (iRow L).view I3)) Finset.univ

/-- Chunk `4 k + b` of the tile. -/
abbrev jK (k b : Nat) (hk : k < 50) (hb : b < 4) : Fin 200 := ⟨4 * k + b, by omega⟩

/-- The state between two trips of the chunk loop: four gathers in flight, one per slot, each reading its chunk of the
    index list (at offsets `o0 … o3`) and bound to deliver the rows of chunk `j0 … j3`; no write in flight; the tile's
    rows of the output held whole, its first `n` chunks written. -/
def invAo (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1))
    (o0 o1 o2 o3 : Fin 2 → Nat) (h0 : ∀ a, o0 a + S1x128.size a ≤ S200x128.size a) (h1 : ∀ a, o1 a + S1x128.size a ≤ S200x128.size a)
    (h2 : ∀ a, o2 a + S1x128.size a ≤ S200x128.size a) (h3 : ∀ a, o3 a + S1x128.size a ≤ S200x128.size a)
    (j0 j1 j2 j3 : Fin 200) (n : Nat) : sProp 𝕄 :=
  iprop(Transfers.MayWaits (thr d L) (none : HIx 1) O
    ∗ (∃ X0, (Transfers.Flight countersEmb (thr d L) (SemLoc.dma cc0_scratch2.sem) default 524288
        iprop((((slot0).view.loc (thr d L) ↦[(slot0).view.set]{fullShare} X0)
            ∗ ((rowM o0 h0).view.loc (thr d L) ↦[(rowM o0 h0).view.set]{fullShare} FIof d L fi I3))
          ∗ ((tWs).view.loc (thr d L) ↦[(tWs).view.set]{Transfers.shareTok qT 4 0} tab))) ∗ ⌜∀ y, (slot0).view.read (Elt F) X0 y = gRows (wOf L) I3 tab j0 y⌝)
    ∗ (∃ X1, (Transfers.Flight countersEmb (thr d L) (SemLoc.dma cc0_scratch3.sem) default 524288
        iprop((((slot1).view.loc (thr d L) ↦[(slot1).view.set]{fullShare} X1)
            ∗ ((rowM o1 h1).view.loc (thr d L) ↦[(rowM o1 h1).view.set]{fullShare} FIof d L fi I3))
          ∗ ((tWs).view.loc (thr d L) ↦[(tWs).view.set]{Transfers.shareTok qT 4 1} tab))) ∗ ⌜∀ y, (slot1).view.read (Elt F) X1 y = gRows (wOf L) I3 tab j1 y⌝)
    ∗ (∃ X2, (Transfers.Flight countersEmb (thr d L) (SemLoc.dma cc0_scratch4.sem) default 524288
        iprop((((slot2).view.loc (thr d L) ↦[(slot2).view.set]{fullShare} X2)
            ∗ ((rowM o2 h2).view.loc (thr d L) ↦[(rowM o2 h2).view.set]{fullShare} FIof d L fi I3))
          ∗ ((tWs).view.loc (thr d L) ↦[(tWs).view.set]{Transfers.shareTok qT 4 2} tab))) ∗ ⌜∀ y, (slot2).view.read (Elt F) X2 y = gRows (wOf L) I3 tab j2 y⌝)
    ∗ (∃ X3, (Transfers.Flight countersEmb (thr d L) (SemLoc.dma cc0_scratch5.sem) default 524288
        iprop((((slot3).view.loc (thr d L) ↦[(slot3).view.set]{fullShare} X3)
            ∗ ((rowM o3 h3).view.loc (thr d L) ↦[(rowM o3 h3).view.set]{fullShare} FIof d L fi I3))
          ∗ ((tWs).view.loc (thr d L) ↦[(tWs).view.set]{Transfers.shareTok qT 4 3} tab))) ∗ ⌜∀ y, (slot3).view.read (Elt F) X3 y = gRows (wOf L) I3 tab j3 y⌝)
    ∗ ((tWs).view.loc (thr d L) ↦[Finset.univ \ (tWs).view.set]{Transfers.shareTok qT 4 0} tab)
    ∗ ((tWs).view.loc (thr d L) ↦[Finset.univ \ (tWs).view.set]{Transfers.shareTok qT 4 1} tab)
    ∗ ((tWs).view.loc (thr d L) ↦[Finset.univ \ (tWs).view.set]{Transfers.shareTok qT 4 2} tab)
    ∗ ((tWs).view.loc (thr d L) ↦[Finset.univ \ (tWs).view.set]{Transfers.shareTok qT 4 3} tab)
    ∗ (∃ Z, (sR : Memref sig .scVector .vmem S4x128x128 .f32).view.loc (thr d L) ↦[(((Finset.univ \ (slot0).view.set) \ (slot1).view.set) \ (slot2).view.set) \ (slot3).view.set]{fullShare} Z)
    ∗ ((sI : Memref sig .scVector .vmem S200x128 .i32).view.loc (thr d L) ↦[(((Finset.univ \ (rowM o0 h0).view.set) \ (rowM o1 h1).view.set) \ (rowM o2 h2).view.set) \ (rowM o3 h3).view.set]{fullShare} FIof d L fi I3)
    ∗ (∃ f, ((oW : Memref sig .scVector .hbm S819200x128 .f32).view.loc (thr d L) ↦[(oW : Memref sig .scVector .hbm S819200x128 .f32).view.setOn (oTR L).set]{fullShare} f) ∗ ⌜OutOK L I3 tab n f⌝)
    ∗ semVal (thr d L, SemLoc.dma cc0_scratch6.sem) 0 ∗ semVal (thr d L, SemLoc.dma cc0_scratch7.sem) 0
    ∗ semVal (thr d L, SemLoc.dma cc0_scratch8.sem) 0 ∗ semVal (thr d L, SemLoc.dma cc0_scratch9.sem) 0
    ∗ ∃ W', ⌜∀ p ∈ W', p ∈ W ∨ p.2 = none⌝ ∗ owes (thr d L) O W')

theorem invAo_congr (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1))
    {o0 o1 o2 o3 o0' o1' o2' o3' : Fin 2 → Nat} (e0 : o0 = o0') (e1 : o1 = o1') (e2 : o2 = o2') (e3 : o3 = o3') h0 h1 h2 h3 h0' h1' h2' h3'
    (j0 j1 j2 j3 : Fin 200) {n n' : Nat} (en : n = n') :
    invAo d L qT tab I3 fi O W o0 o1 o2 o3 h0 h1 h2 h3 j0 j1 j2 j3 n = invAo d L qT tab I3 fi O W o0' o1' o2' o3' h0' h1' h2' h3' j0 j1 j2 j3 n' := by
  subst e0 e1 e2 e3 en; rfl

/-- Before trip `k` of the chunk loop (k < 50): the gathers of chunks 4k … 4k+3 are in flight, chunks below 4k written. -/
def invA (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (k : Nat) (hk : k < 50) : sProp 𝕄 :=
  invAo d L qT tab I3 fi O W (offK k 0) (offK k 1) (offK k 2) (offK k 3) (offK_inb hk h04) (offK_inb hk h14) (offK_inb hk h24) (offK_inb hk h34)
    (jK k 0 hk h04) (jK k 1 hk h14) (jK k 2 hk h24) (jK k 3 hk h34) (4 * k)

theorem trips_eq : k0_t1_loop.trips = 50 := by decide +kernel
theorem t2_trips : k0_t2_loop.trips = 32 := by decide +kernel
theorem t3_trips : k0_t3_loop.trips = 32 := by decide +kernel
theorem t4_trips : k0_t4_loop.trips = 32 := by decide +kernel
theorem t5_trips : k0_t5_loop.trips = 32 := by decide +kernel

/-- The last trip of the chunk loop. -/
abbrev kLast : Fin k0_t1_loop.trips := ⟨49, by rw [trips_eq]; decide⟩

theorem cond1_lt : ∀ k : Fin k0_t1_loop.trips, k.val < 49 → k0_cond1 k = 1#1 := by decide +kernel
theorem cond1_ge : ∀ k : Fin k0_t1_loop.trips, ¬ k.val < 49 → ¬ k0_cond1 k = 1#1 := by decide +kernel

omit [FloatOps F] in
theorem off36_eq (k : Fin k0_t1_loop.trips) (b : Fin 4) : k0_off36 k (BitVec.ofNat 32 b.val) = ![4 * (k.val + 1) + b.val, 0] :=
  (k0_off36_eq k b).trans (congrArg (fun a => (![a, 0] : Fin 2 → Nat)) (by omega))

omit [FloatOps F] in
theorem off10_eq (k : Fin k0_t1_loop.trips) (b : Fin 4) : k0_off10 L k (BitVec.ofNat 32 b.val) = ![25600 * (wOf L).val + 128 * (4 * k.val + b.val), 0] :=
  (k0_off10_eq L k b).trans (congrArg (fun a => (![a, 0] : Fin 2 → Nat)) (by show _ = 25600 * (2 * (L 1).val + (L 0).val) + _; omega))

set_option sl_exec.dmaWindowLent true in
/-- One trip of the chunk loop that is not the last: each slot's gather is awaited, its rows scaled in place and their
    write-back issued; then each write-back is awaited and the slot's next gather issued. -/
theorem trip_lt (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (hI : ∀ j, (I3 j).toNat < 100000) (v2 : BitVec 32)
    (k : Fin k0_t1_loop.trips) (hk : k.val < 50) (hk49 : k.val < 49) (k0_h1 : k0_cond1 k = 1#1) :
    invA d L qT tab I3 fi O W k.val hk
      ⊢ wp frame (wpE (defs₀ (F := F)) 𝒱₀ (thr d L) none) Set.univ
          (k0_t1_body L tW (Memref.isWhole_whole _) iW (Memref.isWhole_whole _) oW (Memref.isWhole_whole _) sI (Memref.isWhole_whole _) sR (Memref.isWhole_whole _) cc0_scratch2 cc0_scratch3 cc0_scratch4 cc0_scratch5 cc0_scratch6 cc0_scratch7 cc0_scratch8 cc0_scratch9 cc0_scoped0 v2 k ())
          fun _ => invAo d L qT tab I3 fi O W (k0_off36 k 0#32) (k0_off36 k 1#32) (k0_off36 k 2#32) (k0_off36 k 3#32)
            (k0_off36_inb k k0_h1 0) (k0_off36_inb k k0_h1 1) (k0_off36_inb k k0_h1 2) (k0_off36_inb k k0_h1 3)
            (jK (k.val + 1) 0 (by omega) h04) (jK (k.val + 1) 1 (by omega) h14) (jK (k.val + 1) 2 (by omega) h24) (jK (k.val + 1) 3 (by omega) h34) (4 * k.val + 4) := by
  have hFI := idx_words_in_range d L I3 hI fi
  unfold invA invAo k0_t1_body
  iintro ⟨#Hmw, ⟨%X0, Hg0, %hX0⟩, ⟨%X1, Hg1, %hX1⟩, ⟨%X2, Hg2, %hX2⟩, ⟨%X3, Hg3, %hX3⟩, Ht0, Ht1, Ht2, Ht3, ⟨%Z, HsR⟩, HsI, ⟨%f, Ho, %hf⟩, Hw0, Hw1, Hw2, Hw3, %W', %hW', HO⟩
  sl_exec
  sl_for (invSv0 d L (gRows (wOf L) I3 tab (jK k.val 0 hk h04))) $$ [Hg0_dst]
  case region => intro t acc; exact scale_region0 d L _ v2 0#32 1#32 k t acc
  · unfold invSv0; iexists _; isplitl [Hg0_dst]
    · iexact Hg0_dst
    · ipureintro; exact ScaledTo.zero hX0
  iintro %_ HI
  unfold invSv0
  icases HI with ⟨%Y0, Hs0, %hY0'⟩
  have hY0 : ∀ y, (slot0).view.read (Elt F) Y0 y = FloatOps.mulf (gRows (wOf L) I3 tab (jK k.val 0 hk h04) y) Cert.Spec.scale :=
    ScaledTo.all (by have h := hY0'; rwa [show Scf.trips k0_t2_loop.lb k0_t2_loop.ub k0_t2_loop.st = 32 from t2_trips] at h)
  sl_exec
  sl_for (invSv1 d L (gRows (wOf L) I3 tab (jK k.val 1 hk h14))) $$ [Hg1_dst]
  case region => intro t acc; exact scale_region1 d L _ v2 k _ _ _ t acc
  · unfold invSv1; iexists _; isplitl [Hg1_dst]
    · iexact Hg1_dst
    · ipureintro; exact ScaledTo.zero hX1
  iintro %_ HI
  unfold invSv1
  icases HI with ⟨%Y1, Hs1, %hY1'⟩
  have hY1 : ∀ y, (slot1).view.read (Elt F) Y1 y = FloatOps.mulf (gRows (wOf L) I3 tab (jK k.val 1 hk h14) y) Cert.Spec.scale :=
    ScaledTo.all (by have h := hY1'; rwa [show Scf.trips k0_t3_loop.lb k0_t3_loop.ub k0_t3_loop.st = 32 from t3_trips] at h)
  sl_exec
  sl_for (invSv2 d L (gRows (wOf L) I3 tab (jK k.val 2 hk h24))) $$ [Hg2_dst]
  case region => intro t acc; exact scale_region2 d L _ v2 k _ _ _ t acc
  · unfold invSv2; iexists _; isplitl [Hg2_dst]
    · iexact Hg2_dst
    · ipureintro; exact ScaledTo.zero hX2
  iintro %_ HI
  unfold invSv2
  icases HI with ⟨%Y2, Hs2, %hY2'⟩
  have hY2 : ∀ y, (slot2).view.read (Elt F) Y2 y = FloatOps.mulf (gRows (wOf L) I3 tab (jK k.val 2 hk h24) y) Cert.Spec.scale :=
    ScaledTo.all (by have h := hY2'; rwa [show Scf.trips k0_t4_loop.lb k0_t4_loop.ub k0_t4_loop.st = 32 from t4_trips] at h)
  sl_exec
  sl_for (invSv3 d L (gRows (wOf L) I3 tab (jK k.val 3 hk h34))) $$ [Hg3_dst]
  case region => intro t acc; exact scale_region3 d L _ v2 t acc
  · unfold invSv3; iexists _; isplitl [Hg3_dst]
    · iexact Hg3_dst
    · ipureintro; exact ScaledTo.zero hX3
  iintro %_ HI
  unfold invSv3
  icases HI with ⟨%Y3, Hs3, %hY3'⟩
  have hY3 : ∀ y, (slot3).view.read (Elt F) Y3 y = FloatOps.mulf (gRows (wOf L) I3 tab (jK k.val 3 hk h34) y) Cert.Spec.scale :=
    ScaledTo.all (by have h := hY3'; rwa [show Scf.trips k0_t5_loop.lb k0_t5_loop.ub k0_t5_loop.st = 32 from t5_trips] at h)
  ihave HsI' := (Entails.of_eq (show (_ : sProp 𝕄) = ((sI : Memref sig .scVector .vmem S200x128 .i32).view.loc (thr d L) ↦{fullShare} FIof d L fi I3) from rfl)) $$ HsI
  sl_exec
  sl_step
  isplitr; · iexact Hmw
  isplitl [Hg0]
  · iexists _; isplitl [Hg0]; · iexact Hg0
    ipureintro; intro y; exact gather_value_writes d L tab I3 hI fi _ _ _ _ (jK (k.val + 1) 0 (by omega) h04) (off36_eq k 0) _ _ y
  isplitl [Hg1]
  · iexists _; isplitl [Hg1]; · iexact Hg1
    ipureintro; intro y; exact gather_value_writes d L tab I3 hI fi _ _ _ _ (jK (k.val + 1) 1 (by omega) h14) (off36_eq k 1) _ _ y
  isplitl [Hg2]
  · iexists _; isplitl [Hg2]; · iexact Hg2
    ipureintro; intro y; exact gather_value_writes d L tab I3 hI fi _ _ _ _ (jK (k.val + 1) 2 (by omega) h24) (off36_eq k 2) _ _ y
  isplitl [Hg3]
  · iexists _; isplitl [Hg3]; · iexact Hg3
    ipureintro; intro y; exact gather_value_writes d L tab I3 hI fi _ _ _ _ (jK (k.val + 1) 3 (by omega) h34) (off36_eq k 3) _ _ y
  isplitl [Ht0]; · iexact Ht0
  isplitl [Ht1]; · iexact Ht1
  isplitl [Ht2]; · iexact Ht2
  isplitl [Ht3]; · iexact Ht3
  isplitl [HsR]; · iexists _; iexact HsR
  isplitl [HsI']; · iexact HsI'
  isplitl [Ho]
  · iexists _; isplitl [Ho]; · iexact Ho
    ipureintro
    exact out_step L I3 tab (4 * k.val) (by omega) f hf _ _ _ _ _ _ _ _ (off10_eq L k 0) (off10_eq L k 1) (off10_eq L k 2) (off10_eq L k 3)
      (slot0).view (slot1).view (slot2).view (slot3).view Y0 Y1 Y2 Y3 hY0 hY1 hY2 hY3
  isplitl [Hw0]; · iexact Hw0
  isplitl [Hw1]; · iexact Hw1
  isplitl [Hw2]; · iexact Hw2
  isplitl [Hw3]; · iexact Hw3
  iexists _; isplitr
  swap
  · iexact HO
  · ipureintro
    intro p hp
    simp only [Finset.mem_insert] at hp
    rcases hp with rfl | rfl | rfl | rfl | rfl | rfl | rfl | rfl | hp
    all_goals first | exact .inr rfl | exact hW' p hp

/-- The state after the last trip: no gather in flight; the four write-backs of chunks 196 … 199 in flight, each
    holding its slot and its chunk of the output; the rest of the tile's rows of the output held; as a function, the
    output already holds every chunk. -/
def invB (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) : sProp 𝕄 :=
  iprop(Transfers.MayWaits (thr d L) (none : HIx 1) O
    ∗ ((tWs).view.loc (thr d L) ↦{Transfers.shareTok qT 4 0} tab) ∗ ((tWs).view.loc (thr d L) ↦{Transfers.shareTok qT 4 1} tab)
    ∗ ((tWs).view.loc (thr d L) ↦{Transfers.shareTok qT 4 2} tab) ∗ ((tWs).view.loc (thr d L) ↦{Transfers.shareTok qT 4 3} tab)
    ∗ semVal (thr d L, SemLoc.dma cc0_scratch2.sem) 0 ∗ semVal (thr d L, SemLoc.dma cc0_scratch3.sem) 0
    ∗ semVal (thr d L, SemLoc.dma cc0_scratch4.sem) 0 ∗ semVal (thr d L, SemLoc.dma cc0_scratch5.sem) 0
    ∗ (∃ f P0 P1 P2 P3 Y0 Y1 Y2 Y3,
        (Transfers.Flight countersEmb (thr d L) (SemLoc.dma cc0_scratch6.sem) default 524288
          iprop(((oW : Memref sig .scVector .hbm S819200x128 .f32).view.loc (thr d L) ↦[(chunkM (k0_off10 L kLast 0#32) (k0_off10_inb L kLast 0)).view.set]{fullShare} (View.write (Elt F) (chunkM (k0_off10 L kLast 0#32) (k0_off10_inb L kLast 0)).view f P0 Finset.univ))
            ∗ ((slot0).view.loc (thr d L) ↦[(slot0).view.set]{fullShare} Y0)))
      ∗ (Transfers.Flight countersEmb (thr d L) (SemLoc.dma cc0_scratch7.sem) default 524288
          iprop(((oW : Memref sig .scVector .hbm S819200x128 .f32).view.loc (thr d L) ↦[(chunkM (k0_off10 L kLast 1#32) (k0_off10_inb L kLast 1)).view.set]{fullShare} (View.write (Elt F) (chunkM (k0_off10 L kLast 1#32) (k0_off10_inb L kLast 1)).view (View.write (Elt F) (chunkM (k0_off10 L kLast 0#32) (k0_off10_inb L kLast 0)).view f P0 Finset.univ) P1 Finset.univ))
            ∗ ((slot1).view.loc (thr d L) ↦[(slot1).view.set]{fullShare} Y1)))
      ∗ (Transfers.Flight countersEmb (thr d L) (SemLoc.dma cc0_scratch8.sem) default 524288
          iprop(((oW : Memref sig .scVector .hbm S819200x128 .f32).view.loc (thr d L) ↦[(chunkM (k0_off10 L kLast 2#32) (k0_off10_inb L kLast 2)).view.set]{fullShare} (View.write (Elt F) (chunkM (k0_off10 L kLast 2#32) (k0_off10_inb L kLast 2)).view (View.write (Elt F) (chunkM (k0_off10 L kLast 1#32) (k0_off10_inb L kLast 1)).view (View.write (Elt F) (chunkM (k0_off10 L kLast 0#32) (k0_off10_inb L kLast 0)).view f P0 Finset.univ) P1 Finset.univ) P2 Finset.univ))
            ∗ ((slot2).view.loc (thr d L) ↦[(slot2).view.set]{fullShare} Y2)))
      ∗ (Transfers.Flight countersEmb (thr d L) (SemLoc.dma cc0_scratch9.sem) default 524288
          iprop(((oW : Memref sig .scVector .hbm S819200x128 .f32).view.loc (thr d L) ↦[(chunkM (k0_off10 L kLast 3#32) (k0_off10_inb L kLast 3)).view.set]{fullShare} (View.write (Elt F) (chunkM (k0_off10 L kLast 3#32) (k0_off10_inb L kLast 3)).view (View.write (Elt F) (chunkM (k0_off10 L kLast 2#32) (k0_off10_inb L kLast 2)).view (View.write (Elt F) (chunkM (k0_off10 L kLast 1#32) (k0_off10_inb L kLast 1)).view (View.write (Elt F) (chunkM (k0_off10 L kLast 0#32) (k0_off10_inb L kLast 0)).view f P0 Finset.univ) P1 Finset.univ) P2 Finset.univ) P3 Finset.univ))
            ∗ ((slot3).view.loc (thr d L) ↦[(slot3).view.set]{fullShare} Y3)))
      ∗ ((oW : Memref sig .scVector .hbm S819200x128 .f32).view.loc (thr d L) ↦[((((oW : Memref sig .scVector .hbm S819200x128 .f32).view.setOn (oTR L).set \ (chunkM (k0_off10 L kLast 0#32) (k0_off10_inb L kLast 0)).view.set) \ (chunkM (k0_off10 L kLast 1#32) (k0_off10_inb L kLast 1)).view.set) \ (chunkM (k0_off10 L kLast 2#32) (k0_off10_inb L kLast 2)).view.set) \ (chunkM (k0_off10 L kLast 3#32) (k0_off10_inb L kLast 3)).view.set]{fullShare} (View.write (Elt F) (chunkM (k0_off10 L kLast 3#32) (k0_off10_inb L kLast 3)).view (View.write (Elt F) (chunkM (k0_off10 L kLast 2#32) (k0_off10_inb L kLast 2)).view (View.write (Elt F) (chunkM (k0_off10 L kLast 1#32) (k0_off10_inb L kLast 1)).view (View.write (Elt F) (chunkM (k0_off10 L kLast 0#32) (k0_off10_inb L kLast 0)).view f P0 Finset.univ) P1 Finset.univ) P2 Finset.univ) P3 Finset.univ))
      ∗ ⌜OutOK L I3 tab 200 (View.write (Elt F) (chunkM (k0_off10 L kLast 3#32) (k0_off10_inb L kLast 3)).view (View.write (Elt F) (chunkM (k0_off10 L kLast 2#32) (k0_off10_inb L kLast 2)).view (View.write (Elt F) (chunkM (k0_off10 L kLast 1#32) (k0_off10_inb L kLast 1)).view (View.write (Elt F) (chunkM (k0_off10 L kLast 0#32) (k0_off10_inb L kLast 0)).view f P0 Finset.univ) P1 Finset.univ) P2 Finset.univ) P3 Finset.univ)⌝)
    ∗ (∃ Z, (sR : Memref sig .scVector .vmem S4x128x128 .f32).view.loc (thr d L) ↦[(((Finset.univ \ (slot0).view.set) \ (slot1).view.set) \ (slot2).view.set) \ (slot3).view.set]{fullShare} Z)
    ∗ ((sI : Memref sig .scVector .vmem S200x128 .i32).view.loc (thr d L) ↦{fullShare} FIof d L fi I3)
    ∗ ∃ W', ⌜∀ p ∈ W', p ∈ W ∨ p.2 = none⌝ ∗ owes (thr d L) O W')

set_option sl_exec.dmaWindowLent true in
/-- The last trip of the chunk loop: as the others, but the write-backs are left in flight and no gather is issued. -/
theorem trip_last (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (hI : ∀ j, (I3 j).toNat < 100000) (v2 : BitVec 32) (k0_h1 : ¬ k0_cond1 kLast = 1#1) :
    invA d L qT tab I3 fi O W kLast.val (by decide)
      ⊢ wp frame (wpE (defs₀ (F := F)) 𝒱₀ (thr d L) none) Set.univ
          (k0_t1_body L tW (Memref.isWhole_whole _) iW (Memref.isWhole_whole _) oW (Memref.isWhole_whole _) sI (Memref.isWhole_whole _) sR (Memref.isWhole_whole _) cc0_scratch2 cc0_scratch3 cc0_scratch4 cc0_scratch5 cc0_scratch6 cc0_scratch7 cc0_scratch8 cc0_scratch9 cc0_scoped0 v2 kLast ())
          fun _ => invB d L qT tab I3 fi O W := by
  have hk : kLast.val < 50 := by decide
  have hFI := idx_words_in_range d L I3 hI fi
  unfold invA invAo invB k0_t1_body
  iintro ⟨#Hmw, ⟨%X0, Hg0, %hX0⟩, ⟨%X1, Hg1, %hX1⟩, ⟨%X2, Hg2, %hX2⟩, ⟨%X3, Hg3, %hX3⟩, Ht0, Ht1, Ht2, Ht3, ⟨%Z, HsR⟩, HsI, ⟨%f, Ho, %hf⟩, Hw0, Hw1, Hw2, Hw3, %W', %hW', HO⟩
  sl_exec
  sl_for (invSv0 d L (gRows (wOf L) I3 tab (jK kLast.val 0 hk h04))) $$ [Hg0_dst]
  case region => intro t acc; exact scale_region0 d L _ v2 0#32 1#32 kLast t acc
  · unfold invSv0; iexists _; isplitl [Hg0_dst]
    · iexact Hg0_dst
    · ipureintro; exact ScaledTo.zero hX0
  iintro %_ HI
  unfold invSv0
  icases HI with ⟨%Y0, Hs0, %hY0'⟩
  have hY0 : ∀ y, (slot0).view.read (Elt F) Y0 y = FloatOps.mulf (gRows (wOf L) I3 tab (jK kLast.val 0 hk h04) y) Cert.Spec.scale :=
    ScaledTo.all (by have h := hY0'; rwa [show Scf.trips k0_t2_loop.lb k0_t2_loop.ub k0_t2_loop.st = 32 from t2_trips] at h)
  sl_exec
  sl_for (invSv1 d L (gRows (wOf L) I3 tab (jK kLast.val 1 hk h14))) $$ [Hg1_dst]
  case region => intro t acc; exact scale_region1 d L _ v2 kLast _ _ _ t acc
  · unfold invSv1; iexists _; isplitl [Hg1_dst]
    · iexact Hg1_dst
    · ipureintro; exact ScaledTo.zero hX1
  iintro %_ HI
  unfold invSv1
  icases HI with ⟨%Y1, Hs1, %hY1'⟩
  have hY1 : ∀ y, (slot1).view.read (Elt F) Y1 y = FloatOps.mulf (gRows (wOf L) I3 tab (jK kLast.val 1 hk h14) y) Cert.Spec.scale :=
    ScaledTo.all (by have h := hY1'; rwa [show Scf.trips k0_t3_loop.lb k0_t3_loop.ub k0_t3_loop.st = 32 from t3_trips] at h)
  sl_exec
  sl_for (invSv2 d L (gRows (wOf L) I3 tab (jK kLast.val 2 hk h24))) $$ [Hg2_dst]
  case region => intro t acc; exact scale_region2 d L _ v2 kLast _ _ _ t acc
  · unfold invSv2; iexists _; isplitl [Hg2_dst]
    · iexact Hg2_dst
    · ipureintro; exact ScaledTo.zero hX2
  iintro %_ HI
  unfold invSv2
  icases HI with ⟨%Y2, Hs2, %hY2'⟩
  have hY2 : ∀ y, (slot2).view.read (Elt F) Y2 y = FloatOps.mulf (gRows (wOf L) I3 tab (jK kLast.val 2 hk h24) y) Cert.Spec.scale :=
    ScaledTo.all (by have h := hY2'; rwa [show Scf.trips k0_t4_loop.lb k0_t4_loop.ub k0_t4_loop.st = 32 from t4_trips] at h)
  sl_exec
  sl_for (invSv3 d L (gRows (wOf L) I3 tab (jK kLast.val 3 hk h34))) $$ [Hg3_dst]
  case region => intro t acc; exact scale_region3 d L _ v2 t acc
  · unfold invSv3; iexists _; isplitl [Hg3_dst]
    · iexact Hg3_dst
    · ipureintro; exact ScaledTo.zero hX3
  iintro %_ HI
  unfold invSv3
  icases HI with ⟨%Y3, Hs3, %hY3'⟩
  have hY3 : ∀ y, (slot3).view.read (Elt F) Y3 y = FloatOps.mulf (gRows (wOf L) I3 tab (jK kLast.val 3 hk h34) y) Cert.Spec.scale :=
    ScaledTo.all (by have h := hY3'; rwa [show Scf.trips k0_t5_loop.lb k0_t5_loop.ub k0_t5_loop.st = 32 from t5_trips] at h)
  ihave HsI' := (Entails.of_eq (show (_ : sProp 𝕄) = ((sI : Memref sig .scVector .vmem S200x128 .i32).view.loc (thr d L) ↦{fullShare} FIof d L fi I3) from rfl)) $$ HsI
  sl_exec
  sl_step
  isplitr; · iexact Hmw
  isplitl [Ht0]; · iexact Ht0
  isplitl [Ht1]; · iexact Ht1
  isplitl [Ht2]; · iexact Ht2
  isplitl [Ht3]; · iexact Ht3
  isplitl [Hg0]; · iexact Hg0
  isplitl [Hg1]; · iexact Hg1
  isplitl [Hg2]; · iexact Hg2
  isplitl [Hg3]; · iexact Hg3
  isplitl [Hw0 Hw1 Hw2 Hw3 Ho]
  · iexists f; iexists _; iexists _; iexists _; iexists _; iexists Y0; iexists Y1; iexists Y2; iexists Y3
    isplitl [Hw0]; · iexact Hw0
    isplitl [Hw1]; · iexact Hw1
    isplitl [Hw2]; · iexact Hw2
    isplitl [Hw3]; · iexact Hw3
    isplitl [Ho]; · iexact Ho
    ipureintro
    exact out_step L I3 tab (4 * kLast.val) (by decide) f hf _ _ _ _ _ _ _ _ (off10_eq L kLast 0) (off10_eq L kLast 1) (off10_eq L kLast 2) (off10_eq L kLast 3)
      (slot0).view (slot1).view (slot2).view (slot3).view Y0 Y1 Y2 Y3 hY0 hY1 hY2 hY3
  isplitl [HsR]; · iexists _; iexact HsR
  isplitl [HsI']; · iexact HsI'
  iexists _; isplitr
  swap
  · iexact HO
  · ipureintro
    intro p hp
    simp only [Finset.mem_insert] at hp
    rcases hp with rfl | rfl | rfl | rfl | hp
    all_goals first | exact .inr rfl | exact hW' p hp

end Tile
end Cert.Proof.KI
end
-- ==== Proof.JoinSlots.lean ====
/-
  The rows scratch put together again from its four slots.

  The scratch holds 4 × 128 × 128 numbers; slot k is the 128 × 128 block whose first coordinate is k.  Blocks with
  different first coordinates share no element, so the four slots and what is left of the scratch once they are
  carved out (nothing, in fact) are five disjoint parts; held together, each at its own contents, they are the whole
  scratch held at the contents that agree with each part on its elements.
-/
import proofs.«209300_g39805756900082_cont_8to1_b_88_12_alg».proof.Proof.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slots' elements, and their disjointness -/

/-- Slot 0's elements are those of the scratch whose first coordinate is 0. -/
theorem slot0_set : (slot0).view.set
    = (Rect.unit (s := S4x128x128) ![0, 0, 0] S1x128x128.size inb_S4x128x128_S1x128x128_0_0_0).set := by
  simp only [Memref.view_squeeze, Memref.view_slice, Memref.view_whole, View.set_reshape, View.set_slice_whole]

/-- Slot 1's elements are those of the scratch whose first coordinate is 1. -/
theorem slot1_set : (slot1).view.set
    = (Rect.unit (s := S4x128x128) ![1, 0, 0] S1x128x128.size inb_S4x128x128_S1x128x128_1_0_0).set := by
  simp only [Memref.view_squeeze, Memref.view_slice, Memref.view_whole, View.set_reshape, View.set_slice_whole]

/-- Slot 2's elements are those of the scratch whose first coordinate is 2. -/
theorem slot2_set : (slot2).view.set
    = (Rect.unit (s := S4x128x128) ![2, 0, 0] S1x128x128.size inb_S4x128x128_S1x128x128_2_0_0).set := by
  simp only [Memref.view_squeeze, Memref.view_slice, Memref.view_whole, View.set_reshape, View.set_slice_whole]

/-- Slot 3's elements are those of the scratch whose first coordinate is 3. -/
theorem slot3_set : (slot3).view.set
    = (Rect.unit (s := S4x128x128) ![3, 0, 0] S1x128x128.size inb_S4x128x128_S1x128x128_3_0_0).set := by
  simp only [Memref.view_squeeze, Memref.view_slice, Memref.view_whole, View.set_reshape, View.set_slice_whole]

theorem slots_disjoint_10 : Disjoint (slot1).view.set (slot0).view.set := by
  rw [slot1_set, slot0_set]
  exact Rect.unit_disjoint 0 (Or.inr (by decide))

theorem slots_disjoint_20 : Disjoint (slot2).view.set (slot0).view.set := by
  rw [slot2_set, slot0_set]
  exact Rect.unit_disjoint 0 (Or.inr (by decide))

theorem slots_disjoint_21 : Disjoint (slot2).view.set (slot1).view.set := by
  rw [slot2_set, slot1_set]
  exact Rect.unit_disjoint 0 (Or.inr (by decide))

theorem slots_disjoint_30 : Disjoint (slot3).view.set (slot0).view.set := by
  rw [slot3_set, slot0_set]
  exact Rect.unit_disjoint 0 (Or.inr (by decide))

theorem slots_disjoint_31 : Disjoint (slot3).view.set (slot1).view.set := by
  rw [slot3_set, slot1_set]
  exact Rect.unit_disjoint 0 (Or.inr (by decide))

theorem slots_disjoint_32 : Disjoint (slot3).view.set (slot2).view.set := by
  rw [slot3_set, slot2_set]
  exact Rect.unit_disjoint 0 (Or.inr (by decide))

/-! ## The join -/

/-- The remainder and the four slots, each held whole at its own contents, are the scratch held whole at some
    contents: each slot in turn is put back into what it was carved out of, the contents taken piecewise. -/
theorem join_slots (d : Dev nD) (L : grid0.Coords)
    (Z Y0 Y1 Y2 Y3 : Buf (Elt F) ((sR : Memref sig .scVector .vmem S4x128x128 .f32).view.loc (thr d L))) :
    (iprop(((sR : Memref sig .scVector .vmem S4x128x128 .f32).view.loc (thr d L) ↦[(((Finset.univ \ (slot0).view.set) \ (slot1).view.set) \ (slot2).view.set) \ (slot3).view.set]{fullShare} Z)
        ∗ ((slot0).view.loc (thr d L) ↦[(slot0).view.set]{fullShare} Y0) ∗ ((slot1).view.loc (thr d L) ↦[(slot1).view.set]{fullShare} Y1)
        ∗ ((slot2).view.loc (thr d L) ↦[(slot2).view.set]{fullShare} Y2) ∗ ((slot3).view.loc (thr d L) ↦[(slot3).view.set]{fullShare} Y3)) : sProp 𝕄)
      ⊢ iprop(∃ f, (sR : Memref sig .scVector .vmem S4x128x128 .f32).view.loc (thr d L) ↦{fullShare} f) := by
  have h3 : (slot3).view.set ⊆ ((Finset.univ \ (slot0).view.set) \ (slot1).view.set) \ (slot2).view.set :=
    Finset.subset_sdiff.mpr ⟨Finset.subset_sdiff.mpr ⟨Finset.subset_sdiff.mpr ⟨Finset.subset_univ _, slots_disjoint_30⟩,
      slots_disjoint_31⟩, slots_disjoint_32⟩
  have h2 : (slot2).view.set ⊆ (Finset.univ \ (slot0).view.set) \ (slot1).view.set :=
    Finset.subset_sdiff.mpr ⟨Finset.subset_sdiff.mpr ⟨Finset.subset_univ _, slots_disjoint_20⟩, slots_disjoint_21⟩
  have h1 : (slot1).view.set ⊆ Finset.univ \ (slot0).view.set :=
    Finset.subset_sdiff.mpr ⟨Finset.subset_univ _, slots_disjoint_10⟩
  have h0 : (slot0).view.set ⊆ Finset.univ := Finset.subset_univ _
  iintro ⟨HZ, H0, H1, H2, H3⟩
  ihave HA := (pointsTo_join_subset (ℓ := (sR : Memref sig .scVector .vmem S4x128x128 .f32).view.loc (thr d L))
      (q := fullShare) (f := Z) (g := Y3) h3) $$ [H3 HZ]
  · isplitl [H3]; · iexact H3
    iexact HZ
  ihave HB := (pointsTo_join_subset (ℓ := (sR : Memref sig .scVector .vmem S4x128x128 .f32).view.loc (thr d L))
      (q := fullShare) (g := Y2) h2) $$ [H2 HA]
  · isplitl [H2]; · iexact H2
    iexact HA
  ihave HC := (pointsTo_join_subset (ℓ := (sR : Memref sig .scVector .vmem S4x128x128 .f32).view.loc (thr d L))
      (q := fullShare) (g := Y1) h1) $$ [H1 HB]
  · isplitl [H1]; · iexact H1
    iexact HB
  ihave HD := (pointsTo_join_subset (ℓ := (sR : Memref sig .scVector .vmem S4x128x128 .f32).view.loc (thr d L))
      (q := fullShare) (g := Y0) h0) $$ [H0 HC]
  · isplitl [H0]; · iexact H0
    iexact HC
  iexists _
  iexact HD

end Cert.Proof.KI

end
-- ==== Proof.JoinOut.lean ====
/-
  The tile's rows of the output put together again after the last four chunks are written.

  Chunks 196 to 199 of the tile's rows are written one after the other.  What is left holds the rows in five parts: the
  four chunks, each at the contents as of its own write, and the rest of the tile's rows at the final contents.  The
  chunks are disjoint blocks of rows inside the tile's rows, and a write into one chunk changes nothing in another, so
  each chunk already holds the final contents on its own rows; parts of one set held at one contents are the set held
  at those contents.
-/
import proofs.«209300_g39805756900082_cont_8to1_b_88_12_alg».proof.Proof.OutValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Five parts of a set, each agreeing with one contents on its elements -/

/-- A set held in five parts — four subsets carved out in turn and the remainder — each at contents that agree with
    `G` on the part, is the set held at `G`. -/
theorem join_five {ℓ : Loc nD τ sig} (T s0 s1 s2 s3 : Finset (Idx ℓ)) (G G0 G1 G2 G3 : Buf (Elt F) ℓ)
    (h0 : s0 ⊆ T) (h1 : s1 ⊆ T \ s0) (h2 : s2 ⊆ (T \ s0) \ s1) (h3 : s3 ⊆ ((T \ s0) \ s1) \ s2)
    (a0 : ∀ i ∈ s0, G0 i = G i) (a1 : ∀ i ∈ s1, G1 i = G i) (a2 : ∀ i ∈ s2, G2 i = G i) (a3 : ∀ i ∈ s3, G3 i = G i) :
    (iprop((ℓ ↦[(((T \ s0) \ s1) \ s2) \ s3]{fullShare} G) ∗ (ℓ ↦[s0]{fullShare} G0) ∗ (ℓ ↦[s1]{fullShare} G1)
        ∗ (ℓ ↦[s2]{fullShare} G2) ∗ (ℓ ↦[s3]{fullShare} G3)) : sProp 𝕄)
      ⊢ (ℓ ↦[T]{fullShare} G) := by
  rw [pointsTo_congr a0, pointsTo_congr a1, pointsTo_congr a2, pointsTo_congr a3]
  iintro ⟨HR, H0, H1, H2, H3⟩
  ihave HA := ((pointsTo_split_subset (ℓ := ℓ) (q := fullShare) (f := G) h3).2) $$ [H3 HR]
  · isplitl [H3]; · iexact H3
    iexact HR
  ihave HB := ((pointsTo_split_subset (ℓ := ℓ) (q := fullShare) (f := G) h2).2) $$ [H2 HA]
  · isplitl [H2]; · iexact H2
    iexact HA
  ihave HC := ((pointsTo_split_subset (ℓ := ℓ) (q := fullShare) (f := G) h1).2) $$ [H1 HB]
  · isplitl [H1]; · iexact H1
    iexact HB
  ihave HD := ((pointsTo_split_subset (ℓ := ℓ) (q := fullShare) (f := G) h0).2) $$ [H0 HC]
  · isplitl [H0]; · iexact H0
    iexact HC
  iexact HD

/-! ## The chunks as sets of rows -/

/-- A chunk's elements are those of the output whose row lies in its 128 rows. -/
theorem chunk_set (o : Fin 2 → Nat) (ho : ∀ a, o a + S128x128.size a ≤ S819200x128.size a) :
    (chunkM o ho).view.set = (Rect.unit (s := S819200x128) o S128x128.size ho).set := View.set_slice_whole _ _

/-- The tile's rows, as elements of the output's buffer. -/
theorem tile_set (L : grid0.Coords) : (oW : Memref sig .scVector .hbm S819200x128 .f32).view.setOn (oTR L).set = (oTR L).set := Finset.map_refl

/-- Chunk k of the tile lies inside the tile's rows. -/
theorem chunk_subset_tile (L : grid0.Coords) (o : Fin 2 → Nat) (ho : ∀ a, o a + S128x128.size a ≤ S819200x128.size a)
    (k : Nat) (hk : k < 200) (eo : o = ![25600 * (wOf L).val + 128 * k, 0]) :
    (chunkM o ho).view.set ⊆ (oW : Memref sig .scVector .hbm S819200x128 .f32).view.setOn (oTR L).set := by
  rw [chunk_set, tile_set]
  intro i hi
  rw [Rect.mem_set_unit] at hi ⊢
  have ho0 : o 0 = 25600 * (2 * (L 1).val + (L 0).val) + 128 * k := by rw [eo]; rfl
  have ho1 : o 1 = 0 := by rw [eo]; rfl
  have h0 : o 0 ≤ (i 0).val ∧ (i 0).val < o 0 + 128 := hi 0
  have h1 : o 1 ≤ (i 1).val ∧ (i 1).val < o 1 + 128 := hi 1
  intro a
  match a with
  | ⟨0, _⟩ =>
    show 51200 * (L 1).val + 25600 * (L 0).val ≤ (i 0).val ∧ (i 0).val < 51200 * (L 1).val + 25600 * (L 0).val + 25600
    omega
  | ⟨1, _⟩ =>
    show 0 ≤ (i 1).val ∧ (i 1).val < 0 + 128
    omega

/-- Different chunks of the tile share no element. -/
theorem chunks_disjoint (L : grid0.Coords) (o o' : Fin 2 → Nat) (ho : ∀ a, o a + S128x128.size a ≤ S819200x128.size a)
    (ho' : ∀ a, o' a + S128x128.size a ≤ S819200x128.size a) (k k' : Nat) (hkk : k ≠ k')
    (eo : o = ![25600 * (wOf L).val + 128 * k, 0]) (eo' : o' = ![25600 * (wOf L).val + 128 * k', 0]) :
    Disjoint (chunkM o ho).view.set (chunkM o' ho').view.set := by
  rw [chunk_set, chunk_set]
  have ho0 : o 0 = 25600 * (wOf L).val + 128 * k := by rw [eo]; rfl
  have ho0' : o' 0 = 25600 * (wOf L).val + 128 * k' := by rw [eo']; rfl
  exact Rect.unit_disjoint 0 (by show o 0 + 128 ≤ o' 0 ∨ o' 0 + 128 ≤ o 0; omega)

/-- A write into a chunk leaves every element outside the chunk as it was. -/
theorem write_keep (o : Fin 2 → Nat) (ho : ∀ a, o a + S128x128.size a ≤ S819200x128.size a)
    (g : (chunkM o ho).view.ty.Contents (Elt F)) (P : S128x128.Idx → Elt F .f32) (i : (chunkM o ho).view.ty.Idx)
    (hi : i ∉ (chunkM o ho).view.set) : View.write (Elt F) (chunkM o ho).view g P Finset.univ i = g i :=
  View.write_of_not_mem g P Finset.univ hi

/-! ## The join -/

theorem join_out (d : Dev nD) (L : grid0.Coords) (c0 c1 c2 c3 : Fin 2 → Nat) hc0 hc1 hc2 hc3
    (e0 : c0 = ![25600 * (wOf L).val + 128 * (196 + 0), 0]) (e1 : c1 = ![25600 * (wOf L).val + 128 * (196 + 1), 0])
    (e2 : c2 = ![25600 * (wOf L).val + 128 * (196 + 2), 0]) (e3 : c3 = ![25600 * (wOf L).val + 128 * (196 + 3), 0])
    (f : Buf (Elt F) ((oW : Memref sig .scVector .hbm S819200x128 .f32).view.loc (thr d L))) (P0 P1 P2 P3 : S128x128.Idx → Elt F .f32) :
    (iprop(((oW : Memref sig .scVector .hbm S819200x128 .f32).view.loc (thr d L) ↦[(((((oW : Memref sig .scVector .hbm S819200x128 .f32).view.setOn (oTR L).set) \ (chunkM c0 hc0).view.set) \ (chunkM c1 hc1).view.set) \ (chunkM c2 hc2).view.set) \ (chunkM c3 hc3).view.set]{fullShare} (View.write (Elt F) (chunkM c3 hc3).view (View.write (Elt F) (chunkM c2 hc2).view (View.write (Elt F) (chunkM c1 hc1).view (View.write (Elt F) (chunkM c0 hc0).view f P0 Finset.univ) P1 Finset.univ) P2 Finset.univ) P3 Finset.univ))
      ∗ ((oW : Memref sig .scVector .hbm S819200x128 .f32).view.loc (thr d L) ↦[(chunkM c0 hc0).view.set]{fullShare} (View.write (Elt F) (chunkM c0 hc0).view f P0 Finset.univ))
      ∗ ((oW : Memref sig .scVector .hbm S819200x128 .f32).view.loc (thr d L) ↦[(chunkM c1 hc1).view.set]{fullShare} (View.write (Elt F) (chunkM c1 hc1).view (View.write (Elt F) (chunkM c0 hc0).view f P0 Finset.univ) P1 Finset.univ))
      ∗ ((oW : Memref sig .scVector .hbm S819200x128 .f32).view.loc (thr d L) ↦[(chunkM c2 hc2).view.set]{fullShare} (View.write (Elt F) (chunkM c2 hc2).view (View.write (Elt F) (chunkM c1 hc1).view (View.write (Elt F) (chunkM c0 hc0).view f P0 Finset.univ) P1 Finset.univ) P2 Finset.univ))
      ∗ ((oW : Memref sig .scVector .hbm S819200x128 .f32).view.loc (thr d L) ↦[(chunkM c3 hc3).view.set]{fullShare} (View.write (Elt F) (chunkM c3 hc3).view (View.write (Elt F) (chunkM c2 hc2).view (View.write (Elt F) (chunkM c1 hc1).view (View.write (Elt F) (chunkM c0 hc0).view f P0 Finset.univ) P1 Finset.univ) P2 Finset.univ) P3 Finset.univ))) : sProp 𝕄)
      ⊢ ((oW : Memref sig .scVector .hbm S819200x128 .f32).view.loc (thr d L) ↦[(oW : Memref sig .scVector .hbm S819200x128 .f32).view.setOn (oTR L).set]{fullShare} (View.write (Elt F) (chunkM c3 hc3).view (View.write (Elt F) (chunkM c2 hc2).view (View.write (Elt F) (chunkM c1 hc1).view (View.write (Elt F) (chunkM c0 hc0).view f P0 Finset.univ) P1 Finset.univ) P2 Finset.univ) P3 Finset.univ)) := by
  have d01 := chunks_disjoint L c0 c1 hc0 hc1 (196 + 0) (196 + 1) (by decide) e0 e1
  have d02 := chunks_disjoint L c0 c2 hc0 hc2 (196 + 0) (196 + 2) (by decide) e0 e2
  have d03 := chunks_disjoint L c0 c3 hc0 hc3 (196 + 0) (196 + 3) (by decide) e0 e3
  have d12 := chunks_disjoint L c1 c2 hc1 hc2 (196 + 1) (196 + 2) (by decide) e1 e2
  have d13 := chunks_disjoint L c1 c3 hc1 hc3 (196 + 1) (196 + 3) (by decide) e1 e3
  have d23 := chunks_disjoint L c2 c3 hc2 hc3 (196 + 2) (196 + 3) (by decide) e2 e3
  have t0 := chunk_subset_tile L c0 hc0 (196 + 0) (by decide) e0
  have t1 := chunk_subset_tile L c1 hc1 (196 + 1) (by decide) e1
  have t2 := chunk_subset_tile L c2 hc2 (196 + 2) (by decide) e2
  have t3 := chunk_subset_tile L c3 hc3 (196 + 3) (by decide) e3
  refine join_five (ℓ := (oW : Memref sig .scVector .hbm S819200x128 .f32).view.loc (thr d L)) ((oW : Memref sig .scVector .hbm S819200x128 .f32).view.setOn (oTR L).set) (chunkM c0 hc0).view.set (chunkM c1 hc1).view.set (chunkM c2 hc2).view.set (chunkM c3 hc3).view.set
    (View.write (Elt F) (chunkM c3 hc3).view (View.write (Elt F) (chunkM c2 hc2).view (View.write (Elt F) (chunkM c1 hc1).view (View.write (Elt F) (chunkM c0 hc0).view f P0 Finset.univ) P1 Finset.univ) P2 Finset.univ) P3 Finset.univ)
    (View.write (Elt F) (chunkM c0 hc0).view f P0 Finset.univ)
    (View.write (Elt F) (chunkM c1 hc1).view (View.write (Elt F) (chunkM c0 hc0).view f P0 Finset.univ) P1 Finset.univ)
    (View.write (Elt F) (chunkM c2 hc2).view (View.write (Elt F) (chunkM c1 hc1).view (View.write (Elt F) (chunkM c0 hc0).view f P0 Finset.univ) P1 Finset.univ) P2 Finset.univ)
    (View.write (Elt F) (chunkM c3 hc3).view (View.write (Elt F) (chunkM c2 hc2).view (View.write (Elt F) (chunkM c1 hc1).view (View.write (Elt F) (chunkM c0 hc0).view f P0 Finset.univ) P1 Finset.univ) P2 Finset.univ) P3 Finset.univ) t0
    (Finset.subset_sdiff.mpr ⟨t1, d01.symm⟩)
    (Finset.subset_sdiff.mpr ⟨Finset.subset_sdiff.mpr ⟨t2, d02.symm⟩, d12.symm⟩)
    (Finset.subset_sdiff.mpr ⟨Finset.subset_sdiff.mpr ⟨Finset.subset_sdiff.mpr ⟨t3, d03.symm⟩, d13.symm⟩, d23.symm⟩)
    (fun i hi => ?_) (fun i hi => ?_) (fun i hi => ?_) (fun _ _ => rfl)
  · -- on chunk 0 the three later writes change nothing
    exact ((write_keep c3 hc3 _ P3 i (Finset.disjoint_left.mp d03 hi)).trans
      ((write_keep c2 hc2 _ P2 i (Finset.disjoint_left.mp d02 hi)).trans
        (write_keep c1 hc1 _ P1 i (Finset.disjoint_left.mp d01 hi)))).symm
  · -- on chunk 1 the two later writes change nothing
    exact ((write_keep c3 hc3 _ P3 i (Finset.disjoint_left.mp d13 hi)).trans
      (write_keep c2 hc2 _ P2 i (Finset.disjoint_left.mp d12 hi))).symm
  · -- on chunk 2 the last write changes nothing
    exact (write_keep c3 hc3 _ P3 i (Finset.disjoint_left.mp d23 hi)).symm

end Cert.Proof.KI

end
-- ==== Proof.Body.lean ====
/-
  One tile's task, whole: the tile copies its slab of the index array into its scratch, issues the gathers of its
  first four chunks, runs the chunk loop (Trips), awaits the last four write-backs, and ends with its rows of the flat
  output at the gathered, scaled rows.
-/
import proofs.«209300_g39805756900082_cont_8to1_b_88_12_alg».proof.Proof.Trips
import proofs.«209300_g39805756900082_cont_8to1_b_88_12_alg».proof.Proof.JoinSlots
import proofs.«209300_g39805756900082_cont_8to1_b_88_12_alg».proof.Proof.JoinOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx
variable [FloatOps F]

section Tile
variable (d : Dev nD) (L : grid0.Coords)

/-- The chunk loop's invariant: between trips the state of `invA`; after the last the state of `invB`. -/
def inv (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (k : Nat) (_ : Unit) : sProp 𝕄 :=
  if h : k < 50 then invA d L qT tab I3 fi O W k h else invB d L qT tab I3 fi O W

theorem inv_lt (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (k : Nat) (hk : k < 50) (acc : Unit) : inv d L qT tab I3 fi O W k acc = invA d L qT tab I3 fi O W k hk := dif_pos hk
theorem inv_ge (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (k : Nat) (hk : ¬ k < 50) (acc : Unit) : inv d L qT tab I3 fi O W k acc = invB d L qT tab I3 fi O W := dif_neg hk
theorem inv_exit (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (acc : Unit) : inv d L qT tab I3 fi O W k0_t1_loop.trips acc = invB d L qT tab I3 fi O W :=
  dif_neg (by rw [trips_eq]; decide)

/-- A trip of the chunk loop takes the invariant to the invariant. -/
theorem region (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (hI : ∀ j, (I3 j).toNat < 100000) (v2 : BitVec 32) (k : Fin k0_t1_loop.trips) (acc : Unit) :
    inv d L qT tab I3 fi O W k.val acc
      ⊢ wp frame (wpE (defs₀ (F := F)) 𝒱₀ (thr d L) none) Set.univ
          (k0_t1_body L tW (Memref.isWhole_whole _) iW (Memref.isWhole_whole _) oW (Memref.isWhole_whole _) sI (Memref.isWhole_whole _) sR (Memref.isWhole_whole _) cc0_scratch2 cc0_scratch3 cc0_scratch4 cc0_scratch5 cc0_scratch6 cc0_scratch7 cc0_scratch8 cc0_scratch9 cc0_scoped0 v2 k acc)
          (inv d L qT tab I3 fi O W (k.val + 1)) := by
  have hk : k.val < 50 := lt_of_lt_of_le k.isLt (le_of_eq trips_eq)
  by_cases hk49 : k.val < 49
  · rw [inv_lt d L qT tab I3 fi O W k.val hk acc]
    refine (trip_lt d L qT tab I3 fi O W hI v2 k hk hk49 (cond1_lt k hk49)).trans (wp_mono frame _ _ fun acc' => ?_)
    rw [inv_lt d L qT tab I3 fi O W (k.val + 1) (by omega) acc']
    unfold invA
    exact Entails.of_eq (invAo_congr d L qT tab I3 fi O W (off36_eq k 0) (off36_eq k 1) (off36_eq k 2) (off36_eq k 3) _ _ _ _ _ _ _ _ _ _ _ _ (by omega))
  · have hkl : k = kLast := Fin.ext (by show k.val = 49; omega)
    subst hkl
    rw [inv_lt d L qT tab I3 fi O W kLast.val (by decide) acc]
    have hc : ¬ k0_cond1 kLast = 1#1 := cond1_ge kLast hk49
    refine (trip_last d L qT tab I3 fi O W hI v2 hc).trans (wp_mono frame _ _ fun acc' => ?_)
    exact Entails.of_eq (inv_ge d L qT tab I3 fi O W (kLast.val + 1) (by decide) acc').symm

set_option sl_exec.dmaWindowLent true in
/-- One tile's task: from its read tokens of the table, its list of index words, its rows of the output and its two
    scratch buffers, with its nine transfer semaphores at zero, the task runs to its end and leaves its rows of the
    output at the gathered, scaled rows. -/
theorem tile_run (qT : PosShare TreeShare)
    (tab : Buf (Elt F) ((tW : Memref sig .scVector .hbm S100000x128 .f32).view.loc (thr d L)))
    (I3 : Buf (Elt F) ((iW : Memref sig .scVector .hbm S32x200x128 .i32).view.loc (thr d L)))
    (f0 : Buf (Elt F) ((oW : Memref sig .scVector .hbm S819200x128 .f32).view.loc (thr d L)))
    (fi : Buf (Elt F) ((sI : Memref sig .scVector .vmem S200x128 .i32).view.loc (thr d L)))
    (fr : Buf (Elt F) ((sR : Memref sig .scVector .vmem S4x128x128 .f32).view.loc (thr d L)))
    (hI : ∀ j, (I3 j).toNat < 100000)
    (O : CellTallies nD τ sig (HIx 1)) (W : Waits sig (HIx 1)) :
    (iprop(Transfers.MayWaits (thr d L) (none : HIx 1) O
        ∗ ((tW : Memref sig .scVector .hbm S100000x128 .f32).view.loc (thr d L) ↦{Transfers.shareTok qT 4 0} tab)
        ∗ ((tW : Memref sig .scVector .hbm S100000x128 .f32).view.loc (thr d L) ↦{Transfers.shareTok qT 4 1} tab)
        ∗ ((tW : Memref sig .scVector .hbm S100000x128 .f32).view.loc (thr d L) ↦{Transfers.shareTok qT 4 2} tab)
        ∗ ((tW : Memref sig .scVector .hbm S100000x128 .f32).view.loc (thr d L) ↦{Transfers.shareTok qT 4 3} tab)
        ∗ ((iRow L).view.loc (thr d L) ↦[(iRow L).view.set]{fullShare} I3)
        ∗ ((oW : Memref sig .scVector .hbm S819200x128 .f32).view.loc (thr d L) ↦[(oW : Memref sig .scVector .hbm S819200x128 .f32).view.setOn (oTR L).set]{fullShare} f0)
        ∗ ((sI : Memref sig .scVector .vmem S200x128 .i32).view.loc (thr d L) ↦{fullShare} fi)
        ∗ ((sR : Memref sig .scVector .vmem S4x128x128 .f32).view.loc (thr d L) ↦{fullShare} fr)
        ∗ semVal (thr d L, SemLoc.dma cc0_scratch2.sem) 0 ∗ semVal (thr d L, SemLoc.dma cc0_scratch3.sem) 0
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scoped0.sem) 0
        ∗ owes (thr d L) O W) : sProp 𝕄)
      ⊢ wp frame (wpE (defs₀ (F := F)) 𝒱₀ (thr d L) none) Set.univ
          (cc0_gather_kernel L tW (Memref.isWhole_whole _) iW (Memref.isWhole_whole _) oW (Memref.isWhole_whole _) sI (Memref.isWhole_whole _) sR (Memref.isWhole_whole _) cc0_scratch2 cc0_scratch3 cc0_scratch4 cc0_scratch5 cc0_scratch6 cc0_scratch7 cc0_scratch8 cc0_scratch9 cc0_scoped0)
          fun _ => iprop(((tW : Memref sig .scVector .hbm S100000x128 .f32).view.loc (thr d L) ↦{Transfers.shareTok qT 4 0} tab)
            ∗ ((tW : Memref sig .scVector .hbm S100000x128 .f32).view.loc (thr d L) ↦{Transfers.shareTok qT 4 1} tab)
            ∗ ((tW : Memref sig .scVector .hbm S100000x128 .f32).view.loc (thr d L) ↦{Transfers.shareTok qT 4 2} tab)
            ∗ ((tW : Memref sig .scVector .hbm S100000x128 .f32).view.loc (thr d L) ↦{Transfers.shareTok qT 4 3} tab)
            ∗ ((iRow L).view.loc (thr d L) ↦[(iRow L).view.set]{fullShare} I3)
            ∗ ((oW : Memref sig .scVector .hbm S819200x128 .f32).view.loc (thr d L) ↦[(oW : Memref sig .scVector .hbm S819200x128 .f32).view.setOn (oTR L).set]{fullShare} (Cert.Spec.gathered I3 tab))
            ∗ (∃ fi', (sI : Memref sig .scVector .vmem S200x128 .i32).view.loc (thr d L) ↦{fullShare} fi')
            ∗ (∃ fr', (sR : Memref sig .scVector .vmem S4x128x128 .f32).view.loc (thr d L) ↦{fullShare} fr')
            ∗ semVal (thr d L, SemLoc.dma cc0_scratch2.sem) 0 ∗ semVal (thr d L, SemLoc.dma cc0_scratch3.sem) 0
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scoped0.sem) 0
            ∗ ∃ W', ⌜∀ p ∈ W', p ∈ W ∨ p.2 = none⌝ ∗ owes (thr d L) O W') := by
  have hFI := idx_words_in_range d L I3 hI fi
  rw [cc0_gather_kernel_eq_skeleton]; unfold cc0_gather_kernel_skel
  iintro ⟨#Hmw, Ht0, Ht1, Ht2, Ht3, Hi, Ho, HsI, HsR, Hg0, Hg1, Hg2, Hg3, Hw0, Hw1, Hw2, Hw3, Hsc, HO⟩
  sl_exec
  sl_for (inv d L qT tab I3 fi O W) $$ [Hg0 Hg1 Hg2 Hg3 Ht0 Ht1 Ht2 Ht3 HsR HsI Ho Hw0 Hw1 Hw2 Hw3 HO]
  case region => intro k acc; exact region d L qT tab I3 fi O W hI _ k acc
  · irw [inv_lt d L qT tab I3 fi O W 0 (by decide) _]
    unfold invA invAo
    isplitr; · iexact Hmw
    isplitl [Hg0]
    · iexists _; isplitl [Hg0]; · iexact Hg0
      ipureintro; intro y; exact gather_value_write d L tab I3 hI fi _ _ _ _ (jK 0 0 (by decide) h04) rfl _ _ y
    isplitl [Hg1]
    · iexists _; isplitl [Hg1]; · iexact Hg1
      ipureintro; intro y; exact gather_value_write d L tab I3 hI fi _ _ _ _ (jK 0 1 (by decide) h14) rfl _ _ y
    isplitl [Hg2]
    · iexists _; isplitl [Hg2]; · iexact Hg2
      ipureintro; intro y; exact gather_value_write d L tab I3 hI fi _ _ _ _ (jK 0 2 (by decide) h24) rfl _ _ y
    isplitl [Hg3]
    · iexists _; isplitl [Hg3]; · iexact Hg3
      ipureintro; intro y; exact gather_value_write d L tab I3 hI fi _ _ _ _ (jK 0 3 (by decide) h34) rfl _ _ y
    isplitl [Ht0]; · iexact Ht0
    isplitl [Ht1]; · iexact Ht1
    isplitl [Ht2]; · iexact Ht2
    isplitl [Ht3]; · iexact Ht3
    isplitl [HsR]; · iexists _; iexact HsR
    isplitl [HsI]; · iexact HsI
    isplitl [Ho]
    · iexists _; isplitl [Ho]; · iexact Ho
      ipureintro; exact OutOK.zero _
    isplitl [Hw0]; · iexact Hw0
    isplitl [Hw1]; · iexact Hw1
    isplitl [Hw2]; · iexact Hw2
    isplitl [Hw3]; · iexact Hw3
    iexists _; isplitr
    swap
    · iexact HO
    · ipureintro
      intro p hp
      simp only [Finset.mem_insert] at hp
      rcases hp with rfl | hp
      · exact .inr rfl
      · exact .inl hp
  iintro %_ HI
  ihave HB := (Entails.of_eq (inv_exit d L qT tab I3 fi O W _)) $$ HI
  unfold invB
  icases HB with ⟨-, Ht0, Ht1, Ht2, Ht3, Hg0, Hg1, Hg2, Hg3, ⟨%f, %P0, %P1, %P2, %P3, %Y0, %Y1, %Y2, %Y3, Hw0, Hw1, Hw2, Hw3, Ho, %hf⟩, ⟨%Z, HsR⟩, HsI, %W', %hW', HO⟩
  sl_exec
  sl_step
  isplitl [Ht0]; · iexact Ht0
  isplitl [Ht1]; · iexact Ht1
  isplitl [Ht2]; · iexact Ht2
  isplitl [Ht3]; · iexact Ht3
  isplitl [Hi]; · iexact Hi
  isplitl [Ho Hw0_dst Hw1_dst Hw2_dst Hw3_dst]
  · iapply (Entails.of_eq (out_final d L I3 tab _ hf))
    iapply (join_out d L _ _ _ _ _ _ _ _ (off10_eq L kLast 0) (off10_eq L kLast 1) (off10_eq L kLast 2) (off10_eq L kLast 3) f P0 P1 P2 P3)
    isplitl [Ho]; · iexact Ho
    isplitl [Hw0_dst]; · iexact Hw0_dst
    isplitl [Hw1_dst]; · iexact Hw1_dst
    isplitl [Hw2_dst]; · iexact Hw2_dst
    iexact Hw3_dst
  isplitl [HsI]; · iexists _; iexact HsI
  isplitl [HsR Hw0_src Hw1_src Hw2_src Hw3_src]
  · iapply (join_slots d L Z Y0 Y1 Y2 Y3)
    isplitl [HsR]; · iexact HsR
    isplitl [Hw0_src]; · iexact Hw0_src
    isplitl [Hw1_src]; · iexact Hw1_src
    isplitl [Hw2_src]; · iexact Hw2_src
    iexact Hw3_src
  isplitl [Hg0]; · iexact Hg0
  isplitl [Hg1]; · iexact Hg1
  isplitl [Hg2]; · iexact Hg2
  isplitl [Hg3]; · iexact Hg3
  isplitl [Hw0]; · iexact Hw0
  isplitl [Hw1]; · iexact Hw1
  isplitl [Hw2]; · iexact Hw2
  isplitl [Hw3]; · iexact Hw3
  isplitl [Hsc]; · iexact Hsc
  iexists _; isplitr
  swap
  · iexact HO
  · ipureintro
    intro p hp
    simp only [Finset.mem_insert] at hp
    rcases hp with rfl | rfl | rfl | rfl | hp
    all_goals first | exact .inr rfl | exact hW' p hp

end Tile

end Cert.Proof.KI

end
-- ==== Proof.LaunchPay.lean ====
/-
  What the launch handshakes of the SparseCore call carry.

  The TensorCore holds the six arrays of the program whole.  At the call it hands each of the two SparseCores a read
  share of the table, and the sixteen lists of index words and the sixteen blocks of output rows its tiles own; the
  sequencer hands tile s of SparseCore c (worker w = 2 s + c) a read share of the table, list w and rows
  [25600 w, 25600 (w + 1)) of the output.  The shares of the table are read tokens cut from the full share: two
  for the SparseCores, sixteen from each of those for the tiles; what remains after each cut waits with whoever cut it
  and is joined back when the tokens return.  The lists and the row blocks of different workers are disjoint and
  together make up the two arrays, so they split and join as sets of elements.
-/
import proofs.«209300_g39805756900082_cont_8to1_b_88_12_alg».proof.Proof.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The arrays as the TensorCore names them, and their contents at the call -/

abbrev xLoc (d : Dev nD) : Loc nD τ sig := (SparseCore.T d).loc main_arg0
abbrev tLoc (d : Dev nD) : Loc nD τ sig := (SparseCore.T d).loc main_arg1
abbrev fLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

section Contents

variable (m : (ℓ : Loc nD τ sig) → Buf (Elt F) ℓ)

/-- The index words flat, as the first reshape leaves them, -/
def flat (d : Dev nD) : Buf (Elt F) (fLoc d) := shapeCast S819200 (m (xLoc d)) shapeCasts_S4096x200_S819200
/-- and as 32 lists of 200 × 128, as the second does: what the call reads. -/
def idx3 (d : Dev nD) : Buf (Elt F) (iLoc d) := shapeCast S32x200x128 (flat m d) shapeCasts_S819200_S32x200x128

variable [FloatOps F]

/-- What the call leaves in its flat output, -/
def gath (d : Dev nD) : Buf (Elt F) (oLoc d) := Cert.Spec.gathered (idx3 m d) (m (tLoc d))
/-- and the result the last reshape makes of it. -/
def res (d : Dev nD) : Buf (Elt F) (rLoc d) := shapeCast S4096x200x128 (gath m d) shapeCasts_S819200x128_S4096x200x128

end Contents

/-! ## The grid points, the lists and the row blocks -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- The same from the numbers of the SparseCore (of 2) and the subcore (of 16). -/
abbrev tileAt (c : Fin 2) (s : Fin 16) : grid0.Coords := coordsV (Fin.cast bound_zero.symm c) (Fin.cast bound_one.symm s)

abbrev CS : Type := Fin 2 × Fin 16
abbrev LL (cs : CS) : grid0.Coords := tileAt cs.1 cs.2

/-- The elements of the index array in the list of the tile at `L`, -/
abbrev slabOf (L : grid0.Coords) : Finset S32x200x128.Idx := (iRow L).view.set
/-- and the elements of the flat output in its rows. -/
abbrev rowsOf (L : grid0.Coords) : Finset S819200x128.Idx := (oW : Memref sig .scVector .hbm S819200x128 .f32).view.setOn (oTR L).set

theorem slabOf_eq (L : grid0.Coords) : slabOf L = (Rect.unit (s := S32x200x128) (k0_off1 L) S1x200x128.size (k0_off1_inb L)).set := by
  show (((iW : Memref sig .scVector .hbm S32x200x128 .i32).view.slice (Rect.unit (s := S32x200x128) (k0_off1 L) S1x200x128.size (k0_off1_inb L))).reshape S200x128
    squeezes_S1x200x128_S200x128.numel_eq).set = _
  rw [View.set_reshape]; exact View.set_slice_whole _ _

/-- An element is in the list of worker 2 s + c exactly when its first coordinate is 2 s + c. -/
theorem mem_slabOf (L : grid0.Coords) (j : S32x200x128.Idx) : j ∈ slabOf L ↔ (j 0).val = 2 * (L 1).val + (L 0).val := by
  have h1 : (j 1).val < 200 := (j 1).isLt
  have h2 : (j 2).val < 128 := (j 2).isLt
  rw [slabOf_eq, Rect.mem_set_unit, k0_off1_eq]
  constructor
  · intro h
    have h0 := h 0
    simp at h0
    omega
  · intro h a
    fin_cases a
    · simp; omega
    · simp; omega
    · simp; omega

theorem rowsOf_eq (L : grid0.Coords) : rowsOf L = (oTR L).set := Finset.map_refl

/-- An element is in the rows of worker w exactly when its row is in [25600 w, 25600 (w + 1)). -/
theorem mem_rowsOf (L : grid0.Coords) (j : S819200x128.Idx) :
    j ∈ rowsOf L ↔ 51200 * (L 1).val + 25600 * (L 0).val ≤ (j 0).val ∧ (j 0).val < 51200 * (L 1).val + 25600 * (L 0).val + 25600 := by
  have h1 : (j 1).val < 128 := (j 1).isLt
  rw [rowsOf_eq, Rect.mem_set_unit]
  constructor
  · intro h
    have h0 := h 0
    simp at h0
    omega
  · intro h a
    fin_cases a
    · simp; omega
    · simp; omega

theorem LL_zero (cs : CS) : ((LL cs) 0).val = cs.1.val := rfl
theorem LL_one (cs : CS) : ((LL cs) 1).val = cs.2.val := rfl

theorem slabs_disjoint : ∀ a ∈ (Finset.univ : Finset CS), ∀ b ∈ (Finset.univ : Finset CS), a ≠ b → Disjoint (slabOf (LL a)) (slabOf (LL b)) := by
  intro a _ b _ hab
  refine Finset.disjoint_left.mpr fun j ha hb => hab ?_
  rw [mem_slabOf, LL_zero, LL_one] at ha hb
  have := a.1.isLt; have := b.1.isLt
  exact Prod.ext (Fin.ext (by omega)) (Fin.ext (by omega))

theorem slabs_cover : (Finset.univ : Finset CS).biUnion (fun a => slabOf (LL a)) = Finset.univ := by
  ext j
  simp only [Finset.mem_biUnion, Finset.mem_univ, true_and, iff_true]
  have hj : (j 0).val < 32 := (j 0).isLt
  refine ⟨(⟨(j 0).val % 2, by omega⟩, ⟨(j 0).val / 2, by omega⟩), (mem_slabOf _ _).mpr ?_⟩
  rw [LL_zero, LL_one]
  show (j 0).val = 2 * ((j 0).val / 2) + (j 0).val % 2
  omega

theorem rows_disjoint : ∀ a ∈ (Finset.univ : Finset CS), ∀ b ∈ (Finset.univ : Finset CS), a ≠ b → Disjoint (rowsOf (LL a)) (rowsOf (LL b)) := by
  intro a _ b _ hab
  refine Finset.disjoint_left.mpr fun j ha hb => hab ?_
  rw [mem_rowsOf, LL_zero, LL_one] at ha hb
  have := a.1.isLt; have := b.1.isLt
  exact Prod.ext (Fin.ext (by omega)) (Fin.ext (by omega))

theorem rows_cover : (Finset.univ : Finset CS).biUnion (fun a => rowsOf (LL a)) = Finset.univ := by
  ext j
  simp only [Finset.mem_biUnion, Finset.mem_univ, true_and, iff_true]
  have hj : (j 0).val < 819200 := (j 0).isLt
  refine ⟨(⟨(j 0).val / 25600 % 2, by omega⟩, ⟨(j 0).val / 51200, by omega⟩), (mem_rowsOf _ _).mpr ?_⟩
  rw [LL_zero, LL_one]
  show 51200 * ((j 0).val / 51200) + 25600 * ((j 0).val / 25600 % 2) ≤ (j 0).val
    ∧ (j 0).val < 51200 * ((j 0).val / 51200) + 25600 * ((j 0).val / 25600 % 2) + 25600
  omega

/-- The index array whole is its 32 lists, by SparseCore and tile; -/
theorem iPts_split (d : Dev nD) (f : Buf (Elt F) (iLoc d)) :
    (iLoc d ↦{fullShare} f : sProp 𝕄)
      = bigSep Finset.univ fun c : Fin 2 => bigSep Finset.univ fun s : Fin 16 => iLoc d ↦[slabOf (tileAt c s)]{fullShare} f := by
  rw [← bigSep_univ_prod (fun cs : CS => (iLoc d ↦[slabOf (LL cs)]{fullShare} f : sProp 𝕄)),
    ← pointsTo_biUnion Finset.univ (ℓ := iLoc d) (fun cs : CS => slabOf (LL cs)) slabs_disjoint, slabs_cover]

/-- the flat output whole is its 32 row blocks. -/
theorem oPts_split (d : Dev nD) (f : Buf (Elt F) (oLoc d)) :
    (oLoc d ↦{fullShare} f : sProp 𝕄)
      = bigSep Finset.univ fun c : Fin 2 => bigSep Finset.univ fun s : Fin 16 => oLoc d ↦[rowsOf (tileAt c s)]{fullShare} f := by
  rw [← bigSep_univ_prod (fun cs : CS => (oLoc d ↦[rowsOf (LL cs)]{fullShare} f : sProp 𝕄)),
    ← pointsTo_biUnion Finset.univ (ℓ := oLoc d) (fun cs : CS => rowsOf (LL cs)) rows_disjoint, rows_cover]

/-! ## The read shares of the table -/

/-- SparseCore `c`'s read share of the table: token `c` of two cut from the full share; -/
abbrev qC (c : Fin 2) : PosShare TreeShare := Transfers.shareTok fullShare 2 c
/-- tile `s`'s: token `s` of sixteen cut from its SparseCore's. -/
abbrev qV (c : Fin 2) (s : Fin 16) : PosShare TreeShare := Transfers.shareTok (qC c) 16 s

/-! ## What the handshakes carry -/

section Pay

variable (m : (ℓ : Loc nD τ sig) → Buf (Elt F) ℓ) [FloatOps F]

/-- A tile's operands: the table at the read share `q`, its list of index words, its rows of the output at `fo`. -/
def goT (d : Dev nD) (L : grid0.Coords) (q : PosShare TreeShare) (fo : Buf (Elt F) (oLoc d)) : sProp 𝕄 :=
  iprop((tLoc d ↦{q} m (tLoc d)) ∗ (iLoc d ↦[slabOf L]{fullShare} idx3 m d) ∗ (oLoc d ↦[rowsOf L]{fullShare} fo))

/-- A SparseCore's: the table at its read share, its sixteen tiles' lists, their rows of the output at `fo`. -/
def stC (d : Dev nD) (c : Fin 2) (fo : Buf (Elt F) (oLoc d)) : sProp 𝕄 :=
  iprop((tLoc d ↦{qC c} m (tLoc d)) ∗ (bigSep Finset.univ fun s : Fin 16 => iLoc d ↦[slabOf (tileAt c s)]{fullShare} idx3 m d)
    ∗ bigSep Finset.univ fun s : Fin 16 => oLoc d ↦[rowsOf (tileAt c s)]{fullShare} fo)

/-- The call hands each SparseCore and each tile its operands with the output at its launch contents and takes them
    back with the output at the gathered rows.  The tiles only make copies of their own and wait for them: the kernel
    has no protocol state. -/
def P : (K (F := F)).Pay (nD := nD) (Val := Elt F) (Name := ℕ) (U := UU) where
  st := fun q d c => match q with | 0 => stC m d (Fin.cast nCore_zero c) (m (oLoc d))
  dn := fun q d c => match q with | 0 => stC m d (Fin.cast nCore_zero c) (gath m d)
  go := fun q d c s => match q with
    | 0 => goT m d (tileAt (Fin.cast nCore_zero c) (Fin.cast nSub_zero s)) (qV (Fin.cast nCore_zero c) (Fin.cast nSub_zero s)) (m (oLoc d))
  td := fun q d c s => match q with
    | 0 => goT m d (tileAt (Fin.cast nCore_zero c) (Fin.cast nSub_zero s)) (qV (Fin.cast nCore_zero c) (Fin.cast nSub_zero s)) (gath m d)
  x := fun _ _ => iprop(emp)

theorem P_st (d : Dev nD) (c : Fin ((K (F := F)).nCore 0)) : (P m).st 0 d c = stC m d (Fin.cast nCore_zero c) (m (oLoc d)) := rfl
theorem P_dn (d : Dev nD) (c : Fin ((K (F := F)).nCore 0)) : (P m).dn 0 d c = stC m d (Fin.cast nCore_zero c) (gath m d) := rfl
theorem P_go (d : Dev nD) (c : Fin ((K (F := F)).nCore 0)) (s : Fin ((K (F := F)).nSub 0)) :
    (P m).go 0 d c s = goT m d (tileAt (Fin.cast nCore_zero c) (Fin.cast nSub_zero s)) (qV (Fin.cast nCore_zero c) (Fin.cast nSub_zero s)) (m (oLoc d)) := rfl
theorem P_td (d : Dev nD) (c : Fin ((K (F := F)).nCore 0)) (s : Fin ((K (F := F)).nSub 0)) :
    (P m).td 0 d c s = goT m d (tileAt (Fin.cast nCore_zero c) (Fin.cast nSub_zero s)) (qV (Fin.cast nCore_zero c) (Fin.cast nSub_zero s)) (gath m d) := rfl

instance goT_storable (d : Dev nD) (L : grid0.Coords) (q : PosShare TreeShare) (fo : Buf (Elt F) (oLoc d)) :
    BI.Storable (upEmb : UEmb _ 𝕄) (goT m d L q fo) := by unfold goT; infer_instance
instance stC_storable (d : Dev nD) (c : Fin 2) (fo : Buf (Elt F) (oLoc d)) :
    BI.Storable (upEmb : UEmb _ 𝕄) (stC m d c fo) := by unfold stC; infer_instance

instance P_storable : (P (F := F) m).IsStorable where
  st q d c := match q with | 0 => by rw [P_st]; infer_instance
  dn q d c := match q with | 0 => by rw [P_dn]; infer_instance
  go q d c s := match q with | 0 => by rw [P_go]; infer_instance
  td q d c s := match q with | 0 => by rw [P_td]; infer_instance

end Pay

end Cert.Proof.KI

end
-- ==== Proof.LaunchTile.lean ====
/-
  One tile's task as the launch of the SparseCores asks for it.

  A tile is handed its operands by its sequencer: a read share of the table, its list of index words, its rows of
  the output; with them come its own storage (two scratch buffers, nine transfer semaphores at zero).  It cuts its
  share of the table into the four read tokens its four gather slots hold while their transfers are in flight, keeps
  the remainder, runs the task, joins the tokens back to the remainder, and returns everything, the rows now at the
  gathered rows.  Every index word it reads names a row of the table: a reshape only moves words.
-/
import proofs.«209300_g39805756900082_cont_8to1_b_88_12_alg».proof.Proof.LaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

section Tile

variable (d : Dev nD) (L : grid0.Coords)

/-! ## The arrays and the storage as the tile names them -/

omit [FloatOps F] in
theorem pts_tW (q : PosShare TreeShare) (f : Buf (Elt F) (tLoc d)) :
    ((tW : Memref sig .scVector .hbm S100000x128 .f32).view.loc (thr d L) ↦{q} f : sProp 𝕄) = tLoc d ↦{q} f := rfl
omit [FloatOps F] in
theorem pts_iRow (f : Buf (Elt F) (iLoc d)) :
    ((iRow L).view.loc (thr d L) ↦[(iRow L).view.set]{fullShare} f : sProp 𝕄) = iLoc d ↦[slabOf L]{fullShare} f := rfl
omit [FloatOps F] in
theorem pts_oW (f : Buf (Elt F) (oLoc d)) :
    ((oW : Memref sig .scVector .hbm S819200x128 .f32).view.loc (thr d L) ↦[(oW : Memref sig .scVector .hbm S819200x128 .f32).view.setOn (oTR L).set]{fullShare} f : sProp 𝕄)
      = oLoc d ↦[rowsOf L]{fullShare} f := rfl
omit [FloatOps F] in
theorem pts_sI (f : Buf (Elt F) ((thr d L).loc cc0_scratch0)) :
    ((sI : Memref sig .scVector .vmem S200x128 .i32).view.loc (thr d L) ↦{fullShare} f : sProp 𝕄) = (thr d L).loc cc0_scratch0 ↦{fullShare} f := rfl
omit [FloatOps F] in
theorem pts_sR (f : Buf (Elt F) ((thr d L).loc cc0_scratch1)) :
    ((sR : Memref sig .scVector .vmem S4x128x128 .f32).view.loc (thr d L) ↦{fullShare} f : sProp 𝕄) = (thr d L).loc cc0_scratch1 ↦{fullShare} f := rfl

omit [FloatOps F] in
/-- A tile's scoped semaphores are its nine transfer semaphores. -/
theorem ownSems0_V :
    (ownSems0 (thr d L) : sProp 𝕄)
      = iprop(semVal (thr d L, SemLoc.dma cc0_scratch2.sem) 0 ∗ semVal (thr d L, SemLoc.dma cc0_scratch3.sem) 0
          ∗ semVal (thr d L, SemLoc.dma cc0_scratch4.sem) 0 ∗ semVal (thr d L, SemLoc.dma cc0_scratch5.sem) 0
          ∗ semVal (thr d L, SemLoc.dma cc0_scratch6.sem) 0 ∗ semVal (thr d L, SemLoc.dma cc0_scratch7.sem) 0
          ∗ semVal (thr d L, SemLoc.dma cc0_scratch8.sem) 0 ∗ semVal (thr d L, SemLoc.dma cc0_scratch9.sem) 0
          ∗ semVal (thr d L, SemLoc.dma cc0_scoped0.sem) 0) := by
  rw [SparseCore.Cfg.ownSems0_eq]
  rw [show (Finset.univ.filter fun sm : SemLoc sig => sm.isScoped (thr d L).2.kind)
      = {SemLoc.dma cc0_scratch2.sem, SemLoc.dma cc0_scratch3.sem, SemLoc.dma cc0_scratch4.sem, SemLoc.dma cc0_scratch5.sem, SemLoc.dma cc0_scratch6.sem,
          SemLoc.dma cc0_scratch7.sem, SemLoc.dma cc0_scratch8.sem, SemLoc.dma cc0_scratch9.sem, SemLoc.dma cc0_scoped0.sem} from by
        show (Finset.univ.filter fun sm : SemLoc sig => sm.isScoped Kind.scVector) = _
        decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

omit [FloatOps F] in
/-- The two scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

/-! ## The index words the tiles read -/

variable (m : (ℓ : Loc nD τ sig) → Buf (Elt F) ℓ)

/-- What the proof asks of the launch memory: every index word names a row of the table. -/
def PreOK (m : (ℓ : Loc nD τ sig) → Buf (Elt F) ℓ) : Prop := ∀ (d : Dev nD) j, ((m ((SparseCore.T d).loc main_arg0)) j).toNat < 100000

omit [FloatOps F] in
/-- The words the call reads are the launch's index words in another arrangement. -/
theorem idx3_lt (hpre : PreOK m) (d : Dev nD) : ∀ j, (idx3 m d j).toNat < 100000 := fun _ => hpre d _

/-! ## The task -/

theorem bigSep_fin_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The task of the tile at `L` from its operands at any read share `q` of the table and its own storage. -/
theorem tile_body (hpre : PreOK m) (d : Dev nD) (L : grid0.Coords) (q : PosShare TreeShare)
    (O : CellTallies nD τ sig (HIx 1)) (W : Waits sig (HIx 1)) (hO : ∀ g, O g none = 0) :
    iprop(levAts (K (F := F)).L (K (F := F)).lev ∗ emp ∗ goT m d L q (m (oLoc d))
        ∗ scopedBufs (thr d L) ∗ scopedSems0 (thr d L) ∗ owes (thr d L) O W)
      ⊢ wp frame (wpE (defs₀ (F := F)) 𝒱₀ (thr d L) none) Set.univ
          (cc0_gather_kernel L tW (Memref.isWhole_whole _) iW (Memref.isWhole_whole _) oW (Memref.isWhole_whole _)
            sI (Memref.isWhole_whole _) sR (Memref.isWhole_whole _)
            cc0_scratch2 cc0_scratch3 cc0_scratch4 cc0_scratch5 cc0_scratch6 cc0_scratch7 cc0_scratch8 cc0_scratch9 cc0_scoped0)
          fun _ => iprop(goT m d L q (gath m d) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  unfold goT
  iintro ⟨#Hlv, -, ⟨Ht, Hi, Ho⟩, ⟨⟨%fi, Hsi⟩, ⟨%fr, Hsr⟩, Hbufs⟩, ⟨H2, H3, H4, H5, H6, H7, H8, H9, H10⟩, HO⟩
  ihave Hmw := ((K (F := F)).mayWaits_none (thr := thr d L) hO) $$ Hlv
  -- the tile's share of the table: four read tokens and the remainder
  ihave Ht' := (Transfers.pointsTo_toks_split q 4) $$ Ht
  rw [bigSep_fin_four]
  icases Ht' with ⟨Hdrop, Ht0, Ht1, Ht2, Ht3⟩
  iapply (wp_wand_r frame _ Set.univ)
  isplitl [Hmw Ht0 Ht1 Ht2 Ht3 Hi Ho Hsi Hsr H2 H3 H4 H5 H6 H7 H8 H9 H10 HO]
  · iapply (tile_run d L q (m (tLoc d)) (idx3 m d) (m (oLoc d)) fi fr (idx3_lt m hpre d) O W)
    isplitl [Hmw]; · iexact Hmw
    isplitl [Ht0]; · iapply (Entails.of_eq (pts_tW (F := F) d L _ _)); iexact Ht0
    isplitl [Ht1]; · iapply (Entails.of_eq (pts_tW (F := F) d L _ _)); iexact Ht1
    isplitl [Ht2]; · iapply (Entails.of_eq (pts_tW (F := F) d L _ _)); iexact Ht2
    isplitl [Ht3]; · iapply (Entails.of_eq (pts_tW (F := F) d L _ _)); iexact Ht3
    isplitl [Hi]; · iapply (Entails.of_eq (pts_iRow (F := F) d L _)); iexact Hi
    isplitl [Ho]; · iapply (Entails.of_eq (pts_oW (F := F) d L _)); iexact Ho
    isplitl [Hsi]; · iapply (Entails.of_eq (pts_sI (F := F) d L _)); iexact Hsi
    isplitl [Hsr]; · iapply (Entails.of_eq (pts_sR (F := F) d L _)); iexact Hsr
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HO
  iintro %_ ⟨Ht0, Ht1, Ht2, Ht3, Hi, Ho, ⟨%fi', Hsi⟩, ⟨%fr', Hsr⟩, H2, H3, H4, H5, H6, H7, H8, H9, H10, HW⟩
  isplitl [Hdrop Ht0 Ht1 Ht2 Ht3 Hi Ho]
  · isplitl [Hdrop Ht0 Ht1 Ht2 Ht3]
    · iapply (Transfers.pointsTo_toks_join q 4)
      rw [bigSep_fin_four]
      isplitl [Hdrop]; · iexact Hdrop
      isplitl [Ht0]; · iapply (Entails.of_eq (pts_tW (F := F) d L _ _).symm); iexact Ht0
      isplitl [Ht1]; · iapply (Entails.of_eq (pts_tW (F := F) d L _ _).symm); iexact Ht1
      isplitl [Ht2]; · iapply (Entails.of_eq (pts_tW (F := F) d L _ _).symm); iexact Ht2
      iapply (Entails.of_eq (pts_tW (F := F) d L _ _).symm); iexact Ht3
    isplitl [Hi]; · iapply (Entails.of_eq (pts_iRow (F := F) d L _).symm); iexact Hi
    iapply (Entails.of_eq (pts_oW (F := F) d L _).symm); iexact Ho
  isplitl [Hsi Hsr Hbufs]
  · isplitl [Hsi]; · iexists fi'; iapply (Entails.of_eq (pts_sI (F := F) d L _).symm); iexact Hsi
    isplitl [Hsr]; · iexists fr'; iapply (Entails.of_eq (pts_sR (F := F) d L _).symm); iexact Hsr
    iexact Hbufs
  isplitl [H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact HW

/-! ## The launch theorem's obligation -/

theorem defs₀_vector (c : Fin τ.nSC) (s : Fin τ.nSub) :
    defs₀ (F := F) (.scVector c s) 0 ()
      = SparseCore.onTile hcore0 hsub0 (fun c s => cc0_gather_kernel (coordsV c s)
          tW (Memref.isWhole_whole _) iW (Memref.isWhole_whole _) oW (Memref.isWhole_whole _)
          sI (Memref.isWhole_whole _) sR (Memref.isWhole_whole _)
          cc0_scratch2 cc0_scratch3 cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hpre d (coordsV ⟨_, hc.1⟩ ⟨_, hc.2⟩) (qV (Fin.cast nCore_zero c) (Fin.cast nSub_zero i)) O W hO).trans (wp_mono frame _ _ fun _ => obl_post)

end Cert.Proof.KI

end
-- ==== Proof.LaunchSplit.lean ====
/-
  How a SparseCore's operands split among its sixteen tiles, and how the two SparseCores' make up the call's.

  The sequencer cuts its read share of the table into sixteen tokens, one per tile, and keeps the remainder until the
  tokens come back; the lists of index words and the blocks of output rows it was handed are already its tiles'.
-/
import proofs.«209300_g39805756900082_cont_8to1_b_88_12_alg».proof.Proof.LaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) [FloatOps F]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_fin_two' {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
theorem bigSep_cores (Φ : Fin 2 → sProp 𝕄) :
    (bigSep Finset.univ fun c : Fin ((K (F := F)).nCore 0) => Φ (Fin.cast nCore_zero c)) = iprop(Φ 0 ∗ Φ 1) :=
  (show (bigSep Finset.univ fun c : Fin ((K (F := F)).nCore 0) => Φ (Fin.cast nCore_zero c)) = bigSep Finset.univ Φ from
    bigSep_congr fun _ _ => congrArg Φ (Fin.ext rfl)).trans (bigSep_fin_two' Φ)

/-- One SparseCore's operands are its tiles', the table's share cut in sixteen; the tiles' results are its own. -/
theorem split_core (d : Dev nD) (c : Fin 2) (fo fo' : Buf (Elt F) (oLoc d)) :
    stC m d c fo ⊢ |={Set.univ}=> iprop((bigSep Finset.univ fun s : Fin 16 => goT m d (tileAt c s) (qV c s) fo)
      ∗ ((bigSep Finset.univ fun s : Fin 16 => goT m d (tileAt c s) (qV c s) fo') -∗ stC m d c fo')) := by
  unfold stC goT
  rw [bigSep_sep', bigSep_sep', bigSep_sep', bigSep_sep']
  iintro ⟨Ht, Hi, Ho⟩
  ihave Ht' := (Transfers.pointsTo_toks_split (qC c) 16) $$ Ht
  icases Ht' with ⟨Hdrop, Htoks⟩
  imodintro
  isplitl [Htoks Hi Ho]
  · isplitl [Htoks]; · iexact Htoks
    isplitl [Hi]; · iexact Hi
    iexact Ho
  iintro ⟨Htoks, Hi, Ho⟩
  isplitl [Hdrop Htoks]
  · iapply (Transfers.pointsTo_toks_join (qC c) 16)
    isplitl [Hdrop]; · iexact Hdrop
    iexact Htoks
  isplitl [Hi]; · iexact Hi
  iexact Ho

theorem vecSplit : (K (F := F)).VecSplit' (P m) 0 := by
  intro d c
  show stC m d (Fin.cast nCore_zero c) (m (oLoc d)) ⊢ |={Set.univ}=> iprop(
      (bigSep Finset.univ fun i : Fin ((K (F := F)).nSub 0) =>
        goT m d (tileAt (Fin.cast nCore_zero c) (Fin.cast nSub_zero i)) (qV (Fin.cast nCore_zero c) (Fin.cast nSub_zero i)) (m (oLoc d)))
      ∗ ((bigSep Finset.univ fun i : Fin ((K (F := F)).nSub 0) =>
          goT m d (tileAt (Fin.cast nCore_zero c) (Fin.cast nSub_zero i)) (qV (Fin.cast nCore_zero c) (Fin.cast nSub_zero i)) (gath m d))
          -∗ stC m d (Fin.cast nCore_zero c) (gath m d)))
  rw [bigSep_tasks (F := F) (fun s => goT m d (tileAt (Fin.cast nCore_zero c) s) (qV (Fin.cast nCore_zero c) s) (m (oLoc d))),
    bigSep_tasks (F := F) (fun s => goT m d (tileAt (Fin.cast nCore_zero c) s) (qV (Fin.cast nCore_zero c) s) (gath m d))]
  exact split_core m d (Fin.cast nCore_zero c) (m (oLoc d)) (gath m d)

/-- What the call takes for the two SparseCores, and what it hands back. -/
theorem st0_eq (d : Dev nD) :
    (bigSep Finset.univ fun c : Fin ((K (F := F)).nCore 0) => (P m).st 0 d c) = iprop(stC m d 0 (m (oLoc d)) ∗ stC m d 1 (m (oLoc d))) := by
  show (bigSep Finset.univ fun c : Fin ((K (F := F)).nCore 0) => stC m d (Fin.cast nCore_zero c) (m (oLoc d))) = _
  exact bigSep_cores (F := F) (fun c => stC m d c (m (oLoc d)))
theorem dn0_eq (d : Dev nD) :
    (bigSep Finset.univ fun c : Fin ((K (F := F)).nCore 0) => (P m).dn 0 d c) = iprop(stC m d 0 (gath m d) ∗ stC m d 1 (gath m d)) := by
  show (bigSep Finset.univ fun c : Fin ((K (F := F)).nCore 0) => stC m d (Fin.cast nCore_zero c) (gath m d)) = _
  exact bigSep_cores (F := F) (fun c => stC m d c (gath m d))

/-- The TensorCore's three arrays of the call, whole, are the two SparseCores' operands and the remainder of the
    table's share after their two tokens; -/
theorem call_split (d : Dev nD) (fo : Buf (Elt F) (oLoc d)) :
    iprop((tLoc d ↦{fullShare} m (tLoc d)) ∗ (iLoc d ↦{fullShare} idx3 m d) ∗ (oLoc d ↦{fullShare} fo))
      ⊢ (iprop((tLoc d ↦{Transfers.shareDrop fullShare 2} m (tLoc d)) ∗ stC m d 0 fo ∗ stC m d 1 fo) : sProp 𝕄) := by
  unfold stC
  rw [iPts_split, oPts_split, bigSep_fin_two', bigSep_fin_two']
  iintro ⟨Ht, ⟨Hi0, Hi1⟩, ⟨Ho0, Ho1⟩⟩
  ihave Ht' := (Transfers.pointsTo_toks_split fullShare 2) $$ Ht
  rw [bigSep_fin_two']
  icases Ht' with ⟨Hdrop, Ht0, Ht1⟩
  isplitl [Hdrop]; · iexact Hdrop
  isplitl [Ht0 Hi0 Ho0]
  · isplitl [Ht0]; · iexact Ht0
    isplitl [Hi0]; · iexact Hi0
    iexact Ho0
  isplitl [Ht1]; · iexact Ht1
  isplitl [Hi1]; · iexact Hi1
  iexact Ho1

/-- and back. -/
theorem call_join (d : Dev nD) (fo : Buf (Elt F) (oLoc d)) :
    (iprop((tLoc d ↦{Transfers.shareDrop fullShare 2} m (tLoc d)) ∗ stC m d 0 fo ∗ stC m d 1 fo) : sProp 𝕄)
      ⊢ iprop((tLoc d ↦{fullShare} m (tLoc d)) ∗ (iLoc d ↦{fullShare} idx3 m d) ∗ (oLoc d ↦{fullShare} fo)) := by
  unfold stC
  rw [iPts_split, oPts_split, bigSep_fin_two', bigSep_fin_two']
  iintro ⟨Hdrop, ⟨Ht0, Hi0, Ho0⟩, ⟨Ht1, Hi1, Ho1⟩⟩
  isplitl [Hdrop Ht0 Ht1]
  · iapply (Transfers.pointsTo_toks_join fullShare 2)
    rw [bigSep_fin_two']
    isplitl [Hdrop]; · iexact Hdrop
    isplitl [Ht0]; · iexact Ht0
    iexact Ht1
  isplitl [Hi0 Hi1]
  · isplitl [Hi0]; · iexact Hi0
    iexact Hi1
  isplitl [Ho0]; · iexact Ho0
  iexact Ho1

end Cert.Proof.KI

end
-- ==== Proof.Launch.lean ====
/-
  The program's run: the TensorCore's part, the launch, and the statement of what every fair execution ends with.

  The TensorCore reshapes the index words twice (4096 × 200 to flat to 32 lists of 200 × 128), starts the two
  SparseCores on the table, the lists and the flat output and waits for them, and reshapes the flat output into the
  result.  It holds its six arrays whole throughout, lending the call's three for the call; a reshape only moves
  words, so what it leaves is read off the array it read.  At the end the two arguments are as launched and the result
  is the gathered, scaled rows.
-/
import proofs.«209300_g39805756900082_cont_8to1_b_88_12_alg».proof.Proof.LaunchTile
import proofs.«209300_g39805756900082_cont_8to1_b_88_12_alg».proof.Proof.LaunchSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds; the kernel keeps no protocol state of its own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ [FloatOps F] : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's six arrays and the three reshapes -/

abbrev x' : DevRef τ sig := Proc.devRef .tc (main_arg0 : Ref sig .tc)
abbrev t' : DevRef τ sig := Proc.devRef .tc (main_arg1 : Ref sig .tc)
abbrev f' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev S6 : Finset (DevRef τ sig) := {x', t', f', i', o', r'}

abbrev op1 : HloOp τ sig (Elt F) := StableHlo.reshape main_arg0 main_v0 rfl shapeCasts_S4096x200_S819200
abbrev op2 : HloOp τ sig (Elt F) := StableHlo.reshape main_v0 main_v1 rfl shapeCasts_S819200_S32x200x128
abbrev op3 : HloOp τ sig (Elt F) := StableHlo.reshape main_v2 main_v3 rfl shapeCasts_S819200x128_S4096x200x128

theorem hop1 : (op1 (F := F)).bufs ⊆ S6 := show ({x', f'} : Finset (DevRef τ sig)) ⊆ S6 by decide
theorem hop2 : (op2 (F := F)).bufs ⊆ S6 := show ({f', i'} : Finset (DevRef τ sig)) ⊆ S6 by decide
theorem hop3 : (op3 (F := F)).bufs ⊆ S6 := show ({o', r'} : Finset (DevRef τ sig)) ⊆ S6 by decide

theorem held_S6 (d : Dev nD) (W : Valuation τ sig (Elt F)) :
    (held (T d) S6 W : sProp 𝕄) = iprop((xLoc d ↦{fullShare} W x') ∗ (tLoc d ↦{fullShare} W t') ∗ (fLoc d ↦{fullShare} W f')
      ∗ (iLoc d ↦{fullShare} W i') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (fLoc d ↦{fullShare} W main_v0)
      ∗ (iLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; after the first reshape; after the second (what the call meets). -/
def W0 (d : Dev nD) : Valuation τ sig (Elt F) := fun b => m (d, b)
abbrev W1 (d : Dev nD) : Valuation τ sig (Elt F) := (op1 (F := F)).result (W0 m d)
abbrev W2 (d : Dev nD) : Valuation τ sig (Elt F) := (op2 (F := F)).result (W1 m d)

theorem unscoped_held (d : Dev nD) : (unscopedBufs d (fun b => m ((SparseCore.T d).loc b)) : sProp 𝕄) = held (T d) S6 (W0 m d) := by
  rw [unscopedBufs_eq, held_S6]; rfl

theorem W1_x (d : Dev nD) : W1 m d x' = m (xLoc d) := StableHlo.reshape_result_ne _ _ _ _ _ _ _ (show (main_arg0 : Ref sig .tc) ≠ main_v0 by decide)
theorem W1_t (d : Dev nD) : W1 m d t' = m (tLoc d) := StableHlo.reshape_result_ne _ _ _ _ _ _ _ (show (main_arg1 : Ref sig .tc) ≠ main_v0 by decide)
theorem W1_f (d : Dev nD) : W1 m d f' = flat m d := StableHlo.reshape_result _ _ _ _ _ _ _
theorem W1_i (d : Dev nD) : W1 m d i' = m (iLoc d) := StableHlo.reshape_result_ne _ _ _ _ _ _ _ (show (main_v1 : Ref sig .tc) ≠ main_v0 by decide)
theorem W1_o (d : Dev nD) : W1 m d o' = m (oLoc d) := StableHlo.reshape_result_ne _ _ _ _ _ _ _ (show (main_v2 : Ref sig .tc) ≠ main_v0 by decide)
theorem W1_r (d : Dev nD) : W1 m d r' = m (rLoc d) := StableHlo.reshape_result_ne _ _ _ _ _ _ _ (show (main_v3 : Ref sig .tc) ≠ main_v0 by decide)

theorem W2_x (d : Dev nD) : W2 m d x' = m (xLoc d) :=
  (StableHlo.reshape_result_ne _ _ _ _ _ _ _ (show (main_arg0 : Ref sig .tc) ≠ main_v1 by decide)).trans (W1_x m d)
theorem W2_t (d : Dev nD) : W2 m d t' = m (tLoc d) :=
  (StableHlo.reshape_result_ne _ _ _ _ _ _ _ (show (main_arg1 : Ref sig .tc) ≠ main_v1 by decide)).trans (W1_t m d)
theorem W2_f (d : Dev nD) : W2 m d f' = flat m d :=
  (StableHlo.reshape_result_ne _ _ _ _ _ _ _ (show (main_v0 : Ref sig .tc) ≠ main_v1 by decide)).trans (W1_f m d)
theorem W2_i (d : Dev nD) : W2 m d i' = idx3 m d := by
  rw [show W2 m d i' = (fun i => shapeCast S32x200x128 (W1 m d f') shapeCasts_S819200_S32x200x128 i : Buf (Elt F) (iLoc d)) from
    StableHlo.reshape_result _ _ _ _ _ _ _, W1_f]
  rfl
theorem W2_o (d : Dev nD) : W2 m d o' = m (oLoc d) :=
  (StableHlo.reshape_result_ne _ _ _ _ _ _ _ (show (main_v2 : Ref sig .tc) ≠ main_v1 by decide)).trans (W1_o m d)
theorem W2_r (d : Dev nD) : W2 m d r' = m (rLoc d) :=
  (StableHlo.reshape_result_ne _ _ _ _ _ _ _ (show (main_v3 : Ref sig .tc) ≠ main_v1 by decide)).trans (W1_r m d)

variable [FloatOps F]

/-- After the call: the flat output at the gathered rows; after the last reshape. -/
abbrev W3 (d : Dev nD) : Valuation τ sig (Elt F) := Function.update (W2 m d) o' (gath m d)
abbrev W4 (d : Dev nD) : Valuation τ sig (Elt F) := (op3 (F := F)).result (W3 m d)

theorem W3_x (d : Dev nD) : W3 m d x' = m (xLoc d) := (Function.update_of_ne (show x' ≠ o' by decide) _ _).trans (W2_x m d)
theorem W3_t (d : Dev nD) : W3 m d t' = m (tLoc d) := (Function.update_of_ne (show t' ≠ o' by decide) _ _).trans (W2_t m d)
theorem W3_f (d : Dev nD) : W3 m d f' = flat m d := (Function.update_of_ne (show f' ≠ o' by decide) _ _).trans (W2_f m d)
theorem W3_i (d : Dev nD) : W3 m d i' = idx3 m d := (Function.update_of_ne (show i' ≠ o' by decide) _ _).trans (W2_i m d)
theorem W3_o (d : Dev nD) : W3 m d o' = gath m d := Function.update_self _ _ _
theorem W3_r (d : Dev nD) : W3 m d r' = m (rLoc d) := (Function.update_of_ne (show r' ≠ o' by decide) _ _).trans (W2_r m d)

theorem W4_x (d : Dev nD) : W4 m d x' = m (xLoc d) :=
  (StableHlo.reshape_result_ne _ _ _ _ _ _ _ (show (main_arg0 : Ref sig .tc) ≠ main_v3 by decide)).trans (W3_x m d)
theorem W4_t (d : Dev nD) : W4 m d t' = m (tLoc d) :=
  (StableHlo.reshape_result_ne _ _ _ _ _ _ _ (show (main_arg1 : Ref sig .tc) ≠ main_v3 by decide)).trans (W3_t m d)
theorem W4_r (d : Dev nD) : W4 m d r' = res m d := by
  rw [show W4 m d r' = (fun i => shapeCast S4096x200x128 (W3 m d o') shapeCasts_S819200x128_S4096x200x128 i : Buf (Elt F) (rLoc d)) from
    StableHlo.reshape_result _ _ _ _ _ _ _, W3_o]
  rfl

theorem held_W2 (d : Dev nD) :
    (held (T d) S6 (W2 m d) : sProp 𝕄) = iprop((xLoc d ↦{fullShare} m (xLoc d)) ∗ (tLoc d ↦{fullShare} m (tLoc d)) ∗ (fLoc d ↦{fullShare} flat m d)
      ∗ (iLoc d ↦{fullShare} idx3 m d) ∗ (oLoc d ↦{fullShare} m (oLoc d)) ∗ rLoc d ↦{fullShare} m (rLoc d)) := by
  rw [held_S6, W2_x, W2_t, W2_f, W2_i, W2_o, W2_r]

theorem held_W3 (d : Dev nD) :
    (held (T d) S6 (W3 m d) : sProp 𝕄) = iprop((xLoc d ↦{fullShare} m (xLoc d)) ∗ (tLoc d ↦{fullShare} m (tLoc d)) ∗ (fLoc d ↦{fullShare} flat m d)
      ∗ (iLoc d ↦{fullShare} idx3 m d) ∗ (oLoc d ↦{fullShare} gath m d) ∗ rLoc d ↦{fullShare} m (rLoc d)) := by
  rw [held_S6, W3_x, W3_t, W3_f, W3_i, W3_o, W3_r]

theorem held_W4 (d : Dev nD) :
    (held (T d) S6 (W4 m d) : sProp 𝕄) = iprop((xLoc d ↦{fullShare} m (xLoc d)) ∗ (tLoc d ↦{fullShare} m (tLoc d)) ∗ (fLoc d ↦{fullShare} W4 m d f')
      ∗ (iLoc d ↦{fullShare} W4 m d i') ∗ (oLoc d ↦{fullShare} W4 m d o') ∗ rLoc d ↦{fullShare} res m d) := by
  rw [held_S6, W4_x, W4_t, W4_r]

/-! ## @main on the TensorCore -/

/-- What @main leaves the claim: the two arguments at their launch contents, the result at the gathered rows. -/
abbrev FIN (d : Dev nD) : sProp 𝕄 := iprop((xLoc d ↦{fullShare} m (xLoc d)) ∗ (tLoc d ↦{fullShare} m (tLoc d)) ∗ rLoc d ↦{fullShare} res m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two reshapes of the index words
  iapply (wp_hlo_within 𝒱 (SparseCore.T d) none Set.univ (op := op1) (S := S6) hop1 (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S6) hop2 (V := W1 m d)) $$ [Hb Hheld]
  · isplitl [Hb]; · iexact Hb
    iexact Hheld
  iintro ⟨Hb, Hheld⟩
  rw [wp_ret]; imodintro
  ihave Hh := (Entails.of_eq (held_W2 m d)) $$ Hheld
  icases Hh with ⟨Hx, Ht, Hf, Hi, Ho, Hr⟩
  -- the call: the table, the lists and the flat output to the two SparseCores and back
  ihave Hc := (call_split m d (m (oLoc d))) $$ [Ht Hi Ho]
  · isplitl [Ht]; · iexact Ht
    isplitl [Hi]; · iexact Hi
    iexact Ho
  icases Hc with ⟨Hdrop, Hst01⟩
  iapply ((K (F := F)).wp_run (D (F := F)) 𝒱 (EH := EH) (P := P m) κ d 0) $$ [Hst Hst01 Hb Hx Hf Hr Hdrop]
  isplitr; · iexact Hctx
  isplitl [Hst]; · iexact Hst
  isplitl [Hst01]
  · rw [st0_eq]; iexact Hst01
  iintro ⟨Hst, Hdn⟩
  ihave Hdn' := (Entails.of_eq (dn0_eq m d)) $$ Hdn
  ihave Hj := (call_join m d (gath m d)) $$ [Hdrop Hdn']
  · isplitl [Hdrop]; · iexact Hdrop
    iexact Hdn'
  icases Hj with ⟨Ht, Hi, Ho⟩
  -- the reshape of the flat output into the result
  iapply (wp_hlo_within 𝒱 (SparseCore.T d) none Set.univ (op := op3) (S := S6) hop3 (V := W3 m d)) $$ [Hb Hx Ht Hf Hi Ho Hr]
  · isplitl [Hb]; · iexact Hb
    rw [held_W3]
    isplitl [Hx]; · iexact Hx
    isplitl [Ht]; · iexact Ht
    isplitl [Hf]; · iexact Hf
    isplitl [Hi]; · iexact Hi
    isplitl [Ho]; · iexact Ho
    iexact Hr
  iintro ⟨Hb, Hheld⟩
  ihave Hh := (Entails.of_eq (held_W4 m d)) $$ Hheld
  icases Hh with ⟨Hx, Ht, -, -, -, Hr⟩
  rw [wp_ret]; imodintro; imodintro
  isplitl [Hst]; · iexact Hst
  isplitl [Hx]; · iexact Hx
  isplitl [Ht]; · iexact Ht
  iexact Hr

/-! ## The final memory, the run -/

def fq (d : Dev nD) (s' : Phys nD τ sig (Elt F)) : Prop :=
  s'.mem.mem (rLoc d) = res m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := res m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- From any launch memory whose index words name rows of the table, every fair execution of the device's threads ends,
    the result at the gathered, scaled rows in the result's shape, the two arguments as launched. -/
theorem run_main [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r => ∀ c : Dev nD,
      r.2.mem ((c.tc : Thread nD τ).loc main_v3)
        = shapeCast S4096x200x128 (Cert.Spec.gathered (shapeCast S32x200x128 (shapeCast S819200 (m ((c.tc : Thread nD τ).loc main_arg0)) shapeCasts_S4096x200_S819200)
            shapeCasts_S819200_S32x200x128) (m ((c.tc : Thread nD τ).loc main_arg1))) shapeCasts_S819200x128_S4096x200x128
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h c => h c)

end Cert.Proof.KI

end
-- ==== Proof.RefTerm.lean ====
/-
  The reference program's result as one pure term of its two arguments.

  The program looks each word of `x` up in the table the way `take` does: a negative word is first moved up by the
  table's height (100000); a mask records whether the word then lies in [0, 99999]; the row named by the word (clamped
  into the table) is gathered; where the mask is false the row is replaced by NaN; and every entry is multiplied by one
  constant.  Each stage is named here; the composed term is `refTerm`.
-/
import proofs.«209300_g39805756900082_cont_8to1_b_88_12_alg».proof.Proof.Gen.ReferenceIdeal
import Idealize.ShloMosaic.PureOps.Ideal

noncomputable section

namespace Cert.RefSide

open Cert.ReferenceIdeal Cert.ReferenceIdeal.Gen Idealize.ShloMosaic

variable {F : FTy → Type} [FloatOps F]

/-! ## The stages of the computation, as pure terms -/

/-- The word with a negative value moved up by the table's height. -/
def wrapped (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 100000#32))) x

/-- The same words with a trailing axis of length one: the gather's start indices. -/
def starts (x : IVec S4096x200 32) : IVec S4096x200x1 32 :=
  broadcastInDim S4096x200x1 ![0, 1] bcast_S4096x200_S4096x200x1_0_1 (wrapped x)

/-- Whether each start index lies in [0, 99999], before the reduction over the unit axis. -/
def inRange3 (x : IVec S4096x200 32) : IVec S4096x200x1 1 :=
  andi (cmpi .sge (starts x) (broadcastInDim S4096x200x1 ![] bcast_S_S4096x200x1 (constantI S_ 32 0#32)))
    (cmpi .sle (starts x) (broadcastInDim S4096x200x1 ![0, 1, 2] bcast_S1x1x1_S4096x200x1_0_1_2
      (broadcastInDim S1x1x1 ![2] bcast_S1_S1x1x1_2 (constantI S1 32 99999#32))))

/-- The mask: the conjunction of `inRange3` over the unit axis. -/
def mask (x : IVec S4096x200 32) : IVec S4096x200 1 :=
  Host.reduce IntOp.andi (inRange3 x) (constantI S_ 1 1#1) reducesTo_S4096x200x1_S4096x200_d2 h_S_

/-- The gathered rows. -/
def rows (x : IVec S4096x200 32) (tab : FVec F S100000x128 .f32) : FVec F S4096x200x128 .f32 :=
  Host.gather gather_S100000x128_S4096x200x1_S4096x200x128_2_0_n_n_0_2_1128 tab (starts x)

/-- The gathered rows, NaN where the mask is false. -/
def taken (x : IVec S4096x200 32) (tab : FVec F S100000x128 .f32) : FVec F S4096x200x128 .f32 :=
  select (broadcastInDim S4096x200x128 ![0, 1] bcast_S4096x200_S4096x200x128_0_1 (mask x)) (rows x tab)
    (broadcastInDim S4096x200x128 ![] bcast_S_S4096x200x128 (constant S_ .f32 0x7FC00000#32))

/-- The whole computation at any float values. -/
def refTermF (x : IVec S4096x200 32) (tab : FVec F S100000x128 .f32) : FVec F S4096x200x128 .f32 :=
  mulf (taken x tab) (broadcastInDim S4096x200x128 ![] bcast_S_S4096x200x128 (constant S_ .f32 0x413504F3#32))

/-- The reference's result as a function of its two arguments, at the ideal values. -/
def refTerm (x : IVec Cert.ReferenceIdeal.S4096x200 32) (tab : FVec Ideal Cert.ReferenceIdeal.S100000x128 .f32) :
    FVec Ideal Cert.ReferenceIdeal.S4096x200x128 .f32 :=
  refTermF (F := Ideal) x tab

end Cert.RefSide

end
-- ==== Proof.RefOps.lean ====
/-
  The reference program as a straight line of operations: its @main with the two functions it calls unfolded at their
  call sites, and the structural facts the run of such a line asks for (no buffer or counter is scoped; every
  operation touches TensorCore buffers only).
-/
import proofs.«209300_g39805756900082_cont_8to1_b_88_12_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The program as a line of operations -/

/-- @main's 26 operations in order, the two calls unfolded: the lookup's twenty-three (of which the seventh is the
    inner call's one select) into the call's own buffers, then the constant, its broadcast and the product. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select,
    nullary main_cst (constant S_ .f32 0x413504F3#32),
    unary main_cst main_v1 (broadcastInDim S4096x200x128 ![] bcast_S_S4096x200x128 : (⟨S_, .f32⟩ : BufTy).Contents (Elt F) → (⟨S4096x200x128, .f32⟩ : BufTy).Contents (Elt F)),
    binary main_v0 main_v1 main_v2 (mulf : (⟨S4096x200x128, .f32⟩ : BufTy).Contents (Elt F) → (⟨S4096x200x128, .f32⟩ : BufTy).Contents (Elt F) → (⟨S4096x200x128, .f32⟩ : BufTy).Contents (Elt F)) ]

-- twenty-six binds re-associated under the two unfolded calls
set_option maxRecDepth 1024 in
/-- @main is that straight line: the two functions unfolded at their calls, both sides are one chain of steps once
    sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub ..⟩

end Cert.RefSide

end
-- ==== Proof.RefStages.lean ====
/-
  What the buffers hold after the reference program's line of operations, stage by stage.

  The line is cut into four consecutive stages — the start indices; the mask; the masked gather; the product — and for
  each stage the buffer it produces is computed, after the stage run from ANY contents, as a pure term of the buffers
  the stage reads (and the buffers later stages still read are shown untouched).  Chained, the four say that the result
  buffer after the whole line holds `refTermF` of the two arguments' contents.
-/
import proofs.«209300_g39805756900082_cont_8to1_b_88_12_alg».proof.Proof.RefTerm
import proofs.«209300_g39805756900082_cont_8to1_b_88_12_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The term, restated over what each stage reads -/

/-- The mask as a function of the start indices. -/
def maskOf (st : IVec S4096x200x1 32) : IVec S4096x200 1 :=
  Host.reduce IntOp.andi
    (andi (cmpi .sge st (broadcastInDim S4096x200x1 ![] bcast_S_S4096x200x1 (constantI S_ 32 0#32)))
      (cmpi .sle st (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The masked gather as a function of the mask, the table and the start indices. -/
def takenOf (msk : IVec S4096x200 1) (tab : FVec F S100000x128 .f32) (st : IVec S4096x200x1 32) : FVec F S4096x200x128 .f32 :=
  select (broadcastInDim S4096x200x128 ![0, 1] bcast_S4096x200_S4096x200x128_0_1 msk)
    (Host.gather gather_S100000x128_S4096x200x1_S4096x200x128_2_0_n_n_0_2_1128 tab st)
    (broadcastInDim S4096x200x128 ![] bcast_S_S4096x200x128 (constant S_ .f32 0x7FC00000#32))

/-- The whole term is the stages composed. -/
theorem refTermF_eq_stages (x : IVec S4096x200 32) (tab : FVec F S100000x128 .f32) :
    refTermF x tab = mulf (takenOf (maskOf (starts x)) tab (starts x))
      (broadcastInDim S4096x200x128 ![] bcast_S_S4096x200x128 (constant S_ .f32 0x413504F3#32)) := rfl

/-! ## The line, cut in four -/

/-- The first stage: the words with negative ones moved up, and their copy with a unit axis (operations 1 to 8). -/
abbrev opsA : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1) ]

/-- The second stage: the two range tests, their conjunction and its reduction over the unit axis (operations 9 to 18). -/
abbrev opsB : List (HloOp τ sig (Elt F)) :=
  [ TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_) ]

/-- The third stage: the gather, the mask broadcast over the columns, NaN, and the select (operations 19 to 23). -/
abbrev opsC : List (HloOp τ sig (Elt F)) :=
  [ TRef.binary (.of main_arg1) main_call0.v5 main_call0.v13 (fun x i => Host.gather gather_S100000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

/-- The last stage: the constant, its broadcast and the product (operations 24 to 26). -/
abbrev opsD : List (HloOp τ sig (Elt F)) :=
  [ nullary main_cst (constant S_ .f32 0x413504F3#32),
    unary main_cst main_v1 (broadcastInDim S4096x200x128 ![] bcast_S_S4096x200x128 : (⟨S_, .f32⟩ : BufTy).Contents (Elt F) → (⟨S4096x200x128, .f32⟩ : BufTy).Contents (Elt F)),
    binary main_v0 main_v1 main_v2 (mulf : (⟨S4096x200x128, .f32⟩ : BufTy).Contents (Elt F) → (⟨S4096x200x128, .f32⟩ : BufTy).Contents (Elt F) → (⟨S4096x200x128, .f32⟩ : BufTy).Contents (Elt F)) ]

theorem ops_split : (ops : List (HloOp τ sig (Elt F))) = opsA ++ (opsB ++ (opsC ++ opsD)) := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Each stage: the buffer it produces, and the buffers it leaves

In each equation the fold over the stage's few operations is unrolled and computed: an operation's result is read at the
buffer it writes and passed over at any other; the typed references' transports are the identity at these literal
references. The reduction and the gather stay folded: no equation looks inside them. -/

theorem stageA_starts (W : Valuation τ sig (Elt F)) :
    after opsA W (main_call0_v5 : DevRef τ sig) = starts (W (main_arg0 : DevRef τ sig)) := by
  simp only [after_cons, after_nil]
  rfl

theorem stageA_arg1 (W : Valuation τ sig (Elt F)) :
    after opsA W (main_arg1 : DevRef τ sig) = W (main_arg1 : DevRef τ sig) := by
  simp only [after_cons, after_nil]
  rfl

attribute [local irreducible] Host.reduce Host.gather in
theorem stageB_mask (W : Valuation τ sig (Elt F)) :
    after opsB W (main_call0_v12 : DevRef τ sig) = maskOf (W (main_call0_v5 : DevRef τ sig)) := by
  simp only [after_cons, after_nil]
  rfl

attribute [local irreducible] Host.reduce Host.gather in
theorem stageB_starts (W : Valuation τ sig (Elt F)) :
    after opsB W (main_call0_v5 : DevRef τ sig) = W (main_call0_v5 : DevRef τ sig) := by
  simp only [after_cons, after_nil]
  rfl

attribute [local irreducible] Host.reduce Host.gather in
theorem stageB_arg1 (W : Valuation τ sig (Elt F)) :
    after opsB W (main_arg1 : DevRef τ sig) = W (main_arg1 : DevRef τ sig) := by
  simp only [after_cons, after_nil]
  rfl

attribute [local irreducible] Host.reduce Host.gather in
theorem stageC_taken (W : Valuation τ sig (Elt F)) :
    after opsC W (main_v0 : DevRef τ sig)
      = takenOf (W (main_call0_v12 : DevRef τ sig)) (W (main_arg1 : DevRef τ sig)) (W (main_call0_v5 : DevRef τ sig)) := by
  simp only [after_cons, after_nil]
  rfl

theorem stageD_out (W : Valuation τ sig (Elt F)) :
    after opsD W (main_v2 : DevRef τ sig)
      = mulf (W (main_v0 : DevRef τ sig)) (broadcastInDim S4096x200x128 ![] bcast_S_S4096x200x128 (constant S_ .f32 0x413504F3#32)) := by
  simp only [after_cons, after_nil]
  rfl

/-! ## The whole line -/

/-- The result buffer after the line holds the composed term of the two arguments' contents. -/
theorem out_eq (V : Valuation τ sig (Elt F)) :
    after ops V (main_v2 : DevRef τ sig) = refTermF (V (main_arg0 : DevRef τ sig)) (V (main_arg1 : DevRef τ sig)) := by
  rw [ops_split, after_append, after_append, after_append, stageD_out, stageC_taken, stageB_mask, stageB_arg1, stageB_starts,
    stageA_starts, stageA_arg1, refTermF_eq_stages]

end Cert.RefSide

end
-- ==== Proof.RefRun.lean ====
/-
  The reference program's run, read back as one pure term.

  From any memory with zero counters the program — a straight line of operations on buffers of tensor values —
  terminates on every weakly fair execution, and each buffer then holds what the line leaves in it: the result buffer
  holds `refTerm` of the two arguments' launch contents, and the arguments hold what they held.
-/
import proofs.«209300_g39805756900082_cont_8to1_b_88_12_alg».proof.Proof.RefStages

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- No operation of the line writes the first argument. -/
theorem arg0_eq (V : Valuation τ sig (Elt F)) :
    after ops V (main_arg0 : DevRef τ sig) = V (main_arg0 : DevRef τ sig) := by
  simp only [after_cons, after_nil]
  rfl

/-- No operation of the line writes the second argument. -/
theorem arg1_eq (V : Valuation τ sig (Elt F)) :
    after ops V (main_arg1 : DevRef τ sig) = V (main_arg1 : DevRef τ sig) := by
  simp only [after_cons, after_nil]
  rfl

/-- From any memory with zero counters, every weakly fair execution of @main terminates with the result buffer at
    `refTerm` of the arguments' launch contents and the arguments unchanged. -/
theorem run (m : (l : Loc Cert.ReferenceIdeal.nD Cert.ReferenceIdeal.τ Cert.ReferenceIdeal.sig) → Buf (Elt Ideal) l)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v2)
            = refTerm (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run defs _ _).mono (fun _ h c => ⟨(h c main_v2).trans (out_eq _), (h c main_arg0).trans (arg0_eq _), (h c main_arg1).trans (arg1_eq _)⟩)
    (run_seq scopedRefs_eq scopedSems_eq defs main (fun _ => ops) main_eq (fun _ => ops_sub) m g)

end Cert.RefSide

end
-- ==== Proof.LibGatherRows.lean ====
/-
  A gather of whole rows of a table, read at an index.

  What `table[rows]` lowers to for a table [N, C] and an integer array `rows` [B, T]: a gather with offset axis 2,
  operand axis 0 collapsed, start index map [0], index vector axis 2 over the indices as [B, T, 1] and slice sizes
  [1, C]. Result element (b, t, k) is the table at row  rows[b, t, 0]  — read as a signed integer and clamped into
  [0, N − 1], as every gather clamps a start index — and column k.
-/
import Idealize.ShloMosaic.PureOps.ShapeOps
import Idealize.ShloMosaic.Lib.ValueIdx

namespace Cert.YearBasis

open Idealize.ShloMosaic Idealize.ShloMosaic.ValueIdx

section RowGather
variable {α : Type}

/-- The dimension numbers of a row gather: operand [N, C], start indices [B, T, 1], result [B, T, C]. -/
abbrev rowsDims (N C B T : Nat)
    (wf : GatherDims.WF ⟨2, ![N, C]⟩ ⟨3, ![B, T, 1]⟩ ⟨3, ![B, T, C]⟩ [2] [0] [] [0] [] 2 ![1, C]) :
    GatherDims ⟨2, ![N, C]⟩ ⟨3, ![B, T, 1]⟩ ⟨3, ![B, T, C]⟩ where
  offsetDims := [2]
  collapsedSliceDims := [0]
  operandBatchingDims := []
  startIndicesBatchingDims := []
  startIndexMap := [0]
  indexVectorDim := 2
  sliceSizes := ![1, C]
  wf := wf

/-- The row gather read at (b, t, k): the table at the row the start index `idx[b, t, 0]` names, read signed and
    clamped into [0, N − 1], and column k. -/
theorem gather_rows_apply {N C B T w : Nat} (hN : 0 < N)
    (wf : GatherDims.WF ⟨2, ![N, C]⟩ ⟨3, ![B, T, 1]⟩ ⟨3, ![B, T, C]⟩ [2] [0] [] [0] [] 2 ![1, C])
    (x : (⟨2, ![N, C]⟩ : Shape).Idx → α) (idx : IVec ⟨3, ![B, T, 1]⟩ w) (b : Fin B) (t : Fin T) (k : Fin C) :
    Host.gather (rowsDims N C B T wf) x idx (ix3 b t k)
      = x (ix2 ⟨min (idx (ix3 b t (0 : Fin 1))).toInt.toNat (N - 1), by omega⟩ k) := by
  unfold Host.gather
  refine congrArg x (funext ?_)
  refine Fin.forall_fin_two.2 ⟨Fin.ext ?_, Fin.ext ?_⟩
  · -- the row axis: the clamped start index, no batch or offset coordinate
    show (rowsDims N C B T wf).start (ix3 b t k) idx 0 + (rowsDims N C B T wf).batchCoord (ix3 b t k) 0
        + (rowsDims N C B T wf).offCoord (ix3 b t k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C B T wf).startIndexMap from List.mem_singleton.mpr rfl)]
    have hsi : (rowsDims N C B T wf).siIdx (ix3 b t k) ⟨List.idxOf (0 : Fin 2) (rowsDims N C B T wf).startIndexMap,
        List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  · -- the column axis: no start index, the result's offset coordinate
    show (rowsDims N C B T wf).start (ix3 b t k) idx 1 + (rowsDims N C B T wf).batchCoord (ix3 b t k) 1
        + (rowsDims N C B T wf).offCoord (ix3 b t k) 1 = _
    rw [GatherDims.batchCoord_eq_zero _ _ _ List.not_mem_nil]
    have h1 : (1 : Fin 2) ∉ (rowsDims N C B T wf).startIndexMap := fun h =>
      absurd (List.mem_singleton.mp h) (by decide : (1 : Fin 2) ≠ 0)
    unfold GatherDims.start
    rw [dif_neg h1]
    simp only [Nat.zero_add, Nat.add_zero]
    rfl

end RowGather

end Cert.YearBasis
-- ==== Proof.RefValue.lean ====
/-
  The reference's term is the specification, on words that name rows of the table.

  For a word `v` below 100000 read unsigned (so 0 ≤ v ≤ 99999 read signed): `v < 0` is false, so the first select
  leaves `v`; both range tests hold, so the mask — their conjunction, reduced over an axis of length one — is true;
  the gather reads row `v`, its clamp into [0, 99999] doing nothing; the second select therefore keeps the gathered
  row; and the product with the constant is the specification's scaled row.
-/
import proofs.«209300_g39805756900082_cont_8to1_b_88_12_alg».proof.Proof.RefTerm
import proofs.«209300_g39805756900082_cont_8to1_b_88_12_alg».proof.Proof.Spec
import proofs.«209300_g39805756900082_cont_8to1_b_88_12_alg».proof.Proof.LibGatherRows
import Idealize.ShloMosaic.Lib.Affine
import Idealize.ShloMosaic.Lib.Pipeline.Value
import Idealize.ShloMosaic.Lib.ValueIdx
import Idealize.ShloMosaic.PureOps.Reduce

noncomputable section

namespace Cert.RefSide

open Cert.ReferenceIdeal Cert.ReferenceIdeal.Gen Idealize.ShloMosaic Idealize.ShloMosaic.ValueIdx

variable {F : FTy → Type} [FloatOps F]

/-! ## A conjunction of ones is one -/

/-- A left fold by `and` from 1 over words that are all 1 is 1. -/
theorem foldl_andi_of_all {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_of_all f hf l

/-- A reduction by `and`, from an initial value of ones, of an array of ones is one at every index. -/
theorem reduce_andi_of_all {s t u : Shape} {axes : List (Fin s.rank)} (p : s.Idx → BitVec 1) (init : u.Idx → BitVec 1)
    (h : s.ReducesTo axes t) (hu : 0 < u.numel) (j : t.Idx) (hinit : ∀ i, init i = 1#1) (hp : ∀ i, p i = 1#1) :
    Host.reduce IntOp.andi p init h hu j = 1#1 := by
  rw [Host.reduce_eq_foldl, hinit]
  exact foldl_andi_of_all p hp _

/-! ## A word below 100000: its three signed tests -/

private theorem toInt_zero32 : (0#32 : BitVec 32).toInt = 0 := by decide
private theorem toInt_max32 : (99999#32 : BitVec 32).toInt = 99999 := by decide

theorem toInt_of_lt {v : BitVec 32} (h : v.toNat < 100000) : v.toInt = (v.toNat : Int) :=
  BitVec.toInt_eq_toNat_of_lt (by omega)

theorem not_slt_zero_of_lt {v : BitVec 32} (h : v.toNat < 100000) : ¬IntOp.cmpi .slt v 0#32 = 1#1 := by
  rw [IntOp.cmpi_slt, toInt_zero32, toInt_of_lt h]; omega

theorem sge_zero_of_lt {v : BitVec 32} (h : v.toNat < 100000) : IntOp.cmpi .sge v 0#32 = 1#1 := by
  rw [IntOp.cmpi_sge, toInt_zero32, toInt_of_lt h]; omega

theorem sle_max_of_lt {v : BitVec 32} (h : v.toNat < 100000) : IntOp.cmpi .sle v 99999#32 = 1#1 := by
  rw [IntOp.cmpi_sle, toInt_max32, toInt_of_lt h]; omega

/-! ## The stages read at an index -/

/-- A word in range is not moved. -/
theorem wrapped_apply (x : IVec S4096x200 32) (j : S4096x200.Idx) (h : (x j).toNat < 100000) : wrapped x j = x j := by
  show Scalar.select (IntOp.cmpi .slt (x j) 0#32) (IntOp.addi (x j) 100000#32) (x j) = x j
  exact if_neg (not_slt_zero_of_lt h)

/-- The start index at (b, s, 0) is the (moved) word at (b, s). -/
theorem starts_apply (x : IVec S4096x200 32) (b : Fin 4096) (s : Fin 200) (c : Fin 1) :
    starts x (ix3 b s c) = wrapped x (ix2 b s) :=
  broadcastInDim_apply _ _ _ (ix3 b s c) (ix2 b s) (fun a => match a with | ⟨0, _⟩ => rfl | ⟨1, _⟩ => rfl)

theorem starts_eq (x : IVec S4096x200 32) (b : Fin 4096) (s : Fin 200) (c : Fin 1) (h : (x (ix2 b s)).toNat < 100000) :
    starts x (ix3 b s c) = x (ix2 b s) :=
  (starts_apply x b s c).trans (wrapped_apply x _ h)

/-- Both range tests hold at a word in range. -/
theorem inRange3_apply (x : IVec S4096x200 32) (b : Fin 4096) (s : Fin 200) (c : Fin 1) (h : (x (ix2 b s)).toNat < 100000) :
    inRange3 x (ix3 b s c) = 1#1 := by
  show IntOp.andi (IntOp.cmpi .sge (starts x (ix3 b s c)) 0#32) (IntOp.cmpi .sle (starts x (ix3 b s c)) 99999#32) = 1#1
  rw [starts_eq x b s c h, sge_zero_of_lt h, sle_max_of_lt h]
  decide

/-- The mask is true everywhere when every word is in range. -/
theorem mask_apply (x : IVec S4096x200 32) (hx : ∀ j, (x j).toNat < 100000) (j : S4096x200.Idx) : mask x j = 1#1 := by
  unfold mask
  refine reduce_andi_of_all _ _ _ _ j (fun _ => rfl) (fun i => ?_)
  rw [eq_ix3 i]
  exact inRange3_apply x _ _ _ (hx _)

/-- The gathered row at (b, s) is the table's row named by the word at (b, s). -/
theorem rows_apply (x : IVec S4096x200 32) (tab : FVec F S100000x128 .f32) (b : Fin 4096) (s : Fin 200) (k : Fin 128)
    (h : (x (ix2 b s)).toNat < 100000) :
    rows x tab (ix3 b s k) = tab (ix2 (Cert.Spec.rowOfWord (x (ix2 b s))) k) := by
  unfold rows
  refine (Cert.YearBasis.gather_rows_apply (N := 100000) (C := 128) (B := 4096) (T := 200) (by decide)
    gather_S100000x128_S4096x200x1_S4096x200x128_2_0_n_n_0_2_1128_wf tab (starts x) b s k).trans ?_
  refine congrArg (fun r => tab (ix2 r k)) (Fin.ext ?_)
  show min (starts x (ix3 b s (0 : Fin 1))).toInt.toNat (100000 - 1) = (x (ix2 b s)).toNat % 100000
  rw [starts_eq x b s 0 h, toInt_of_lt h, Int.toNat_natCast, Nat.mod_eq_of_lt h]
  omega

/-- The looked-up row at (b, s): the mask being true, the gathered row. -/
theorem taken_apply (x : IVec S4096x200 32) (tab : FVec F S100000x128 .f32) (hx : ∀ j, (x j).toNat < 100000)
    (b : Fin 4096) (s : Fin 200) (k : Fin 128) :
    taken x tab (ix3 b s k) = tab (ix2 (Cert.Spec.rowOfWord (x (ix2 b s))) k) := by
  have hm : broadcastInDim S4096x200x128 ![0, 1] bcast_S4096x200_S4096x200x128_0_1 (mask x) (ix3 b s k) = 1#1 :=
    (broadcastInDim_apply _ _ _ (ix3 b s k) (ix2 b s) (fun a => match a with | ⟨0, _⟩ => rfl | ⟨1, _⟩ => rfl)).trans
      (mask_apply x hx _)
  unfold taken
  rw [select_apply, hm, select_one, rows_apply x tab b s k (hx _)]

/-! ## The term is the specification -/

/-- At any float values: the composed term, on words in range, is the specification. -/
theorem refTermF_eq_final (x : IVec Cert.Spec.SX 32) (tab : FVec F Cert.Spec.ST .f32) (hx : ∀ j, (x j).toNat < 100000) :
    refTermF x tab = Cert.Spec.final (F := F) x tab := by
  funext i
  obtain ⟨b, s, k, rfl⟩ : ∃ (b : Fin 4096) (s : Fin 200) (k : Fin 128), i = ix3 b s k := ⟨i 0, i 1, i 2, eq_ix3 i⟩
  show FloatOps.mulf (taken x tab (ix3 b s k)) (FloatOps.ofBits .f32 0x413504F3#32)
    = FloatOps.mulf (tab (ix2 (Cert.Spec.rowOfWord (x (ix2 b s))) k)) Cert.Spec.scale
  rw [taken_apply x tab hx b s k]
  rfl

/-- The reference's term is the specification on in-range words. -/
theorem refTerm_eq_final (x : IVec Cert.Spec.SX 32) (tab : FVec Ideal Cert.Spec.ST .f32) (hx : ∀ j, (x j).toNat < 100000) :
    refTerm x tab = Cert.Spec.final (F := Ideal) x tab :=
  refTermF_eq_final x tab hx

end Cert.RefSide

end
-- ==== Proof.PreRange.lean ====
/-
  What the precondition says of the words: every word of `x` names a row of the table.

  The precondition is the conjunction of two "for all" tests, each printed as a reduction by `and` into a single
  bit: every entry of the table is finite, and every word `v` of `x` satisfies 0 ≤ v ≤ 99999 read as a signed number.
  From the second test, a word's unsigned value is below 100000: a signed value that is nonnegative is the unsigned
  value itself.
-/
import proofs.«209300_g39805756900082_cont_8to1_b_88_12_alg».proof.Proof.Gen.Pre_input_domain
import Idealize.ShloMosaic.Lib.ReduceAll
import Idealize.ShloMosaic.Lib.ValueIdx

noncomputable section

namespace Cert.RefSide

open Idealize.ShloMosaic Idealize.ShloMosaic.ValueIdx

/-- The shape of a single bit has exactly one index. -/
instance subsingleton_scalarIdx : Subsingleton Cert.Pre_input_domain.S_.Idx := ⟨fun _ _ => funext fun d => d.elim0⟩

/-- A word that tests 0 ≤ v and v ≤ 99999 as a signed number has unsigned value below 100000. -/
theorem toNat_lt_of_signed_range {v : BitVec 32} (h0 : IntOp.cmpi .sge v 0#32 = 1#1) (h1 : IntOp.cmpi .sle v 99999#32 = 1#1) :
    v.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  have hc := BitVec.toInt_eq_toNat_cond v
  have hlt := v.isLt
  split at hc <;> omega

/-- Under the precondition every word of `x` is below 100000, at any float values. -/
theorem range_of_pre {F : FTy → Type} [FloatOps F] (x : IVec Cert.Pre_input_domain.S4096x200 32)
    (tab : FVec F Cert.Pre_input_domain.S100000x128 .f32)
    (h : Cert.Pre_input_domain.fn (F := F) x tab = fun _ => 1#1) : ∀ j, (x j).toNat < 100000 := by
  intro j
  have h0 := congrFun h ix0
  dsimp only [Cert.Pre_input_domain.fn] at h0
  change IntOp.andi _ _ = 1#1 at h0
  have h1 := (IntOp.andi_eq_one.1 h0).2
  have h2 := Host.reduce_andi_all _ _ _ _ _ h1 j
  change IntOp.andi (IntOp.cmpi .sge (x j) 0#32) (IntOp.cmpi .sle (x j) 99999#32) = 1#1 at h2
  have h3 := IntOp.andi_eq_one.1 h2
  exact toNat_lt_of_signed_range h3.1 h3.2

end Cert.RefSide

end
-- ==== Proof.KernelValue.lean ====
/-
  The kernel side's index equation: the flat result, reshaped, is the specification.

  A reshape keeps the row-major order of the elements.  Position (b, s) of the 4096 × 200 matrix of words is word
  r = 200·b + s of the flat list; cut into 32 lists of 200 × 128 that word sits at list r / 25600, chunk
  r % 25600 / 128, entry r % 128 — the position the specification's flat layout reads for result row r; and row r,
  column k of the flat 819200 × 128 result is position (b, s, k) of the 4096 × 200 × 128 result.
-/
import proofs.«209300_g39805756900082_cont_8to1_b_88_12_alg».proof.Proof.Spec
import Idealize.ShloMosaic.Lib.Pipeline.Value
import Idealize.ShloMosaic.Lib.ValueIdx

noncomputable section

namespace Cert.RefSide

open Idealize.ShloMosaic Idealize.ShloMosaic.ValueIdx Cert.Spec

/-- Word 200·b + s of the flat lists, read through the two reshapes, is the word at (b, s). -/
theorem wordOf_reshape (x : IVec SX 32) (h1 : SX.ShapeCasts SFlat) (h2 : SFlat.ShapeCasts SI3) (b : Fin 4096) (s : Fin 200)
    (hr : b.val * 200 + s.val < 819200) :
    wordOf (shapeCast SI3 (shapeCast SFlat x h1) h2) ⟨b.val * 200 + s.val, hr⟩ = x (ix2 b s) := by
  have hb := b.isLt
  have hs := s.isLt
  unfold wordOf
  refine (shapeCast_apply _ h2 _ (ix1 (⟨b.val * 200 + s.val, hr⟩ : Fin 819200)) ?_).trans ?_
  · rw [Shape.rowMajor_val_one, Shape.rowMajor_val_three]
    show b.val * 200 + s.val
      = ((b.val * 200 + s.val) / 25600 * 200 + (b.val * 200 + s.val) % 25600 / 128) * 128 + (b.val * 200 + s.val) % 128
    omega
  · refine shapeCast_apply _ h1 _ (ix2 b s) ?_
    rw [Shape.rowMajor_val_two, Shape.rowMajor_val_one]
    rfl

/-- The flat result reshaped to 4096 × 200 × 128 is the specification, at any float values. -/
theorem reshape_gathered_eq_final {F : FTy → Type} [FloatOps F] (x : IVec Cert.Spec.SX 32) (tab : FVec F Cert.Spec.ST .f32)
    (h1 : Cert.Spec.SX.ShapeCasts Cert.Spec.SFlat) (h2 : Cert.Spec.SFlat.ShapeCasts Cert.Spec.SI3)
    (h3 : Cert.Spec.SO2.ShapeCasts Cert.Spec.SO3) :
    shapeCast Cert.Spec.SO3 (Cert.Spec.gathered (shapeCast Cert.Spec.SI3 (shapeCast Cert.Spec.SFlat x h1) h2) tab) h3
      = Cert.Spec.final x tab := by
  funext i
  obtain ⟨b, s, k, rfl⟩ : ∃ (b : Fin 4096) (s : Fin 200) (k : Fin 128), i = ix3 b s k := ⟨i 0, i 1, i 2, eq_ix3 i⟩
  have hb := b.isLt
  have hs := s.isLt
  have hr : b.val * 200 + s.val < 819200 := by omega
  refine (shapeCast_apply _ h3 (ix3 b s k) (ix2 (⟨b.val * 200 + s.val, hr⟩ : Fin 819200) k) ?_).trans ?_
  · rw [Shape.rowMajor_val_two, Shape.rowMajor_val_three]
    rfl
  · show scaledRow tab (rowOfWord (wordOf (shapeCast SI3 (shapeCast SFlat x h1) h2) ⟨b.val * 200 + s.val, hr⟩)) k
      = scaledRow tab (rowOfWord (x (ix2 b s))) k
    rw [wordOf_reshape x h1 h2 b s hr]

end Cert.RefSide

end
-- ==== Proof.Assemble.lean ====
/-
  The claims, assembled from the two sides.

  Both programs are run from launch memories that agree on the two arguments, under the precondition that the table is
  finite and every index word lies in [0, 99999].  The precondition gives that every word, read unsigned, is below
  100000.  The kernel's run ends with its result at the flat gathered-and-scaled rows reshaped, which is the
  specification; the reference's run ends with its result at the reference's term, which on such words is the
  specification too.  So the two results are equal — both are the specification of the common arguments — and each run
  leaves its arguments as they were.
-/
import proofs.«209300_g39805756900082_cont_8to1_b_88_12_alg».proof.Defs
import proofs.«209300_g39805756900082_cont_8to1_b_88_12_alg».proof.Proof.Gen.KernelIdeal
import proofs.«209300_g39805756900082_cont_8to1_b_88_12_alg».proof.Proof.Gen.ReferenceIdeal
import proofs.«209300_g39805756900082_cont_8to1_b_88_12_alg».proof.Proof.Gen.Pre_input_domain
import proofs.«209300_g39805756900082_cont_8to1_b_88_12_alg».proof.Proof.Launch
import proofs.«209300_g39805756900082_cont_8to1_b_88_12_alg».proof.Proof.RefRun
import proofs.«209300_g39805756900082_cont_8to1_b_88_12_alg».proof.Proof.RefValue
import proofs.«209300_g39805756900082_cont_8to1_b_88_12_alg».proof.Proof.PreRange
import proofs.«209300_g39805756900082_cont_8to1_b_88_12_alg».proof.Proof.KernelValue

noncomputable section

namespace Cert.Proof

open Idealize.ShloMosaic Idealize.SL.Sem

/-! ## What the precondition gives -/

/-- Under the kernel's precondition every index word of the launch memory names a row of the table. -/
theorem preOK_of_pre (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) :
    Cert.Proof.KI.PreOK (F := Ideal) m :=
  fun d j => Cert.RefSide.range_of_pre _ _ (hpre d) j

/-- The same, stated of the first argument's words on a device. -/
theorem words_lt (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) (c : Dev Cert.KernelIdeal.nD) :
    ∀ j, ((m ((c.tc : Thread Cert.KernelIdeal.nD Cert.KernelIdeal.τ).loc Cert.KernelIdeal.main_arg0)) j).toNat < 100000 :=
  Cert.RefSide.range_of_pre _ _ (hpre c)

/-! ## The frames -/

/-- The kernel runs and leaves its arguments: its run with the result's value dropped. -/
theorem frame_pi : Cert.frame_KernelIdeal (hKernelIdeal := Cert.KernelIdeal.Gen.facts) (hPre_input_domain := Cert.Pre_input_domain.Gen.facts) :=
  fun m g hpre => (θ_run _ _ _).mono (fun _ h c => (h c).2) (Cert.Proof.KI.run_main (F := Ideal) m g (preOK_of_pre m hpre))

/-- The reference runs and leaves its arguments: its run with the result's value dropped. -/
theorem frame_ri : Cert.frame_ReferenceIdeal (hReferenceIdeal := Cert.ReferenceIdeal.Gen.facts) (hPre_input_domain := Cert.Pre_input_domain.Gen.facts) :=
  fun m g _ => (θ_run _ _ _).mono (fun _ h c => (h c).2) (Cert.RefSide.run m g)

/-- The idealization rewrote nothing. -/
theorem preserves : Cert.preserves_Kernel_KernelIdeal := trivial

/-! ## The two results are the specification -/

/-- The reference's term at a memory that agrees with the kernel's on the arguments is the specification of the
    kernel's arguments. -/
theorem ref_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (c : Dev Cert.KernelIdeal.nD) :
    Cert.RefSide.refTerm (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = Cert.Spec.final (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  (congrArg₂ Cert.RefSide.refTerm (hagree c).1 (hagree c).2).trans
    (Cert.RefSide.refTerm_eq_final _ _ (words_lt m hpre c))

/-- Both programs run, end with equal results — the specification of the common arguments — and leave their arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  fun m g m' g' hpre hagree =>
    ⟨fun c => Cert.Spec.final (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      (θ_run _ _ _).mono (fun _ h c => ⟨(h c).1.trans (Cert.RefSide.reshape_gathered_eq_final _ _ _ _ _), (h c).2⟩)
        (Cert.Proof.KI.run_main (F := Ideal) m g (preOK_of_pre m hpre)),
      (θ_run _ _ _).mono (fun _ h c => ⟨(h c).1.trans (ref_value m m' hpre hagree c), (h c).2⟩)
        (Cert.RefSide.run m' g')⟩

end Cert.Proof

end
-- ==== Proof.CommonB.lean ====
/-
  The vector-subcore kernel of the lookup, as the launch of the SparseCores sees it: the call's configuration, the
  ghost state (the launch handshakes beside the counters of the tile's own copies), the arrays as a tile names them,
  and the share of the work one tile owns.

  Tile (c, s) is worker w = 2 s + c of 32.  It owns list w of the index words (200 chunks of 128 words) and rows
  [25600 w, 25600 (w + 1)) of the flat output; every tile reads the whole table.
-/
import proofs.«209300_g39805756900082_cont_8to1_b_88_12_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«209300_g39805756900082_cont_8to1_b_88_12_alg».proof.Proof.Gen.Kernel
import proofs.«209300_g39805756900082_cont_8to1_b_88_12_alg».proof.Proof.Gen.Kernel.Skeleton
import proofs.«209300_g39805756900082_cont_8to1_b_88_12_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the counters of the tile's own copies -/

abbrev UH : Type := URounds (GSem nD τ sig) ℕ
abbrev UU : Type := UH × Counters

/-- The handshakes' rounds library, the left factor; the copies' counters are found by instance in the right. -/
abbrev EH : Emb UH (MT nD τ sig (HIx 1) (Elt F) ℕ UU ℕ) := embL

/-! ## The arrays as a tile names them -/

abbrev tW : Memref sig .scVector .hbm S100000x128 .f32 := Memref.whole main_arg1_scv
abbrev iW : Memref sig .scVector .hbm S32x200x128 .i32 := Memref.whole main_v1_scv
abbrev oW : Memref sig .scVector .hbm S819200x128 .f32 := Memref.whole main_v2_scv
abbrev sI : Memref sig .scVector .vmem S200x128 .i32 := Memref.whole cc0_scratch0
abbrev sR : Memref sig .scVector .vmem S4x128x128 .f32 := Memref.whole cc0_scratch1

/-- The SparseCore and the vector subcore of the grid point `L`. -/
abbrev cV (L : grid0.Coords) : Fin τ.nSC := (L 0).castLE hcore0
abbrev jV (L : grid0.Coords) : Fin τ.nSub := (L 1).castLE hsub0

/-- The tile's list of index words: slab `2 s + c` of the index array, as the kernel slices it. -/
abbrev iRow (L : grid0.Coords) : Memref sig .scVector .hbm S200x128 .i32 :=
  ((iW : Memref sig .scVector .hbm S32x200x128 .i32).slice (Rect.unit (s := S32x200x128) (k0_off1 L) S1x200x128.size (k0_off1_inb L)) (fun _ => rfl)).squeeze S200x128 squeezes_S1x200x128_S200x128

end Cert.Proof.KB

end
-- ==== Proof.PiecesB.lean ====
/-
  The pieces of memory one tile works on, named once: its rows of the flat output, the four slots of its rows
  scratch (128 gathered rows each), a chunk of its index list (128 words), and the table as every gather names it.
-/
import proofs.«209300_g39805756900082_cont_8to1_b_88_12_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev S25600x128 : Shape := ⟨2, ![25600, 128]⟩

theorem oTR_inb : ∀ L : grid0.Coords, ∀ a, (![51200 * (L 1).val + 25600 * (L 0).val, 0] : Fin 2 → Nat) a + S25600x128.size a ≤ S819200x128.size a := by decide +kernel

/-- The tile's rows of the flat output: rows [25600 (2 s + c), 25600 (2 s + c + 1)). -/
abbrev oTR (L : grid0.Coords) : Rect S819200x128 := Rect.unit (s := S819200x128) ![51200 * (L 1).val + 25600 * (L 0).val, 0] S25600x128.size (oTR_inb L)

/-- The four slots of the rows scratch. -/
abbrev slot0 : Memref sig .scVector .vmem S128x128 .f32 :=
  ((sR : Memref sig .scVector .vmem S4x128x128 .f32).slice (Rect.unit (s := S4x128x128) ![0, 0, 0] S1x128x128.size inb_S4x128x128_S1x128x128_0_0_0) (fun _ => rfl)).squeeze S128x128 squeezes_S1x128x128_S128x128
abbrev slot1 : Memref sig .scVector .vmem S128x128 .f32 :=
  ((sR : Memref sig .scVector .vmem S4x128x128 .f32).slice (Rect.unit (s := S4x128x128) ![1, 0, 0] S1x128x128.size inb_S4x128x128_S1x128x128_1_0_0) (fun _ => rfl)).squeeze S128x128 squeezes_S1x128x128_S128x128
abbrev slot2 : Memref sig .scVector .vmem S128x128 .f32 :=
  ((sR : Memref sig .scVector .vmem S4x128x128 .f32).slice (Rect.unit (s := S4x128x128) ![2, 0, 0] S1x128x128.size inb_S4x128x128_S1x128x128_2_0_0) (fun _ => rfl)).squeeze S128x128 squeezes_S1x128x128_S128x128
abbrev slot3 : Memref sig .scVector .vmem S128x128 .f32 :=
  ((sR : Memref sig .scVector .vmem S4x128x128 .f32).slice (Rect.unit (s := S4x128x128) ![3, 0, 0] S1x128x128.size inb_S4x128x128_S1x128x128_3_0_0) (fun _ => rfl)).squeeze S128x128 squeezes_S1x128x128_S128x128

theorem lrow_inb (j : Nat) (hj : j < 200) : ∀ a, (![j, 0] : Fin 2 → Nat) a + S1x128.size a ≤ S200x128.size a := by
  intro a; match a with
  | ⟨0, _⟩ => show j + 1 ≤ 200; omega
  | ⟨1, _⟩ => show 0 + 128 ≤ 128; omega

/-- Chunk `j` of the tile's index list in its scratch: 128 words. -/
abbrev lrow (j : Nat) (hj : j < 200) : Memref sig .scVector .vmem S128 .i32 :=
  ((sI : Memref sig .scVector .vmem S200x128 .i32).slice (Rect.unit (s := S200x128) ![j, 0] S1x128.size (lrow_inb j hj)) (fun _ => rfl)).squeeze S128 squeezes_S1x128_S128

/-- The table, as every gather names it. -/
abbrev tWs : Memref sig .scVector .hbm S100000x128 .f32 :=
  (tW : Memref sig .scVector .hbm S100000x128 .f32).slice (Rect.unit (s := S100000x128) ![0, 0] S100000x128.size inb_S100000x128_S100000x128_0_0) (fun _ => rfl)

/-- A chunk of the tile's index list at a given offset: 128 words. -/
abbrev rowM (o : Fin 2 → Nat) (ho : ∀ a, o a + S1x128.size a ≤ S200x128.size a) : Memref sig .scVector .vmem S128 .i32 :=
  ((sI : Memref sig .scVector .vmem S200x128 .i32).slice (Rect.unit (s := S200x128) o S1x128.size ho) (fun _ => rfl)).squeeze S128 squeezes_S1x128_S128

/-- A chunk of the tile's rows of the output at a given offset: 128 rows. -/
abbrev chunkM (o : Fin 2 → Nat) (ho : ∀ a, o a + S128x128.size a ≤ S819200x128.size a) : Memref sig .scVector .hbm S128x128 .f32 :=
  (oW : Memref sig .scVector .hbm S819200x128 .f32).slice (Rect.unit (s := S819200x128) o S128x128.size ho) (fun _ => rfl)

/-- The offset of chunk `4 k + b` of the index list. -/
abbrev offK (k b : Nat) : Fin 2 → Nat := ![4 * k + b, 0]

theorem offK_inb {k b : Nat} (hk : k < 50) (hb : b < 4) : ∀ a, offK k b a + S1x128.size a ≤ S200x128.size a := by
  intro a; match a with
  | ⟨0, _⟩ => show 4 * k + b + 1 ≤ 200; omega
  | ⟨1, _⟩ => show 0 + 128 ≤ 128; omega

theorem h04 : 0 < 4 := by decide
theorem h14 : 1 < 4 := by decide
theorem h24 : 2 < 4 := by decide
theorem h34 : 3 < 4 := by decide

section Tile
variable (d : Dev nD) (L : grid0.Coords)

/-- The tile's thread. -/
abbrev thr : Thread nD τ := V d (cV L) (jV L)

end Tile

end Cert.Proof.KB

end
-- ==== Proof.ValSpecB.lean ====
/-
  What the tile's buffers hold, as pure statements: the rows a gather leaves in a slot, the rows of a slot with the
  first few scaled, and the tile's rows of the output with the first few chunks written.
-/
import proofs.«209300_g39805756900082_cont_8to1_b_88_12_alg».proof.Proof.PiecesB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

theorem wOf_lt : ∀ L : grid0.Coords, 2 * (L 1).val + (L 0).val < 32 := by decide +kernel

/-- The tile's worker number: 2 s + c. -/
abbrev wOf (L : grid0.Coords) : Fin 32 := ⟨2 * (L 1).val + (L 0).val, wOf_lt L⟩

/-- The rows the gather of chunk `j` of worker `w` fetches, unscaled: row p is the table's row named by word (w, j, p). -/
def gRows (w : Fin 32) (I3 : S32x200x128.Idx → BitVec 32) (tab : S100000x128.Idx → F .f32) (j : Fin 200) : S128x128.Idx → F .f32 :=
  fun y => tab (ix2 (Cert.Spec.rowOfWord (I3 (ix3 w j (y 0)))) (y 1))

/-- Through the view `v` the contents `X` read as `G` with the first `n` rows scaled. -/
def ScaledTo (v : View sig .scVector .vmem S128x128 .f32) (G : S128x128.Idx → F .f32) (n : Nat) (X : v.ty.Contents (Elt F)) : Prop :=
  ∀ y : S128x128.Idx, v.read (Elt F) X y = if (y 0).val < n then FloatOps.mulf (G y) Cert.Spec.scale else G y

theorem ScaledTo.zero {v : View sig .scVector .vmem S128x128 .f32} {G : S128x128.Idx → F .f32} {X : v.ty.Contents (Elt F)}
    (h : ∀ y, v.read (Elt F) X y = G y) : ScaledTo v G 0 X := fun y => by rw [h y, if_neg (Nat.not_lt_zero _)]

theorem ScaledTo.all {v : View sig .scVector .vmem S128x128 .f32} {G : S128x128.Idx → F .f32} {X : v.ty.Contents (Elt F)}
    (h : ScaledTo v G 128 X) (y : S128x128.Idx) : v.read (Elt F) X y = FloatOps.mulf (G y) Cert.Spec.scale := by
  rw [h y]; exact if_pos (show (y 0).val < 128 from (y 0).isLt)

/-- The tile's rows of the flat output hold the specified rows on its first `n` chunks. -/
def OutOK (L : grid0.Coords) (I3 : S32x200x128.Idx → BitVec 32) (tab : S100000x128.Idx → F .f32) (n : Nat) (f : S819200x128.Idx → F .f32) : Prop :=
  ∀ (r : Fin 819200) (c : Fin 128), 25600 * (wOf L).val ≤ r.val → r.val < 25600 * (wOf L).val + 128 * n →
    f (ix2 r c) = Cert.Spec.gathered I3 tab (ix2 r c)

theorem OutOK.zero {L : grid0.Coords} {I3 : S32x200x128.Idx → BitVec 32} {tab : S100000x128.Idx → F .f32} (f : S819200x128.Idx → F .f32) :
    OutOK L I3 tab 0 f := fun r c h1 h2 => absurd h2 (by omega)

end Cert.Proof.KB

end
-- ==== Proof.ScaleBoxB.lean ====
/-
  The scaling of a slot of gathered rows, as a statement about values.

  After a chunk's gather has landed in a slot (128 rows of 128 numbers), the tile multiplies the slot by the constant in
  place: 32 trips, each of 32 stores; store m of trip t reads a box of 16 consecutive numbers — row 4 t + m / 8 of the
  slot, columns 16 (m % 8) to 16 (m % 8) + 15 — multiplies them and writes them back.  In row-major order of the slot the
  boxes follow one another: box m of trip t covers positions 512 t + 16 m to 512 t + 16 m + 15.  So after any number of
  stores the slot reads as the gathered rows with exactly the positions below a bound multiplied, and a trip moves the
  bound by four rows.
-/
import proofs.«209300_g39805756900082_cont_8to1_b_88_12_alg».proof.Proof.ValSpecB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

/-! ## A box's payload: the box read, every number multiplied by the constant -/

/-- What every store of the loops writes, of the box `v` it read. -/
def scaleBox (v : Vec F S1x1x16 .f32) : FVec F S1x1x16 .f32 :=
  shapeCast S1x1x16 (mulf (shapeCast S16 v shapeCasts_S1x1x16_S16) (broadcast S16 (Scalar.ofBits .f32 0x413504F3#32))) shapeCasts_S16_S1x1x16

theorem scaleBox_apply (v : Vec F S1x1x16 .f32) (j : S1x1x16.Idx) : scaleBox v j = FloatOps.mulf (v j) Cert.Spec.scale := by
  show FloatOps.mulf (v (Shape.reshapeEquiv _ (Shape.reshapeEquiv _ j))) _ = _
  rw [Shape.reshapeEquiv_reshapeEquiv, Shape.reshapeEquiv_self]
  rfl

/-! ## A slot of the rows scratch and a box of it, by coordinates -/

/-- The slot at the offsets `o` (slot `b` is at `![b, 0, 0]`). -/
abbrev slotAt (o : Fin 3 → Nat) (ho : ∀ a, o a + S1x128x128.size a ≤ S4x128x128.size a) : Memref sig .scVector .vmem S128x128 .f32 :=
  ((sR : Memref sig .scVector .vmem S4x128x128 .f32).slice (Rect.unit (s := S4x128x128) o S1x128x128.size ho) (fun _ => rfl)).squeeze S128x128 squeezes_S1x128x128_S128x128

omit [FloatOps F] in
/-- Element (r, k) of the slot is element (o₀, o₁ + r, o₂ + k) of the scratch. -/
theorem slotAt_emb (o : Fin 3 → Nat) (ho : ∀ a, o a + S1x128x128.size a ≤ S4x128x128.size a) (y : S128x128.Idx) :
    (((slotAt o ho).view.emb y) 0).val = o 0 ∧ (((slotAt o ho).view.emb y) 1).val = o 1 + (y 0).val ∧ (((slotAt o ho).view.emb y) 2).val = o 2 + (y 1).val := by
  have e : Shape.reshapeEquiv squeezes_S1x128x128_S128x128.numel_eq y = Fin.cons ⟨0, Nat.one_pos⟩ y :=
    Shape.reshapeEquiv_cons_one (n := 2) (d := ![128, 128]) squeezes_S1x128x128_S128x128.numel_eq y
  refine ⟨?_, ?_, ?_⟩
  · show o 0 + 1 * ((Shape.reshapeEquiv squeezes_S1x128x128_S128x128.numel_eq y) 0).val = _
    rw [e, Nat.one_mul]; rfl
  · show o 1 + 1 * ((Shape.reshapeEquiv squeezes_S1x128x128_S128x128.numel_eq y) 1).val = _
    rw [e, Nat.one_mul]; rfl
  · show o 2 + 1 * ((Shape.reshapeEquiv squeezes_S1x128x128_S128x128.numel_eq y) 2).val = _
    rw [e, Nat.one_mul]; rfl

/-! ## One store, read through the slot -/

abbrev sRm : Memref sig .scVector .vmem S4x128x128 .f32 := sR
abbrev SRC (F : FTy → Type) : Type := (sRm.view).ty.Contents (Elt F)

/-- A store of the multiplied box, read through the slot: the box's numbers are multiplied, the rest is as it was.
    The box is row `row`, columns `col` to `col + 15`, of slot `b`. -/
theorem read_write_box {o : Fin 3 → Nat} {ho : ∀ a, o a + S1x128x128.size a ≤ S4x128x128.size a} {b row col : Nat} (hob : o = ![b, 0, 0])
    {off : Fin 3 → Nat} {inb : ∀ a, off a + S1x1x16.size a ≤ S4x128x128.size a} (hoff : off = ![b, row, col])
    (W : SRC F) (p : S1x1x16.Idx → F .f32)
    (hp : p = scaleBox (View.readAt (Elt F) sRm.view (Rect.unit (s := S4x128x128) off S1x1x16.size inb).toLoadRect W)) (y : S128x128.Idx) :
    (slotAt o ho).view.read (Elt F) (View.write (Elt F) (sRm.access (Rect.unit (s := S4x128x128) off S1x1x16.size inb)) W p Finset.univ) y
      = if (y 0).val = row ∧ col ≤ (y 1).val ∧ (y 1).val < col + 16 then FloatOps.mulf ((slotAt o ho).view.read (Elt F) W y) Cert.Spec.scale
        else (slotAt o ho).view.read (Elt F) W y := by
  obtain ⟨e0, e1, e2⟩ := slotAt_emb o ho y
  subst hob hoff
  have e0' : (((slotAt ![b, 0, 0] ho).view.emb y) 0).val = b := e0
  have e1' : (((slotAt ![b, 0, 0] ho).view.emb y) 1).val = (y 0).val := e1.trans (Nat.zero_add _)
  have e2' : (((slotAt ![b, 0, 0] ho).view.emb y) 2).val = (y 1).val := e2.trans (Nat.zero_add _)
  have hset : (sRm.access (Rect.unit (s := S4x128x128) ![b, row, col] S1x1x16.size inb)).setOn Finset.univ
      = (Rect.unit (s := S4x128x128) ![b, row, col] S1x1x16.size inb).set := View.set_slice_whole _ _
  have hmem : (slotAt ![b, 0, 0] ho).view.emb y ∈ (Rect.unit (s := S4x128x128) ![b, row, col] S1x1x16.size inb).set
      ↔ (y 0).val = row ∧ col ≤ (y 1).val ∧ (y 1).val < col + 16 := by
    rw [Rect.mem_set_unit]
    constructor
    · intro h
      have h1 := h 1; have h2 := h 2
      rw [e1'] at h1; rw [e2'] at h2
      simp at h1 h2
      omega
    · intro h a
      match a with
      | 0 => rw [e0']; simp
      | 1 => rw [e1']; simp; omega
      | 2 => rw [e2']; simp; omega
  rw [View.read_apply, View.read_apply]
  split_ifs with hin
  · obtain ⟨x, -, hx⟩ := Finset.mem_map.mp ((Rect.map_emb_univ _).symm ▸ hmem.mpr hin)
    have hx' : (sRm.access (Rect.unit (s := S4x128x128) ![b, row, col] S1x1x16.size inb)).emb x = (slotAt ![b, 0, 0] ho).view.emb y := hx
    rw [← hx', View.write_emb_of_mem _ _ (Finset.mem_univ x), hp, scaleBox_apply, View.readAt_apply, View.read_apply]
    simp only [cast_eq]
    rfl
  · rw [View.write_of_not_mem]
    rw [hset]
    exact fun h => hin (hmem.mp h)

/-! ## The slot with the positions below a bound multiplied -/

/-- Through the view `v` the contents `X` read as `G` with the positions (in row-major order) below `N` multiplied. -/
def ScaledUpTo (v : View sig .scVector .vmem S128x128 .f32) (G : S128x128.Idx → F .f32) (N : Nat) (X : v.ty.Contents (Elt F)) : Prop :=
  ∀ y : S128x128.Idx, v.read (Elt F) X y = if 128 * (y 0).val + (y 1).val < N then FloatOps.mulf (G y) Cert.Spec.scale else G y

theorem ScaledTo.upTo {v : View sig .scVector .vmem S128x128 .f32} {G : S128x128.Idx → F .f32} {n N : Nat} {X : v.ty.Contents (Elt F)}
    (hN : N = 128 * n) (h : ScaledTo v G n X) : ScaledUpTo v G N X := fun y => by
  have h1 : (y 1).val < 128 := (y 1).isLt
  rw [h y]; exact if_congr (by omega) rfl rfl

theorem ScaledUpTo.scaledTo {v : View sig .scVector .vmem S128x128 .f32} {G : S128x128.Idx → F .f32} {n N : Nat} {X : v.ty.Contents (Elt F)}
    (hN : N = 128 * n) (h : ScaledUpTo v G N X) : ScaledTo v G n X := fun y => by
  have h1 : (y 1).val < 128 := (y 1).isLt
  rw [h y]; exact if_congr (by omega) rfl rfl

/-- One store moves the bound past its box: the box at row `row`, columns `col` to `col + 15`, is positions
    128 row + col to 128 row + col + 15. -/
theorem ScaledUpTo.step {o : Fin 3 → Nat} {ho : ∀ a, o a + S1x128x128.size a ≤ S4x128x128.size a} {G : S128x128.Idx → F .f32} {b row col N M : Nat}
    (hob : o = ![b, 0, 0]) {off : Fin 3 → Nat} {inb : ∀ a, off a + S1x1x16.size a ≤ S4x128x128.size a} (hoff : off = ![b, row, col])
    (hN : N = 128 * row + col) (hM : M = N + 16) (hcol : col + 16 ≤ 128) {W : SRC F} {p : S1x1x16.Idx → F .f32}
    (hp : p = scaleBox (View.readAt (Elt F) sRm.view (Rect.unit (s := S4x128x128) off S1x1x16.size inb).toLoadRect W))
    (h : ScaledUpTo (slotAt o ho).view G N W) :
    ScaledUpTo (slotAt o ho).view G M (View.write (Elt F) (sRm.access (Rect.unit (s := S4x128x128) off S1x1x16.size inb)) W p Finset.univ) := fun y => by
  have h1 : (y 1).val < 128 := (y 1).isLt
  rw [read_write_box hob hoff W p hp y, h y]
  by_cases hin : (y 0).val = row ∧ col ≤ (y 1).val ∧ (y 1).val < col + 16
  · rw [if_pos hin, if_neg (by omega), if_pos (by omega)]
  · rw [if_neg hin]; exact if_congr (by omega) rfl rfl

end Cert.Proof.KB

end
-- ==== Proof.ScaleLoopsB.lean ====
/-
  The four scaling loops of the tile, one per slot of its rows scratch: a trip of the loop of slot b multiplies four more
  rows of the slot by the constant.

  Trip t makes 32 stores; store m reads the box at row 4 t + m / 8, columns 16 (m % 8) to 16 (m % 8) + 15, of the slot and
  writes it back multiplied.  Followed in that order the boxes are consecutive in the slot's row-major order, from
  position 512 t on; after the last the bound stands at 512 (t + 1), four rows further.
-/
import proofs.«209300_g39805756900082_cont_8to1_b_88_12_alg».proof.Proof.ScaleBoxB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

/-- What the scaling loop of slot 0 keeps: the slot held by the tile, reading as the gathered rows `G` with the first `4 t`
    rows multiplied. -/
def invSv0 (d : Dev nD) (L : grid0.Coords) (G : S128x128.Idx → F .f32) (t : Nat) (_ : Unit) : sProp 𝕄 :=
  iprop(∃ X, ((slot0).view.loc (thr d L) ↦[(slot0).view.set]{fullShare} X) ∗ ⌜ScaledTo (slot0).view G (4 * t) X⌝)

/-- Trip `t` of the scaling loop of slot 0: its 32 stores multiply rows 4 t to 4 t + 3 of the slot, box after box. -/
theorem scale_region0 (d : Dev nD) (L : grid0.Coords) (G : S128x128.Idx → F .f32) (v2 c0 c1 : BitVec 32) (k1 : Fin k0_t1_loop.trips) (t : Fin k0_t2_loop.trips) (acc : Unit) :
    invSv0 d L G t.val acc ⊢ wp frame (wpE (defs₀ (F := F)) 𝒱₀ (thr d L) none) Set.univ
      (k0_t2_body L tW (Memref.isWhole_whole _) iW (Memref.isWhole_whole _) oW (Memref.isWhole_whole _) sI (Memref.isWhole_whole _) sR (Memref.isWhole_whole _)
        cc0_scratch2 cc0_scratch3 cc0_scratch4 cc0_scratch5 cc0_scratch6 cc0_scratch7 cc0_scratch8 cc0_scratch9 cc0_scoped0 v2 c0 c1 k1 t acc)
      (fun acc' => invSv0 d L G (t.val + 1) acc') := by
  have ht : t.val < 32 := lt_of_lt_of_le t.isLt k0_t2_abs.2.1
  unfold invSv0
  iintro ⟨%X, HX, %hX⟩
  sl_exec
  sl_step
  iexists _
  isplitl [HX]; · iexact HX
  ipureintro
  refine ScaledUpTo.scaledTo (N := 512 * t.val + 512) (by omega) ?_
  refine ScaledUpTo.step (o := ![0, 0, 0]) (ho := inb_S4x128x128_S1x128x128_0_0_0) (b := 0) (row := 4 * t.val + 3) (col := 112) (N := 512 * t.val + 496) rfl (k0_off9_eq t ⟨3, by decide⟩) (by omega) (by omega) (by omega) rfl ?_
  refine ScaledUpTo.step (o := ![0, 0, 0]) (ho := inb_S4x128x128_S1x128x128_0_0_0) (b := 0) (row := 4 * t.val + 3) (col := 96) (N := 512 * t.val + 480) rfl (k0_off8_eq t ⟨3, by decide⟩) (by omega) (by omega) (by omega) rfl ?_
  refine ScaledUpTo.step (o := ![0, 0, 0]) (ho := inb_S4x128x128_S1x128x128_0_0_0) (b := 0) (row := 4 * t.val + 3) (col := 80) (N := 512 * t.val + 464) rfl (k0_off7_eq t ⟨3, by decide⟩) (by omega) (by omega) (by omega) rfl ?_
  refine ScaledUpTo.step (o := ![0, 0, 0]) (ho := inb_S4x128x128_S1x128x128_0_0_0) (b := 0) (row := 4 * t.val + 3) (col := 64) (N := 512 * t.val + 448) rfl (k0_off6_eq t ⟨3, by decide⟩) (by omega) (by omega) (by omega) rfl ?_
  refine ScaledUpTo.step (o := ![0, 0, 0]) (ho := inb_S4x128x128_S1x128x128_0_0_0) (b := 0) (row := 4 * t.val + 3) (col := 48) (N := 512 * t.val + 432) rfl (k0_off5_eq t ⟨3, by decide⟩) (by omega) (by omega) (by omega) rfl ?_
  refine ScaledUpTo.step (o := ![0, 0, 0]) (ho := inb_S4x128x128_S1x128x128_0_0_0) (b := 0) (row := 4 * t.val + 3) (col := 32) (N := 512 * t.val + 416) rfl (k0_off4_eq t ⟨3, by decide⟩) (by omega) (by omega) (by omega) rfl ?_
  refine ScaledUpTo.step (o := ![0, 0, 0]) (ho := inb_S4x128x128_S1x128x128_0_0_0) (b := 0) (row := 4 * t.val + 3) (col := 16) (N := 512 * t.val + 400) rfl (k0_off3_eq t ⟨3, by decide⟩) (by omega) (by omega) (by omega) rfl ?_
  refine ScaledUpTo.step (o := ![0, 0, 0]) (ho := inb_S4x128x128_S1x128x128_0_0_0) (b := 0) (row := 4 * t.val + 3) (col := 0) (N := 512 * t.val + 384) rfl (k0_off2_eq t ⟨3, by decide⟩) (by omega) (by omega) (by omega) rfl ?_
  refine ScaledUpTo.step (o := ![0, 0, 0]) (ho := inb_S4x128x128_S1x128x128_0_0_0) (b := 0) (row := 4 * t.val + 2) (col := 112) (N := 512 * t.val + 368) rfl (k0_off9_eq t ⟨2, by decide⟩) (by omega) (by omega) (by omega) rfl ?_
  refine ScaledUpTo.step (o := ![0, 0, 0]) (ho := inb_S4x128x128_S1x128x128_0_0_0) (b := 0) (row := 4 * t.val + 2) (col := 96) (N := 512 * t.val + 352) rfl (k0_off8_eq t ⟨2, by decide⟩) (by omega) (by omega) (by omega) rfl ?_
  refine ScaledUpTo.step (o := ![0, 0, 0]) (ho := inb_S4x128x128_S1x128x128_0_0_0) (b := 0) (row := 4 * t.val + 2) (col := 80) (N := 512 * t.val + 336) rfl (k0_off7_eq t ⟨2, by decide⟩) (by omega) (by omega) (by omega) rfl ?_
  refine ScaledUpTo.step (o := ![0, 0, 0]) (ho := inb_S4x128x128_S1x128x128_0_0_0) (b := 0) (row := 4 * t.val + 2) (col := 64) (N := 512 * t.val + 320) rfl (k0_off6_eq t ⟨2, by decide⟩) (by omega) (by omega) (by omega) rfl ?_
  refine ScaledUpTo.step (o := ![0, 0, 0]) (ho := inb_S4x128x128_S1x128x128_0_0_0) (b := 0) (row := 4 * t.val + 2) (col := 48) (N := 512 * t.val + 304) rfl (k0_off5_eq t ⟨2, by decide⟩) (by omega) (by omega) (by omega) rfl ?_
  refine ScaledUpTo.step (o := ![0, 0, 0]) (ho := inb_S4x128x128_S1x128x128_0_0_0) (b := 0) (row := 4 * t.val + 2) (col := 32) (N := 512 * t.val + 288) rfl (k0_off4_eq t ⟨2, by decide⟩) (by omega) (by omega) (by omega) rfl ?_
  refine ScaledUpTo.step (o := ![0, 0, 0]) (ho := inb_S4x128x128_S1x128x128_0_0_0) (b := 0) (row := 4 * t.val + 2) (col := 16) (N := 512 * t.val + 272) rfl (k0_off3_eq t ⟨2, by decide⟩) (by omega) (by omega) (by omega) rfl ?_
  refine ScaledUpTo.step (o := ![0, 0, 0]) (ho := inb_S4x128x128_S1x128x128_0_0_0) (b := 0) (row := 4 * t.val + 2) (col := 0) (N := 512 * t.val + 256) rfl (k0_off2_eq t ⟨2, by decide⟩) (by omega) (by omega) (by omega) rfl ?_
  refine ScaledUpTo.step (o := ![0, 0, 0]) (ho := inb_S4x128x128_S1x128x128_0_0_0) (b := 0) (row := 4 * t.val + 1) (col := 112) (N := 512 * t.val + 240) rfl (k0_off9_eq t ⟨1, by decide⟩) (by omega) (by omega) (by omega) rfl ?_
  refine ScaledUpTo.step (o := ![0, 0, 0]) (ho := inb_S4x128x128_S1x128x128_0_0_0) (b := 0) (row := 4 * t.val + 1) (col := 96) (N := 512 * t.val + 224) rfl (k0_off8_eq t ⟨1, by decide⟩) (by omega) (by omega) (by omega) rfl ?_
  refine ScaledUpTo.step (o := ![0, 0, 0]) (ho := inb_S4x128x128_S1x128x128_0_0_0) (b := 0) (row := 4 * t.val + 1) (col := 80) (N := 512 * t.val + 208) rfl (k0_off7_eq t ⟨1, by decide⟩) (by omega) (by omega) (by omega) rfl ?_
  refine ScaledUpTo.step (o := ![0, 0, 0]) (ho := inb_S4x128x128_S1x128x128_0_0_0) (b := 0) (row := 4 * t.val + 1) (col := 64) (N := 512 * t.val + 192) rfl (k0_off6_eq t ⟨1, by decide⟩) (by omega) (by omega) (by omega) rfl ?_
  refine ScaledUpTo.step (o := ![0, 0, 0]) (ho := inb_S4x128x128_S1x128x128_0_0_0) (b := 0) (row := 4 * t.val + 1) (col := 48) (N := 512 * t.val + 176) rfl (k0_off5_eq t ⟨1, by decide⟩) (by omega) (by omega) (by omega) rfl ?_
  refine ScaledUpTo.step (o := ![0, 0, 0]) (ho := inb_S4x128x128_S1x128x128_0_0_0) (b := 0) (row := 4 * t.val + 1) (col := 32) (N := 512 * t.val + 160) rfl (k0_off4_eq t ⟨1, by decide⟩) (by omega) (by omega) (by omega) rfl ?_
  refine ScaledUpTo.step (o := ![0, 0, 0]) (ho := inb_S4x128x128_S1x128x128_0_0_0) (b := 0) (row := 4 * t.val + 1) (col := 16) (N := 512 * t.val + 144) rfl (k0_off3_eq t ⟨1, by decide⟩) (by omega) (by omega) (by omega) rfl ?_
  refine ScaledUpTo.step (o := ![0, 0, 0]) (ho := inb_S4x128x128_S1x128x128_0_0_0) (b := 0) (row := 4 * t.val + 1) (col := 0) (N := 512 * t.val + 128) rfl (k0_off2_eq t ⟨1, by decide⟩) (by omega) (by omega) (by omega) rfl ?_
  refine ScaledUpTo.step (o := ![0, 0, 0]) (ho := inb_S4x128x128_S1x128x128_0_0_0) (b := 0) (row := 4 * t.val + 0) (col := 112) (N := 512 * t.val + 112) rfl (k0_off9_eq t ⟨0, by decide⟩) (by omega) (by omega) (by omega) rfl ?_
  refine ScaledUpTo.step (o := ![0, 0, 0]) (ho := inb_S4x128x128_S1x128x128_0_0_0) (b := 0) (row := 4 * t.val + 0) (col := 96) (N := 512 * t.val + 96) rfl (k0_off8_eq t ⟨0, by decide⟩) (by omega) (by omega) (by omega) rfl ?_
  refine ScaledUpTo.step (o := ![0, 0, 0]) (ho := inb_S4x128x128_S1x128x128_0_0_0) (b := 0) (row := 4 * t.val + 0) (col := 80) (N := 512 * t.val + 80) rfl (k0_off7_eq t ⟨0, by decide⟩) (by omega) (by omega) (by omega) rfl ?_
  refine ScaledUpTo.step (o := ![0, 0, 0]) (ho := inb_S4x128x128_S1x128x128_0_0_0) (b := 0) (row := 4 * t.val + 0) (col := 64) (N := 512 * t.val + 64) rfl (k0_off6_eq t ⟨0, by decide⟩) (by omega) (by omega) (by omega) rfl ?_
  refine ScaledUpTo.step (o := ![0, 0, 0]) (ho := inb_S4x128x128_S1x128x128_0_0_0) (b := 0) (row := 4 * t.val + 0) (col := 48) (N := 512 * t.val + 48) rfl (k0_off5_eq t ⟨0, by decide⟩) (by omega) (by omega) (by omega) rfl ?_
  refine ScaledUpTo.step (o := ![0, 0, 0]) (ho := inb_S4x128x128_S1x128x128_0_0_0) (b := 0) (row := 4 * t.val + 0) (col := 32) (N := 512 * t.val + 32) rfl (k0_off4_eq t ⟨0, by decide⟩) (by omega) (by omega) (by omega) rfl ?_
  refine ScaledUpTo.step (o := ![0, 0, 0]) (ho := inb_S4x128x128_S1x128x128_0_0_0) (b := 0) (row := 4 * t.val + 0) (col := 16) (N := 512 * t.val + 16) rfl (k0_off3_eq t ⟨0, by decide⟩) (by omega) (by omega) (by omega) rfl ?_
  refine ScaledUpTo.step (o := ![0, 0, 0]) (ho := inb_S4x128x128_S1x128x128_0_0_0) (b := 0) (row := 4 * t.val + 0) (col := 0) (N := 512 * t.val + 0) rfl (k0_off2_eq t ⟨0, by decide⟩) (by omega) (by omega) (by omega) rfl ?_
  exact ScaledTo.upTo (by omega) hX

/-- What the scaling loop of slot 1 keeps: the slot held by the tile, reading as the gathered rows `G` with the first `4 t`
    rows multiplied. -/
def invSv1 (d : Dev nD) (L : grid0.Coords) (G : S128x128.Idx → F .f32) (t : Nat) (_ : Unit) : sProp 𝕄 :=
  iprop(∃ X, ((slot1).view.loc (thr d L) ↦[(slot1).view.set]{fullShare} X) ∗ ⌜ScaledTo (slot1).view G (4 * t) X⌝)

/-- Trip `t` of the scaling loop of slot 1: its 32 stores multiply rows 4 t to 4 t + 3 of the slot, box after box. -/
theorem scale_region1 (d : Dev nD) (L : grid0.Coords) (G : S128x128.Idx → F .f32) (v2 : BitVec 32) (k1 : Fin k0_t1_loop.trips) (arg15 c0 c1 : BitVec 32) (t : Fin k0_t3_loop.trips) (acc : Unit) :
    invSv1 d L G t.val acc ⊢ wp frame (wpE (defs₀ (F := F)) 𝒱₀ (thr d L) none) Set.univ
      (k0_t3_body L tW (Memref.isWhole_whole _) iW (Memref.isWhole_whole _) oW (Memref.isWhole_whole _) sI (Memref.isWhole_whole _) sR (Memref.isWhole_whole _)
        cc0_scratch2 cc0_scratch3 cc0_scratch4 cc0_scratch5 cc0_scratch6 cc0_scratch7 cc0_scratch8 cc0_scratch9 cc0_scoped0 v2 k1 arg15 c0 c1 t acc)
      (fun acc' => invSv1 d L G (t.val + 1) acc') := by
  have ht : t.val < 32 := lt_of_lt_of_le t.isLt k0_t3_abs.2.1
  unfold invSv1
  iintro ⟨%X, HX, %hX⟩
  sl_exec
  sl_step
  iexists _
  isplitl [HX]; · iexact HX
  ipureintro
  refine ScaledUpTo.scaledTo (N := 512 * t.val + 512) (by omega) ?_
  refine ScaledUpTo.step (o := ![1, 0, 0]) (ho := inb_S4x128x128_S1x128x128_1_0_0) (b := 1) (row := 4 * t.val + 3) (col := 112) (N := 512 * t.val + 496) rfl (k0_off18_eq t ⟨3, by decide⟩) (by omega) (by omega) (by omega) rfl ?_
  refine ScaledUpTo.step (o := ![1, 0, 0]) (ho := inb_S4x128x128_S1x128x128_1_0_0) (b := 1) (row := 4 * t.val + 3) (col := 96) (N := 512 * t.val + 480) rfl (k0_off17_eq t ⟨3, by decide⟩) (by omega) (by omega) (by omega) rfl ?_
  refine ScaledUpTo.step (o := ![1, 0, 0]) (ho := inb_S4x128x128_S1x128x128_1_0_0) (b := 1) (row := 4 * t.val + 3) (col := 80) (N := 512 * t.val + 464) rfl (k0_off16_eq t ⟨3, by decide⟩) (by omega) (by omega) (by omega) rfl ?_
  refine ScaledUpTo.step (o := ![1, 0, 0]) (ho := inb_S4x128x128_S1x128x128_1_0_0) (b := 1) (row := 4 * t.val + 3) (col := 64) (N := 512 * t.val + 448) rfl (k0_off15_eq t ⟨3, by decide⟩) (by omega) (by omega) (by omega) rfl ?_
  refine ScaledUpTo.step (o := ![1, 0, 0]) (ho := inb_S4x128x128_S1x128x128_1_0_0) (b := 1) (row := 4 * t.val + 3) (col := 48) (N := 512 * t.val + 432) rfl (k0_off14_eq t ⟨3, by decide⟩) (by omega) (by omega) (by omega) rfl ?_
  refine ScaledUpTo.step (o := ![1, 0, 0]) (ho := inb_S4x128x128_S1x128x128_1_0_0) (b := 1) (row := 4 * t.val + 3) (col := 32) (N := 512 * t.val + 416) rfl (k0_off13_eq t ⟨3, by decide⟩) (by omega) (by omega) (by omega) rfl ?_
  refine ScaledUpTo.step (o := ![1, 0, 0]) (ho := inb_S4x128x128_S1x128x128_1_0_0) (b := 1) (row := 4 * t.val + 3) (col := 16) (N := 512 * t.val + 400) rfl (k0_off12_eq t ⟨3, by decide⟩) (by omega) (by omega) (by omega) rfl ?_
  refine ScaledUpTo.step (o := ![1, 0, 0]) (ho := inb_S4x128x128_S1x128x128_1_0_0) (b := 1) (row := 4 * t.val + 3) (col := 0) (N := 512 * t.val + 384) rfl (k0_off11_eq t ⟨3, by decide⟩) (by omega) (by omega) (by omega) rfl ?_
  refine ScaledUpTo.step (o := ![1, 0, 0]) (ho := inb_S4x128x128_S1x128x128_1_0_0) (b := 1) (row := 4 * t.val + 2) (col := 112) (N := 512 * t.val + 368) rfl (k0_off18_eq t ⟨2, by decide⟩) (by omega) (by omega) (by omega) rfl ?_
  refine ScaledUpTo.step (o := ![1, 0, 0]) (ho := inb_S4x128x128_S1x128x128_1_0_0) (b := 1) (row := 4 * t.val + 2) (col := 96) (N := 512 * t.val + 352) rfl (k0_off17_eq t ⟨2, by decide⟩) (by omega) (by omega) (by omega) rfl ?_
  refine ScaledUpTo.step (o := ![1, 0, 0]) (ho := inb_S4x128x128_S1x128x128_1_0_0) (b := 1) (row := 4 * t.val + 2) (col := 80) (N := 512 * t.val + 336) rfl (k0_off16_eq t ⟨2, by decide⟩) (by omega) (by omega) (by omega) rfl ?_
  refine ScaledUpTo.step (o := ![1, 0, 0]) (ho := inb_S4x128x128_S1x128x128_1_0_0) (b := 1) (row := 4 * t.val + 2) (col := 64) (N := 512 * t.val + 320) rfl (k0_off15_eq t ⟨2, by decide⟩) (by omega) (by omega) (by omega) rfl ?_
  refine ScaledUpTo.step (o := ![1, 0, 0]) (ho := inb_S4x128x128_S1x128x128_1_0_0) (b := 1) (row := 4 * t.val + 2) (col := 48) (N := 512 * t.val + 304) rfl (k0_off14_eq t ⟨2, by decide⟩) (by omega) (by omega) (by omega) rfl ?_
  refine ScaledUpTo.step (o := ![1, 0, 0]) (ho := inb_S4x128x128_S1x128x128_1_0_0) (b := 1) (row := 4 * t.val + 2) (col := 32) (N := 512 * t.val + 288) rfl (k0_off13_eq t ⟨2, by decide⟩) (by omega) (by omega) (by omega) rfl ?_
  refine ScaledUpTo.step (o := ![1, 0, 0]) (ho := inb_S4x128x128_S1x128x128_1_0_0) (b := 1) (row := 4 * t.val + 2) (col := 16) (N := 512 * t.val + 272) rfl (k0_off12_eq t ⟨2, by decide⟩) (by omega) (by omega) (by omega) rfl ?_
  refine ScaledUpTo.step (o := ![1, 0, 0]) (ho := inb_S4x128x128_S1x128x128_1_0_0) (b := 1) (row := 4 * t.val + 2) (col := 0) (N := 512 * t.val + 256) rfl (k0_off11_eq t ⟨2, by decide⟩) (by omega) (by omega) (by omega) rfl ?_
  refine ScaledUpTo.step (o := ![1, 0, 0]) (ho := inb_S4x128x128_S1x128x128_1_0_0) (b := 1) (row := 4 * t.val + 1) (col := 112) (N := 512 * t.val + 240) rfl (k0_off18_eq t ⟨1, by decide⟩) (by omega) (by omega) (by omega) rfl ?_
  refine ScaledUpTo.step (o := ![1, 0, 0]) (ho := inb_S4x128x128_S1x128x128_1_0_0) (b := 1) (row := 4 * t.val + 1) (col := 96) (N := 512 * t.val + 224) rfl (k0_off17_eq t ⟨1, by decide⟩) (by omega) (by omega) (by omega) rfl ?_
  refine ScaledUpTo.step (o := ![1, 0, 0]) (ho := inb_S4x128x128_S1x128x128_1_0_0) (b := 1) (row := 4 * t.val + 1) (col := 80) (N := 512 * t.val + 208) rfl (k0_off16_eq t ⟨1, by decide⟩) (by omega) (by omega) (by omega) rfl ?_
  refine ScaledUpTo.step (o := ![1, 0, 0]) (ho := inb_S4x128x128_S1x128x128_1_0_0) (b := 1) (row := 4 * t.val + 1) (col := 64) (N := 512 * t.val + 192) rfl (k0_off15_eq t ⟨1, by decide⟩) (by omega) (by omega) (by omega) rfl ?_
  refine ScaledUpTo.step (o := ![1, 0, 0]) (ho := inb_S4x128x128_S1x128x128_1_0_0) (b := 1) (row := 4 * t.val + 1) (col := 48) (N := 512 * t.val + 176) rfl (k0_off14_eq t ⟨1, by decide⟩) (by omega) (by omega) (by omega) rfl ?_
  refine ScaledUpTo.step (o := ![1, 0, 0]) (ho := inb_S4x128x128_S1x128x128_1_0_0) (b := 1) (row := 4 * t.val + 1) (col := 32) (N := 512 * t.val + 160) rfl (k0_off13_eq t ⟨1, by decide⟩) (by omega) (by omega) (by omega) rfl ?_
  refine ScaledUpTo.step (o := ![1, 0, 0]) (ho := inb_S4x128x128_S1x128x128_1_0_0) (b := 1) (row := 4 * t.val + 1) (col := 16) (N := 512 * t.val + 144) rfl (k0_off12_eq t ⟨1, by decide⟩) (by omega) (by omega) (by omega) rfl ?_
  refine ScaledUpTo.step (o := ![1, 0, 0]) (ho := inb_S4x128x128_S1x128x128_1_0_0) (b := 1) (row := 4 * t.val + 1) (col := 0) (N := 512 * t.val + 128) rfl (k0_off11_eq t ⟨1, by decide⟩) (by omega) (by omega) (by omega) rfl ?_
  refine ScaledUpTo.step (o := ![1, 0, 0]) (ho := inb_S4x128x128_S1x128x128_1_0_0) (b := 1) (row := 4 * t.val + 0) (col := 112) (N := 512 * t.val + 112) rfl (k0_off18_eq t ⟨0, by decide⟩) (by omega) (by omega) (by omega) rfl ?_
  refine ScaledUpTo.step (o := ![1, 0, 0]) (ho := inb_S4x128x128_S1x128x128_1_0_0) (b := 1) (row := 4 * t.val + 0) (col := 96) (N := 512 * t.val + 96) rfl (k0_off17_eq t ⟨0, by decide⟩) (by omega) (by omega) (by omega) rfl ?_
  refine ScaledUpTo.step (o := ![1, 0, 0]) (ho := inb_S4x128x128_S1x128x128_1_0_0) (b := 1) (row := 4 * t.val + 0) (col := 80) (N := 512 * t.val + 80) rfl (k0_off16_eq t ⟨0, by decide⟩) (by omega) (by omega) (by omega) rfl ?_
  refine ScaledUpTo.step (o := ![1, 0, 0]) (ho := inb_S4x128x128_S1x128x128_1_0_0) (b := 1) (row := 4 * t.val + 0) (col := 64) (N := 512 * t.val + 64) rfl (k0_off15_eq t ⟨0, by decide⟩) (by omega) (by omega) (by omega) rfl ?_
  refine ScaledUpTo.step (o := ![1, 0, 0]) (ho := inb_S4x128x128_S1x128x128_1_0_0) (b := 1) (row := 4 * t.val + 0) (col := 48) (N := 512 * t.val + 48) rfl (k0_off14_eq t ⟨0, by decide⟩) (by omega) (by omega) (by omega) rfl ?_
  refine ScaledUpTo.step (o := ![1, 0, 0]) (ho := inb_S4x128x128_S1x128x128_1_0_0) (b := 1) (row := 4 * t.val + 0) (col := 32) (N := 512 * t.val + 32) rfl (k0_off13_eq t ⟨0, by decide⟩) (by omega) (by omega) (by omega) rfl ?_
  refine ScaledUpTo.step (o := ![1, 0, 0]) (ho := inb_S4x128x128_S1x128x128_1_0_0) (b := 1) (row := 4 * t.val + 0) (col := 16) (N := 512 * t.val + 16) rfl (k0_off12_eq t ⟨0, by decide⟩) (by omega) (by omega) (by omega) rfl ?_
  refine ScaledUpTo.step (o := ![1, 0, 0]) (ho := inb_S4x128x128_S1x128x128_1_0_0) (b := 1) (row := 4 * t.val + 0) (col := 0) (N := 512 * t.val + 0) rfl (k0_off11_eq t ⟨0, by decide⟩) (by omega) (by omega) (by omega) rfl ?_
  exact ScaledTo.upTo (by omega) hX

/-- What the scaling loop of slot 2 keeps: the slot held by the tile, reading as the gathered rows `G` with the first `4 t`
    rows multiplied. -/
def invSv2 (d : Dev nD) (L : grid0.Coords) (G : S128x128.Idx → F .f32) (t : Nat) (_ : Unit) : sProp 𝕄 :=
  iprop(∃ X, ((slot2).view.loc (thr d L) ↦[(slot2).view.set]{fullShare} X) ∗ ⌜ScaledTo (slot2).view G (4 * t) X⌝)

/-- Trip `t` of the scaling loop of slot 2: its 32 stores multiply rows 4 t to 4 t + 3 of the slot, box after box. -/
theorem scale_region2 (d : Dev nD) (L : grid0.Coords) (G : S128x128.Idx → F .f32) (v2 : BitVec 32) (k1 : Fin k0_t1_loop.trips) (arg15 c0 c1 : BitVec 32) (t : Fin k0_t4_loop.trips) (acc : Unit) :
    invSv2 d L G t.val acc ⊢ wp frame (wpE (defs₀ (F := F)) 𝒱₀ (thr d L) none) Set.univ
      (k0_t4_body L tW (Memref.isWhole_whole _) iW (Memref.isWhole_whole _) oW (Memref.isWhole_whole _) sI (Memref.isWhole_whole _) sR (Memref.isWhole_whole _)
        cc0_scratch2 cc0_scratch3 cc0_scratch4 cc0_scratch5 cc0_scratch6 cc0_scratch7 cc0_scratch8 cc0_scratch9 cc0_scoped0 v2 k1 arg15 c0 c1 t acc)
      (fun acc' => invSv2 d L G (t.val + 1) acc') := by
  have ht : t.val < 32 := lt_of_lt_of_le t.isLt k0_t4_abs.2.1
  unfold invSv2
  iintro ⟨%X, HX, %hX⟩
  sl_exec
  sl_step
  iexists _
  isplitl [HX]; · iexact HX
  ipureintro
  refine ScaledUpTo.scaledTo (N := 512 * t.val + 512) (by omega) ?_
  refine ScaledUpTo.step (o := ![2, 0, 0]) (ho := inb_S4x128x128_S1x128x128_2_0_0) (b := 2) (row := 4 * t.val + 3) (col := 112) (N := 512 * t.val + 496) rfl (k0_off26_eq t ⟨3, by decide⟩) (by omega) (by omega) (by omega) rfl ?_
  refine ScaledUpTo.step (o := ![2, 0, 0]) (ho := inb_S4x128x128_S1x128x128_2_0_0) (b := 2) (row := 4 * t.val + 3) (col := 96) (N := 512 * t.val + 480) rfl (k0_off25_eq t ⟨3, by decide⟩) (by omega) (by omega) (by omega) rfl ?_
  refine ScaledUpTo.step (o := ![2, 0, 0]) (ho := inb_S4x128x128_S1x128x128_2_0_0) (b := 2) (row := 4 * t.val + 3) (col := 80) (N := 512 * t.val + 464) rfl (k0_off24_eq t ⟨3, by decide⟩) (by omega) (by omega) (by omega) rfl ?_
  refine ScaledUpTo.step (o := ![2, 0, 0]) (ho := inb_S4x128x128_S1x128x128_2_0_0) (b := 2) (row := 4 * t.val + 3) (col := 64) (N := 512 * t.val + 448) rfl (k0_off23_eq t ⟨3, by decide⟩) (by omega) (by omega) (by omega) rfl ?_
  refine ScaledUpTo.step (o := ![2, 0, 0]) (ho := inb_S4x128x128_S1x128x128_2_0_0) (b := 2) (row := 4 * t.val + 3) (col := 48) (N := 512 * t.val + 432) rfl (k0_off22_eq t ⟨3, by decide⟩) (by omega) (by omega) (by omega) rfl ?_
  refine ScaledUpTo.step (o := ![2, 0, 0]) (ho := inb_S4x128x128_S1x128x128_2_0_0) (b := 2) (row := 4 * t.val + 3) (col := 32) (N := 512 * t.val + 416) rfl (k0_off21_eq t ⟨3, by decide⟩) (by omega) (by omega) (by omega) rfl ?_
  refine ScaledUpTo.step (o := ![2, 0, 0]) (ho := inb_S4x128x128_S1x128x128_2_0_0) (b := 2) (row := 4 * t.val + 3) (col := 16) (N := 512 * t.val + 400) rfl (k0_off20_eq t ⟨3, by decide⟩) (by omega) (by omega) (by omega) rfl ?_
  refine ScaledUpTo.step (o := ![2, 0, 0]) (ho := inb_S4x128x128_S1x128x128_2_0_0) (b := 2) (row := 4 * t.val + 3) (col := 0) (N := 512 * t.val + 384) rfl (k0_off19_eq t ⟨3, by decide⟩) (by omega) (by omega) (by omega) rfl ?_
  refine ScaledUpTo.step (o := ![2, 0, 0]) (ho := inb_S4x128x128_S1x128x128_2_0_0) (b := 2) (row := 4 * t.val + 2) (col := 112) (N := 512 * t.val + 368) rfl (k0_off26_eq t ⟨2, by decide⟩) (by omega) (by omega) (by omega) rfl ?_
  refine ScaledUpTo.step (o := ![2, 0, 0]) (ho := inb_S4x128x128_S1x128x128_2_0_0) (b := 2) (row := 4 * t.val + 2) (col := 96) (N := 512 * t.val + 352) rfl (k0_off25_eq t ⟨2, by decide⟩) (by omega) (by omega) (by omega) rfl ?_
  refine ScaledUpTo.step (o := ![2, 0, 0]) (ho := inb_S4x128x128_S1x128x128_2_0_0) (b := 2) (row := 4 * t.val + 2) (col := 80) (N := 512 * t.val + 336) rfl (k0_off24_eq t ⟨2, by decide⟩) (by omega) (by omega) (by omega) rfl ?_
  refine ScaledUpTo.step (o := ![2, 0, 0]) (ho := inb_S4x128x128_S1x128x128_2_0_0) (b := 2) (row := 4 * t.val + 2) (col := 64) (N := 512 * t.val + 320) rfl (k0_off23_eq t ⟨2, by decide⟩) (by omega) (by omega) (by omega) rfl ?_
  refine ScaledUpTo.step (o := ![2, 0, 0]) (ho := inb_S4x128x128_S1x128x128_2_0_0) (b := 2) (row := 4 * t.val + 2) (col := 48) (N := 512 * t.val + 304) rfl (k0_off22_eq t ⟨2, by decide⟩) (by omega) (by omega) (by omega) rfl ?_
  refine ScaledUpTo.step (o := ![2, 0, 0]) (ho := inb_S4x128x128_S1x128x128_2_0_0) (b := 2) (row := 4 * t.val + 2) (col := 32) (N := 512 * t.val + 288) rfl (k0_off21_eq t ⟨2, by decide⟩) (by omega) (by omega) (by omega) rfl ?_
  refine ScaledUpTo.step (o := ![2, 0, 0]) (ho := inb_S4x128x128_S1x128x128_2_0_0) (b := 2) (row := 4 * t.val + 2) (col := 16) (N := 512 * t.val + 272) rfl (k0_off20_eq t ⟨2, by decide⟩) (by omega) (by omega) (by omega) rfl ?_
  refine ScaledUpTo.step (o := ![2, 0, 0]) (ho := inb_S4x128x128_S1x128x128_2_0_0) (b := 2) (row := 4 * t.val + 2) (col := 0) (N := 512 * t.val + 256) rfl (k0_off19_eq t ⟨2, by decide⟩) (by omega) (by omega) (by omega) rfl ?_
  refine ScaledUpTo.step (o := ![2, 0, 0]) (ho := inb_S4x128x128_S1x128x128_2_0_0) (b := 2) (row := 4 * t.val + 1) (col := 112) (N := 512 * t.val + 240) rfl (k0_off26_eq t ⟨1, by decide⟩) (by omega) (by omega) (by omega) rfl ?_
  refine ScaledUpTo.step (o := ![2, 0, 0]) (ho := inb_S4x128x128_S1x128x128_2_0_0) (b := 2) (row := 4 * t.val + 1) (col := 96) (N := 512 * t.val + 224) rfl (k0_off25_eq t ⟨1, by decide⟩) (by omega) (by omega) (by omega) rfl ?_
  refine ScaledUpTo.step (o := ![2, 0, 0]) (ho := inb_S4x128x128_S1x128x128_2_0_0) (b := 2) (row := 4 * t.val + 1) (col := 80) (N := 512 * t.val + 208) rfl (k0_off24_eq t ⟨1, by decide⟩) (by omega) (by omega) (by omega) rfl ?_
  refine ScaledUpTo.step (o := ![2, 0, 0]) (ho := inb_S4x128x128_S1x128x128_2_0_0) (b := 2) (row := 4 * t.val + 1) (col := 64) (N := 512 * t.val + 192) rfl (k0_off23_eq t ⟨1, by decide⟩) (by omega) (by omega) (by omega) rfl ?_
  refine ScaledUpTo.step (o := ![2, 0, 0]) (ho := inb_S4x128x128_S1x128x128_2_0_0) (b := 2) (row := 4 * t.val + 1) (col := 48) (N := 512 * t.val + 176) rfl (k0_off22_eq t ⟨1, by decide⟩) (by omega) (by omega) (by omega) rfl ?_
  refine ScaledUpTo.step (o := ![2, 0, 0]) (ho := inb_S4x128x128_S1x128x128_2_0_0) (b := 2) (row := 4 * t.val + 1) (col := 32) (N := 512 * t.val + 160) rfl (k0_off21_eq t ⟨1, by decide⟩) (by omega) (by omega) (by omega) rfl ?_
  refine ScaledUpTo.step (o := ![2, 0, 0]) (ho := inb_S4x128x128_S1x128x128_2_0_0) (b := 2) (row := 4 * t.val + 1) (col := 16) (N := 512 * t.val + 144) rfl (k0_off20_eq t ⟨1, by decide⟩) (by omega) (by omega) (by omega) rfl ?_
  refine ScaledUpTo.step (o := ![2, 0, 0]) (ho := inb_S4x128x128_S1x128x128_2_0_0) (b := 2) (row := 4 * t.val + 1) (col := 0) (N := 512 * t.val + 128) rfl (k0_off19_eq t ⟨1, by decide⟩) (by omega) (by omega) (by omega) rfl ?_
  refine ScaledUpTo.step (o := ![2, 0, 0]) (ho := inb_S4x128x128_S1x128x128_2_0_0) (b := 2) (row := 4 * t.val + 0) (col := 112) (N := 512 * t.val + 112) rfl (k0_off26_eq t ⟨0, by decide⟩) (by omega) (by omega) (by omega) rfl ?_
  refine ScaledUpTo.step (o := ![2, 0, 0]) (ho := inb_S4x128x128_S1x128x128_2_0_0) (b := 2) (row := 4 * t.val + 0) (col := 96) (N := 512 * t.val + 96) rfl (k0_off25_eq t ⟨0, by decide⟩) (by omega) (by omega) (by omega) rfl ?_
  refine ScaledUpTo.step (o := ![2, 0, 0]) (ho := inb_S4x128x128_S1x128x128_2_0_0) (b := 2) (row := 4 * t.val + 0) (col := 80) (N := 512 * t.val + 80) rfl (k0_off24_eq t ⟨0, by decide⟩) (by omega) (by omega) (by omega) rfl ?_
  refine ScaledUpTo.step (o := ![2, 0, 0]) (ho := inb_S4x128x128_S1x128x128_2_0_0) (b := 2) (row := 4 * t.val + 0) (col := 64) (N := 512 * t.val + 64) rfl (k0_off23_eq t ⟨0, by decide⟩) (by omega) (by omega) (by omega) rfl ?_
  refine ScaledUpTo.step (o := ![2, 0, 0]) (ho := inb_S4x128x128_S1x128x128_2_0_0) (b := 2) (row := 4 * t.val + 0) (col := 48) (N := 512 * t.val + 48) rfl (k0_off22_eq t ⟨0, by decide⟩) (by omega) (by omega) (by omega) rfl ?_
  refine ScaledUpTo.step (o := ![2, 0, 0]) (ho := inb_S4x128x128_S1x128x128_2_0_0) (b := 2) (row := 4 * t.val + 0) (col := 32) (N := 512 * t.val + 32) rfl (k0_off21_eq t ⟨0, by decide⟩) (by omega) (by omega) (by omega) rfl ?_
  refine ScaledUpTo.step (o := ![2, 0, 0]) (ho := inb_S4x128x128_S1x128x128_2_0_0) (b := 2) (row := 4 * t.val + 0) (col := 16) (N := 512 * t.val + 16) rfl (k0_off20_eq t ⟨0, by decide⟩) (by omega) (by omega) (by omega) rfl ?_
  refine ScaledUpTo.step (o := ![2, 0, 0]) (ho := inb_S4x128x128_S1x128x128_2_0_0) (b := 2) (row := 4 * t.val + 0) (col := 0) (N := 512 * t.val + 0) rfl (k0_off19_eq t ⟨0, by decide⟩) (by omega) (by omega) (by omega) rfl ?_
  exact ScaledTo.upTo (by omega) hX

/-- What the scaling loop of slot 3 keeps: the slot held by the tile, reading as the gathered rows `G` with the first `4 t`
    rows multiplied. -/
def invSv3 (d : Dev nD) (L : grid0.Coords) (G : S128x128.Idx → F .f32) (t : Nat) (_ : Unit) : sProp 𝕄 :=
  iprop(∃ X, ((slot3).view.loc (thr d L) ↦[(slot3).view.set]{fullShare} X) ∗ ⌜ScaledTo (slot3).view G (4 * t) X⌝)

/-- Trip `t` of the scaling loop of slot 3: its 32 stores multiply rows 4 t to 4 t + 3 of the slot, box after box. -/
theorem scale_region3 (d : Dev nD) (L : grid0.Coords) (G : S128x128.Idx → F .f32) (v2 : BitVec 32) (t : Fin k0_t5_loop.trips) (acc : Unit) :
    invSv3 d L G t.val acc ⊢ wp frame (wpE (defs₀ (F := F)) 𝒱₀ (thr d L) none) Set.univ
      (k0_t5_body L tW (Memref.isWhole_whole _) iW (Memref.isWhole_whole _) oW (Memref.isWhole_whole _) sI (Memref.isWhole_whole _) sR (Memref.isWhole_whole _)
        cc0_scratch2 cc0_scratch3 cc0_scratch4 cc0_scratch5 cc0_scratch6 cc0_scratch7 cc0_scratch8 cc0_scratch9 cc0_scoped0 v2 t acc)
      (fun acc' => invSv3 d L G (t.val + 1) acc') := by
  have ht : t.val < 32 := lt_of_lt_of_le t.isLt k0_t5_abs.2.1
  unfold invSv3
  iintro ⟨%X, HX, %hX⟩
  sl_exec
  sl_step
  iexists _
  isplitl [HX]; · iexact HX
  ipureintro
  refine ScaledUpTo.scaledTo (N := 512 * t.val + 512) (by omega) ?_
  refine ScaledUpTo.step (o := ![3, 0, 0]) (ho := inb_S4x128x128_S1x128x128_3_0_0) (b := 3) (row := 4 * t.val + 3) (col := 112) (N := 512 * t.val + 496) rfl (k0_off34_eq t ⟨3, by decide⟩) (by omega) (by omega) (by omega) rfl ?_
  refine ScaledUpTo.step (o := ![3, 0, 0]) (ho := inb_S4x128x128_S1x128x128_3_0_0) (b := 3) (row := 4 * t.val + 3) (col := 96) (N := 512 * t.val + 480) rfl (k0_off33_eq t ⟨3, by decide⟩) (by omega) (by omega) (by omega) rfl ?_
  refine ScaledUpTo.step (o := ![3, 0, 0]) (ho := inb_S4x128x128_S1x128x128_3_0_0) (b := 3) (row := 4 * t.val + 3) (col := 80) (N := 512 * t.val + 464) rfl (k0_off32_eq t ⟨3, by decide⟩) (by omega) (by omega) (by omega) rfl ?_
  refine ScaledUpTo.step (o := ![3, 0, 0]) (ho := inb_S4x128x128_S1x128x128_3_0_0) (b := 3) (row := 4 * t.val + 3) (col := 64) (N := 512 * t.val + 448) rfl (k0_off31_eq t ⟨3, by decide⟩) (by omega) (by omega) (by omega) rfl ?_
  refine ScaledUpTo.step (o := ![3, 0, 0]) (ho := inb_S4x128x128_S1x128x128_3_0_0) (b := 3) (row := 4 * t.val + 3) (col := 48) (N := 512 * t.val + 432) rfl (k0_off30_eq t ⟨3, by decide⟩) (by omega) (by omega) (by omega) rfl ?_
  refine ScaledUpTo.step (o := ![3, 0, 0]) (ho := inb_S4x128x128_S1x128x128_3_0_0) (b := 3) (row := 4 * t.val + 3) (col := 32) (N := 512 * t.val + 416) rfl (k0_off29_eq t ⟨3, by decide⟩) (by omega) (by omega) (by omega) rfl ?_
  refine ScaledUpTo.step (o := ![3, 0, 0]) (ho := inb_S4x128x128_S1x128x128_3_0_0) (b := 3) (row := 4 * t.val + 3) (col := 16) (N := 512 * t.val + 400) rfl (k0_off28_eq t ⟨3, by decide⟩) (by omega) (by omega) (by omega) rfl ?_
  refine ScaledUpTo.step (o := ![3, 0, 0]) (ho := inb_S4x128x128_S1x128x128_3_0_0) (b := 3) (row := 4 * t.val + 3) (col := 0) (N := 512 * t.val + 384) rfl (k0_off27_eq t ⟨3, by decide⟩) (by omega) (by omega) (by omega) rfl ?_
  refine ScaledUpTo.step (o := ![3, 0, 0]) (ho := inb_S4x128x128_S1x128x128_3_0_0) (b := 3) (row := 4 * t.val + 2) (col := 112) (N := 512 * t.val + 368) rfl (k0_off34_eq t ⟨2, by decide⟩) (by omega) (by omega) (by omega) rfl ?_
  refine ScaledUpTo.step (o := ![3, 0, 0]) (ho := inb_S4x128x128_S1x128x128_3_0_0) (b := 3) (row := 4 * t.val + 2) (col := 96) (N := 512 * t.val + 352) rfl (k0_off33_eq t ⟨2, by decide⟩) (by omega) (by omega) (by omega) rfl ?_
  refine ScaledUpTo.step (o := ![3, 0, 0]) (ho := inb_S4x128x128_S1x128x128_3_0_0) (b := 3) (row := 4 * t.val + 2) (col := 80) (N := 512 * t.val + 336) rfl (k0_off32_eq t ⟨2, by decide⟩) (by omega) (by omega) (by omega) rfl ?_
  refine ScaledUpTo.step (o := ![3, 0, 0]) (ho := inb_S4x128x128_S1x128x128_3_0_0) (b := 3) (row := 4 * t.val + 2) (col := 64) (N := 512 * t.val + 320) rfl (k0_off31_eq t ⟨2, by decide⟩) (by omega) (by omega) (by omega) rfl ?_
  refine ScaledUpTo.step (o := ![3, 0, 0]) (ho := inb_S4x128x128_S1x128x128_3_0_0) (b := 3) (row := 4 * t.val + 2) (col := 48) (N := 512 * t.val + 304) rfl (k0_off30_eq t ⟨2, by decide⟩) (by omega) (by omega) (by omega) rfl ?_
  refine ScaledUpTo.step (o := ![3, 0, 0]) (ho := inb_S4x128x128_S1x128x128_3_0_0) (b := 3) (row := 4 * t.val + 2) (col := 32) (N := 512 * t.val + 288) rfl (k0_off29_eq t ⟨2, by decide⟩) (by omega) (by omega) (by omega) rfl ?_
  refine ScaledUpTo.step (o := ![3, 0, 0]) (ho := inb_S4x128x128_S1x128x128_3_0_0) (b := 3) (row := 4 * t.val + 2) (col := 16) (N := 512 * t.val + 272) rfl (k0_off28_eq t ⟨2, by decide⟩) (by omega) (by omega) (by omega) rfl ?_
  refine ScaledUpTo.step (o := ![3, 0, 0]) (ho := inb_S4x128x128_S1x128x128_3_0_0) (b := 3) (row := 4 * t.val + 2) (col := 0) (N := 512 * t.val + 256) rfl (k0_off27_eq t ⟨2, by decide⟩) (by omega) (by omega) (by omega) rfl ?_
  refine ScaledUpTo.step (o := ![3, 0, 0]) (ho := inb_S4x128x128_S1x128x128_3_0_0) (b := 3) (row := 4 * t.val + 1) (col := 112) (N := 512 * t.val + 240) rfl (k0_off34_eq t ⟨1, by decide⟩) (by omega) (by omega) (by omega) rfl ?_
  refine ScaledUpTo.step (o := ![3, 0, 0]) (ho := inb_S4x128x128_S1x128x128_3_0_0) (b := 3) (row := 4 * t.val + 1) (col := 96) (N := 512 * t.val + 224) rfl (k0_off33_eq t ⟨1, by decide⟩) (by omega) (by omega) (by omega) rfl ?_
  refine ScaledUpTo.step (o := ![3, 0, 0]) (ho := inb_S4x128x128_S1x128x128_3_0_0) (b := 3) (row := 4 * t.val + 1) (col := 80) (N := 512 * t.val + 208) rfl (k0_off32_eq t ⟨1, by decide⟩) (by omega) (by omega) (by omega) rfl ?_
  refine ScaledUpTo.step (o := ![3, 0, 0]) (ho := inb_S4x128x128_S1x128x128_3_0_0) (b := 3) (row := 4 * t.val + 1) (col := 64) (N := 512 * t.val + 192) rfl (k0_off31_eq t ⟨1, by decide⟩) (by omega) (by omega) (by omega) rfl ?_
  refine ScaledUpTo.step (o := ![3, 0, 0]) (ho := inb_S4x128x128_S1x128x128_3_0_0) (b := 3) (row := 4 * t.val + 1) (col := 48) (N := 512 * t.val + 176) rfl (k0_off30_eq t ⟨1, by decide⟩) (by omega) (by omega) (by omega) rfl ?_
  refine ScaledUpTo.step (o := ![3, 0, 0]) (ho := inb_S4x128x128_S1x128x128_3_0_0) (b := 3) (row := 4 * t.val + 1) (col := 32) (N := 512 * t.val + 160) rfl (k0_off29_eq t ⟨1, by decide⟩) (by omega) (by omega) (by omega) rfl ?_
  refine ScaledUpTo.step (o := ![3, 0, 0]) (ho := inb_S4x128x128_S1x128x128_3_0_0) (b := 3) (row := 4 * t.val + 1) (col := 16) (N := 512 * t.val + 144) rfl (k0_off28_eq t ⟨1, by decide⟩) (by omega) (by omega) (by omega) rfl ?_
  refine ScaledUpTo.step (o := ![3, 0, 0]) (ho := inb_S4x128x128_S1x128x128_3_0_0) (b := 3) (row := 4 * t.val + 1) (col := 0) (N := 512 * t.val + 128) rfl (k0_off27_eq t ⟨1, by decide⟩) (by omega) (by omega) (by omega) rfl ?_
  refine ScaledUpTo.step (o := ![3, 0, 0]) (ho := inb_S4x128x128_S1x128x128_3_0_0) (b := 3) (row := 4 * t.val + 0) (col := 112) (N := 512 * t.val + 112) rfl (k0_off34_eq t ⟨0, by decide⟩) (by omega) (by omega) (by omega) rfl ?_
  refine ScaledUpTo.step (o := ![3, 0, 0]) (ho := inb_S4x128x128_S1x128x128_3_0_0) (b := 3) (row := 4 * t.val + 0) (col := 96) (N := 512 * t.val + 96) rfl (k0_off33_eq t ⟨0, by decide⟩) (by omega) (by omega) (by omega) rfl ?_
  refine ScaledUpTo.step (o := ![3, 0, 0]) (ho := inb_S4x128x128_S1x128x128_3_0_0) (b := 3) (row := 4 * t.val + 0) (col := 80) (N := 512 * t.val + 80) rfl (k0_off32_eq t ⟨0, by decide⟩) (by omega) (by omega) (by omega) rfl ?_
  refine ScaledUpTo.step (o := ![3, 0, 0]) (ho := inb_S4x128x128_S1x128x128_3_0_0) (b := 3) (row := 4 * t.val + 0) (col := 64) (N := 512 * t.val + 64) rfl (k0_off31_eq t ⟨0, by decide⟩) (by omega) (by omega) (by omega) rfl ?_
  refine ScaledUpTo.step (o := ![3, 0, 0]) (ho := inb_S4x128x128_S1x128x128_3_0_0) (b := 3) (row := 4 * t.val + 0) (col := 48) (N := 512 * t.val + 48) rfl (k0_off30_eq t ⟨0, by decide⟩) (by omega) (by omega) (by omega) rfl ?_
  refine ScaledUpTo.step (o := ![3, 0, 0]) (ho := inb_S4x128x128_S1x128x128_3_0_0) (b := 3) (row := 4 * t.val + 0) (col := 32) (N := 512 * t.val + 32) rfl (k0_off29_eq t ⟨0, by decide⟩) (by omega) (by omega) (by omega) rfl ?_
  refine ScaledUpTo.step (o := ![3, 0, 0]) (ho := inb_S4x128x128_S1x128x128_3_0_0) (b := 3) (row := 4 * t.val + 0) (col := 16) (N := 512 * t.val + 16) rfl (k0_off28_eq t ⟨0, by decide⟩) (by omega) (by omega) (by omega) rfl ?_
  refine ScaledUpTo.step (o := ![3, 0, 0]) (ho := inb_S4x128x128_S1x128x128_3_0_0) (b := 3) (row := 4 * t.val + 0) (col := 0) (N := 512 * t.val + 0) rfl (k0_off27_eq t ⟨0, by decide⟩) (by omega) (by omega) (by omega) rfl ?_
  exact ScaledTo.upTo (by omega) hX

end Cert.Proof.KB

end
-- ==== Proof.GatherValueB.lean ====
/-
  What a gather of one chunk of the tile's index list leaves in a slot.

  The tile first copies its list of the index array (200 chunks of 128 words) into its scratch, whole.  A gather then
  takes chunk j of the scratch — 128 words — and fetches, for word p of the chunk, the table's row that word names into
  row p of the slot.  Word p of chunk j of the scratch is word (w, j, p) of the index array, w the tile's worker
  number; it is below 100000, so read as a row of the table it is its own value; hence row p, column c of the slot
  holds the table at (row named by word (w, j, p), column c).
-/
import proofs.«209300_g39805756900082_cont_8to1_b_88_12_alg».proof.Proof.ValSpecB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-! ## Where the windows' indices land -/

/-- Word p of chunk j of the scratch sits at (j, p) of the scratch. -/
theorem rowM_emb (j : Fin 200) (ho : ∀ a, (![j.val, 0] : Fin 2 → Nat) a + S1x128.size a ≤ S200x128.size a) (p : Fin 128) :
    (rowM ![j.val, 0] ho).view.emb (ix1 p) = (ix2 j p : S200x128.Idx) := by
  show (Rect.unit (s := S200x128) ![j.val, 0] S1x128.size ho).emb (Shape.reshapeEquiv squeezes_S1x128_S128.numel_eq (ix1 p)) = _
  rw [Shape.reshapeEquiv_eq_of_rowMajor squeezes_S1x128_S128.numel_eq (y := (ix2 (0 : Fin 1) p))
    (by rw [Shape.rowMajor_val_two, Shape.rowMajor_val_one]; show 0 * 128 + p.val = p.val; omega)]
  funext a
  apply Fin.ext
  match a with
  | ⟨0, _⟩ => show j.val + 1 * 0 = j.val; omega
  | ⟨1, _⟩ => show 0 + 1 * p.val = p.val; omega

/-- Position (j, p) of the tile's list sits at (w, j, p) of the index array, w the tile's worker number. -/
theorem iRow_emb (L : grid0.Coords) (j : Fin 200) (p : Fin 128) :
    (iRow L).view.emb (ix2 j p) = (ix3 (wOf L) j p : S32x200x128.Idx) := by
  show (Rect.unit (s := S32x200x128) (k0_off1 L) S1x200x128.size (k0_off1_inb L)).emb
    (Shape.reshapeEquiv squeezes_S1x200x128_S200x128.numel_eq (ix2 j p)) = _
  rw [Shape.reshapeEquiv_eq_of_rowMajor squeezes_S1x200x128_S200x128.numel_eq (y := (ix3 (0 : Fin 1) j p))
    (by rw [Shape.rowMajor_val_three, Shape.rowMajor_val_two]; show (0 * 200 + j.val) * 128 + p.val = j.val * 128 + p.val; omega)]
  have hk := k0_off1_eq L
  funext a
  apply Fin.ext
  match a with
  | ⟨0, _⟩ =>
    show (k0_off1 L) 0 + 1 * 0 = 2 * (L 1).val + (L 0).val
    rw [hk]; show 2 * (L 1).val + (L 0).val + 1 * 0 = _; omega
  | ⟨1, _⟩ =>
    show (k0_off1 L) 1 + 1 * j.val = j.val
    rw [hk]; show 0 + 1 * j.val = _; omega
  | ⟨2, _⟩ =>
    show (k0_off1 L) 2 + 1 * p.val = p.val
    rw [hk]; show 0 + 1 * p.val = _; omega

/-- An index of the table read through the gather's name for the table is itself. -/
theorem tWs_emb (i : S100000x128.Idx) : (tWs).view.emb i = i := by
  funext a
  apply Fin.ext
  match a with
  | ⟨0, _⟩ => show 0 + 1 * (i 0).val = (i 0).val; omega
  | ⟨1, _⟩ => show 0 + 1 * (i 1).val = (i 1).val; omega

/-- Entry k of a list of 128 words in row-major order is the word at k. -/
theorem rowMajor_symm_S128 (k : Fin S128.numel) (p : Fin 128) (h : k.val = p.val) : S128.rowMajor.symm k = ix1 p :=
  (Equiv.symm_apply_eq _).mpr (Fin.ext (by rw [Shape.rowMajor_val_one]; exact h))

/-! ## The scratch's words -/

/-- Word p of chunk j of the scratch, once the scratch holds the tile's list, is word (w, j, p) of the index array. -/
theorem scratch_word (d : Dev nD) (L : grid0.Coords)
    (I3 : Buf (Elt F) ((iW : Memref sig .scVector .hbm S32x200x128 .i32).view.loc (thr d L)))
    (fi : Buf (Elt F) ((sI : Memref sig .scVector .vmem S200x128 .i32).view.loc (thr d L)))
    (j : Fin 200) (ho : ∀ a, (![j.val, 0] : Fin 2 → Nat) a + S1x128.size a ≤ S200x128.size a) (p : Fin 128) :
    View.read (Elt F) (rowM ![j.val, 0] ho).view (View.write (Elt F) (sI : Memref sig .scVector .vmem S200x128 .i32).view fi (ReadAs.same.apply (View.read (Elt F) (iRow L).view I3)) Finset.univ) (ix1 p) = I3 (ix3 (wOf L) j p) := by
  have hw : (View.write (Elt F) (sI : Memref sig .scVector .vmem S200x128 .i32).view fi (ReadAs.same.apply (View.read (Elt F) (iRow L).view I3)) Finset.univ)
      = ReadAs.same.apply (View.read (Elt F) (iRow L).view I3) := View.write_whole_univ _ _ _
  rw [hw]
  show I3 ((iRow L).view.emb ((rowM ![j.val, 0] ho).view.emb (ix1 p))) = I3 (ix3 (wOf L) j p)
  exact congrArg I3 ((congrArg (iRow L).view.emb (rowM_emb j ho p)).trans (iRow_emb L j p))

/-! ## The gather's payload -/

/-- The payload of the gather of chunk j at (p, c): the table at the row word (w, j, p) names, column c. -/
theorem gather_payload (d : Dev nD) (L : grid0.Coords)
    (tab : Buf (Elt F) ((tW : Memref sig .scVector .hbm S100000x128 .f32).view.loc (thr d L)))
    (I3 : Buf (Elt F) ((iW : Memref sig .scVector .hbm S32x200x128 .i32).view.loc (thr d L))) (hI : ∀ j, (I3 j).toNat < 100000)
    (fi : Buf (Elt F) ((sI : Memref sig .scVector .vmem S200x128 .i32).view.loc (thr d L)))
    (j : Fin 200) (ho : ∀ a, (![j.val, 0] : Fin 2 → Nat) a + S1x128.size a ≤ S200x128.size a) hn hin (y : S128x128.Idx) :
    SparseCore.gatherPayload gathers_S100000x128_S128x128 (View.read (Elt F) (tWs).view tab)
        (SparseCore.rows (View.read (Elt F) (rowM ![j.val, 0] ho).view (View.write (Elt F) (sI : Memref sig .scVector .vmem S200x128 .i32).view fi (ReadAs.same.apply (View.read (Elt F) (iRow L).view I3)) Finset.univ)) hn hin) y
      = gRows (wOf L) I3 tab j y := by
  obtain ⟨p, c, rfl⟩ : ∃ (p : Fin 128) (c : Fin 128), y = ix2 p c := ⟨y 0, y 1, eq_ix2 y⟩
  -- the row the list names for row p of the slot
  have hrow : (SparseCore.rows (View.read (Elt F) (rowM ![j.val, 0] ho).view (View.write (Elt F) (sI : Memref sig .scVector .vmem S200x128 .i32).view fi (ReadAs.same.apply (View.read (Elt F) (iRow L).view I3)) Finset.univ)) hn hin
      ((ix2 p c : S128x128.Idx) gathers_S100000x128_S128x128.axis')).val = (I3 (ix3 (wOf L) j p)).toNat := by
    unfold SparseCore.rows
    show (View.read (Elt F) (rowM ![j.val, 0] ho).view (View.write (Elt F) (sI : Memref sig .scVector .vmem S200x128 .i32).view fi (ReadAs.same.apply (View.read (Elt F) (iRow L).view I3)) Finset.univ) (S128.rowMajor.symm _)).toNat = _
    have hk : S128.rowMajor.symm (Fin.cast hn.symm ((ix2 p c : S128x128.Idx) gathers_S100000x128_S128x128.axis')) = ix1 p :=
      rowMajor_symm_S128 _ p rfl
    rw [hk, scratch_word d L I3 fi j ho p]
  unfold SparseCore.gatherPayload gRows
  show tab ((tWs).view.emb (gathers_S100000x128_S128x128.idx _ (ix2 p c))) = tab (ix2 (Cert.Spec.rowOfWord (I3 (ix3 (wOf L) j p))) c)
  refine congrArg tab ?_
  rw [tWs_emb]
  funext a
  apply Fin.ext
  match a with
  | ⟨0, _⟩ =>
    show (gathers_S100000x128_S128x128.idx _ (ix2 p c) gathers_S100000x128_S128x128.axis).val = (I3 (ix3 (wOf L) j p)).toNat % 100000
    rw [Shape.Gathers.idx_axis, hrow, Nat.mod_eq_of_lt (hI _)]
  | ⟨1, h1⟩ =>
    exact (Shape.Gathers.idx_of_ne gathers_S100000x128_S128x128 _ (ix2 p c) ⟨1, h1⟩ Nat.one_ne_zero).trans rfl

/-! ## The slot after the gather -/

/-- The slot read back after the gather, the executor's list form. -/
theorem gather_value_writes (d : Dev nD) (L : grid0.Coords)
    (tab : Buf (Elt F) ((tW : Memref sig .scVector .hbm S100000x128 .f32).view.loc (thr d L)))
    (I3 : Buf (Elt F) ((iW : Memref sig .scVector .hbm S32x200x128 .i32).view.loc (thr d L))) (hI : ∀ j, (I3 j).toNat < 100000)
    (fi : Buf (Elt F) ((sI : Memref sig .scVector .vmem S200x128 .i32).view.loc (thr d L)))
    (v : View sig .scVector .vmem S128x128 .f32) (Y : v.ty.Contents (Elt F)) (o : Fin 2 → Nat)
    (ho : ∀ a, o a + S1x128.size a ≤ S200x128.size a) (j : Fin 200) (e : o = ![j.val, 0]) hn hin (y : S128x128.Idx) :
    v.read (Elt F) (v.writes (Elt F) Y [⟨Rect.whole S128x128, SparseCore.gatherPayload gathers_S100000x128_S128x128 (View.read (Elt F) (tWs).view tab)
        (SparseCore.rows (View.read (Elt F) (rowM o ho).view (View.write (Elt F) (sI : Memref sig .scVector .vmem S200x128 .i32).view fi (ReadAs.same.apply (View.read (Elt F) (iRow L).view I3)) Finset.univ)) hn hin)⟩]) y
      = gRows (wOf L) I3 tab j y := by
  subst e
  have h := View.read_writes_cons_emb v Y (Rect.whole S128x128)
    (SparseCore.gatherPayload gathers_S100000x128_S128x128 (View.read (Elt F) (tWs).view tab)
      (SparseCore.rows (View.read (Elt F) (rowM ![j.val, 0] ho).view (View.write (Elt F) (sI : Memref sig .scVector .vmem S200x128 .i32).view fi (ReadAs.same.apply (View.read (Elt F) (iRow L).view I3)) Finset.univ)) hn hin)) [] y
  rw [Rect.emb_whole_apply] at h
  exact h.trans (gather_payload d L tab I3 hI fi j ho hn hin y)

/-- The slot read back after the gather, the single whole write. -/
theorem gather_value_write (d : Dev nD) (L : grid0.Coords)
    (tab : Buf (Elt F) ((tW : Memref sig .scVector .hbm S100000x128 .f32).view.loc (thr d L)))
    (I3 : Buf (Elt F) ((iW : Memref sig .scVector .hbm S32x200x128 .i32).view.loc (thr d L))) (hI : ∀ j, (I3 j).toNat < 100000)
    (fi : Buf (Elt F) ((sI : Memref sig .scVector .vmem S200x128 .i32).view.loc (thr d L)))
    (v : View sig .scVector .vmem S128x128 .f32) (Y : v.ty.Contents (Elt F)) (o : Fin 2 → Nat)
    (ho : ∀ a, o a + S1x128.size a ≤ S200x128.size a) (j : Fin 200) (e : o = ![j.val, 0]) hn hin (y : S128x128.Idx) :
    v.read (Elt F) (View.write (Elt F) v Y (SparseCore.gatherPayload gathers_S100000x128_S128x128 (View.read (Elt F) (tWs).view tab)
        (SparseCore.rows (View.read (Elt F) (rowM o ho).view (View.write (Elt F) (sI : Memref sig .scVector .vmem S200x128 .i32).view fi (ReadAs.same.apply (View.read (Elt F) (iRow L).view I3)) Finset.univ)) hn hin)) Finset.univ) y
      = gRows (wOf L) I3 tab j y := by
  subst e
  exact (View.read_write_of_mem Y _ (Finset.mem_univ y)).trans (gather_payload d L tab I3 hI fi j ho hn hin y)

end Cert.Proof.KB

end
-- ==== Proof.OutValueB.lean ====
/-
  The tile's rows of the flat output, chunk by chunk.

  The tile with worker number w owns rows [25600 w, 25600 (w + 1)) of the flat output: 200 chunks of 128 rows.  Writing
  chunk k — rows 25600 w + 128 k and the 127 after it — with the scaled rows the gather of chunk k fetched makes those
  rows what the specification says (row r = 25600 w + 128 k + p is named by word (r / 25600, r % 25600 / 128, r % 128)
  = (w, k, p) of the index array), and leaves every other row as it was.  After all 200 chunks the tile's rows are the
  specification's.
-/
import proofs.«209300_g39805756900082_cont_8to1_b_88_12_alg».proof.Proof.ValSpecB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-! ## A chunk's elements -/

/-- Position (p, c) of the chunk at offset o sits at (o 0 + p, c) of the output. -/
theorem chunkM_emb (o : Fin 2 → Nat) (ho : ∀ a, o a + S128x128.size a ≤ S819200x128.size a) (p c : Fin 128) (r : Fin 819200)
    (hr : r.val = o 0 + p.val) (ho1 : o 1 = 0) :
    (chunkM o ho).view.emb (ix2 p c) = (ix2 r c : S819200x128.Idx) := by
  funext a
  apply Fin.ext
  match a with
  | ⟨0, _⟩ => show o 0 + 1 * p.val = r.val; omega
  | ⟨1, _⟩ => show o 1 + 1 * c.val = c.val; omega

/-- A row before the chunk's first, or after its last, is not one of the chunk's. -/
theorem not_mem_chunk (o : Fin 2 → Nat) (ho : ∀ a, o a + S128x128.size a ≤ S819200x128.size a) (r : Fin 819200) (c : Fin 128)
    (h : r.val < o 0 ∨ o 0 + 128 ≤ r.val) :
    (ix2 r c : S819200x128.Idx) ∉ (chunkM o ho).view.setOn Finset.univ := by
  have hs : (chunkM o ho).view.set = (Rect.unit (s := S819200x128) o S128x128.size ho).set := View.set_slice_whole _ _
  rw [View.setOn_univ, hs, Rect.mem_set_unit]
  intro hall
  have h0 : o 0 ≤ r.val ∧ r.val < o 0 + 128 := hall 0
  omega

theorem ix3_congr {n0 n1 n2 : Nat} {a a' : Fin n0} {b b' : Fin n1} {c c' : Fin n2} (ha : a = a') (hb : b = b') (hc : c = c') :
    ix3 a b c = ix3 a' b' c' := by subst ha hb hc; rfl

/-! ## One chunk written -/

/-- Writing chunk k with the scaled rows of the gather of chunk k extends the tile's good rows from k chunks to k + 1. -/
theorem out_step1 (L : grid0.Coords) (I3 : S32x200x128.Idx → BitVec 32) (tab : S100000x128.Idx → F .f32) (k : Nat) (jk : Fin 200)
    (hjk : jk.val = k) (f : S819200x128.Idx → F .f32) (hf : OutOK L I3 tab k f) (o : Fin 2 → Nat)
    (ho : ∀ a, o a + S128x128.size a ≤ S819200x128.size a) (eo : o = ![25600 * (wOf L).val + 128 * k, 0])
    (v : View sig .scVector .vmem S128x128 .f32) (Y : v.ty.Contents (Elt F))
    (h : ∀ y, v.read (Elt F) Y y = FloatOps.mulf (gRows (wOf L) I3 tab jk y) Cert.Spec.scale) (m : Nat) (hm : m = k + 1) :
    OutOK L I3 tab m (View.write (Elt F) (chunkM o ho).view f (ReadAs.same.apply (v.read (Elt F) Y)) Finset.univ) := by
  subst hm
  intro r c hlo hhi
  have hw := (wOf L).isLt
  have hjlt := jk.isLt
  have ho0 : o 0 = 25600 * (wOf L).val + 128 * k := by rw [eo]; rfl
  have ho1 : o 1 = 0 := by rw [eo]; rfl
  by_cases hr : r.val < 25600 * (wOf L).val + 128 * k
  · -- a row of an earlier chunk: not touched
    have hnm := not_mem_chunk o ho r c (Or.inl (by omega))
    have hkeep := View.write_of_not_mem (v := (chunkM o ho).view) f (ReadAs.same.apply (v.read (Elt F) Y)) Finset.univ hnm
    exact hkeep.trans (hf r c hlo hr)
  · -- a row of this chunk: the payload's row p = r − (the chunk's first row)
    have hp : r.val - o 0 < 128 := by omega
    have hemb := chunkM_emb o ho ⟨r.val - o 0, hp⟩ c r (by show r.val = o 0 + (r.val - o 0); omega) ho1
    have hval : View.write (Elt F) (chunkM o ho).view f (ReadAs.same.apply (v.read (Elt F) Y)) Finset.univ (ix2 r c)
        = v.read (Elt F) Y (ix2 ⟨r.val - o 0, hp⟩ c) := by
      have hwr := View.write_emb_of_mem (v := (chunkM o ho).view) f (ReadAs.same.apply (v.read (Elt F) Y))
        (Finset.mem_univ (ix2 (⟨r.val - o 0, hp⟩ : Fin 128) c))
      rw [hemb] at hwr
      exact hwr
    have hword : Cert.Spec.wordOf I3 r = I3 (ix3 (wOf L) jk ⟨r.val - o 0, hp⟩) := by
      unfold Cert.Spec.wordOf
      exact congrArg I3 (ix3_congr (Fin.ext (by show r.val / 25600 = (wOf L).val; omega))
        (Fin.ext (by show r.val % 25600 / 128 = jk.val; omega)) (Fin.ext (by show r.val % 128 = r.val - o 0; omega)))
    refine hval.trans ((h _).trans ?_)
    show FloatOps.mulf (tab (ix2 (Cert.Spec.rowOfWord (I3 (ix3 (wOf L) jk ⟨r.val - o 0, hp⟩))) c)) Cert.Spec.scale
      = FloatOps.mulf (tab (ix2 (Cert.Spec.rowOfWord (Cert.Spec.wordOf I3 r)) c)) Cert.Spec.scale
    rw [hword]

/-! ## Four chunks written, and all of them -/

/-- Four chunks written one after the other extend the tile's good rows by four chunks. -/
theorem out_step (L : grid0.Coords) (I3 : S32x200x128.Idx → BitVec 32) (tab : S100000x128.Idx → F .f32) (n : Nat) (hn : n + 4 ≤ 200)
    (f : S819200x128.Idx → F .f32) (hf : OutOK L I3 tab n f) (c0 c1 c2 c3 : Fin 2 → Nat) hc0 hc1 hc2 hc3
    (e0 : c0 = ![25600 * (wOf L).val + 128 * (n + 0), 0]) (e1 : c1 = ![25600 * (wOf L).val + 128 * (n + 1), 0])
    (e2 : c2 = ![25600 * (wOf L).val + 128 * (n + 2), 0]) (e3 : c3 = ![25600 * (wOf L).val + 128 * (n + 3), 0])
    (v0 v1 v2 v3 : View sig .scVector .vmem S128x128 .f32) (Y0 : v0.ty.Contents (Elt F)) (Y1 : v1.ty.Contents (Elt F))
    (Y2 : v2.ty.Contents (Elt F)) (Y3 : v3.ty.Contents (Elt F))
    (h0 : ∀ y, v0.read (Elt F) Y0 y = FloatOps.mulf (gRows (wOf L) I3 tab ⟨n + 0, by omega⟩ y) Cert.Spec.scale)
    (h1 : ∀ y, v1.read (Elt F) Y1 y = FloatOps.mulf (gRows (wOf L) I3 tab ⟨n + 1, by omega⟩ y) Cert.Spec.scale)
    (h2 : ∀ y, v2.read (Elt F) Y2 y = FloatOps.mulf (gRows (wOf L) I3 tab ⟨n + 2, by omega⟩ y) Cert.Spec.scale)
    (h3 : ∀ y, v3.read (Elt F) Y3 y = FloatOps.mulf (gRows (wOf L) I3 tab ⟨n + 3, by omega⟩ y) Cert.Spec.scale) :
    OutOK L I3 tab (n + 4) (View.write (Elt F) (chunkM c3 hc3).view (View.write (Elt F) (chunkM c2 hc2).view (View.write (Elt F) (chunkM c1 hc1).view (View.write (Elt F) (chunkM c0 hc0).view f (ReadAs.same.apply (v0.read (Elt F) Y0)) Finset.univ)
      (ReadAs.same.apply (v1.read (Elt F) Y1)) Finset.univ) (ReadAs.same.apply (v2.read (Elt F) Y2)) Finset.univ)
      (ReadAs.same.apply (v3.read (Elt F) Y3)) Finset.univ) :=
  out_step1 L I3 tab (n + 3) ⟨n + 3, by omega⟩ rfl _
    (out_step1 L I3 tab (n + 2) ⟨n + 2, by omega⟩ rfl _
      (out_step1 L I3 tab (n + 1) ⟨n + 1, by omega⟩ rfl _
        (out_step1 L I3 tab (n + 0) ⟨n + 0, by omega⟩ rfl f hf c0 hc0 e0 v0 Y0 h0 (n + 1) (by omega))
        c1 hc1 e1 v1 Y1 h1 (n + 2) (by omega))
      c2 hc2 e2 v2 Y2 h2 (n + 3) (by omega))
    c3 hc3 e3 v3 Y3 h3 (n + 4) (by omega)

/-- With all 200 chunks good, the tile's rows hold the specification's rows: the two contents agree on them. -/
theorem out_final (d : Dev nD) (L : grid0.Coords) (I3 : S32x200x128.Idx → BitVec 32) (tab : S100000x128.Idx → F .f32)
    (f : Buf (Elt F) ((oW : Memref sig .scVector .hbm S819200x128 .f32).view.loc (thr d L))) (hf : OutOK L I3 tab 200 f) :
    (((oW : Memref sig .scVector .hbm S819200x128 .f32).view.loc (thr d L) ↦[(oW : Memref sig .scVector .hbm S819200x128 .f32).view.setOn (oTR L).set]{fullShare} f : sProp 𝕄))
      = ((oW : Memref sig .scVector .hbm S819200x128 .f32).view.loc (thr d L) ↦[(oW : Memref sig .scVector .hbm S819200x128 .f32).view.setOn (oTR L).set]{fullShare} (Cert.Spec.gathered I3 tab)) := by
  refine pointsTo_congr (fun i hi => ?_)
  obtain ⟨x, hx, rfl⟩ := Finset.mem_map.mp hi
  have hm := Rect.mem_set_unit.mp hx
  have h0 : 51200 * (L 1).val + 25600 * (L 0).val ≤ (x 0).val ∧ (x 0).val < 51200 * (L 1).val + 25600 * (L 0).val + 25600 := hm 0
  have key := hf (x 0) (x 1) (by show 25600 * (2 * (L 1).val + (L 0).val) ≤ (x 0).val; omega)
    (by show (x 0).val < 25600 * (2 * (L 1).val + (L 0).val) + 128 * 200; omega)
  have hxe : (oW : Memref sig .scVector .hbm S819200x128 .f32).view.emb x = ix2 (x 0) (x 1) := eq_ix2 x
  exact (congrArg f hxe).trans (key.trans (congrArg (Cert.Spec.gathered I3 tab) hxe.symm))

end Cert.Proof.KB

end
-- ==== Proof.IdxRangeB.lean ====
/-
  The index words a tile has copied into its scratch name rows of the table.

  The scratch (200 chunks of 128 words) is written whole with the tile's list of the index array, so each of its
  words is a word of that array; a 128-word chunk of the scratch read through any in-bounds window therefore reads
  words of the array, and every word of the array is below 100000.
-/
import proofs.«209300_g39805756900082_cont_8to1_b_88_12_alg».proof.Proof.PiecesB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Every word read through a 128-word window of the scratch, once the scratch has been overwritten whole with the
    tile's list of index words, is below 100000 when every word of the index array is. -/
theorem idx_words_in_range (d : Dev nD) (L : grid0.Coords)
    (I3 : Buf (Elt F) ((iW : Memref sig .scVector .hbm S32x200x128 .i32).view.loc (thr d L)))
    (hI : ∀ j, (I3 j).toNat < 100000)
    (g : Buf (Elt F) ((sI : Memref sig .scVector .vmem S200x128 .i32).view.loc (thr d L)))
    (off : Fin 2 → Nat) (hoff : ∀ a, off a + S1x128.size a ≤ S200x128.size a)
    (hs : ∀ (a : Fin S200x128.rank), (Rect.unit (s := S200x128) off S1x128.size hoff).stride a = 1) (x : S128.Idx) :
    (View.read (Elt F) (((sI : Memref sig .scVector .vmem S200x128 .i32).slice (Rect.unit (s := S200x128) off S1x128.size hoff) hs).squeeze S128 squeezes_S1x128_S128).view
      (View.write (Elt F) (sI : Memref sig .scVector .vmem S200x128 .i32).view g (ReadAs.same.apply (View.read (Elt F) (iRow L).view I3)) Finset.univ) x).toNat < 100000 := by
  -- the scratch after the whole write holds exactly the list that was written
  have hw : View.write (Elt F) (sI : Memref sig .scVector .vmem S200x128 .i32).view g (ReadAs.same.apply (View.read (Elt F) (iRow L).view I3)) Finset.univ
      = ReadAs.same.apply (View.read (Elt F) (iRow L).view I3) := View.write_whole_univ _ _ _
  rw [hw]
  -- a read of a read: the word of the index array under the list's index under the window's index
  exact hI _

end Cert.Proof.KB

end
-- ==== Proof.TripsB.lean ====
/-
  The chunk loop of one tile's task, trip by trip.  Before trip k the gathers of chunks 4k … 4k+3 are in flight, one per
  slot; the trip awaits each, scales its 128 rows in place, issues the rows' write-back into the tile's rows of the
  output, and — except in the last trip — awaits each write-back and issues the slot's next gather.  The invariant
  carries, beside the resources, what every buffer holds: the rows each gather will deliver, and the chunks of the
  output already written.
-/
import proofs.«209300_g39805756900082_cont_8to1_b_88_12_alg».proof.Proof.ScaleLoopsB
import proofs.«209300_g39805756900082_cont_8to1_b_88_12_alg».proof.Proof.GatherValueB
import proofs.«209300_g39805756900082_cont_8to1_b_88_12_alg».proof.Proof.OutValueB
import proofs.«209300_g39805756900082_cont_8to1_b_88_12_alg».proof.Proof.IdxRangeB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx
variable [FloatOps F]

section Tile
variable (d : Dev nD) (L : grid0.Coords)

/-- The tile's index scratch once its slab of the index array has been copied in. -/
abbrev FIof (fi : Buf (Elt F) ((sI : Memref sig .scVector .vmem S200x128 .i32).view.loc (thr d L)))
    (I3 : Buf (Elt F) ((iW : Memref sig .scVector .hbm S32x200x128 .i32).view.loc (thr d L))) :
    Buf (Elt F) ((sI : Memref sig .scVector .vmem S200x128 .i32).view.loc (thr d L)) :=
  View.write (Elt F) (sI : Memref sig .scVector .vmem S200x128 .i32).view fi (ReadAs.same.apply (View.read (Elt F) (iRow L).view I3)) Finset.univ

/-- Chunk `4 k + b` of the tile. -/
abbrev jK (k b : Nat) (hk : k < 50) (hb : b < 4) : Fin 200 := ⟨4 * k + b, by omega⟩

/-- The state between two trips of the chunk loop: four gathers in flight, one per slot, each reading its chunk of the
    index list (at offsets `o0 … o3`) and bound to deliver the rows of chunk `j0 … j3`; no write in flight; the tile's
    rows of the output held whole, its first `n` chunks written. -/
def invAo (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1))
    (o0 o1 o2 o3 : Fin 2 → Nat) (h0 : ∀ a, o0 a + S1x128.size a ≤ S200x128.size a) (h1 : ∀ a, o1 a + S1x128.size a ≤ S200x128.size a)
    (h2 : ∀ a, o2 a + S1x128.size a ≤ S200x128.size a) (h3 : ∀ a, o3 a + S1x128.size a ≤ S200x128.size a)
    (j0 j1 j2 j3 : Fin 200) (n : Nat) : sProp 𝕄 :=
  iprop(Transfers.MayWaits (thr d L) (none : HIx 1) O
    ∗ (∃ X0, (Transfers.Flight countersEmb (thr d L) (SemLoc.dma cc0_scratch2.sem) default 524288
        iprop((((slot0).view.loc (thr d L) ↦[(slot0).view.set]{fullShare} X0)
            ∗ ((rowM o0 h0).view.loc (thr d L) ↦[(rowM o0 h0).view.set]{fullShare} FIof d L fi I3))
          ∗ ((tWs).view.loc (thr d L) ↦[(tWs).view.set]{Transfers.shareTok qT 4 0} tab))) ∗ ⌜∀ y, (slot0).view.read (Elt F) X0 y = gRows (wOf L) I3 tab j0 y⌝)
    ∗ (∃ X1, (Transfers.Flight countersEmb (thr d L) (SemLoc.dma cc0_scratch3.sem) default 524288
        iprop((((slot1).view.loc (thr d L) ↦[(slot1).view.set]{fullShare} X1)
            ∗ ((rowM o1 h1).view.loc (thr d L) ↦[(rowM o1 h1).view.set]{fullShare} FIof d L fi I3))
          ∗ ((tWs).view.loc (thr d L) ↦[(tWs).view.set]{Transfers.shareTok qT 4 1} tab))) ∗ ⌜∀ y, (slot1).view.read (Elt F) X1 y = gRows (wOf L) I3 tab j1 y⌝)
    ∗ (∃ X2, (Transfers.Flight countersEmb (thr d L) (SemLoc.dma cc0_scratch4.sem) default 524288
        iprop((((slot2).view.loc (thr d L) ↦[(slot2).view.set]{fullShare} X2)
            ∗ ((rowM o2 h2).view.loc (thr d L) ↦[(rowM o2 h2).view.set]{fullShare} FIof d L fi I3))
          ∗ ((tWs).view.loc (thr d L) ↦[(tWs).view.set]{Transfers.shareTok qT 4 2} tab))) ∗ ⌜∀ y, (slot2).view.read (Elt F) X2 y = gRows (wOf L) I3 tab j2 y⌝)
    ∗ (∃ X3, (Transfers.Flight countersEmb (thr d L) (SemLoc.dma cc0_scratch5.sem) default 524288
        iprop((((slot3).view.loc (thr d L) ↦[(slot3).view.set]{fullShare} X3)
            ∗ ((rowM o3 h3).view.loc (thr d L) ↦[(rowM o3 h3).view.set]{fullShare} FIof d L fi I3))
          ∗ ((tWs).view.loc (thr d L) ↦[(tWs).view.set]{Transfers.shareTok qT 4 3} tab))) ∗ ⌜∀ y, (slot3).view.read (Elt F) X3 y = gRows (wOf L) I3 tab j3 y⌝)
    ∗ ((tWs).view.loc (thr d L) ↦[Finset.univ \ (tWs).view.set]{Transfers.shareTok qT 4 0} tab)
    ∗ ((tWs).view.loc (thr d L) ↦[Finset.univ \ (tWs).view.set]{Transfers.shareTok qT 4 1} tab)
    ∗ ((tWs).view.loc (thr d L) ↦[Finset.univ \ (tWs).view.set]{Transfers.shareTok qT 4 2} tab)
    ∗ ((tWs).view.loc (thr d L) ↦[Finset.univ \ (tWs).view.set]{Transfers.shareTok qT 4 3} tab)
    ∗ (∃ Z, (sR : Memref sig .scVector .vmem S4x128x128 .f32).view.loc (thr d L) ↦[(((Finset.univ \ (slot0).view.set) \ (slot1).view.set) \ (slot2).view.set) \ (slot3).view.set]{fullShare} Z)
    ∗ ((sI : Memref sig .scVector .vmem S200x128 .i32).view.loc (thr d L) ↦[(((Finset.univ \ (rowM o0 h0).view.set) \ (rowM o1 h1).view.set) \ (rowM o2 h2).view.set) \ (rowM o3 h3).view.set]{fullShare} FIof d L fi I3)
    ∗ (∃ f, ((oW : Memref sig .scVector .hbm S819200x128 .f32).view.loc (thr d L) ↦[(oW : Memref sig .scVector .hbm S819200x128 .f32).view.setOn (oTR L).set]{fullShare} f) ∗ ⌜OutOK L I3 tab n f⌝)
    ∗ semVal (thr d L, SemLoc.dma cc0_scratch6.sem) 0 ∗ semVal (thr d L, SemLoc.dma cc0_scratch7.sem) 0
    ∗ semVal (thr d L, SemLoc.dma cc0_scratch8.sem) 0 ∗ semVal (thr d L, SemLoc.dma cc0_scratch9.sem) 0
    ∗ ∃ W', ⌜∀ p ∈ W', p ∈ W ∨ p.2 = none⌝ ∗ owes (thr d L) O W')

theorem invAo_congr (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1))
    {o0 o1 o2 o3 o0' o1' o2' o3' : Fin 2 → Nat} (e0 : o0 = o0') (e1 : o1 = o1') (e2 : o2 = o2') (e3 : o3 = o3') h0 h1 h2 h3 h0' h1' h2' h3'
    (j0 j1 j2 j3 : Fin 200) {n n' : Nat} (en : n = n') :
    invAo d L qT tab I3 fi O W o0 o1 o2 o3 h0 h1 h2 h3 j0 j1 j2 j3 n = invAo d L qT tab I3 fi O W o0' o1' o2' o3' h0' h1' h2' h3' j0 j1 j2 j3 n' := by
  subst e0 e1 e2 e3 en; rfl

/-- Before trip `k` of the chunk loop (k < 50): the gathers of chunks 4k … 4k+3 are in flight, chunks below 4k written. -/
def invA (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (k : Nat) (hk : k < 50) : sProp 𝕄 :=
  invAo d L qT tab I3 fi O W (offK k 0) (offK k 1) (offK k 2) (offK k 3) (offK_inb hk h04) (offK_inb hk h14) (offK_inb hk h24) (offK_inb hk h34)
    (jK k 0 hk h04) (jK k 1 hk h14) (jK k 2 hk h24) (jK k 3 hk h34) (4 * k)

theorem trips_eq : k0_t1_loop.trips = 50 := by decide +kernel
theorem t2_trips : k0_t2_loop.trips = 32 := by decide +kernel
theorem t3_trips : k0_t3_loop.trips = 32 := by decide +kernel
theorem t4_trips : k0_t4_loop.trips = 32 := by decide +kernel
theorem t5_trips : k0_t5_loop.trips = 32 := by decide +kernel

/-- The last trip of the chunk loop. -/
abbrev kLast : Fin k0_t1_loop.trips := ⟨49, by rw [trips_eq]; decide⟩

theorem cond1_lt : ∀ k : Fin k0_t1_loop.trips, k.val < 49 → k0_cond1 k = 1#1 := by decide +kernel
theorem cond1_ge : ∀ k : Fin k0_t1_loop.trips, ¬ k.val < 49 → ¬ k0_cond1 k = 1#1 := by decide +kernel

omit [FloatOps F] in
theorem off36_eq (k : Fin k0_t1_loop.trips) (b : Fin 4) : k0_off36 k (BitVec.ofNat 32 b.val) = ![4 * (k.val + 1) + b.val, 0] :=
  (k0_off36_eq k b).trans (congrArg (fun a => (![a, 0] : Fin 2 → Nat)) (by omega))

omit [FloatOps F] in
theorem off10_eq (k : Fin k0_t1_loop.trips) (b : Fin 4) : k0_off10 L k (BitVec.ofNat 32 b.val) = ![25600 * (wOf L).val + 128 * (4 * k.val + b.val), 0] :=
  (k0_off10_eq L k b).trans (congrArg (fun a => (![a, 0] : Fin 2 → Nat)) (by show _ = 25600 * (2 * (L 1).val + (L 0).val) + _; omega))

set_option sl_exec.dmaWindowLent true in
/-- One trip of the chunk loop that is not the last: each slot's gather is awaited, its rows scaled in place and their
    write-back issued; then each write-back is awaited and the slot's next gather issued. -/
theorem trip_lt (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (hI : ∀ j, (I3 j).toNat < 100000) (v2 : BitVec 32)
    (k : Fin k0_t1_loop.trips) (hk : k.val < 50) (hk49 : k.val < 49) (k0_h1 : k0_cond1 k = 1#1) :
    invA d L qT tab I3 fi O W k.val hk
      ⊢ wp frame (wpE (defs₀ (F := F)) 𝒱₀ (thr d L) none) Set.univ
          (k0_t1_body L tW (Memref.isWhole_whole _) iW (Memref.isWhole_whole _) oW (Memref.isWhole_whole _) sI (Memref.isWhole_whole _) sR (Memref.isWhole_whole _) cc0_scratch2 cc0_scratch3 cc0_scratch4 cc0_scratch5 cc0_scratch6 cc0_scratch7 cc0_scratch8 cc0_scratch9 cc0_scoped0 v2 k ())
          fun _ => invAo d L qT tab I3 fi O W (k0_off36 k 0#32) (k0_off36 k 1#32) (k0_off36 k 2#32) (k0_off36 k 3#32)
            (k0_off36_inb k k0_h1 0) (k0_off36_inb k k0_h1 1) (k0_off36_inb k k0_h1 2) (k0_off36_inb k k0_h1 3)
            (jK (k.val + 1) 0 (by omega) h04) (jK (k.val + 1) 1 (by omega) h14) (jK (k.val + 1) 2 (by omega) h24) (jK (k.val + 1) 3 (by omega) h34) (4 * k.val + 4) := by
  have hFI := idx_words_in_range d L I3 hI fi
  unfold invA invAo k0_t1_body
  iintro ⟨#Hmw, ⟨%X0, Hg0, %hX0⟩, ⟨%X1, Hg1, %hX1⟩, ⟨%X2, Hg2, %hX2⟩, ⟨%X3, Hg3, %hX3⟩, Ht0, Ht1, Ht2, Ht3, ⟨%Z, HsR⟩, HsI, ⟨%f, Ho, %hf⟩, Hw0, Hw1, Hw2, Hw3, %W', %hW', HO⟩
  sl_exec
  sl_for (invSv0 d L (gRows (wOf L) I3 tab (jK k.val 0 hk h04))) $$ [Hg0_dst]
  case region => intro t acc; exact scale_region0 d L _ v2 0#32 1#32 k t acc
  · unfold invSv0; iexists _; isplitl [Hg0_dst]
    · iexact Hg0_dst
    · ipureintro; exact ScaledTo.zero hX0
  iintro %_ HI
  unfold invSv0
  icases HI with ⟨%Y0, Hs0, %hY0'⟩
  have hY0 : ∀ y, (slot0).view.read (Elt F) Y0 y = FloatOps.mulf (gRows (wOf L) I3 tab (jK k.val 0 hk h04) y) Cert.Spec.scale :=
    ScaledTo.all (by have h := hY0'; rwa [show Scf.trips k0_t2_loop.lb k0_t2_loop.ub k0_t2_loop.st = 32 from t2_trips] at h)
  sl_exec
  sl_for (invSv1 d L (gRows (wOf L) I3 tab (jK k.val 1 hk h14))) $$ [Hg1_dst]
  case region => intro t acc; exact scale_region1 d L _ v2 k _ _ _ t acc
  · unfold invSv1; iexists _; isplitl [Hg1_dst]
    · iexact Hg1_dst
    · ipureintro; exact ScaledTo.zero hX1
  iintro %_ HI
  unfold invSv1
  icases HI with ⟨%Y1, Hs1, %hY1'⟩
  have hY1 : ∀ y, (slot1).view.read (Elt F) Y1 y = FloatOps.mulf (gRows (wOf L) I3 tab (jK k.val 1 hk h14) y) Cert.Spec.scale :=
    ScaledTo.all (by have h := hY1'; rwa [show Scf.trips k0_t3_loop.lb k0_t3_loop.ub k0_t3_loop.st = 32 from t3_trips] at h)
  sl_exec
  sl_for (invSv2 d L (gRows (wOf L) I3 tab (jK k.val 2 hk h24))) $$ [Hg2_dst]
  case region => intro t acc; exact scale_region2 d L _ v2 k _ _ _ t acc
  · unfold invSv2; iexists _; isplitl [Hg2_dst]
    · iexact Hg2_dst
    · ipureintro; exact ScaledTo.zero hX2
  iintro %_ HI
  unfold invSv2
  icases HI with ⟨%Y2, Hs2, %hY2'⟩
  have hY2 : ∀ y, (slot2).view.read (Elt F) Y2 y = FloatOps.mulf (gRows (wOf L) I3 tab (jK k.val 2 hk h24) y) Cert.Spec.scale :=
    ScaledTo.all (by have h := hY2'; rwa [show Scf.trips k0_t4_loop.lb k0_t4_loop.ub k0_t4_loop.st = 32 from t4_trips] at h)
  sl_exec
  sl_for (invSv3 d L (gRows (wOf L) I3 tab (jK k.val 3 hk h34))) $$ [Hg3_dst]
  case region => intro t acc; exact scale_region3 d L _ v2 t acc
  · unfold invSv3; iexists _; isplitl [Hg3_dst]
    · iexact Hg3_dst
    · ipureintro; exact ScaledTo.zero hX3
  iintro %_ HI
  unfold invSv3
  icases HI with ⟨%Y3, Hs3, %hY3'⟩
  have hY3 : ∀ y, (slot3).view.read (Elt F) Y3 y = FloatOps.mulf (gRows (wOf L) I3 tab (jK k.val 3 hk h34) y) Cert.Spec.scale :=
    ScaledTo.all (by have h := hY3'; rwa [show Scf.trips k0_t5_loop.lb k0_t5_loop.ub k0_t5_loop.st = 32 from t5_trips] at h)
  ihave HsI' := (Entails.of_eq (show (_ : sProp 𝕄) = ((sI : Memref sig .scVector .vmem S200x128 .i32).view.loc (thr d L) ↦{fullShare} FIof d L fi I3) from rfl)) $$ HsI
  sl_exec
  sl_step
  isplitr; · iexact Hmw
  isplitl [Hg0]
  · iexists _; isplitl [Hg0]; · iexact Hg0
    ipureintro; intro y; exact gather_value_writes d L tab I3 hI fi _ _ _ _ (jK (k.val + 1) 0 (by omega) h04) (off36_eq k 0) _ _ y
  isplitl [Hg1]
  · iexists _; isplitl [Hg1]; · iexact Hg1
    ipureintro; intro y; exact gather_value_writes d L tab I3 hI fi _ _ _ _ (jK (k.val + 1) 1 (by omega) h14) (off36_eq k 1) _ _ y
  isplitl [Hg2]
  · iexists _; isplitl [Hg2]; · iexact Hg2
    ipureintro; intro y; exact gather_value_writes d L tab I3 hI fi _ _ _ _ (jK (k.val + 1) 2 (by omega) h24) (off36_eq k 2) _ _ y
  isplitl [Hg3]
  · iexists _; isplitl [Hg3]; · iexact Hg3
    ipureintro; intro y; exact gather_value_writes d L tab I3 hI fi _ _ _ _ (jK (k.val + 1) 3 (by omega) h34) (off36_eq k 3) _ _ y
  isplitl [Ht0]; · iexact Ht0
  isplitl [Ht1]; · iexact Ht1
  isplitl [Ht2]; · iexact Ht2
  isplitl [Ht3]; · iexact Ht3
  isplitl [HsR]; · iexists _; iexact HsR
  isplitl [HsI']; · iexact HsI'
  isplitl [Ho]
  · iexists _; isplitl [Ho]; · iexact Ho
    ipureintro
    exact out_step L I3 tab (4 * k.val) (by omega) f hf _ _ _ _ _ _ _ _ (off10_eq L k 0) (off10_eq L k 1) (off10_eq L k 2) (off10_eq L k 3)
      (slot0).view (slot1).view (slot2).view (slot3).view Y0 Y1 Y2 Y3 hY0 hY1 hY2 hY3
  isplitl [Hw0]; · iexact Hw0
  isplitl [Hw1]; · iexact Hw1
  isplitl [Hw2]; · iexact Hw2
  isplitl [Hw3]; · iexact Hw3
  iexists _; isplitr
  swap
  · iexact HO
  · ipureintro
    intro p hp
    simp only [Finset.mem_insert] at hp
    rcases hp with rfl | rfl | rfl | rfl | rfl | rfl | rfl | rfl | hp
    all_goals first | exact .inr rfl | exact hW' p hp

/-- The state after the last trip: no gather in flight; the four write-backs of chunks 196 … 199 in flight, each
    holding its slot and its chunk of the output; the rest of the tile's rows of the output held; as a function, the
    output already holds every chunk. -/
def invB (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) : sProp 𝕄 :=
  iprop(Transfers.MayWaits (thr d L) (none : HIx 1) O
    ∗ ((tWs).view.loc (thr d L) ↦{Transfers.shareTok qT 4 0} tab) ∗ ((tWs).view.loc (thr d L) ↦{Transfers.shareTok qT 4 1} tab)
    ∗ ((tWs).view.loc (thr d L) ↦{Transfers.shareTok qT 4 2} tab) ∗ ((tWs).view.loc (thr d L) ↦{Transfers.shareTok qT 4 3} tab)
    ∗ semVal (thr d L, SemLoc.dma cc0_scratch2.sem) 0 ∗ semVal (thr d L, SemLoc.dma cc0_scratch3.sem) 0
    ∗ semVal (thr d L, SemLoc.dma cc0_scratch4.sem) 0 ∗ semVal (thr d L, SemLoc.dma cc0_scratch5.sem) 0
    ∗ (∃ f P0 P1 P2 P3 Y0 Y1 Y2 Y3,
        (Transfers.Flight countersEmb (thr d L) (SemLoc.dma cc0_scratch6.sem) default 524288
          iprop(((oW : Memref sig .scVector .hbm S819200x128 .f32).view.loc (thr d L) ↦[(chunkM (k0_off10 L kLast 0#32) (k0_off10_inb L kLast 0)).view.set]{fullShare} (View.write (Elt F) (chunkM (k0_off10 L kLast 0#32) (k0_off10_inb L kLast 0)).view f P0 Finset.univ))
            ∗ ((slot0).view.loc (thr d L) ↦[(slot0).view.set]{fullShare} Y0)))
      ∗ (Transfers.Flight countersEmb (thr d L) (SemLoc.dma cc0_scratch7.sem) default 524288
          iprop(((oW : Memref sig .scVector .hbm S819200x128 .f32).view.loc (thr d L) ↦[(chunkM (k0_off10 L kLast 1#32) (k0_off10_inb L kLast 1)).view.set]{fullShare} (View.write (Elt F) (chunkM (k0_off10 L kLast 1#32) (k0_off10_inb L kLast 1)).view (View.write (Elt F) (chunkM (k0_off10 L kLast 0#32) (k0_off10_inb L kLast 0)).view f P0 Finset.univ) P1 Finset.univ))
            ∗ ((slot1).view.loc (thr d L) ↦[(slot1).view.set]{fullShare} Y1)))
      ∗ (Transfers.Flight countersEmb (thr d L) (SemLoc.dma cc0_scratch8.sem) default 524288
          iprop(((oW : Memref sig .scVector .hbm S819200x128 .f32).view.loc (thr d L) ↦[(chunkM (k0_off10 L kLast 2#32) (k0_off10_inb L kLast 2)).view.set]{fullShare} (View.write (Elt F) (chunkM (k0_off10 L kLast 2#32) (k0_off10_inb L kLast 2)).view (View.write (Elt F) (chunkM (k0_off10 L kLast 1#32) (k0_off10_inb L kLast 1)).view (View.write (Elt F) (chunkM (k0_off10 L kLast 0#32) (k0_off10_inb L kLast 0)).view f P0 Finset.univ) P1 Finset.univ) P2 Finset.univ))
            ∗ ((slot2).view.loc (thr d L) ↦[(slot2).view.set]{fullShare} Y2)))
      ∗ (Transfers.Flight countersEmb (thr d L) (SemLoc.dma cc0_scratch9.sem) default 524288
          iprop(((oW : Memref sig .scVector .hbm S819200x128 .f32).view.loc (thr d L) ↦[(chunkM (k0_off10 L kLast 3#32) (k0_off10_inb L kLast 3)).view.set]{fullShare} (View.write (Elt F) (chunkM (k0_off10 L kLast 3#32) (k0_off10_inb L kLast 3)).view (View.write (Elt F) (chunkM (k0_off10 L kLast 2#32) (k0_off10_inb L kLast 2)).view (View.write (Elt F) (chunkM (k0_off10 L kLast 1#32) (k0_off10_inb L kLast 1)).view (View.write (Elt F) (chunkM (k0_off10 L kLast 0#32) (k0_off10_inb L kLast 0)).view f P0 Finset.univ) P1 Finset.univ) P2 Finset.univ) P3 Finset.univ))
            ∗ ((slot3).view.loc (thr d L) ↦[(slot3).view.set]{fullShare} Y3)))
      ∗ ((oW : Memref sig .scVector .hbm S819200x128 .f32).view.loc (thr d L) ↦[((((oW : Memref sig .scVector .hbm S819200x128 .f32).view.setOn (oTR L).set \ (chunkM (k0_off10 L kLast 0#32) (k0_off10_inb L kLast 0)).view.set) \ (chunkM (k0_off10 L kLast 1#32) (k0_off10_inb L kLast 1)).view.set) \ (chunkM (k0_off10 L kLast 2#32) (k0_off10_inb L kLast 2)).view.set) \ (chunkM (k0_off10 L kLast 3#32) (k0_off10_inb L kLast 3)).view.set]{fullShare} (View.write (Elt F) (chunkM (k0_off10 L kLast 3#32) (k0_off10_inb L kLast 3)).view (View.write (Elt F) (chunkM (k0_off10 L kLast 2#32) (k0_off10_inb L kLast 2)).view (View.write (Elt F) (chunkM (k0_off10 L kLast 1#32) (k0_off10_inb L kLast 1)).view (View.write (Elt F) (chunkM (k0_off10 L kLast 0#32) (k0_off10_inb L kLast 0)).view f P0 Finset.univ) P1 Finset.univ) P2 Finset.univ) P3 Finset.univ))
      ∗ ⌜OutOK L I3 tab 200 (View.write (Elt F) (chunkM (k0_off10 L kLast 3#32) (k0_off10_inb L kLast 3)).view (View.write (Elt F) (chunkM (k0_off10 L kLast 2#32) (k0_off10_inb L kLast 2)).view (View.write (Elt F) (chunkM (k0_off10 L kLast 1#32) (k0_off10_inb L kLast 1)).view (View.write (Elt F) (chunkM (k0_off10 L kLast 0#32) (k0_off10_inb L kLast 0)).view f P0 Finset.univ) P1 Finset.univ) P2 Finset.univ) P3 Finset.univ)⌝)
    ∗ (∃ Z, (sR : Memref sig .scVector .vmem S4x128x128 .f32).view.loc (thr d L) ↦[(((Finset.univ \ (slot0).view.set) \ (slot1).view.set) \ (slot2).view.set) \ (slot3).view.set]{fullShare} Z)
    ∗ ((sI : Memref sig .scVector .vmem S200x128 .i32).view.loc (thr d L) ↦{fullShare} FIof d L fi I3)
    ∗ ∃ W', ⌜∀ p ∈ W', p ∈ W ∨ p.2 = none⌝ ∗ owes (thr d L) O W')

set_option sl_exec.dmaWindowLent true in
/-- The last trip of the chunk loop: as the others, but the write-backs are left in flight and no gather is issued. -/
theorem trip_last (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (hI : ∀ j, (I3 j).toNat < 100000) (v2 : BitVec 32) (k0_h1 : ¬ k0_cond1 kLast = 1#1) :
    invA d L qT tab I3 fi O W kLast.val (by decide)
      ⊢ wp frame (wpE (defs₀ (F := F)) 𝒱₀ (thr d L) none) Set.univ
          (k0_t1_body L tW (Memref.isWhole_whole _) iW (Memref.isWhole_whole _) oW (Memref.isWhole_whole _) sI (Memref.isWhole_whole _) sR (Memref.isWhole_whole _) cc0_scratch2 cc0_scratch3 cc0_scratch4 cc0_scratch5 cc0_scratch6 cc0_scratch7 cc0_scratch8 cc0_scratch9 cc0_scoped0 v2 kLast ())
          fun _ => invB d L qT tab I3 fi O W := by
  have hk : kLast.val < 50 := by decide
  have hFI := idx_words_in_range d L I3 hI fi
  unfold invA invAo invB k0_t1_body
  iintro ⟨#Hmw, ⟨%X0, Hg0, %hX0⟩, ⟨%X1, Hg1, %hX1⟩, ⟨%X2, Hg2, %hX2⟩, ⟨%X3, Hg3, %hX3⟩, Ht0, Ht1, Ht2, Ht3, ⟨%Z, HsR⟩, HsI, ⟨%f, Ho, %hf⟩, Hw0, Hw1, Hw2, Hw3, %W', %hW', HO⟩
  sl_exec
  sl_for (invSv0 d L (gRows (wOf L) I3 tab (jK kLast.val 0 hk h04))) $$ [Hg0_dst]
  case region => intro t acc; exact scale_region0 d L _ v2 0#32 1#32 kLast t acc
  · unfold invSv0; iexists _; isplitl [Hg0_dst]
    · iexact Hg0_dst
    · ipureintro; exact ScaledTo.zero hX0
  iintro %_ HI
  unfold invSv0
  icases HI with ⟨%Y0, Hs0, %hY0'⟩
  have hY0 : ∀ y, (slot0).view.read (Elt F) Y0 y = FloatOps.mulf (gRows (wOf L) I3 tab (jK kLast.val 0 hk h04) y) Cert.Spec.scale :=
    ScaledTo.all (by have h := hY0'; rwa [show Scf.trips k0_t2_loop.lb k0_t2_loop.ub k0_t2_loop.st = 32 from t2_trips] at h)
  sl_exec
  sl_for (invSv1 d L (gRows (wOf L) I3 tab (jK kLast.val 1 hk h14))) $$ [Hg1_dst]
  case region => intro t acc; exact scale_region1 d L _ v2 kLast _ _ _ t acc
  · unfold invSv1; iexists _; isplitl [Hg1_dst]
    · iexact Hg1_dst
    · ipureintro; exact ScaledTo.zero hX1
  iintro %_ HI
  unfold invSv1
  icases HI with ⟨%Y1, Hs1, %hY1'⟩
  have hY1 : ∀ y, (slot1).view.read (Elt F) Y1 y = FloatOps.mulf (gRows (wOf L) I3 tab (jK kLast.val 1 hk h14) y) Cert.Spec.scale :=
    ScaledTo.all (by have h := hY1'; rwa [show Scf.trips k0_t3_loop.lb k0_t3_loop.ub k0_t3_loop.st = 32 from t3_trips] at h)
  sl_exec
  sl_for (invSv2 d L (gRows (wOf L) I3 tab (jK kLast.val 2 hk h24))) $$ [Hg2_dst]
  case region => intro t acc; exact scale_region2 d L _ v2 kLast _ _ _ t acc
  · unfold invSv2; iexists _; isplitl [Hg2_dst]
    · iexact Hg2_dst
    · ipureintro; exact ScaledTo.zero hX2
  iintro %_ HI
  unfold invSv2
  icases HI with ⟨%Y2, Hs2, %hY2'⟩
  have hY2 : ∀ y, (slot2).view.read (Elt F) Y2 y = FloatOps.mulf (gRows (wOf L) I3 tab (jK kLast.val 2 hk h24) y) Cert.Spec.scale :=
    ScaledTo.all (by have h := hY2'; rwa [show Scf.trips k0_t4_loop.lb k0_t4_loop.ub k0_t4_loop.st = 32 from t4_trips] at h)
  sl_exec
  sl_for (invSv3 d L (gRows (wOf L) I3 tab (jK kLast.val 3 hk h34))) $$ [Hg3_dst]
  case region => intro t acc; exact scale_region3 d L _ v2 t acc
  · unfold invSv3; iexists _; isplitl [Hg3_dst]
    · iexact Hg3_dst
    · ipureintro; exact ScaledTo.zero hX3
  iintro %_ HI
  unfold invSv3
  icases HI with ⟨%Y3, Hs3, %hY3'⟩
  have hY3 : ∀ y, (slot3).view.read (Elt F) Y3 y = FloatOps.mulf (gRows (wOf L) I3 tab (jK kLast.val 3 hk h34) y) Cert.Spec.scale :=
    ScaledTo.all (by have h := hY3'; rwa [show Scf.trips k0_t5_loop.lb k0_t5_loop.ub k0_t5_loop.st = 32 from t5_trips] at h)
  ihave HsI' := (Entails.of_eq (show (_ : sProp 𝕄) = ((sI : Memref sig .scVector .vmem S200x128 .i32).view.loc (thr d L) ↦{fullShare} FIof d L fi I3) from rfl)) $$ HsI
  sl_exec
  sl_step
  isplitr; · iexact Hmw
  isplitl [Ht0]; · iexact Ht0
  isplitl [Ht1]; · iexact Ht1
  isplitl [Ht2]; · iexact Ht2
  isplitl [Ht3]; · iexact Ht3
  isplitl [Hg0]; · iexact Hg0
  isplitl [Hg1]; · iexact Hg1
  isplitl [Hg2]; · iexact Hg2
  isplitl [Hg3]; · iexact Hg3
  isplitl [Hw0 Hw1 Hw2 Hw3 Ho]
  · iexists f; iexists _; iexists _; iexists _; iexists _; iexists Y0; iexists Y1; iexists Y2; iexists Y3
    isplitl [Hw0]; · iexact Hw0
    isplitl [Hw1]; · iexact Hw1
    isplitl [Hw2]; · iexact Hw2
    isplitl [Hw3]; · iexact Hw3
    isplitl [Ho]; · iexact Ho
    ipureintro
    exact out_step L I3 tab (4 * kLast.val) (by decide) f hf _ _ _ _ _ _ _ _ (off10_eq L kLast 0) (off10_eq L kLast 1) (off10_eq L kLast 2) (off10_eq L kLast 3)
      (slot0).view (slot1).view (slot2).view (slot3).view Y0 Y1 Y2 Y3 hY0 hY1 hY2 hY3
  isplitl [HsR]; · iexists _; iexact HsR
  isplitl [HsI']; · iexact HsI'
  iexists _; isplitr
  swap
  · iexact HO
  · ipureintro
    intro p hp
    simp only [Finset.mem_insert] at hp
    rcases hp with rfl | rfl | rfl | rfl | hp
    all_goals first | exact .inr rfl | exact hW' p hp

end Tile
end Cert.Proof.KB
end
-- ==== Proof.JoinSlotsB.lean ====
/-
  The rows scratch put together again from its four slots.

  The scratch holds 4 × 128 × 128 numbers; slot k is the 128 × 128 block whose first coordinate is k.  Blocks with
  different first coordinates share no element, so the four slots and what is left of the scratch once they are
  carved out (nothing, in fact) are five disjoint parts; held together, each at its own contents, they are the whole
  scratch held at the contents that agree with each part on its elements.
-/
import proofs.«209300_g39805756900082_cont_8to1_b_88_12_alg».proof.Proof.PiecesB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slots' elements, and their disjointness -/

/-- Slot 0's elements are those of the scratch whose first coordinate is 0. -/
theorem slot0_set : (slot0).view.set
    = (Rect.unit (s := S4x128x128) ![0, 0, 0] S1x128x128.size inb_S4x128x128_S1x128x128_0_0_0).set := by
  simp only [Memref.view_squeeze, Memref.view_slice, Memref.view_whole, View.set_reshape, View.set_slice_whole]

/-- Slot 1's elements are those of the scratch whose first coordinate is 1. -/
theorem slot1_set : (slot1).view.set
    = (Rect.unit (s := S4x128x128) ![1, 0, 0] S1x128x128.size inb_S4x128x128_S1x128x128_1_0_0).set := by
  simp only [Memref.view_squeeze, Memref.view_slice, Memref.view_whole, View.set_reshape, View.set_slice_whole]

/-- Slot 2's elements are those of the scratch whose first coordinate is 2. -/
theorem slot2_set : (slot2).view.set
    = (Rect.unit (s := S4x128x128) ![2, 0, 0] S1x128x128.size inb_S4x128x128_S1x128x128_2_0_0).set := by
  simp only [Memref.view_squeeze, Memref.view_slice, Memref.view_whole, View.set_reshape, View.set_slice_whole]

/-- Slot 3's elements are those of the scratch whose first coordinate is 3. -/
theorem slot3_set : (slot3).view.set
    = (Rect.unit (s := S4x128x128) ![3, 0, 0] S1x128x128.size inb_S4x128x128_S1x128x128_3_0_0).set := by
  simp only [Memref.view_squeeze, Memref.view_slice, Memref.view_whole, View.set_reshape, View.set_slice_whole]

theorem slots_disjoint_10 : Disjoint (slot1).view.set (slot0).view.set := by
  rw [slot1_set, slot0_set]
  exact Rect.unit_disjoint 0 (Or.inr (by decide))

theorem slots_disjoint_20 : Disjoint (slot2).view.set (slot0).view.set := by
  rw [slot2_set, slot0_set]
  exact Rect.unit_disjoint 0 (Or.inr (by decide))

theorem slots_disjoint_21 : Disjoint (slot2).view.set (slot1).view.set := by
  rw [slot2_set, slot1_set]
  exact Rect.unit_disjoint 0 (Or.inr (by decide))

theorem slots_disjoint_30 : Disjoint (slot3).view.set (slot0).view.set := by
  rw [slot3_set, slot0_set]
  exact Rect.unit_disjoint 0 (Or.inr (by decide))

theorem slots_disjoint_31 : Disjoint (slot3).view.set (slot1).view.set := by
  rw [slot3_set, slot1_set]
  exact Rect.unit_disjoint 0 (Or.inr (by decide))

theorem slots_disjoint_32 : Disjoint (slot3).view.set (slot2).view.set := by
  rw [slot3_set, slot2_set]
  exact Rect.unit_disjoint 0 (Or.inr (by decide))

/-! ## The join -/

/-- The remainder and the four slots, each held whole at its own contents, are the scratch held whole at some
    contents: each slot in turn is put back into what it was carved out of, the contents taken piecewise. -/
theorem join_slots (d : Dev nD) (L : grid0.Coords)
    (Z Y0 Y1 Y2 Y3 : Buf (Elt F) ((sR : Memref sig .scVector .vmem S4x128x128 .f32).view.loc (thr d L))) :
    (iprop(((sR : Memref sig .scVector .vmem S4x128x128 .f32).view.loc (thr d L) ↦[(((Finset.univ \ (slot0).view.set) \ (slot1).view.set) \ (slot2).view.set) \ (slot3).view.set]{fullShare} Z)
        ∗ ((slot0).view.loc (thr d L) ↦[(slot0).view.set]{fullShare} Y0) ∗ ((slot1).view.loc (thr d L) ↦[(slot1).view.set]{fullShare} Y1)
        ∗ ((slot2).view.loc (thr d L) ↦[(slot2).view.set]{fullShare} Y2) ∗ ((slot3).view.loc (thr d L) ↦[(slot3).view.set]{fullShare} Y3)) : sProp 𝕄)
      ⊢ iprop(∃ f, (sR : Memref sig .scVector .vmem S4x128x128 .f32).view.loc (thr d L) ↦{fullShare} f) := by
  have h3 : (slot3).view.set ⊆ ((Finset.univ \ (slot0).view.set) \ (slot1).view.set) \ (slot2).view.set :=
    Finset.subset_sdiff.mpr ⟨Finset.subset_sdiff.mpr ⟨Finset.subset_sdiff.mpr ⟨Finset.subset_univ _, slots_disjoint_30⟩,
      slots_disjoint_31⟩, slots_disjoint_32⟩
  have h2 : (slot2).view.set ⊆ (Finset.univ \ (slot0).view.set) \ (slot1).view.set :=
    Finset.subset_sdiff.mpr ⟨Finset.subset_sdiff.mpr ⟨Finset.subset_univ _, slots_disjoint_20⟩, slots_disjoint_21⟩
  have h1 : (slot1).view.set ⊆ Finset.univ \ (slot0).view.set :=
    Finset.subset_sdiff.mpr ⟨Finset.subset_univ _, slots_disjoint_10⟩
  have h0 : (slot0).view.set ⊆ Finset.univ := Finset.subset_univ _
  iintro ⟨HZ, H0, H1, H2, H3⟩
  ihave HA := (pointsTo_join_subset (ℓ := (sR : Memref sig .scVector .vmem S4x128x128 .f32).view.loc (thr d L))
      (q := fullShare) (f := Z) (g := Y3) h3) $$ [H3 HZ]
  · isplitl [H3]; · iexact H3
    iexact HZ
  ihave HB := (pointsTo_join_subset (ℓ := (sR : Memref sig .scVector .vmem S4x128x128 .f32).view.loc (thr d L))
      (q := fullShare) (g := Y2) h2) $$ [H2 HA]
  · isplitl [H2]; · iexact H2
    iexact HA
  ihave HC := (pointsTo_join_subset (ℓ := (sR : Memref sig .scVector .vmem S4x128x128 .f32).view.loc (thr d L))
      (q := fullShare) (g := Y1) h1) $$ [H1 HB]
  · isplitl [H1]; · iexact H1
    iexact HB
  ihave HD := (pointsTo_join_subset (ℓ := (sR : Memref sig .scVector .vmem S4x128x128 .f32).view.loc (thr d L))
      (q := fullShare) (g := Y0) h0) $$ [H0 HC]
  · isplitl [H0]; · iexact H0
    iexact HC
  iexists _
  iexact HD

end Cert.Proof.KB

end
-- ==== Proof.JoinOutB.lean ====
/-
  The tile's rows of the output put together again after the last four chunks are written.

  Chunks 196 to 199 of the tile's rows are written one after the other.  What is left holds the rows in five parts: the
  four chunks, each at the contents as of its own write, and the rest of the tile's rows at the final contents.  The
  chunks are disjoint blocks of rows inside the tile's rows, and a write into one chunk changes nothing in another, so
  each chunk already holds the final contents on its own rows; parts of one set held at one contents are the set held
  at those contents.
-/
import proofs.«209300_g39805756900082_cont_8to1_b_88_12_alg».proof.Proof.OutValueB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Five parts of a set, each agreeing with one contents on its elements -/

/-- A set held in five parts — four subsets carved out in turn and the remainder — each at contents that agree with
    `G` on the part, is the set held at `G`. -/
theorem join_five {ℓ : Loc nD τ sig} (T s0 s1 s2 s3 : Finset (Idx ℓ)) (G G0 G1 G2 G3 : Buf (Elt F) ℓ)
    (h0 : s0 ⊆ T) (h1 : s1 ⊆ T \ s0) (h2 : s2 ⊆ (T \ s0) \ s1) (h3 : s3 ⊆ ((T \ s0) \ s1) \ s2)
    (a0 : ∀ i ∈ s0, G0 i = G i) (a1 : ∀ i ∈ s1, G1 i = G i) (a2 : ∀ i ∈ s2, G2 i = G i) (a3 : ∀ i ∈ s3, G3 i = G i) :
    (iprop((ℓ ↦[(((T \ s0) \ s1) \ s2) \ s3]{fullShare} G) ∗ (ℓ ↦[s0]{fullShare} G0) ∗ (ℓ ↦[s1]{fullShare} G1)
        ∗ (ℓ ↦[s2]{fullShare} G2) ∗ (ℓ ↦[s3]{fullShare} G3)) : sProp 𝕄)
      ⊢ (ℓ ↦[T]{fullShare} G) := by
  rw [pointsTo_congr a0, pointsTo_congr a1, pointsTo_congr a2, pointsTo_congr a3]
  iintro ⟨HR, H0, H1, H2, H3⟩
  ihave HA := ((pointsTo_split_subset (ℓ := ℓ) (q := fullShare) (f := G) h3).2) $$ [H3 HR]
  · isplitl [H3]; · iexact H3
    iexact HR
  ihave HB := ((pointsTo_split_subset (ℓ := ℓ) (q := fullShare) (f := G) h2).2) $$ [H2 HA]
  · isplitl [H2]; · iexact H2
    iexact HA
  ihave HC := ((pointsTo_split_subset (ℓ := ℓ) (q := fullShare) (f := G) h1).2) $$ [H1 HB]
  · isplitl [H1]; · iexact H1
    iexact HB
  ihave HD := ((pointsTo_split_subset (ℓ := ℓ) (q := fullShare) (f := G) h0).2) $$ [H0 HC]
  · isplitl [H0]; · iexact H0
    iexact HC
  iexact HD

/-! ## The chunks as sets of rows -/

/-- A chunk's elements are those of the output whose row lies in its 128 rows. -/
theorem chunk_set (o : Fin 2 → Nat) (ho : ∀ a, o a + S128x128.size a ≤ S819200x128.size a) :
    (chunkM o ho).view.set = (Rect.unit (s := S819200x128) o S128x128.size ho).set := View.set_slice_whole _ _

/-- The tile's rows, as elements of the output's buffer. -/
theorem tile_set (L : grid0.Coords) : (oW : Memref sig .scVector .hbm S819200x128 .f32).view.setOn (oTR L).set = (oTR L).set := Finset.map_refl

/-- Chunk k of the tile lies inside the tile's rows. -/
theorem chunk_subset_tile (L : grid0.Coords) (o : Fin 2 → Nat) (ho : ∀ a, o a + S128x128.size a ≤ S819200x128.size a)
    (k : Nat) (hk : k < 200) (eo : o = ![25600 * (wOf L).val + 128 * k, 0]) :
    (chunkM o ho).view.set ⊆ (oW : Memref sig .scVector .hbm S819200x128 .f32).view.setOn (oTR L).set := by
  rw [chunk_set, tile_set]
  intro i hi
  rw [Rect.mem_set_unit] at hi ⊢
  have ho0 : o 0 = 25600 * (2 * (L 1).val + (L 0).val) + 128 * k := by rw [eo]; rfl
  have ho1 : o 1 = 0 := by rw [eo]; rfl
  have h0 : o 0 ≤ (i 0).val ∧ (i 0).val < o 0 + 128 := hi 0
  have h1 : o 1 ≤ (i 1).val ∧ (i 1).val < o 1 + 128 := hi 1
  intro a
  match a with
  | ⟨0, _⟩ =>
    show 51200 * (L 1).val + 25600 * (L 0).val ≤ (i 0).val ∧ (i 0).val < 51200 * (L 1).val + 25600 * (L 0).val + 25600
    omega
  | ⟨1, _⟩ =>
    show 0 ≤ (i 1).val ∧ (i 1).val < 0 + 128
    omega

/-- Different chunks of the tile share no element. -/
theorem chunks_disjoint (L : grid0.Coords) (o o' : Fin 2 → Nat) (ho : ∀ a, o a + S128x128.size a ≤ S819200x128.size a)
    (ho' : ∀ a, o' a + S128x128.size a ≤ S819200x128.size a) (k k' : Nat) (hkk : k ≠ k')
    (eo : o = ![25600 * (wOf L).val + 128 * k, 0]) (eo' : o' = ![25600 * (wOf L).val + 128 * k', 0]) :
    Disjoint (chunkM o ho).view.set (chunkM o' ho').view.set := by
  rw [chunk_set, chunk_set]
  have ho0 : o 0 = 25600 * (wOf L).val + 128 * k := by rw [eo]; rfl
  have ho0' : o' 0 = 25600 * (wOf L).val + 128 * k' := by rw [eo']; rfl
  exact Rect.unit_disjoint 0 (by show o 0 + 128 ≤ o' 0 ∨ o' 0 + 128 ≤ o 0; omega)

/-- A write into a chunk leaves every element outside the chunk as it was. -/
theorem write_keep (o : Fin 2 → Nat) (ho : ∀ a, o a + S128x128.size a ≤ S819200x128.size a)
    (g : (chunkM o ho).view.ty.Contents (Elt F)) (P : S128x128.Idx → Elt F .f32) (i : (chunkM o ho).view.ty.Idx)
    (hi : i ∉ (chunkM o ho).view.set) : View.write (Elt F) (chunkM o ho).view g P Finset.univ i = g i :=
  View.write_of_not_mem g P Finset.univ hi

/-! ## The join -/

theorem join_out (d : Dev nD) (L : grid0.Coords) (c0 c1 c2 c3 : Fin 2 → Nat) hc0 hc1 hc2 hc3
    (e0 : c0 = ![25600 * (wOf L).val + 128 * (196 + 0), 0]) (e1 : c1 = ![25600 * (wOf L).val + 128 * (196 + 1), 0])
    (e2 : c2 = ![25600 * (wOf L).val + 128 * (196 + 2), 0]) (e3 : c3 = ![25600 * (wOf L).val + 128 * (196 + 3), 0])
    (f : Buf (Elt F) ((oW : Memref sig .scVector .hbm S819200x128 .f32).view.loc (thr d L))) (P0 P1 P2 P3 : S128x128.Idx → Elt F .f32) :
    (iprop(((oW : Memref sig .scVector .hbm S819200x128 .f32).view.loc (thr d L) ↦[(((((oW : Memref sig .scVector .hbm S819200x128 .f32).view.setOn (oTR L).set) \ (chunkM c0 hc0).view.set) \ (chunkM c1 hc1).view.set) \ (chunkM c2 hc2).view.set) \ (chunkM c3 hc3).view.set]{fullShare} (View.write (Elt F) (chunkM c3 hc3).view (View.write (Elt F) (chunkM c2 hc2).view (View.write (Elt F) (chunkM c1 hc1).view (View.write (Elt F) (chunkM c0 hc0).view f P0 Finset.univ) P1 Finset.univ) P2 Finset.univ) P3 Finset.univ))
      ∗ ((oW : Memref sig .scVector .hbm S819200x128 .f32).view.loc (thr d L) ↦[(chunkM c0 hc0).view.set]{fullShare} (View.write (Elt F) (chunkM c0 hc0).view f P0 Finset.univ))
      ∗ ((oW : Memref sig .scVector .hbm S819200x128 .f32).view.loc (thr d L) ↦[(chunkM c1 hc1).view.set]{fullShare} (View.write (Elt F) (chunkM c1 hc1).view (View.write (Elt F) (chunkM c0 hc0).view f P0 Finset.univ) P1 Finset.univ))
      ∗ ((oW : Memref sig .scVector .hbm S819200x128 .f32).view.loc (thr d L) ↦[(chunkM c2 hc2).view.set]{fullShare} (View.write (Elt F) (chunkM c2 hc2).view (View.write (Elt F) (chunkM c1 hc1).view (View.write (Elt F) (chunkM c0 hc0).view f P0 Finset.univ) P1 Finset.univ) P2 Finset.univ))
      ∗ ((oW : Memref sig .scVector .hbm S819200x128 .f32).view.loc (thr d L) ↦[(chunkM c3 hc3).view.set]{fullShare} (View.write (Elt F) (chunkM c3 hc3).view (View.write (Elt F) (chunkM c2 hc2).view (View.write (Elt F) (chunkM c1 hc1).view (View.write (Elt F) (chunkM c0 hc0).view f P0 Finset.univ) P1 Finset.univ) P2 Finset.univ) P3 Finset.univ))) : sProp 𝕄)
      ⊢ ((oW : Memref sig .scVector .hbm S819200x128 .f32).view.loc (thr d L) ↦[(oW : Memref sig .scVector .hbm S819200x128 .f32).view.setOn (oTR L).set]{fullShare} (View.write (Elt F) (chunkM c3 hc3).view (View.write (Elt F) (chunkM c2 hc2).view (View.write (Elt F) (chunkM c1 hc1).view (View.write (Elt F) (chunkM c0 hc0).view f P0 Finset.univ) P1 Finset.univ) P2 Finset.univ) P3 Finset.univ)) := by
  have d01 := chunks_disjoint L c0 c1 hc0 hc1 (196 + 0) (196 + 1) (by decide) e0 e1
  have d02 := chunks_disjoint L c0 c2 hc0 hc2 (196 + 0) (196 + 2) (by decide) e0 e2
  have d03 := chunks_disjoint L c0 c3 hc0 hc3 (196 + 0) (196 + 3) (by decide) e0 e3
  have d12 := chunks_disjoint L c1 c2 hc1 hc2 (196 + 1) (196 + 2) (by decide) e1 e2
  have d13 := chunks_disjoint L c1 c3 hc1 hc3 (196 + 1) (196 + 3) (by decide) e1 e3
  have d23 := chunks_disjoint L c2 c3 hc2 hc3 (196 + 2) (196 + 3) (by decide) e2 e3
  have t0 := chunk_subset_tile L c0 hc0 (196 + 0) (by decide) e0
  have t1 := chunk_subset_tile L c1 hc1 (196 + 1) (by decide) e1
  have t2 := chunk_subset_tile L c2 hc2 (196 + 2) (by decide) e2
  have t3 := chunk_subset_tile L c3 hc3 (196 + 3) (by decide) e3
  refine join_five (ℓ := (oW : Memref sig .scVector .hbm S819200x128 .f32).view.loc (thr d L)) ((oW : Memref sig .scVector .hbm S819200x128 .f32).view.setOn (oTR L).set) (chunkM c0 hc0).view.set (chunkM c1 hc1).view.set (chunkM c2 hc2).view.set (chunkM c3 hc3).view.set
    (View.write (Elt F) (chunkM c3 hc3).view (View.write (Elt F) (chunkM c2 hc2).view (View.write (Elt F) (chunkM c1 hc1).view (View.write (Elt F) (chunkM c0 hc0).view f P0 Finset.univ) P1 Finset.univ) P2 Finset.univ) P3 Finset.univ)
    (View.write (Elt F) (chunkM c0 hc0).view f P0 Finset.univ)
    (View.write (Elt F) (chunkM c1 hc1).view (View.write (Elt F) (chunkM c0 hc0).view f P0 Finset.univ) P1 Finset.univ)
    (View.write (Elt F) (chunkM c2 hc2).view (View.write (Elt F) (chunkM c1 hc1).view (View.write (Elt F) (chunkM c0 hc0).view f P0 Finset.univ) P1 Finset.univ) P2 Finset.univ)
    (View.write (Elt F) (chunkM c3 hc3).view (View.write (Elt F) (chunkM c2 hc2).view (View.write (Elt F) (chunkM c1 hc1).view (View.write (Elt F) (chunkM c0 hc0).view f P0 Finset.univ) P1 Finset.univ) P2 Finset.univ) P3 Finset.univ) t0
    (Finset.subset_sdiff.mpr ⟨t1, d01.symm⟩)
    (Finset.subset_sdiff.mpr ⟨Finset.subset_sdiff.mpr ⟨t2, d02.symm⟩, d12.symm⟩)
    (Finset.subset_sdiff.mpr ⟨Finset.subset_sdiff.mpr ⟨Finset.subset_sdiff.mpr ⟨t3, d03.symm⟩, d13.symm⟩, d23.symm⟩)
    (fun i hi => ?_) (fun i hi => ?_) (fun i hi => ?_) (fun _ _ => rfl)
  · -- on chunk 0 the three later writes change nothing
    exact ((write_keep c3 hc3 _ P3 i (Finset.disjoint_left.mp d03 hi)).trans
      ((write_keep c2 hc2 _ P2 i (Finset.disjoint_left.mp d02 hi)).trans
        (write_keep c1 hc1 _ P1 i (Finset.disjoint_left.mp d01 hi)))).symm
  · -- on chunk 1 the two later writes change nothing
    exact ((write_keep c3 hc3 _ P3 i (Finset.disjoint_left.mp d13 hi)).trans
      (write_keep c2 hc2 _ P2 i (Finset.disjoint_left.mp d12 hi))).symm
  · -- on chunk 2 the last write changes nothing
    exact (write_keep c3 hc3 _ P3 i (Finset.disjoint_left.mp d23 hi)).symm

end Cert.Proof.KB

end
-- ==== Proof.BodyB.lean ====
/-
  One tile's task, whole: the tile copies its slab of the index array into its scratch, issues the gathers of its
  first four chunks, runs the chunk loop (Trips), awaits the last four write-backs, and ends with its rows of the flat
  output at the gathered, scaled rows.
-/
import proofs.«209300_g39805756900082_cont_8to1_b_88_12_alg».proof.Proof.TripsB
import proofs.«209300_g39805756900082_cont_8to1_b_88_12_alg».proof.Proof.JoinSlotsB
import proofs.«209300_g39805756900082_cont_8to1_b_88_12_alg».proof.Proof.JoinOutB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx
variable [FloatOps F]

section Tile
variable (d : Dev nD) (L : grid0.Coords)

/-- The chunk loop's invariant: between trips the state of `invA`; after the last the state of `invB`. -/
def inv (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (k : Nat) (_ : Unit) : sProp 𝕄 :=
  if h : k < 50 then invA d L qT tab I3 fi O W k h else invB d L qT tab I3 fi O W

theorem inv_lt (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (k : Nat) (hk : k < 50) (acc : Unit) : inv d L qT tab I3 fi O W k acc = invA d L qT tab I3 fi O W k hk := dif_pos hk
theorem inv_ge (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (k : Nat) (hk : ¬ k < 50) (acc : Unit) : inv d L qT tab I3 fi O W k acc = invB d L qT tab I3 fi O W := dif_neg hk
theorem inv_exit (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (acc : Unit) : inv d L qT tab I3 fi O W k0_t1_loop.trips acc = invB d L qT tab I3 fi O W :=
  dif_neg (by rw [trips_eq]; decide)

/-- A trip of the chunk loop takes the invariant to the invariant. -/
theorem region (qT : PosShare TreeShare) (tab : Buf (Elt F) ((tW : Memref sig .scVector .hbm S100000x128 .f32).view.loc (thr d L)))
    (I3 : Buf (Elt F) ((iW : Memref sig .scVector .hbm S32x200x128 .i32).view.loc (thr d L)))
    (fi : Buf (Elt F) ((sI : Memref sig .scVector .vmem S200x128 .i32).view.loc (thr d L)))
    (O : CellTallies nD τ sig (HIx 1)) (W : Waits sig (HIx 1)) (hI : ∀ j, (I3 j).toNat < 100000) (v2 : BitVec 32) (k : Fin k0_t1_loop.trips) (acc : Unit) :
    inv d L qT tab I3 fi O W k.val acc
      ⊢ wp frame (wpE (defs₀ (F := F)) 𝒱₀ (thr d L) none) Set.univ
          (k0_t1_body L tW (Memref.isWhole_whole _) iW (Memref.isWhole_whole _) oW (Memref.isWhole_whole _) sI (Memref.isWhole_whole _) sR (Memref.isWhole_whole _) cc0_scratch2 cc0_scratch3 cc0_scratch4 cc0_scratch5 cc0_scratch6 cc0_scratch7 cc0_scratch8 cc0_scratch9 cc0_scoped0 v2 k acc)
          (inv d L qT tab I3 fi O W (k.val + 1)) := by
  have hk : k.val < 50 := lt_of_lt_of_le k.isLt (le_of_eq trips_eq)
  by_cases hk49 : k.val < 49
  · rw [inv_lt d L qT tab I3 fi O W k.val hk acc]
    refine (trip_lt d L qT tab I3 fi O W hI v2 k hk hk49 (cond1_lt k hk49)).trans (wp_mono frame _ _ fun acc' => ?_)
    rw [inv_lt d L qT tab I3 fi O W (k.val + 1) (by omega) acc']
    unfold invA
    exact Entails.of_eq (invAo_congr d L qT tab I3 fi O W (off36_eq k 0) (off36_eq k 1) (off36_eq k 2) (off36_eq k 3) _ _ _ _ _ _ _ _ _ _ _ _ (by omega))
  · have hkl : k = kLast := Fin.ext (by show k.val = 49; omega)
    subst hkl
    rw [inv_lt d L qT tab I3 fi O W kLast.val (by decide) acc]
    have hc : ¬ k0_cond1 kLast = 1#1 := cond1_ge kLast hk49
    refine (trip_last d L qT tab I3 fi O W hI v2 hc).trans (wp_mono frame _ _ fun acc' => ?_)
    exact Entails.of_eq (inv_ge d L qT tab I3 fi O W (kLast.val + 1) (by decide) acc').symm

set_option sl_exec.dmaWindowLent true in
/-- One tile's task: from its read tokens of the table, its list of index words, its rows of the output and its two
    scratch buffers, with its nine transfer semaphores at zero, the task runs to its end and leaves its rows of the
    output at the gathered, scaled rows. -/
theorem tile_run (qT : PosShare TreeShare)
    (tab : Buf (Elt F) ((tW : Memref sig .scVector .hbm S100000x128 .f32).view.loc (thr d L)))
    (I3 : Buf (Elt F) ((iW : Memref sig .scVector .hbm S32x200x128 .i32).view.loc (thr d L)))
    (f0 : Buf (Elt F) ((oW : Memref sig .scVector .hbm S819200x128 .f32).view.loc (thr d L)))
    (fi : Buf (Elt F) ((sI : Memref sig .scVector .vmem S200x128 .i32).view.loc (thr d L)))
    (fr : Buf (Elt F) ((sR : Memref sig .scVector .vmem S4x128x128 .f32).view.loc (thr d L)))
    (hI : ∀ j, (I3 j).toNat < 100000)
    (O : CellTallies nD τ sig (HIx 1)) (W : Waits sig (HIx 1)) :
    (iprop(Transfers.MayWaits (thr d L) (none : HIx 1) O
        ∗ ((tW : Memref sig .scVector .hbm S100000x128 .f32).view.loc (thr d L) ↦{Transfers.shareTok qT 4 0} tab)
        ∗ ((tW : Memref sig .scVector .hbm S100000x128 .f32).view.loc (thr d L) ↦{Transfers.shareTok qT 4 1} tab)
        ∗ ((tW : Memref sig .scVector .hbm S100000x128 .f32).view.loc (thr d L) ↦{Transfers.shareTok qT 4 2} tab)
        ∗ ((tW : Memref sig .scVector .hbm S100000x128 .f32).view.loc (thr d L) ↦{Transfers.shareTok qT 4 3} tab)
        ∗ ((iRow L).view.loc (thr d L) ↦[(iRow L).view.set]{fullShare} I3)
        ∗ ((oW : Memref sig .scVector .hbm S819200x128 .f32).view.loc (thr d L) ↦[(oW : Memref sig .scVector .hbm S819200x128 .f32).view.setOn (oTR L).set]{fullShare} f0)
        ∗ ((sI : Memref sig .scVector .vmem S200x128 .i32).view.loc (thr d L) ↦{fullShare} fi)
        ∗ ((sR : Memref sig .scVector .vmem S4x128x128 .f32).view.loc (thr d L) ↦{fullShare} fr)
        ∗ semVal (thr d L, SemLoc.dma cc0_scratch2.sem) 0 ∗ semVal (thr d L, SemLoc.dma cc0_scratch3.sem) 0
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scoped0.sem) 0
        ∗ owes (thr d L) O W) : sProp 𝕄)
      ⊢ wp frame (wpE (defs₀ (F := F)) 𝒱₀ (thr d L) none) Set.univ
          (cc0_gather_kernel L tW (Memref.isWhole_whole _) iW (Memref.isWhole_whole _) oW (Memref.isWhole_whole _) sI (Memref.isWhole_whole _) sR (Memref.isWhole_whole _) cc0_scratch2 cc0_scratch3 cc0_scratch4 cc0_scratch5 cc0_scratch6 cc0_scratch7 cc0_scratch8 cc0_scratch9 cc0_scoped0)
          fun _ => iprop(((tW : Memref sig .scVector .hbm S100000x128 .f32).view.loc (thr d L) ↦{Transfers.shareTok qT 4 0} tab)
            ∗ ((tW : Memref sig .scVector .hbm S100000x128 .f32).view.loc (thr d L) ↦{Transfers.shareTok qT 4 1} tab)
            ∗ ((tW : Memref sig .scVector .hbm S100000x128 .f32).view.loc (thr d L) ↦{Transfers.shareTok qT 4 2} tab)
            ∗ ((tW : Memref sig .scVector .hbm S100000x128 .f32).view.loc (thr d L) ↦{Transfers.shareTok qT 4 3} tab)
            ∗ ((iRow L).view.loc (thr d L) ↦[(iRow L).view.set]{fullShare} I3)
            ∗ ((oW : Memref sig .scVector .hbm S819200x128 .f32).view.loc (thr d L) ↦[(oW : Memref sig .scVector .hbm S819200x128 .f32).view.setOn (oTR L).set]{fullShare} (Cert.Spec.gathered I3 tab))
            ∗ (∃ fi', (sI : Memref sig .scVector .vmem S200x128 .i32).view.loc (thr d L) ↦{fullShare} fi')
            ∗ (∃ fr', (sR : Memref sig .scVector .vmem S4x128x128 .f32).view.loc (thr d L) ↦{fullShare} fr')
            ∗ semVal (thr d L, SemLoc.dma cc0_scratch2.sem) 0 ∗ semVal (thr d L, SemLoc.dma cc0_scratch3.sem) 0
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scoped0.sem) 0
            ∗ ∃ W', ⌜∀ p ∈ W', p ∈ W ∨ p.2 = none⌝ ∗ owes (thr d L) O W') := by
  have hFI := idx_words_in_range d L I3 hI fi
  rw [cc0_gather_kernel_eq_skeleton]; unfold cc0_gather_kernel_skel
  iintro ⟨#Hmw, Ht0, Ht1, Ht2, Ht3, Hi, Ho, HsI, HsR, Hg0, Hg1, Hg2, Hg3, Hw0, Hw1, Hw2, Hw3, Hsc, HO⟩
  sl_exec
  sl_for (inv d L qT tab I3 fi O W) $$ [Hg0 Hg1 Hg2 Hg3 Ht0 Ht1 Ht2 Ht3 HsR HsI Ho Hw0 Hw1 Hw2 Hw3 HO]
  case region => intro k acc; exact region d L qT tab I3 fi O W hI _ k acc
  · irw [inv_lt d L qT tab I3 fi O W 0 (by decide) _]
    unfold invA invAo
    isplitr; · iexact Hmw
    isplitl [Hg0]
    · iexists _; isplitl [Hg0]; · iexact Hg0
      ipureintro; intro y; exact gather_value_write d L tab I3 hI fi _ _ _ _ (jK 0 0 (by decide) h04) rfl _ _ y
    isplitl [Hg1]
    · iexists _; isplitl [Hg1]; · iexact Hg1
      ipureintro; intro y; exact gather_value_write d L tab I3 hI fi _ _ _ _ (jK 0 1 (by decide) h14) rfl _ _ y
    isplitl [Hg2]
    · iexists _; isplitl [Hg2]; · iexact Hg2
      ipureintro; intro y; exact gather_value_write d L tab I3 hI fi _ _ _ _ (jK 0 2 (by decide) h24) rfl _ _ y
    isplitl [Hg3]
    · iexists _; isplitl [Hg3]; · iexact Hg3
      ipureintro; intro y; exact gather_value_write d L tab I3 hI fi _ _ _ _ (jK 0 3 (by decide) h34) rfl _ _ y
    isplitl [Ht0]; · iexact Ht0
    isplitl [Ht1]; · iexact Ht1
    isplitl [Ht2]; · iexact Ht2
    isplitl [Ht3]; · iexact Ht3
    isplitl [HsR]; · iexists _; iexact HsR
    isplitl [HsI]; · iexact HsI
    isplitl [Ho]
    · iexists _; isplitl [Ho]; · iexact Ho
      ipureintro; exact OutOK.zero _
    isplitl [Hw0]; · iexact Hw0
    isplitl [Hw1]; · iexact Hw1
    isplitl [Hw2]; · iexact Hw2
    isplitl [Hw3]; · iexact Hw3
    iexists _; isplitr
    swap
    · iexact HO
    · ipureintro
      intro p hp
      simp only [Finset.mem_insert] at hp
      rcases hp with rfl | hp
      · exact .inr rfl
      · exact .inl hp
  iintro %_ HI
  ihave HB := (Entails.of_eq (inv_exit d L qT tab I3 fi O W _)) $$ HI
  unfold invB
  icases HB with ⟨-, Ht0, Ht1, Ht2, Ht3, Hg0, Hg1, Hg2, Hg3, ⟨%f, %P0, %P1, %P2, %P3, %Y0, %Y1, %Y2, %Y3, Hw0, Hw1, Hw2, Hw3, Ho, %hf⟩, ⟨%Z, HsR⟩, HsI, %W', %hW', HO⟩
  sl_exec
  sl_step
  isplitl [Ht0]; · iexact Ht0
  isplitl [Ht1]; · iexact Ht1
  isplitl [Ht2]; · iexact Ht2
  isplitl [Ht3]; · iexact Ht3
  isplitl [Hi]; · iexact Hi
  isplitl [Ho Hw0_dst Hw1_dst Hw2_dst Hw3_dst]
  · iapply (Entails.of_eq (out_final d L I3 tab _ hf))
    iapply (join_out d L _ _ _ _ _ _ _ _ (off10_eq L kLast 0) (off10_eq L kLast 1) (off10_eq L kLast 2) (off10_eq L kLast 3) f P0 P1 P2 P3)
    isplitl [Ho]; · iexact Ho
    isplitl [Hw0_dst]; · iexact Hw0_dst
    isplitl [Hw1_dst]; · iexact Hw1_dst
    isplitl [Hw2_dst]; · iexact Hw2_dst
    iexact Hw3_dst
  isplitl [HsI]; · iexists _; iexact HsI
  isplitl [HsR Hw0_src Hw1_src Hw2_src Hw3_src]
  · iapply (join_slots d L Z Y0 Y1 Y2 Y3)
    isplitl [HsR]; · iexact HsR
    isplitl [Hw0_src]; · iexact Hw0_src
    isplitl [Hw1_src]; · iexact Hw1_src
    isplitl [Hw2_src]; · iexact Hw2_src
    iexact Hw3_src
  isplitl [Hg0]; · iexact Hg0
  isplitl [Hg1]; · iexact Hg1
  isplitl [Hg2]; · iexact Hg2
  isplitl [Hg3]; · iexact Hg3
  isplitl [Hw0]; · iexact Hw0
  isplitl [Hw1]; · iexact Hw1
  isplitl [Hw2]; · iexact Hw2
  isplitl [Hw3]; · iexact Hw3
  isplitl [Hsc]; · iexact Hsc
  iexists _; isplitr
  swap
  · iexact HO
  · ipureintro
    intro p hp
    simp only [Finset.mem_insert] at hp
    rcases hp with rfl | rfl | rfl | rfl | hp
    all_goals first | exact .inr rfl | exact hW' p hp

end Tile

end Cert.Proof.KB

end
-- ==== Proof.LaunchPayB.lean ====
/-
  What the launch handshakes of the SparseCore call carry.

  The TensorCore holds the six arrays of the program whole.  At the call it hands each of the two SparseCores a read
  share of the table, and the sixteen lists of index words and the sixteen blocks of output rows its tiles own; the
  sequencer hands tile s of SparseCore c (worker w = 2 s + c) a read share of the table, list w and rows
  [25600 w, 25600 (w + 1)) of the output.  The shares of the table are read tokens cut from the full share: two
  for the SparseCores, sixteen from each of those for the tiles; what remains after each cut waits with whoever cut it
  and is joined back when the tokens return.  The lists and the row blocks of different workers are disjoint and
  together make up the two arrays, so they split and join as sets of elements.
-/
import proofs.«209300_g39805756900082_cont_8to1_b_88_12_alg».proof.Proof.BodyB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The arrays as the TensorCore names them, and their contents at the call -/

abbrev xLoc (d : Dev nD) : Loc nD τ sig := (SparseCore.T d).loc main_arg0
abbrev tLoc (d : Dev nD) : Loc nD τ sig := (SparseCore.T d).loc main_arg1
abbrev fLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

section Contents

variable (m : (ℓ : Loc nD τ sig) → Buf (Elt F) ℓ)

/-- The index words flat, as the first reshape leaves them, -/
def flat (d : Dev nD) : Buf (Elt F) (fLoc d) := shapeCast S819200 (m (xLoc d)) shapeCasts_S4096x200_S819200
/-- and as 32 lists of 200 × 128, as the second does: what the call reads. -/
def idx3 (d : Dev nD) : Buf (Elt F) (iLoc d) := shapeCast S32x200x128 (flat m d) shapeCasts_S819200_S32x200x128

variable [FloatOps F]

/-- What the call leaves in its flat output, -/
def gath (d : Dev nD) : Buf (Elt F) (oLoc d) := Cert.Spec.gathered (idx3 m d) (m (tLoc d))
/-- and the result the last reshape makes of it. -/
def res (d : Dev nD) : Buf (Elt F) (rLoc d) := shapeCast S4096x200x128 (gath m d) shapeCasts_S819200x128_S4096x200x128

end Contents

/-! ## The grid points, the lists and the row blocks -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- The same from the numbers of the SparseCore (of 2) and the subcore (of 16). -/
abbrev tileAt (c : Fin 2) (s : Fin 16) : grid0.Coords := coordsV (Fin.cast bound_zero.symm c) (Fin.cast bound_one.symm s)

abbrev CS : Type := Fin 2 × Fin 16
abbrev LL (cs : CS) : grid0.Coords := tileAt cs.1 cs.2

/-- The elements of the index array in the list of the tile at `L`, -/
abbrev slabOf (L : grid0.Coords) : Finset S32x200x128.Idx := (iRow L).view.set
/-- and the elements of the flat output in its rows. -/
abbrev rowsOf (L : grid0.Coords) : Finset S819200x128.Idx := (oW : Memref sig .scVector .hbm S819200x128 .f32).view.setOn (oTR L).set

theorem slabOf_eq (L : grid0.Coords) : slabOf L = (Rect.unit (s := S32x200x128) (k0_off1 L) S1x200x128.size (k0_off1_inb L)).set := by
  show (((iW : Memref sig .scVector .hbm S32x200x128 .i32).view.slice (Rect.unit (s := S32x200x128) (k0_off1 L) S1x200x128.size (k0_off1_inb L))).reshape S200x128
    squeezes_S1x200x128_S200x128.numel_eq).set = _
  rw [View.set_reshape]; exact View.set_slice_whole _ _

/-- An element is in the list of worker 2 s + c exactly when its first coordinate is 2 s + c. -/
theorem mem_slabOf (L : grid0.Coords) (j : S32x200x128.Idx) : j ∈ slabOf L ↔ (j 0).val = 2 * (L 1).val + (L 0).val := by
  have h1 : (j 1).val < 200 := (j 1).isLt
  have h2 : (j 2).val < 128 := (j 2).isLt
  rw [slabOf_eq, Rect.mem_set_unit, k0_off1_eq]
  constructor
  · intro h
    have h0 := h 0
    simp at h0
    omega
  · intro h a
    fin_cases a
    · simp; omega
    · simp; omega
    · simp; omega

theorem rowsOf_eq (L : grid0.Coords) : rowsOf L = (oTR L).set := Finset.map_refl

/-- An element is in the rows of worker w exactly when its row is in [25600 w, 25600 (w + 1)). -/
theorem mem_rowsOf (L : grid0.Coords) (j : S819200x128.Idx) :
    j ∈ rowsOf L ↔ 51200 * (L 1).val + 25600 * (L 0).val ≤ (j 0).val ∧ (j 0).val < 51200 * (L 1).val + 25600 * (L 0).val + 25600 := by
  have h1 : (j 1).val < 128 := (j 1).isLt
  rw [rowsOf_eq, Rect.mem_set_unit]
  constructor
  · intro h
    have h0 := h 0
    simp at h0
    omega
  · intro h a
    fin_cases a
    · simp; omega
    · simp; omega

theorem LL_zero (cs : CS) : ((LL cs) 0).val = cs.1.val := rfl
theorem LL_one (cs : CS) : ((LL cs) 1).val = cs.2.val := rfl

theorem slabs_disjoint : ∀ a ∈ (Finset.univ : Finset CS), ∀ b ∈ (Finset.univ : Finset CS), a ≠ b → Disjoint (slabOf (LL a)) (slabOf (LL b)) := by
  intro a _ b _ hab
  refine Finset.disjoint_left.mpr fun j ha hb => hab ?_
  rw [mem_slabOf, LL_zero, LL_one] at ha hb
  have := a.1.isLt; have := b.1.isLt
  exact Prod.ext (Fin.ext (by omega)) (Fin.ext (by omega))

theorem slabs_cover : (Finset.univ : Finset CS).biUnion (fun a => slabOf (LL a)) = Finset.univ := by
  ext j
  simp only [Finset.mem_biUnion, Finset.mem_univ, true_and, iff_true]
  have hj : (j 0).val < 32 := (j 0).isLt
  refine ⟨(⟨(j 0).val % 2, by omega⟩, ⟨(j 0).val / 2, by omega⟩), (mem_slabOf _ _).mpr ?_⟩
  rw [LL_zero, LL_one]
  show (j 0).val = 2 * ((j 0).val / 2) + (j 0).val % 2
  omega

theorem rows_disjoint : ∀ a ∈ (Finset.univ : Finset CS), ∀ b ∈ (Finset.univ : Finset CS), a ≠ b → Disjoint (rowsOf (LL a)) (rowsOf (LL b)) := by
  intro a _ b _ hab
  refine Finset.disjoint_left.mpr fun j ha hb => hab ?_
  rw [mem_rowsOf, LL_zero, LL_one] at ha hb
  have := a.1.isLt; have := b.1.isLt
  exact Prod.ext (Fin.ext (by omega)) (Fin.ext (by omega))

theorem rows_cover : (Finset.univ : Finset CS).biUnion (fun a => rowsOf (LL a)) = Finset.univ := by
  ext j
  simp only [Finset.mem_biUnion, Finset.mem_univ, true_and, iff_true]
  have hj : (j 0).val < 819200 := (j 0).isLt
  refine ⟨(⟨(j 0).val / 25600 % 2, by omega⟩, ⟨(j 0).val / 51200, by omega⟩), (mem_rowsOf _ _).mpr ?_⟩
  rw [LL_zero, LL_one]
  show 51200 * ((j 0).val / 51200) + 25600 * ((j 0).val / 25600 % 2) ≤ (j 0).val
    ∧ (j 0).val < 51200 * ((j 0).val / 51200) + 25600 * ((j 0).val / 25600 % 2) + 25600
  omega

/-- The index array whole is its 32 lists, by SparseCore and tile; -/
theorem iPts_split (d : Dev nD) (f : Buf (Elt F) (iLoc d)) :
    (iLoc d ↦{fullShare} f : sProp 𝕄)
      = bigSep Finset.univ fun c : Fin 2 => bigSep Finset.univ fun s : Fin 16 => iLoc d ↦[slabOf (tileAt c s)]{fullShare} f := by
  rw [← bigSep_univ_prod (fun cs : CS => (iLoc d ↦[slabOf (LL cs)]{fullShare} f : sProp 𝕄)),
    ← pointsTo_biUnion Finset.univ (ℓ := iLoc d) (fun cs : CS => slabOf (LL cs)) slabs_disjoint, slabs_cover]

/-- the flat output whole is its 32 row blocks. -/
theorem oPts_split (d : Dev nD) (f : Buf (Elt F) (oLoc d)) :
    (oLoc d ↦{fullShare} f : sProp 𝕄)
      = bigSep Finset.univ fun c : Fin 2 => bigSep Finset.univ fun s : Fin 16 => oLoc d ↦[rowsOf (tileAt c s)]{fullShare} f := by
  rw [← bigSep_univ_prod (fun cs : CS => (oLoc d ↦[rowsOf (LL cs)]{fullShare} f : sProp 𝕄)),
    ← pointsTo_biUnion Finset.univ (ℓ := oLoc d) (fun cs : CS => rowsOf (LL cs)) rows_disjoint, rows_cover]

/-! ## The read shares of the table -/

/-- SparseCore `c`'s read share of the table: token `c` of two cut from the full share; -/
abbrev qC (c : Fin 2) : PosShare TreeShare := Transfers.shareTok fullShare 2 c
/-- tile `s`'s: token `s` of sixteen cut from its SparseCore's. -/
abbrev qV (c : Fin 2) (s : Fin 16) : PosShare TreeShare := Transfers.shareTok (qC c) 16 s

/-! ## What the handshakes carry -/

section Pay

variable (m : (ℓ : Loc nD τ sig) → Buf (Elt F) ℓ) [FloatOps F]

/-- A tile's operands: the table at the read share `q`, its list of index words, its rows of the output at `fo`. -/
def goT (d : Dev nD) (L : grid0.Coords) (q : PosShare TreeShare) (fo : Buf (Elt F) (oLoc d)) : sProp 𝕄 :=
  iprop((tLoc d ↦{q} m (tLoc d)) ∗ (iLoc d ↦[slabOf L]{fullShare} idx3 m d) ∗ (oLoc d ↦[rowsOf L]{fullShare} fo))

/-- A SparseCore's: the table at its read share, its sixteen tiles' lists, their rows of the output at `fo`. -/
def stC (d : Dev nD) (c : Fin 2) (fo : Buf (Elt F) (oLoc d)) : sProp 𝕄 :=
  iprop((tLoc d ↦{qC c} m (tLoc d)) ∗ (bigSep Finset.univ fun s : Fin 16 => iLoc d ↦[slabOf (tileAt c s)]{fullShare} idx3 m d)
    ∗ bigSep Finset.univ fun s : Fin 16 => oLoc d ↦[rowsOf (tileAt c s)]{fullShare} fo)

/-- The call hands each SparseCore and each tile its operands with the output at its launch contents and takes them
    back with the output at the gathered rows.  The tiles only make copies of their own and wait for them: the kernel
    has no protocol state. -/
def P : (K (F := F)).Pay (nD := nD) (Val := Elt F) (Name := ℕ) (U := UU) where
  st := fun q d c => match q with | 0 => stC m d (Fin.cast nCore_zero c) (m (oLoc d))
  dn := fun q d c => match q with | 0 => stC m d (Fin.cast nCore_zero c) (gath m d)
  go := fun q d c s => match q with
    | 0 => goT m d (tileAt (Fin.cast nCore_zero c) (Fin.cast nSub_zero s)) (qV (Fin.cast nCore_zero c) (Fin.cast nSub_zero s)) (m (oLoc d))
  td := fun q d c s => match q with
    | 0 => goT m d (tileAt (Fin.cast nCore_zero c) (Fin.cast nSub_zero s)) (qV (Fin.cast nCore_zero c) (Fin.cast nSub_zero s)) (gath m d)
  x := fun _ _ => iprop(emp)

theorem P_st (d : Dev nD) (c : Fin ((K (F := F)).nCore 0)) : (P m).st 0 d c = stC m d (Fin.cast nCore_zero c) (m (oLoc d)) := rfl
theorem P_dn (d : Dev nD) (c : Fin ((K (F := F)).nCore 0)) : (P m).dn 0 d c = stC m d (Fin.cast nCore_zero c) (gath m d) := rfl
theorem P_go (d : Dev nD) (c : Fin ((K (F := F)).nCore 0)) (s : Fin ((K (F := F)).nSub 0)) :
    (P m).go 0 d c s = goT m d (tileAt (Fin.cast nCore_zero c) (Fin.cast nSub_zero s)) (qV (Fin.cast nCore_zero c) (Fin.cast nSub_zero s)) (m (oLoc d)) := rfl
theorem P_td (d : Dev nD) (c : Fin ((K (F := F)).nCore 0)) (s : Fin ((K (F := F)).nSub 0)) :
    (P m).td 0 d c s = goT m d (tileAt (Fin.cast nCore_zero c) (Fin.cast nSub_zero s)) (qV (Fin.cast nCore_zero c) (Fin.cast nSub_zero s)) (gath m d) := rfl

instance goT_storable (d : Dev nD) (L : grid0.Coords) (q : PosShare TreeShare) (fo : Buf (Elt F) (oLoc d)) :
    BI.Storable (upEmb : UEmb _ 𝕄) (goT m d L q fo) := by unfold goT; infer_instance
instance stC_storable (d : Dev nD) (c : Fin 2) (fo : Buf (Elt F) (oLoc d)) :
    BI.Storable (upEmb : UEmb _ 𝕄) (stC m d c fo) := by unfold stC; infer_instance

instance P_storable : (P (F := F) m).IsStorable where
  st q d c := match q with | 0 => by rw [P_st]; infer_instance
  dn q d c := match q with | 0 => by rw [P_dn]; infer_instance
  go q d c s := match q with | 0 => by rw [P_go]; infer_instance
  td q d c s := match q with | 0 => by rw [P_td]; infer_instance

end Pay

end Cert.Proof.KB

end
-- ==== Proof.LaunchTileB.lean ====
/-
  One tile's task as the launch of the SparseCores asks for it.

  A tile is handed its operands by its sequencer: a read share of the table, its list of index words, its rows of
  the output; with them come its own storage (two scratch buffers, nine transfer semaphores at zero).  It cuts its
  share of the table into the four read tokens its four gather slots hold while their transfers are in flight, keeps
  the remainder, runs the task, joins the tokens back to the remainder, and returns everything, the rows now at the
  gathered rows.  Every index word it reads names a row of the table: a reshape only moves words.
-/
import proofs.«209300_g39805756900082_cont_8to1_b_88_12_alg».proof.Proof.LaunchPayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

section Tile

variable (d : Dev nD) (L : grid0.Coords)

/-! ## The arrays and the storage as the tile names them -/

omit [FloatOps F] in
theorem pts_tW (q : PosShare TreeShare) (f : Buf (Elt F) (tLoc d)) :
    ((tW : Memref sig .scVector .hbm S100000x128 .f32).view.loc (thr d L) ↦{q} f : sProp 𝕄) = tLoc d ↦{q} f := rfl
omit [FloatOps F] in
theorem pts_iRow (f : Buf (Elt F) (iLoc d)) :
    ((iRow L).view.loc (thr d L) ↦[(iRow L).view.set]{fullShare} f : sProp 𝕄) = iLoc d ↦[slabOf L]{fullShare} f := rfl
omit [FloatOps F] in
theorem pts_oW (f : Buf (Elt F) (oLoc d)) :
    ((oW : Memref sig .scVector .hbm S819200x128 .f32).view.loc (thr d L) ↦[(oW : Memref sig .scVector .hbm S819200x128 .f32).view.setOn (oTR L).set]{fullShare} f : sProp 𝕄)
      = oLoc d ↦[rowsOf L]{fullShare} f := rfl
omit [FloatOps F] in
theorem pts_sI (f : Buf (Elt F) ((thr d L).loc cc0_scratch0)) :
    ((sI : Memref sig .scVector .vmem S200x128 .i32).view.loc (thr d L) ↦{fullShare} f : sProp 𝕄) = (thr d L).loc cc0_scratch0 ↦{fullShare} f := rfl
omit [FloatOps F] in
theorem pts_sR (f : Buf (Elt F) ((thr d L).loc cc0_scratch1)) :
    ((sR : Memref sig .scVector .vmem S4x128x128 .f32).view.loc (thr d L) ↦{fullShare} f : sProp 𝕄) = (thr d L).loc cc0_scratch1 ↦{fullShare} f := rfl

omit [FloatOps F] in
/-- A tile's scoped semaphores are its nine transfer semaphores. -/
theorem ownSems0_V :
    (ownSems0 (thr d L) : sProp 𝕄)
      = iprop(semVal (thr d L, SemLoc.dma cc0_scratch2.sem) 0 ∗ semVal (thr d L, SemLoc.dma cc0_scratch3.sem) 0
          ∗ semVal (thr d L, SemLoc.dma cc0_scratch4.sem) 0 ∗ semVal (thr d L, SemLoc.dma cc0_scratch5.sem) 0
          ∗ semVal (thr d L, SemLoc.dma cc0_scratch6.sem) 0 ∗ semVal (thr d L, SemLoc.dma cc0_scratch7.sem) 0
          ∗ semVal (thr d L, SemLoc.dma cc0_scratch8.sem) 0 ∗ semVal (thr d L, SemLoc.dma cc0_scratch9.sem) 0
          ∗ semVal (thr d L, SemLoc.dma cc0_scoped0.sem) 0) := by
  rw [SparseCore.Cfg.ownSems0_eq]
  rw [show (Finset.univ.filter fun sm : SemLoc sig => sm.isScoped (thr d L).2.kind)
      = {SemLoc.dma cc0_scratch2.sem, SemLoc.dma cc0_scratch3.sem, SemLoc.dma cc0_scratch4.sem, SemLoc.dma cc0_scratch5.sem, SemLoc.dma cc0_scratch6.sem,
          SemLoc.dma cc0_scratch7.sem, SemLoc.dma cc0_scratch8.sem, SemLoc.dma cc0_scratch9.sem, SemLoc.dma cc0_scoped0.sem} from by
        show (Finset.univ.filter fun sm : SemLoc sig => sm.isScoped Kind.scVector) = _
        decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

omit [FloatOps F] in
/-- The two scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

/-! ## The index words the tiles read -/

variable (m : (ℓ : Loc nD τ sig) → Buf (Elt F) ℓ)

/-- What the proof asks of the launch memory: every index word names a row of the table. -/
def PreOK (m : (ℓ : Loc nD τ sig) → Buf (Elt F) ℓ) : Prop := ∀ (d : Dev nD) j, ((m ((SparseCore.T d).loc main_arg0)) j).toNat < 100000

omit [FloatOps F] in
/-- The words the call reads are the launch's index words in another arrangement. -/
theorem idx3_lt (hpre : PreOK m) (d : Dev nD) : ∀ j, (idx3 m d j).toNat < 100000 := fun _ => hpre d _

/-! ## The task -/

theorem bigSep_fin_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The task of the tile at `L` from its operands at any read share `q` of the table and its own storage. -/
theorem tile_body (hpre : PreOK m) (d : Dev nD) (L : grid0.Coords) (q : PosShare TreeShare)
    (O : CellTallies nD τ sig (HIx 1)) (W : Waits sig (HIx 1)) (hO : ∀ g, O g none = 0) :
    iprop(levAts (K (F := F)).L (K (F := F)).lev ∗ emp ∗ goT m d L q (m (oLoc d))
        ∗ scopedBufs (thr d L) ∗ scopedSems0 (thr d L) ∗ owes (thr d L) O W)
      ⊢ wp frame (wpE (defs₀ (F := F)) 𝒱₀ (thr d L) none) Set.univ
          (cc0_gather_kernel L tW (Memref.isWhole_whole _) iW (Memref.isWhole_whole _) oW (Memref.isWhole_whole _)
            sI (Memref.isWhole_whole _) sR (Memref.isWhole_whole _)
            cc0_scratch2 cc0_scratch3 cc0_scratch4 cc0_scratch5 cc0_scratch6 cc0_scratch7 cc0_scratch8 cc0_scratch9 cc0_scoped0)
          fun _ => iprop(goT m d L q (gath m d) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  unfold goT
  iintro ⟨#Hlv, -, ⟨Ht, Hi, Ho⟩, ⟨⟨%fi, Hsi⟩, ⟨%fr, Hsr⟩, Hbufs⟩, ⟨H2, H3, H4, H5, H6, H7, H8, H9, H10⟩, HO⟩
  ihave Hmw := ((K (F := F)).mayWaits_none (thr := thr d L) hO) $$ Hlv
  -- the tile's share of the table: four read tokens and the remainder
  ihave Ht' := (Transfers.pointsTo_toks_split q 4) $$ Ht
  rw [bigSep_fin_four]
  icases Ht' with ⟨Hdrop, Ht0, Ht1, Ht2, Ht3⟩
  iapply (wp_wand_r frame _ Set.univ)
  isplitl [Hmw Ht0 Ht1 Ht2 Ht3 Hi Ho Hsi Hsr H2 H3 H4 H5 H6 H7 H8 H9 H10 HO]
  · iapply (tile_run d L q (m (tLoc d)) (idx3 m d) (m (oLoc d)) fi fr (idx3_lt m hpre d) O W)
    isplitl [Hmw]; · iexact Hmw
    isplitl [Ht0]; · iapply (Entails.of_eq (pts_tW (F := F) d L _ _)); iexact Ht0
    isplitl [Ht1]; · iapply (Entails.of_eq (pts_tW (F := F) d L _ _)); iexact Ht1
    isplitl [Ht2]; · iapply (Entails.of_eq (pts_tW (F := F) d L _ _)); iexact Ht2
    isplitl [Ht3]; · iapply (Entails.of_eq (pts_tW (F := F) d L _ _)); iexact Ht3
    isplitl [Hi]; · iapply (Entails.of_eq (pts_iRow (F := F) d L _)); iexact Hi
    isplitl [Ho]; · iapply (Entails.of_eq (pts_oW (F := F) d L _)); iexact Ho
    isplitl [Hsi]; · iapply (Entails.of_eq (pts_sI (F := F) d L _)); iexact Hsi
    isplitl [Hsr]; · iapply (Entails.of_eq (pts_sR (F := F) d L _)); iexact Hsr
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HO
  iintro %_ ⟨Ht0, Ht1, Ht2, Ht3, Hi, Ho, ⟨%fi', Hsi⟩, ⟨%fr', Hsr⟩, H2, H3, H4, H5, H6, H7, H8, H9, H10, HW⟩
  isplitl [Hdrop Ht0 Ht1 Ht2 Ht3 Hi Ho]
  · isplitl [Hdrop Ht0 Ht1 Ht2 Ht3]
    · iapply (Transfers.pointsTo_toks_join q 4)
      rw [bigSep_fin_four]
      isplitl [Hdrop]; · iexact Hdrop
      isplitl [Ht0]; · iapply (Entails.of_eq (pts_tW (F := F) d L _ _).symm); iexact Ht0
      isplitl [Ht1]; · iapply (Entails.of_eq (pts_tW (F := F) d L _ _).symm); iexact Ht1
      isplitl [Ht2]; · iapply (Entails.of_eq (pts_tW (F := F) d L _ _).symm); iexact Ht2
      iapply (Entails.of_eq (pts_tW (F := F) d L _ _).symm); iexact Ht3
    isplitl [Hi]; · iapply (Entails.of_eq (pts_iRow (F := F) d L _).symm); iexact Hi
    iapply (Entails.of_eq (pts_oW (F := F) d L _).symm); iexact Ho
  isplitl [Hsi Hsr Hbufs]
  · isplitl [Hsi]; · iexists fi'; iapply (Entails.of_eq (pts_sI (F := F) d L _).symm); iexact Hsi
    isplitl [Hsr]; · iexists fr'; iapply (Entails.of_eq (pts_sR (F := F) d L _).symm); iexact Hsr
    iexact Hbufs
  isplitl [H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact HW

/-! ## The launch theorem's obligation -/

theorem defs₀_vector (c : Fin τ.nSC) (s : Fin τ.nSub) :
    defs₀ (F := F) (.scVector c s) 0 ()
      = SparseCore.onTile hcore0 hsub0 (fun c s => cc0_gather_kernel (coordsV c s)
          tW (Memref.isWhole_whole _) iW (Memref.isWhole_whole _) oW (Memref.isWhole_whole _)
          sI (Memref.isWhole_whole _) sR (Memref.isWhole_whole _)
          cc0_scratch2 cc0_scratch3 cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hpre d (coordsV ⟨_, hc.1⟩ ⟨_, hc.2⟩) (qV (Fin.cast nCore_zero c) (Fin.cast nSub_zero i)) O W hO).trans (wp_mono frame _ _ fun _ => obl_post)

end Cert.Proof.KB

end
-- ==== Proof.LaunchSplitB.lean ====
/-
  How a SparseCore's operands split among its sixteen tiles, and how the two SparseCores' make up the call's.

  The sequencer cuts its read share of the table into sixteen tokens, one per tile, and keeps the remainder until the
  tokens come back; the lists of index words and the blocks of output rows it was handed are already its tiles'.
-/
import proofs.«209300_g39805756900082_cont_8to1_b_88_12_alg».proof.Proof.LaunchPayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) [FloatOps F]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_fin_two' {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
theorem bigSep_cores (Φ : Fin 2 → sProp 𝕄) :
    (bigSep Finset.univ fun c : Fin ((K (F := F)).nCore 0) => Φ (Fin.cast nCore_zero c)) = iprop(Φ 0 ∗ Φ 1) :=
  (show (bigSep Finset.univ fun c : Fin ((K (F := F)).nCore 0) => Φ (Fin.cast nCore_zero c)) = bigSep Finset.univ Φ from
    bigSep_congr fun _ _ => congrArg Φ (Fin.ext rfl)).trans (bigSep_fin_two' Φ)

/-- One SparseCore's operands are its tiles', the table's share cut in sixteen; the tiles' results are its own. -/
theorem split_core (d : Dev nD) (c : Fin 2) (fo fo' : Buf (Elt F) (oLoc d)) :
    stC m d c fo ⊢ |={Set.univ}=> iprop((bigSep Finset.univ fun s : Fin 16 => goT m d (tileAt c s) (qV c s) fo)
      ∗ ((bigSep Finset.univ fun s : Fin 16 => goT m d (tileAt c s) (qV c s) fo') -∗ stC m d c fo')) := by
  unfold stC goT
  rw [bigSep_sep', bigSep_sep', bigSep_sep', bigSep_sep']
  iintro ⟨Ht, Hi, Ho⟩
  ihave Ht' := (Transfers.pointsTo_toks_split (qC c) 16) $$ Ht
  icases Ht' with ⟨Hdrop, Htoks⟩
  imodintro
  isplitl [Htoks Hi Ho]
  · isplitl [Htoks]; · iexact Htoks
    isplitl [Hi]; · iexact Hi
    iexact Ho
  iintro ⟨Htoks, Hi, Ho⟩
  isplitl [Hdrop Htoks]
  · iapply (Transfers.pointsTo_toks_join (qC c) 16)
    isplitl [Hdrop]; · iexact Hdrop
    iexact Htoks
  isplitl [Hi]; · iexact Hi
  iexact Ho

theorem vecSplit : (K (F := F)).VecSplit' (P m) 0 := by
  intro d c
  show stC m d (Fin.cast nCore_zero c) (m (oLoc d)) ⊢ |={Set.univ}=> iprop(
      (bigSep Finset.univ fun i : Fin ((K (F := F)).nSub 0) =>
        goT m d (tileAt (Fin.cast nCore_zero c) (Fin.cast nSub_zero i)) (qV (Fin.cast nCore_zero c) (Fin.cast nSub_zero i)) (m (oLoc d)))
      ∗ ((bigSep Finset.univ fun i : Fin ((K (F := F)).nSub 0) =>
          goT m d (tileAt (Fin.cast nCore_zero c) (Fin.cast nSub_zero i)) (qV (Fin.cast nCore_zero c) (Fin.cast nSub_zero i)) (gath m d))
          -∗ stC m d (Fin.cast nCore_zero c) (gath m d)))
  rw [bigSep_tasks (F := F) (fun s => goT m d (tileAt (Fin.cast nCore_zero c) s) (qV (Fin.cast nCore_zero c) s) (m (oLoc d))),
    bigSep_tasks (F := F) (fun s => goT m d (tileAt (Fin.cast nCore_zero c) s) (qV (Fin.cast nCore_zero c) s) (gath m d))]
  exact split_core m d (Fin.cast nCore_zero c) (m (oLoc d)) (gath m d)

/-- What the call takes for the two SparseCores, and what it hands back. -/
theorem st0_eq (d : Dev nD) :
    (bigSep Finset.univ fun c : Fin ((K (F := F)).nCore 0) => (P m).st 0 d c) = iprop(stC m d 0 (m (oLoc d)) ∗ stC m d 1 (m (oLoc d))) := by
  show (bigSep Finset.univ fun c : Fin ((K (F := F)).nCore 0) => stC m d (Fin.cast nCore_zero c) (m (oLoc d))) = _
  exact bigSep_cores (F := F) (fun c => stC m d c (m (oLoc d)))
theorem dn0_eq (d : Dev nD) :
    (bigSep Finset.univ fun c : Fin ((K (F := F)).nCore 0) => (P m).dn 0 d c) = iprop(stC m d 0 (gath m d) ∗ stC m d 1 (gath m d)) := by
  show (bigSep Finset.univ fun c : Fin ((K (F := F)).nCore 0) => stC m d (Fin.cast nCore_zero c) (gath m d)) = _
  exact bigSep_cores (F := F) (fun c => stC m d c (gath m d))

/-- The TensorCore's three arrays of the call, whole, are the two SparseCores' operands and the remainder of the
    table's share after their two tokens; -/
theorem call_split (d : Dev nD) (fo : Buf (Elt F) (oLoc d)) :
    iprop((tLoc d ↦{fullShare} m (tLoc d)) ∗ (iLoc d ↦{fullShare} idx3 m d) ∗ (oLoc d ↦{fullShare} fo))
      ⊢ (iprop((tLoc d ↦{Transfers.shareDrop fullShare 2} m (tLoc d)) ∗ stC m d 0 fo ∗ stC m d 1 fo) : sProp 𝕄) := by
  unfold stC
  rw [iPts_split, oPts_split, bigSep_fin_two', bigSep_fin_two']
  iintro ⟨Ht, ⟨Hi0, Hi1⟩, ⟨Ho0, Ho1⟩⟩
  ihave Ht' := (Transfers.pointsTo_toks_split fullShare 2) $$ Ht
  rw [bigSep_fin_two']
  icases Ht' with ⟨Hdrop, Ht0, Ht1⟩
  isplitl [Hdrop]; · iexact Hdrop
  isplitl [Ht0 Hi0 Ho0]
  · isplitl [Ht0]; · iexact Ht0
    isplitl [Hi0]; · iexact Hi0
    iexact Ho0
  isplitl [Ht1]; · iexact Ht1
  isplitl [Hi1]; · iexact Hi1
  iexact Ho1

/-- and back. -/
theorem call_join (d : Dev nD) (fo : Buf (Elt F) (oLoc d)) :
    (iprop((tLoc d ↦{Transfers.shareDrop fullShare 2} m (tLoc d)) ∗ stC m d 0 fo ∗ stC m d 1 fo) : sProp 𝕄)
      ⊢ iprop((tLoc d ↦{fullShare} m (tLoc d)) ∗ (iLoc d ↦{fullShare} idx3 m d) ∗ (oLoc d ↦{fullShare} fo)) := by
  unfold stC
  rw [iPts_split, oPts_split, bigSep_fin_two', bigSep_fin_two']
  iintro ⟨Hdrop, ⟨Ht0, Hi0, Ho0⟩, ⟨Ht1, Hi1, Ho1⟩⟩
  isplitl [Hdrop Ht0 Ht1]
  · iapply (Transfers.pointsTo_toks_join fullShare 2)
    rw [bigSep_fin_two']
    isplitl [Hdrop]; · iexact Hdrop
    isplitl [Ht0]; · iexact Ht0
    iexact Ht1
  isplitl [Hi0 Hi1]
  · isplitl [Hi0]; · iexact Hi0
    iexact Hi1
  isplitl [Ho0]; · iexact Ho0
  iexact Ho1

end Cert.Proof.KB

end
-- ==== Proof.LaunchB.lean ====
/-
  The program's run: the TensorCore's part, the launch, and the statement of what every fair execution ends with.

  The TensorCore reshapes the index words twice (4096 × 200 to flat to 32 lists of 200 × 128), starts the two
  SparseCores on the table, the lists and the flat output and waits for them, and reshapes the flat output into the
  result.  It holds its six arrays whole throughout, lending the call's three for the call; a reshape only moves
  words, so what it leaves is read off the array it read.  At the end the two arguments are as launched and the result
  is the gathered, scaled rows.
-/
import proofs.«209300_g39805756900082_cont_8to1_b_88_12_alg».proof.Proof.LaunchTileB
import proofs.«209300_g39805756900082_cont_8to1_b_88_12_alg».proof.Proof.LaunchSplitB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds; the kernel keeps no protocol state of its own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ [FloatOps F] : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's six arrays and the three reshapes -/

abbrev x' : DevRef τ sig := Proc.devRef .tc (main_arg0 : Ref sig .tc)
abbrev t' : DevRef τ sig := Proc.devRef .tc (main_arg1 : Ref sig .tc)
abbrev f' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev S6 : Finset (DevRef τ sig) := {x', t', f', i', o', r'}

abbrev op1 : HloOp τ sig (Elt F) := StableHlo.reshape main_arg0 main_v0 rfl shapeCasts_S4096x200_S819200
abbrev op2 : HloOp τ sig (Elt F) := StableHlo.reshape main_v0 main_v1 rfl shapeCasts_S819200_S32x200x128
abbrev op3 : HloOp τ sig (Elt F) := StableHlo.reshape main_v2 main_v3 rfl shapeCasts_S819200x128_S4096x200x128

theorem hop1 : (op1 (F := F)).bufs ⊆ S6 := show ({x', f'} : Finset (DevRef τ sig)) ⊆ S6 by decide
theorem hop2 : (op2 (F := F)).bufs ⊆ S6 := show ({f', i'} : Finset (DevRef τ sig)) ⊆ S6 by decide
theorem hop3 : (op3 (F := F)).bufs ⊆ S6 := show ({o', r'} : Finset (DevRef τ sig)) ⊆ S6 by decide

theorem held_S6 (d : Dev nD) (W : Valuation τ sig (Elt F)) :
    (held (T d) S6 W : sProp 𝕄) = iprop((xLoc d ↦{fullShare} W x') ∗ (tLoc d ↦{fullShare} W t') ∗ (fLoc d ↦{fullShare} W f')
      ∗ (iLoc d ↦{fullShare} W i') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (fLoc d ↦{fullShare} W main_v0)
      ∗ (iLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; after the first reshape; after the second (what the call meets). -/
def W0 (d : Dev nD) : Valuation τ sig (Elt F) := fun b => m (d, b)
abbrev W1 (d : Dev nD) : Valuation τ sig (Elt F) := (op1 (F := F)).result (W0 m d)
abbrev W2 (d : Dev nD) : Valuation τ sig (Elt F) := (op2 (F := F)).result (W1 m d)

theorem unscoped_held (d : Dev nD) : (unscopedBufs d (fun b => m ((SparseCore.T d).loc b)) : sProp 𝕄) = held (T d) S6 (W0 m d) := by
  rw [unscopedBufs_eq, held_S6]; rfl

theorem W1_x (d : Dev nD) : W1 m d x' = m (xLoc d) := StableHlo.reshape_result_ne _ _ _ _ _ _ _ (show (main_arg0 : Ref sig .tc) ≠ main_v0 by decide)
theorem W1_t (d : Dev nD) : W1 m d t' = m (tLoc d) := StableHlo.reshape_result_ne _ _ _ _ _ _ _ (show (main_arg1 : Ref sig .tc) ≠ main_v0 by decide)
theorem W1_f (d : Dev nD) : W1 m d f' = flat m d := StableHlo.reshape_result _ _ _ _ _ _ _
theorem W1_i (d : Dev nD) : W1 m d i' = m (iLoc d) := StableHlo.reshape_result_ne _ _ _ _ _ _ _ (show (main_v1 : Ref sig .tc) ≠ main_v0 by decide)
theorem W1_o (d : Dev nD) : W1 m d o' = m (oLoc d) := StableHlo.reshape_result_ne _ _ _ _ _ _ _ (show (main_v2 : Ref sig .tc) ≠ main_v0 by decide)
theorem W1_r (d : Dev nD) : W1 m d r' = m (rLoc d) := StableHlo.reshape_result_ne _ _ _ _ _ _ _ (show (main_v3 : Ref sig .tc) ≠ main_v0 by decide)

theorem W2_x (d : Dev nD) : W2 m d x' = m (xLoc d) :=
  (StableHlo.reshape_result_ne _ _ _ _ _ _ _ (show (main_arg0 : Ref sig .tc) ≠ main_v1 by decide)).trans (W1_x m d)
theorem W2_t (d : Dev nD) : W2 m d t' = m (tLoc d) :=
  (StableHlo.reshape_result_ne _ _ _ _ _ _ _ (show (main_arg1 : Ref sig .tc) ≠ main_v1 by decide)).trans (W1_t m d)
theorem W2_f (d : Dev nD) : W2 m d f' = flat m d :=
  (StableHlo.reshape_result_ne _ _ _ _ _ _ _ (show (main_v0 : Ref sig .tc) ≠ main_v1 by decide)).trans (W1_f m d)
theorem W2_i (d : Dev nD) : W2 m d i' = idx3 m d := by
  rw [show W2 m d i' = (fun i => shapeCast S32x200x128 (W1 m d f') shapeCasts_S819200_S32x200x128 i : Buf (Elt F) (iLoc d)) from
    StableHlo.reshape_result _ _ _ _ _ _ _, W1_f]
  rfl
theorem W2_o (d : Dev nD) : W2 m d o' = m (oLoc d) :=
  (StableHlo.reshape_result_ne _ _ _ _ _ _ _ (show (main_v2 : Ref sig .tc) ≠ main_v1 by decide)).trans (W1_o m d)
theorem W2_r (d : Dev nD) : W2 m d r' = m (rLoc d) :=
  (StableHlo.reshape_result_ne _ _ _ _ _ _ _ (show (main_v3 : Ref sig .tc) ≠ main_v1 by decide)).trans (W1_r m d)

variable [FloatOps F]

/-- After the call: the flat output at the gathered rows; after the last reshape. -/
abbrev W3 (d : Dev nD) : Valuation τ sig (Elt F) := Function.update (W2 m d) o' (gath m d)
abbrev W4 (d : Dev nD) : Valuation τ sig (Elt F) := (op3 (F := F)).result (W3 m d)

theorem W3_x (d : Dev nD) : W3 m d x' = m (xLoc d) := (Function.update_of_ne (show x' ≠ o' by decide) _ _).trans (W2_x m d)
theorem W3_t (d : Dev nD) : W3 m d t' = m (tLoc d) := (Function.update_of_ne (show t' ≠ o' by decide) _ _).trans (W2_t m d)
theorem W3_f (d : Dev nD) : W3 m d f' = flat m d := (Function.update_of_ne (show f' ≠ o' by decide) _ _).trans (W2_f m d)
theorem W3_i (d : Dev nD) : W3 m d i' = idx3 m d := (Function.update_of_ne (show i' ≠ o' by decide) _ _).trans (W2_i m d)
theorem W3_o (d : Dev nD) : W3 m d o' = gath m d := Function.update_self _ _ _
theorem W3_r (d : Dev nD) : W3 m d r' = m (rLoc d) := (Function.update_of_ne (show r' ≠ o' by decide) _ _).trans (W2_r m d)

theorem W4_x (d : Dev nD) : W4 m d x' = m (xLoc d) :=
  (StableHlo.reshape_result_ne _ _ _ _ _ _ _ (show (main_arg0 : Ref sig .tc) ≠ main_v3 by decide)).trans (W3_x m d)
theorem W4_t (d : Dev nD) : W4 m d t' = m (tLoc d) :=
  (StableHlo.reshape_result_ne _ _ _ _ _ _ _ (show (main_arg1 : Ref sig .tc) ≠ main_v3 by decide)).trans (W3_t m d)
theorem W4_r (d : Dev nD) : W4 m d r' = res m d := by
  rw [show W4 m d r' = (fun i => shapeCast S4096x200x128 (W3 m d o') shapeCasts_S819200x128_S4096x200x128 i : Buf (Elt F) (rLoc d)) from
    StableHlo.reshape_result _ _ _ _ _ _ _, W3_o]
  rfl

theorem held_W2 (d : Dev nD) :
    (held (T d) S6 (W2 m d) : sProp 𝕄) = iprop((xLoc d ↦{fullShare} m (xLoc d)) ∗ (tLoc d ↦{fullShare} m (tLoc d)) ∗ (fLoc d ↦{fullShare} flat m d)
      ∗ (iLoc d ↦{fullShare} idx3 m d) ∗ (oLoc d ↦{fullShare} m (oLoc d)) ∗ rLoc d ↦{fullShare} m (rLoc d)) := by
  rw [held_S6, W2_x, W2_t, W2_f, W2_i, W2_o, W2_r]

theorem held_W3 (d : Dev nD) :
    (held (T d) S6 (W3 m d) : sProp 𝕄) = iprop((xLoc d ↦{fullShare} m (xLoc d)) ∗ (tLoc d ↦{fullShare} m (tLoc d)) ∗ (fLoc d ↦{fullShare} flat m d)
      ∗ (iLoc d ↦{fullShare} idx3 m d) ∗ (oLoc d ↦{fullShare} gath m d) ∗ rLoc d ↦{fullShare} m (rLoc d)) := by
  rw [held_S6, W3_x, W3_t, W3_f, W3_i, W3_o, W3_r]

theorem held_W4 (d : Dev nD) :
    (held (T d) S6 (W4 m d) : sProp 𝕄) = iprop((xLoc d ↦{fullShare} m (xLoc d)) ∗ (tLoc d ↦{fullShare} m (tLoc d)) ∗ (fLoc d ↦{fullShare} W4 m d f')
      ∗ (iLoc d ↦{fullShare} W4 m d i') ∗ (oLoc d ↦{fullShare} W4 m d o') ∗ rLoc d ↦{fullShare} res m d) := by
  rw [held_S6, W4_x, W4_t, W4_r]

/-! ## @main on the TensorCore -/

/-- What @main leaves the claim: the two arguments at their launch contents, the result at the gathered rows. -/
abbrev FIN (d : Dev nD) : sProp 𝕄 := iprop((xLoc d ↦{fullShare} m (xLoc d)) ∗ (tLoc d ↦{fullShare} m (tLoc d)) ∗ rLoc d ↦{fullShare} res m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two reshapes of the index words
  iapply (wp_hlo_within 𝒱 (SparseCore.T d) none Set.univ (op := op1) (S := S6) hop1 (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S6) hop2 (V := W1 m d)) $$ [Hb Hheld]
  · isplitl [Hb]; · iexact Hb
    iexact Hheld
  iintro ⟨Hb, Hheld⟩
  rw [wp_ret]; imodintro
  ihave Hh := (Entails.of_eq (held_W2 m d)) $$ Hheld
  icases Hh with ⟨Hx, Ht, Hf, Hi, Ho, Hr⟩
  -- the call: the table, the lists and the flat output to the two SparseCores and back
  ihave Hc := (call_split m d (m (oLoc d))) $$ [Ht Hi Ho]
  · isplitl [Ht]; · iexact Ht
    isplitl [Hi]; · iexact Hi
    iexact Ho
  icases Hc with ⟨Hdrop, Hst01⟩
  iapply ((K (F := F)).wp_run (D (F := F)) 𝒱 (EH := EH) (P := P m) κ d 0) $$ [Hst Hst01 Hb Hx Hf Hr Hdrop]
  isplitr; · iexact Hctx
  isplitl [Hst]; · iexact Hst
  isplitl [Hst01]
  · rw [st0_eq]; iexact Hst01
  iintro ⟨Hst, Hdn⟩
  ihave Hdn' := (Entails.of_eq (dn0_eq m d)) $$ Hdn
  ihave Hj := (call_join m d (gath m d)) $$ [Hdrop Hdn']
  · isplitl [Hdrop]; · iexact Hdrop
    iexact Hdn'
  icases Hj with ⟨Ht, Hi, Ho⟩
  -- the reshape of the flat output into the result
  iapply (wp_hlo_within 𝒱 (SparseCore.T d) none Set.univ (op := op3) (S := S6) hop3 (V := W3 m d)) $$ [Hb Hx Ht Hf Hi Ho Hr]
  · isplitl [Hb]; · iexact Hb
    rw [held_W3]
    isplitl [Hx]; · iexact Hx
    isplitl [Ht]; · iexact Ht
    isplitl [Hf]; · iexact Hf
    isplitl [Hi]; · iexact Hi
    isplitl [Ho]; · iexact Ho
    iexact Hr
  iintro ⟨Hb, Hheld⟩
  ihave Hh := (Entails.of_eq (held_W4 m d)) $$ Hheld
  icases Hh with ⟨Hx, Ht, -, -, -, Hr⟩
  rw [wp_ret]; imodintro; imodintro
  isplitl [Hst]; · iexact Hst
  isplitl [Hx]; · iexact Hx
  isplitl [Ht]; · iexact Ht
  iexact Hr

/-! ## The final memory, the run -/

def fq (d : Dev nD) (s' : Phys nD τ sig (Elt F)) : Prop :=
  s'.mem.mem (rLoc d) = res m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := res m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- From any launch memory whose index words name rows of the table, every fair execution of the device's threads ends,
    the result at the gathered, scaled rows in the result's shape, the two arguments as launched. -/
theorem run_main [∀ e, Nonempty (Elt F e)] (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (fun r => ∀ c : Dev nD,
      r.2.mem ((c.tc : Thread nD τ).loc main_v3)
        = shapeCast S4096x200x128 (Cert.Spec.gathered (shapeCast S32x200x128 (shapeCast S819200 (m ((c.tc : Thread nD τ).loc main_arg0)) shapeCasts_S4096x200_S819200)
            shapeCasts_S819200_S32x200x128) (m ((c.tc : Thread nD τ).loc main_arg1))) shapeCasts_S819200x128_S4096x200x128
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h c => h c)

end Cert.Proof.KB

end
-- ==== Proof.lean ====
/-
  The certificate of an embedding lookup computed on the SparseCores.

  The input is a matrix x of 4096 × 200 words, each in [0, 99999], and a table of 100000 rows of 128 numbers.  The
  reference takes, for every word, the table's row it names and multiplies it by one constant, the single-precision
  number nearest √128.  The kernel lays the words out flat as 32 lists, one per vector subcore; each subcore copies
  its list into its own memory and then, 128 words at a time and four such chunks in flight, gathers the named rows
  from the table, multiplies them by the same constant in place, and writes them to its 25600 rows of the flat result,
  which the host reshapes.  At the ideal instance both results are, entry by entry, the table's entry times the
  constant: the same extended real.

  The proof has three parts.  One subcore's task is run symbolically, loop by loop, with an invariant that says what
  every buffer holds (Trips, Body; the scaling loops in ScaleLoops, the gathers in GatherValue, the write-backs in
  OutValue).  The launch theorem of the SparseCores turns the 32 proved tasks into a run of the whole program
  (LaunchPay, LaunchTile, LaunchSplit, Launch), once for the program as printed and once for its idealization.  The
  reference is run operation by operation and its term read at an index (RefRun, RefValue); Assemble joins the sides.
-/
import proofs.«209300_g39805756900082_cont_8to1_b_88_12_alg».proof.Defs
import proofs.«209300_g39805756900082_cont_8to1_b_88_12_alg».proof.Proof.Gen.Kernel
import proofs.«209300_g39805756900082_cont_8to1_b_88_12_alg».proof.Proof.Gen.KernelIdeal
import proofs.«209300_g39805756900082_cont_8to1_b_88_12_alg».proof.Proof.Gen.ReferenceIdeal
import proofs.«209300_g39805756900082_cont_8to1_b_88_12_alg».proof.Proof.Gen.Pre_input_domain
import proofs.«209300_g39805756900082_cont_8to1_b_88_12_alg».proof.Proof.Assemble
import proofs.«209300_g39805756900082_cont_8to1_b_88_12_alg».proof.Proof.LaunchB
import Idealize.ShloMosaic.Adequacy
import Idealize.ShloMosaic.Init

noncomputable section

namespace Cert.Proof

open Idealize.ShloMosaic Idealize.SL.Sem

/-- The kernel as printed runs and leaves its arguments: its run, at the word-level instance, with the result's value
    dropped; the precondition puts every index word below 100000. -/
theorem frame_p : Cert.frame_Kernel (hKernel := Cert.Kernel.Gen.facts) (hPre_input_domain := Cert.Pre_input_domain.Gen.facts) :=
  fun m g hpre => (θ_run _ _ _).mono (fun _ h c => (h c).2)
    (Cert.Proof.KB.run_main (F := Bits) m g (fun d j => Cert.RefSide.range_of_pre _ _ (hpre d) j))

theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof

end
